-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048x1 : Shape := ⟨3, ![16, 2048, 1]⟩
abbrev S512x1024 : Shape := ⟨2, ![512, 1024]⟩
abbrev S512 : Shape := ⟨1, ![512]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x1 : S_.BroadcastsInDim S16x2048x1 (![] : Fin 0 → Fin S16x2048x1.rank)
  reducesTo_S16x2048x1_S_d0_1_2 : S16x2048x1.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  reducesTo_S_S_d : S_.ReducesTo [] S_

variable [Facts]

def fn_part2 {F : FTy → Type} [FloatOps F] (main_arg7 : FVec F S512 .f32) (main_arg8 : FVec F S_ .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_cst_16 : FVec F S_ .f32 := constant S_ .f32 0x00000000#32
  let main_v43 : IVec S_ 1 := cmpf .ogt main_arg8 main_cst_16
  let main_c_17 : IVec S_ 1 := constantI S_ 1 1#1
  let main_v44 : IVec S_ 1 := (fun x v => Host.reduce IntOp.andi x v reducesTo_S_S_d h_S_) main_v43 main_c_17
  let main_v45 : IVec S_ 1 := andi main_v42 main_v44
  main_v45

def fn_part1 {F : FTy → Type} [FloatOps F] (main_arg4 : FVec F S512x1024 .f32) (main_arg5 : FVec F S512 .f32) (main_arg6 : FVec F S512x1024 .f32) (main_arg7 : FVec F S512 .f32) (main_arg8 : FVec F S_ .f32) (main_v13 : IVec S_ 1) (main_v16 : IVec S16x2048x1 1) : IVec S_ 1 :=
  let main_c_5 : IVec S_ 1 := constantI S_ 1 1#1
  let main_v17 : IVec S_ 1 := (fun x v => Host.reduce IntOp.andi x v reducesTo_S16x2048x1_S_d0_1_2 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_v33

def fn {F : FTy → Type} [FloatOps F] (main_arg0 : FVec F S16x2048x1024 .f32) (main_arg1 : FVec F S16x2048x1 .f32) (main_arg2 : FVec F S16x2048x1024 .f32) (main_arg3 : FVec F S16x2048x1 .f32) (main_arg4 : FVec F S512x1024 .f32) (main_arg5 : FVec F S512 .f32) (main_arg6 : FVec F S512x1024 .f32) (main_arg7 : FVec F S512 .f32) (main_arg8 : FVec F S_ .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1 .f32 := Host.absf main_arg1
  let main_cst_0 : FVec F S_ .f32 := constant S_ .f32 0x7F800000#32
  let main_v5 : FVec F S16x2048x1 .f32 := broadcastInDim S16x2048x1 ![] bcast_S_S16x2048x1 main_cst_0
  let main_v6 : IVec S16x2048x1 1 := cmpf .olt main_v4 main_v5
  let main_c_1 : IVec S_ 1 := constantI S_ 1 1#1
  let main_v7 : IVec S_ 1 := (fun x v => Host.reduce IntOp.andi x v reducesTo_S16x2048x1_S_d0_1_2 h_S_) main_v6 main_c_1
  let main_v8 : IVec S_ 1 := andi main_v3 main_v7
  let main_v9 : FVec F S16x2048x1024 .f32 := Host.absf main_arg2
  let main_cst_2 : FVec F S_ .f32 := constant S_ .f32 0x7F800000#32
  let main_v10 : FVec F S16x2048x1024 .f32 := broadcastInDim S16x2048x1024 ![] bcast_S_S16x2048x1024 main_cst_2
  let main_v11 : IVec S16x2048x1024 1 := cmpf .olt main_v9 main_v10
  let main_c_3 : IVec S_ 1 := constantI S_ 1 1#1
  let main_v12 : IVec S_ 1 := (fun x v => Host.reduce IntOp.andi x v reducesTo_S16x2048x1024_S_d0_1_2 h_S_) main_v11 main_c_3
  let main_v13 : IVec S_ 1 := andi main_v8 main_v12
  let main_v14 : FVec F S16x2048x1 .f32 := Host.absf main_arg3
  let main_cst_4 : FVec F S_ .f32 := constant S_ .f32 0x7F800000#32
  let main_v15 : FVec F S16x2048x1 .f32 := broadcastInDim S16x2048x1 ![] bcast_S_S16x2048x1 main_cst_4
  let main_v16 : IVec S16x2048x1 1 := cmpf .olt main_v14 main_v15
  fn_part1 (F := F) main_arg4 main_arg5 main_arg6 main_arg7 main_arg8 main_v13 main_v16
-- ==== Kernel.lean ====
abbrev S16x2048x1024 : Shape := ⟨3, ![16, 2048, 1024]⟩
abbrev S16x2048x1 : Shape := ⟨3, ![16, 2048, 1]⟩
abbrev S512x1024 : Shape := ⟨2, ![512, 1024]⟩
abbrev S512 : Shape := ⟨1, ![512]⟩
abbrev S_ : Shape := ⟨0, ![]⟩
abbrev S1024x512 : Shape := ⟨2, ![1024, 512]⟩
abbrev S1x512 : Shape := ⟨2, ![1, 512]⟩
abbrev S32768x1024 : Shape := ⟨2, ![32768, 1024]⟩
abbrev S32768x512 : Shape := ⟨2, ![32768, 512]⟩
abbrev S1024x1024 : Shape := ⟨2, ![1024, 1024]⟩
abbrev S16x2048x512 : Shape := ⟨3, ![16, 2048, 512]⟩
abbrev S16x1x2048 : Shape := ⟨3, ![16, 1, 2048]⟩
abbrev S1x1024x512 : Shape := ⟨3, ![1, 1024, 512]⟩
abbrev S1x512x512 : Shape := ⟨3, ![1, 512, 512]⟩
abbrev S1x512x1024 : Shape := ⟨3, ![1, 512, 1024]⟩
abbrev S1x1024x1 : Shape := ⟨3, ![1, 1024, 1]⟩
abbrev S1x1x512 : Shape := ⟨3, ![1, 1, 512]⟩
abbrev S1x1024x1024 : Shape := ⟨3, ![1, 1024, 1024]⟩
abbrev S1024x1 : Shape := ⟨2, ![1024, 1]⟩
abbrev S512x512 : Shape := ⟨2, ![512, 512]⟩
abbrev S1024 : Shape := ⟨1, ![1024]⟩

abbrev nBuf : Space → Nat
  | .hbm => 33
  | .vmem => 46
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1, .f32⟩
  | .hbm, ⟨2, _⟩ => ⟨S16x2048x1024, .f32⟩
  | .hbm, ⟨3, _⟩ => ⟨S16x2048x1, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S1x512, .f32⟩
  | .hbm, ⟨19, _⟩ => ⟨S32768x1024, .f32⟩
  | .hbm, ⟨20, _⟩ => ⟨S32768x1024, .f32⟩
  | .hbm, ⟨21, _⟩ => ⟨S32768x512, .bf16⟩
  | .hbm, ⟨22, _⟩ => ⟨S32768x1024, .bf16⟩
  | .hbm, ⟨23, _⟩ => ⟨S32768x512, .bf16⟩
  | .hbm, ⟨24, _⟩ => ⟨S32768x1024, .bf16⟩
  | .hbm, ⟨25, _⟩ => ⟨S16x2048x512, .bf16⟩
  | .hbm, ⟨26, _⟩ => ⟨S16x2048x512, .bf16⟩
  | .hbm, ⟨27, _⟩ => ⟨S16x2048x1024, .bf16⟩
  | .hbm, ⟨28, _⟩ => ⟨S16x2048x1024, .bf16⟩
  | .hbm, ⟨29, _⟩ => ⟨S16x1x2048, .f32⟩
  | .hbm, ⟨30, _⟩ => ⟨S16x1x2048, .f32⟩
  | .hbm, ⟨31, _⟩ => ⟨S16x2048x1024, .f32⟩
  | .hbm, ⟨32, _⟩ => ⟨S16x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x1024x1, .f32⟩
  | .local _ .vmem, ⟨23, _⟩ => ⟨S1x1024x1, .f32⟩
  | .local _ .vmem, ⟨24, _⟩ => ⟨S1x1x512, .f32⟩
  | .local _ .vmem, ⟨25, _⟩ => ⟨S1x1x512, .f32⟩
  | .local _ .vmem, ⟨26, _⟩ => ⟨S1x1024x1024, .f32⟩
  | .local _ .vmem, ⟨27, _⟩ => ⟨S1x1024x1024, .f32⟩
  | .local _ .vmem, ⟨28, _⟩ => ⟨S1024x1, .f32⟩
  | .local _ .vmem, ⟨29, _⟩ => ⟨S1024x1, .f32⟩
  | .local _ .vmem, ⟨30, _⟩ => ⟨S1024x1024, .f32⟩
  | .local _ .vmem, ⟨31, _⟩ => ⟨S1x1024x512, .bf16⟩
  | .local _ .vmem, ⟨32, _⟩ => ⟨S1x1024x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x1024x1, .f32⟩
  | .local _ .vmem, ⟨38, _⟩ => ⟨S1x1024x1, .f32⟩
  | .local _ .vmem, ⟨39, _⟩ => ⟨S1x1x512, .f32⟩
  | .local _ .vmem, ⟨40, _⟩ => ⟨S1x1x512, .f32⟩
  | .local _ .vmem, ⟨41, _⟩ => ⟨S1x1024x1024, .f32⟩
  | .local _ .vmem, ⟨42, _⟩ => ⟨S1x1024x1024, .f32⟩
  | .local _ .vmem, ⟨43, _⟩ => ⟨S1024x1, .f32⟩
  | .local _ .vmem, ⟨44, _⟩ => ⟨S1024x1, .f32⟩
  | .local _ .vmem, ⟨45, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_scratch0 : Ref sig .tc := ⟨.vmem, 43, rfl⟩
abbrev cc3_scratch1 : Ref sig .tc := ⟨.vmem, 44, rfl⟩
abbrev cc3_scratch2 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![16, 2, 4], ![false, false, false]⟩

def k2_cond2 (i : grid2.Coords) : BitVec 1 :=
  let arg2 : BitVec 32 := BitVec.ofNat 32 (i 2).val
  let c3_i32 : BitVec 32 := 3#32
  let v54 : BitVec 1 := Scalar.cmpi .eq arg2 c3_i32
  let v55 : BitVec 32 := Scalar.extui v54
  let c0_i32_34 : BitVec 32 := 0#32
  let v56 : BitVec 1 := Scalar.cmpi .ne v55 c0_i32_34
  v56

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![16, 2, 4], ![false, false, false]⟩

def k3_cond2 (i : grid3.Coords) : BitVec 1 :=
  let arg2 : BitVec 32 := BitVec.ofNat 32 (i 2).val
  let c3_i32 : BitVec 32 := 3#32
  let v54 : BitVec 1 := Scalar.cmpi .eq arg2 c3_i32
  let v55 : BitVec 32 := Scalar.extui v54
  let c0_i32_34 : BitVec 32 := 0#32
  let v56 : BitVec 1 := Scalar.cmpi .ne v55 c0_i32_34
  v56

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, true]

abbrev stage3_5 : Fin 2 → Memref sig .tc .vmem S1x1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

class Facts₀ : Prop where
  transposes_S512x1024_S1024x512_1_0 : S512x1024.Transposes [1, 0] S1024x512
  bcast_S_S1024x512 : S_.BroadcastsInDim S1024x512 (![] : Fin 0 → Fin S1024x512.rank)
  bitsLt_bf16_f32 : FTy.bits .bf16 < FTy.bits .f32
  bcast_S_S512 : S_.BroadcastsInDim S512 (![] : Fin 0 → Fin S512.rank)
  shapeCasts_S512_S1x512 : S512.ShapeCasts S1x512
  shapeCasts_S16x2048x1024_S32768x1024 : S16x2048x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S32768x512_S16x2048x512 : S32768x512.ShapeCasts S16x2048x512
  shapeCasts_S32768x1024_S16x2048x1024 : S32768x1024.ShapeCasts S16x2048x1024
  transposes_S16x2048x1_S16x1x2048_0_2_1 : S16x2048x1.Transposes [0, 2, 1] S16x1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x512_p1_0_S512x512 : S512x512.Transposes [1, 0] S512x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1024x1_S1024x512 : S1024x1.Broadcasts S1024x512
  reduces_S1024x512_S1024 : S1024x512.Reduces [1] S1024
  shapeCasts_S1024_S1024x1 : S1024.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .bf16 = 32 ∨ (Rect.block (s := S32768x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .bf16 = 32 ∨ (Rect.block (s := S32768x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .bf16 = 32 ∨ (Rect.block (s := S32768x512) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S32768x1024.size a
  hwx1_4 : ∀ i : grid1.Coords, EltTy.bits .bf16 = 32 ∨ (Rect.block (s := S32768x1024) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S16x2048x512.size a
  hwx2_0 : ∀ i : grid2.Coords, EltTy.bits .bf16 = 32 ∨ (Rect.block (s := S16x2048x512) S1x1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S16x2048x512.size a
  hwx2_1 : ∀ i : grid2.Coords, EltTy.bits .bf16 = 32 ∨ (Rect.block (s := S16x2048x512) S1x512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S16x2048x1024.size a
  hwx2_2 : ∀ i : grid2.Coords, EltTy.bits .bf16 = 32 ∨ (Rect.block (s := S16x2048x1024) S1x512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1.size a ≤ S16x2048x1.size a
  hwx2_3 : ∀ i : grid2.Coords, EltTy.bits .f32 = 32 ∨ (Rect.block (s := S16x2048x1) S1x1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S16x1x2048.size a
  hwx2_4 : ∀ i : grid2.Coords, EltTy.bits .f32 = 32 ∨ (Rect.block (s := S16x1x2048) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x1024.size a ≤ S16x2048x1024.size a
  hwx2_5 : ∀ i : grid2.Coords, EltTy.bits .f32 = 32 ∨ (Rect.block (s := S16x2048x1024) S1x1024x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S16x2048x512.size a
  hwx3_0 : ∀ i : grid3.Coords, EltTy.bits .bf16 = 32 ∨ (Rect.block (s := S16x2048x512) S1x1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x512.size a ≤ S16x2048x512.size a
  hwx3_1 : ∀ i : grid3.Coords, EltTy.bits .bf16 = 32 ∨ (Rect.block (s := S16x2048x512) S1x512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S16x2048x1024.size a
  hwx3_2 : ∀ i : grid3.Coords, EltTy.bits .bf16 = 32 ∨ (Rect.block (s := S16x2048x1024) S1x512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x1.size a ≤ S16x2048x1.size a
  hwx3_3 : ∀ i : grid3.Coords, EltTy.bits .f32 = 32 ∨ (Rect.block (s := S16x2048x1) S1x1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512.size a ≤ S16x1x2048.size a
  hwx3_4 : ∀ i : grid3.Coords, EltTy.bits .f32 = 32 ∨ (Rect.block (s := S16x1x2048) S1x1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x1024.size a ≤ S16x2048x1024.size a
  hwx3_5 : ∀ i : grid3.Coords, EltTy.bits .f32 = 32 ∨ (Rect.block (s := S16x2048x1024) S1x1024x1024.size (cc3_transform_5 i) (hinb3_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S1x1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1x1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v15) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1x512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x1x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v21) S1x1024x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S16x2048x1 : Shape := ⟨3, ![16, 2048, 1]⟩
abbrev S512x1024 : Shape := ⟨2, ![512, 1024]⟩
abbrev S512 : Shape := ⟨1, ![512]⟩
abbrev S_ : Shape := ⟨0, ![]⟩
abbrev S16x2048x512 : Shape := ⟨3, ![16, 2048, 512]⟩
abbrev S1x1x512 : Shape := ⟨3, ![1, 1, 512]⟩
abbrev S16x2048x2048 : Shape := ⟨3, ![16, 2048, 2048]⟩
abbrev S16x2048 : Shape := ⟨2, ![16, 2048]⟩
abbrev S16x1x2048 : Shape := ⟨3, ![16, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1, .f32⟩
  | .hbm, ⟨2, _⟩ => ⟨S16x2048x1024, .f32⟩
  | .hbm, ⟨3, _⟩ => ⟨S16x2048x1, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S_, .f32⟩
  | .hbm, ⟨9, _⟩ => ⟨S16x2048x512, .f32⟩
  | .hbm, ⟨10, _⟩ => ⟨S1x1x512, .f32⟩
  | .hbm, ⟨11, _⟩ => ⟨S16x2048x512, .f32⟩
  | .hbm, ⟨12, _⟩ => ⟨S16x2048x512, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S16x2048x512, .f32⟩
  | .hbm, ⟨17, _⟩ => ⟨S1x1x512, .f32⟩
  | .hbm, ⟨18, _⟩ => ⟨S16x2048x512, .f32⟩
  | .hbm, ⟨19, _⟩ => ⟨S16x2048x512, .f32⟩
  | .hbm, ⟨20, _⟩ => ⟨S_, .f32⟩
  | .hbm, ⟨21, _⟩ => ⟨S16x2048x512, .f32⟩
  | .hbm, ⟨22, _⟩ => ⟨S16x2048x512, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x1x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x1x2048, .f32⟩
  | .hbm, ⟨47, _⟩ => ⟨S16x2048x2048, .f32⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S_, .f32⟩
  | .hbm, ⟨52, _⟩ => ⟨S16x2048, .f32⟩
  | .hbm, ⟨53, _⟩ => ⟨S16x2048, .f32⟩
  | .hbm, ⟨54, _⟩ => ⟨S16x2048x1, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x1024, .f32⟩
  | .hbm, ⟨64, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  bcast_S_S16x2048x2048 : S_.BroadcastsInDim S16x2048x2048 (![] : Fin 0 → Fin S16x2048x2048.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S512x1024_S16x2048x512_2_1_01_0_n_n_wf : DotDims.WF S16x2048x1024 S512x1024 S16x2048x512 [2] [1] [0, 1] [0] [] []
  dot_S16x2048x512_S16x2048x512_S16x2048x2048_2_2_1_1_0_0_wf : DotDims.WF S16x2048x512 S16x2048x512 S16x2048x2048 [2] [2] [1] [1] [0] [0]
  dot_S16x2048x1_S16x2048x1_S16x2048x2048_2_2_1_1_0_0_wf : DotDims.WF S16x2048x1 S16x2048x1 S16x2048x2048 [2] [2] [1] [1] [0] [0]
  dot_S16x2048x2048_S16x2048x1024_S16x2048x1024_1_1_2_2_0_0_wf : DotDims.WF S16x2048x2048 S16x2048x1024 S16x2048x1024 [1] [1] [2] [2] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S512x1024_S16x2048x512_2_1_01_0_n_n : DotDims S16x2048x1024 S512x1024 S16x2048x512 where
  lhsContracting := [2]
  rhsContracting := [1]
  lhsNonContracting := [0, 1]
  rhsNonContracting := [0]
  lhsBatch := []
  rhsBatch := []
  wf := dot_S16x2048x1024_S512x1024_S16x2048x512_2_1_01_0_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x1_S16x2048x1_S16x2048x2048_2_2_1_1_0_0 : DotDims S16x2048x1 S16x2048x1 S16x2048x2048 where
  lhsContracting := [2]
  rhsContracting := [2]
  lhsNonContracting := [1]
  rhsNonContracting := [1]
  lhsBatch := [0]
  rhsBatch := [0]
  wf := dot_S16x2048x1_S16x2048x1_S16x2048x2048_2_2_1_1_0_0_wf
def dot_S16x2048x2048_S16x2048x1024_S16x2048x1024_1_1_2_2_0_0 : DotDims S16x2048x2048 S16x2048x1024 S16x2048x1024 where
  lhsContracting := [1]
  rhsContracting := [1]
  lhsNonContracting := [2]
  rhsNonContracting := [2]
  lhsBatch := [0]
  rhsBatch := [0]
  wf := dot_S16x2048x2048_S16x2048x1024_S16x2048x1024_1_1_2_2_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.K.Reg0.lean ====
/-
  Region 0 of @main — the projection kernel \`cc0__proj_kernel\` on its grid of 32 row blocks — as a body of the
  staging pipeline, stated at ANY contents \`V\` of the TensorCore's buffers at the region's entry.

  The kernel reads three operands through their whole staging buffers: a block \`x\` of 1024 rows of the input
  (window 0, a new block at every point), the weight \`w\` (window 1) and the bias row \`b\` (window 2), the last two
  the same block at every point and brought in once. It leaves two results: the block of \`relu (x · w + b)\`, narrowed
  to bf16 (window 3), and the block \`x\` itself narrowed to bf16 (window 4). Both result buffers are also read before
  they are written; nothing is computed from what those reads return.

  What is proved: whatever the two result buffers held, after the body window 4's holds \`k0_pay1 x\` and window 3's
  holds \`k0_pay2 x w b\` (the named payloads of the kernel's two stores), the operand buffers are as found, and this
  is the staging pipeline's body obligation for the proof data \`dat0\`.
-/
import proofs.«111653_j86517821215425_2_alg».proof.Proof.Gen.Kernel.Launch
import proofs.«111653_j86517821215425_2_alg».proof.Proof.Gen.Kernel.Skeleton
import proofs.«111653_j86517821215425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of every TensorCore buffer when region 0 is entered. Everything below is a function of it. -/
variable (V : (c : Dev nD) → (b : Ref sig .tc) → Buf (Elt F) ((c : Thread nD τ).loc b))

/-! ## Blocks -/

/-- The block of window \`w\`'s array that grid point \`t\` addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The three operands are found at their blocks

An operand's staging buffer holds, when the body runs at point \`t\`, the block point \`t\` addresses — at a point where
the pipeline has just brought the block in, because it has; at a point where it has not, because the block index is
the one of the point before, whose block the body left in place. The second case is the whole story of the weight and
the bias after the first point: their index never moves. The statement is for any proof data over the entry contents
whose \`after\` leaves the operand's block where it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-! ## The rectangles of the body's loads and stores: each is its whole buffer -/

/-- The two offsets of every access are zero. -/
theorem zeros0 : (![0, 0] : Fin 2 → Nat) = fun _ => 0 := funext fun a => by fin_cases a <;> rfl

/-- All of a [1024, 1024] buffer (the input block; its bf16 copy). -/
abbrev r0_x : Rect S1024x1024 := Rect.unit (s := S1024x1024) ![0, 0] S1024x1024.size inb_S1024x1024_S1024x1024_0_0
/-- All of a [1024, 512] buffer (the weight; the projected block). -/
abbrev r0_w : Rect S1024x512 := Rect.unit (s := S1024x512) ![0, 0] S1024x512.size inb_S1024x512_S1024x512_0_0
/-- All of the [1, 512] bias row. -/
abbrev r0_b : Rect S1x512 := Rect.unit (s := S1x512) ![0, 0] S1x512.size inb_S1x512_S1x512_0_0

/-! ## What the body leaves in the two result buffers -/

/-- Window 3 after the body: one store over the whole buffer, of the rectified projection of the three operands
    narrowed to bf16 (\`k0_pay2\`). -/
def out0_3 (x0 : Vec F S1024x1024 .f32) (x1 : Vec F S1024x512 .bf16) (x2 : Vec F S1x512 .f32) : Vec F S1024x512 .bf16 :=
  View.canon [⟨r0_w, k0_pay2 (View.ld x0 r0_x) (View.ld x1 r0_w) (View.ld x2 r0_b)⟩]

/-- Window 4 after the body: one store over the whole buffer, of the input block narrowed to bf16 (\`k0_pay1\`). -/
def out0_4 (x0 : Vec F S1024x1024 .f32) : Vec F S1024x1024 .bf16 :=
  View.canon [⟨r0_x, k0_pay1 (View.ld x0 r0_x)⟩]

/-- A load of a whole buffer reads its contents, and one store over a whole buffer leaves its payload: so window 4
    holds the narrowed input block, -/
theorem out0_4_eq (x0 : Vec F S1024x1024 .f32) : out0_4 x0 = k0_pay1 x0 := by
  unfold out0_4
  rw [View.canon_unit_zero (S := S1024x1024) zeros0, View.ld_unit_zero (S := S1024x1024) zeros0]

/-- and window 3 the narrowed rectified projection. -/
theorem out0_3_eq (x0 : Vec F S1024x1024 .f32) (x1 : Vec F S1024x512 .bf16) (x2 : Vec F S1x512 .f32) :
    out0_3 x0 x1 x2 = k0_pay2 x0 x1 x2 := by
  unfold out0_3
  rw [View.canon_unit_zero (S := S1024x512) zeros0, View.ld_unit_zero (S := S1024x1024) zeros0,
    View.ld_unit_zero (S := S1024x512) zeros0, View.ld_unit_zero (S := S1x512) zeros0]

/-- The one store into window 3 reaches every index of it: the rectangle is the whole buffer. -/
theorem cover0_3 (p0 : Vec F S1024x512 .bf16) (y : S1024x512.Idx) :
    ∃ pc ∈ ([⟨r0_w, p0⟩] : List (View.Piece (Elt F) S1024x512 .bf16)), y ∈ pc.1.set :=
  ⟨_, List.mem_singleton_self _, View.mem_set_unit_zero (S := S1024x512) zeros0 inb_S1024x512_S1024x512_0_0 y⟩

/-- The same for window 4. -/
theorem cover0_4 (p0 : Vec F S1024x1024 .bf16) (y : S1024x1024.Idx) :
    ∃ pc ∈ ([⟨r0_x, p0⟩] : List (View.Piece (Elt F) S1024x1024 .bf16)), y ∈ pc.1.set :=
  ⟨_, List.mem_singleton_self _, View.mem_set_unit_zero (S := S1024x1024) zeros0 inb_S1024x1024_S1024x1024_0_0 y⟩

/-! ## The body's triple -/

set_option maxHeartbeats 1000000 in
/-- The kernel on five whole staging memrefs — the operands' reading \`x0\`, \`x1\`, \`x2\`, the results' holding anything —
    runs to a continuation that is handed the operands' as they were, window 3's reading \`out0_3 x0 x1 x2\` and window
    4's reading \`out0_4 x0\`. The two reads of the result buffers return values the stores do not depend on; each
    store covers its buffer, so what it held before does not survive. -/
theorem sound_kernel0 (c : Dev nD) (E : Set ℕ) (i : grid0.Coords)
    (arg1 : Memref sig .tc .vmem S1024x1024 .f32) (harg1 : arg1.IsWhole)
    (arg2 : Memref sig .tc .vmem S1024x512 .bf16) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S1024x1024 .bf16) (harg5 : arg5.IsWhole)
    (x0 : Vec F S1024x1024 .f32) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0)) -∗ K ⟨⟩))
      ⊢ wp frame (wpE (defs₀ (F := F)) Variants.none c none) E
          (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data of pipeline 0 -/

/-- On core \`c\`: the arrays as the region finds them; after the body at point \`t\` each operand's buffer at its block
    and each result's at the body's function of the operand blocks; the invariant is the untouched rest (the scoped
    buffers the kernel does not name, the generator register); nothing is owed to any core; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the pipeline hands the body at point \`t\`, the five windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the operands' buffers hold their blocks, so the body's triple applies at those blocks; the invariant
    and what the core owes are the same before and after and are carried past the body. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The staging pipeline's body obligation for \`dat0\`, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen
-- ==== Proof.K.Reg1.lean ====
/-
  Region 1 of @main — the projection kernel \`cc1__proj_kernel\` on its grid of 32 row blocks — as a body of the
  staging pipeline, stated at ANY contents \`V\` of the TensorCore's buffers at the region's entry.

  The kernel reads three operands through their whole staging buffers: a block \`x\` of 1024 rows of the input
  (window 0, a new block at every point), the weight \`w\` (window 1) and the bias row \`b\` (window 2), the last two
  the same block at every point and brought in once. It leaves two results: the block of \`relu (x · w + b)\`, narrowed
  to bf16 (window 3), and the block \`x\` itself narrowed to bf16 (window 4). Both result buffers are also read before
  they are written; nothing is computed from what those reads return.

  What is proved: whatever the two result buffers held, after the body window 4's holds \`k1_pay1 x\` and window 3's
  holds \`k1_pay2 x w b\` (the named payloads of the kernel's two stores), the operand buffers are as found, and this
  is the staging pipeline's body obligation for the proof data \`dat1\`.
-/
import proofs.«111653_j86517821215425_2_alg».proof.Proof.Gen.Kernel.Launch
import proofs.«111653_j86517821215425_2_alg».proof.Proof.Gen.Kernel.Skeleton
import proofs.«111653_j86517821215425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of every TensorCore buffer when region 1 is entered. Everything below is a function of it. -/
variable (V : (c : Dev nD) → (b : Ref sig .tc) → Buf (Elt F) ((c : Thread nD τ).loc b))

/-! ## Blocks -/

/-- The block of window \`w\`'s array that grid point \`t\` addresses, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three operands are found at their blocks

An operand's staging buffer holds, when the body runs at point \`t\`, the block point \`t\` addresses — at a point where
the pipeline has just brought the block in, because it has; at a point where it has not, because the block index is
the one of the point before, whose block the body left in place. The second case is the whole story of the weight and
the bias after the first point: their index never moves. The statement is for any proof data over the entry contents
whose \`after\` leaves the operand's block where it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The rectangles of the body's loads and stores: each is its whole buffer -/

/-- The two offsets of every access are zero. -/
theorem zeros1 : (![0, 0] : Fin 2 → Nat) = fun _ => 0 := funext fun a => by fin_cases a <;> rfl

/-- All of a [1024, 1024] buffer (the input block; its bf16 copy). -/
abbrev r1_x : Rect S1024x1024 := Rect.unit (s := S1024x1024) ![0, 0] S1024x1024.size inb_S1024x1024_S1024x1024_0_0
/-- All of a [1024, 512] buffer (the weight; the projected block). -/
abbrev r1_w : Rect S1024x512 := Rect.unit (s := S1024x512) ![0, 0] S1024x512.size inb_S1024x512_S1024x512_0_0
/-- All of the [1, 512] bias row. -/
abbrev r1_b : Rect S1x512 := Rect.unit (s := S1x512) ![0, 0] S1x512.size inb_S1x512_S1x512_0_0

/-! ## What the body leaves in the two result buffers -/

/-- Window 3 after the body: one store over the whole buffer, of the rectified projection of the three operands
    narrowed to bf16 (\`k1_pay2\`). -/
def out1_3 (x0 : Vec F S1024x1024 .f32) (x1 : Vec F S1024x512 .bf16) (x2 : Vec F S1x512 .f32) : Vec F S1024x512 .bf16 :=
  View.canon [⟨r1_w, k1_pay2 (View.ld x0 r1_x) (View.ld x1 r1_w) (View.ld x2 r1_b)⟩]

/-- Window 4 after the body: one store over the whole buffer, of the input block narrowed to bf16 (\`k1_pay1\`). -/
def out1_4 (x0 : Vec F S1024x1024 .f32) : Vec F S1024x1024 .bf16 :=
  View.canon [⟨r1_x, k1_pay1 (View.ld x0 r1_x)⟩]

/-- A load of a whole buffer reads its contents, and one store over a whole buffer leaves its payload: so window 4
    holds the narrowed input block, -/
theorem out1_4_eq (x0 : Vec F S1024x1024 .f32) : out1_4 x0 = k1_pay1 x0 := by
  unfold out1_4
  rw [View.canon_unit_zero (S := S1024x1024) zeros1, View.ld_unit_zero (S := S1024x1024) zeros1]

/-- and window 3 the narrowed rectified projection. -/
theorem out1_3_eq (x0 : Vec F S1024x1024 .f32) (x1 : Vec F S1024x512 .bf16) (x2 : Vec F S1x512 .f32) :
    out1_3 x0 x1 x2 = k1_pay2 x0 x1 x2 := by
  unfold out1_3
  rw [View.canon_unit_zero (S := S1024x512) zeros1, View.ld_unit_zero (S := S1024x1024) zeros1,
    View.ld_unit_zero (S := S1024x512) zeros1, View.ld_unit_zero (S := S1x512) zeros1]

/-- The one store into window 3 reaches every index of it: the rectangle is the whole buffer. -/
theorem cover1_3 (p0 : Vec F S1024x512 .bf16) (y : S1024x512.Idx) :
    ∃ pc ∈ ([⟨r1_w, p0⟩] : List (View.Piece (Elt F) S1024x512 .bf16)), y ∈ pc.1.set :=
  ⟨_, List.mem_singleton_self _, View.mem_set_unit_zero (S := S1024x512) zeros1 inb_S1024x512_S1024x512_0_0 y⟩

/-- The same for window 4. -/
theorem cover1_4 (p0 : Vec F S1024x1024 .bf16) (y : S1024x1024.Idx) :
    ∃ pc ∈ ([⟨r1_x, p0⟩] : List (View.Piece (Elt F) S1024x1024 .bf16)), y ∈ pc.1.set :=
  ⟨_, List.mem_singleton_self _, View.mem_set_unit_zero (S := S1024x1024) zeros1 inb_S1024x1024_S1024x1024_0_0 y⟩

/-! ## The body's triple -/

set_option maxHeartbeats 1000000 in
/-- The kernel on five whole staging memrefs — the operands' reading \`x0\`, \`x1\`, \`x2\`, the results' holding anything —
    runs to a continuation that is handed the operands' as they were, window 3's reading \`out1_3 x0 x1 x2\` and window
    4's reading \`out1_4 x0\`. The two reads of the result buffers return values the stores do not depend on; each
    store covers its buffer, so what it held before does not survive. -/
theorem sound_kernel1 (c : Dev nD) (E : Set ℕ) (i : grid1.Coords)
    (arg1 : Memref sig .tc .vmem S1024x1024 .f32) (harg1 : arg1.IsWhole)
    (arg2 : Memref sig .tc .vmem S1024x512 .bf16) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S1024x1024 .bf16) (harg5 : arg5.IsWhole)
    (x0 : Vec F S1024x1024 .f32) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E
          (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data of pipeline 1 -/

/-- On core \`c\`: the arrays as the region finds them; after the body at point \`t\` each operand's buffer at its block
    and each result's at the body's function of the operand blocks; the invariant is the untouched rest (the scoped
    buffers the kernel does not name, the generator register); nothing is owed to any core; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the pipeline hands the body at point \`t\`, the five windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the operands' buffers hold their blocks, so the body's triple applies at those blocks; the invariant
    and what the core owes are the same before and after and are carried past the body. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The staging pipeline's body obligation for \`dat1\`, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen
-- ==== Proof.K.Reg2Runs.lean ====
/- Attention region 2 (the first cross-attention call): what its three case runs share. The kernel's two
   conditionals depend on the key-tile coordinate `kk` alone: the first is taken when `kk = 0` (the running
   maximum, normaliser and weighted sum are reset), the second when `kk = 3` (the normalised sum is stored to
   the output block). Over the 128 grid points, `kk` is the point's index modulo 4. -/
import proofs.«111653_j86517821215425_2_alg».proof.Proof.Gen.Kernel.Launch
import proofs.«111653_j86517821215425_2_alg».proof.Proof.Gen.Kernel.Skeleton
import proofs.«111653_j86517821215425_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The first conditional's condition (`kk = 0`), as the kernel computes it from the grid coordinates. -/
abbrev cond2_0 (i : grid2.Coords) : Prop :=
  (Scalar.cmpi .ne (Scalar.extui (Scalar.cmpi .eq (BitVec.ofNat 32 (i 2).val) 0#32)) 0#32) = 1#1
/-- It holds exactly at the points whose index is 0 modulo 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition (`kk = 3`). -/
abbrev cond2_1 (i : grid2.Coords) : Prop := k2_cond2 i = 1#1
/-- It holds exactly at the points whose index is 3 modulo 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The five input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where `kk ≠ 3` the output window is idle, and its block is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- Where `kk = 3` it is live. -/
theorem liveAt2_5 : ∀ t : Fin cfg2.N, cond2_1 (grid2.coords t) → cfg2.idle 5 (grid2.coords t) = false := by decide +kernel

/-! ## The memrefs the body is called with -/

/-- One staging buffer of the output window, through which its contents are stated (which one does not matter). -/
abbrev VO2_5 : View sig .tc .vmem S1x1024x1024 .f32 := (Memref.whole cc2_stg5_0 : Memref sig .tc .vmem S1x1024x1024 .f32).view
/-- Each window's current staging memref at point `t`, and its wholeness. -/
abbrev ms2_0 (t : Fin cfg2.N) : Memref sig .tc .vmem S1x1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x1024 .f32 := win2_5.stage (cfg2.slots t 5)
abbrev hs2_5 (t : Fin cfg2.N) : (ms2_5 t).IsWhole := hstage2_5 ((cfg2.slots t 5).cast nbuf2_5)
/-- The three scratch operands: the running maximum, the running normaliser, the running weighted sum. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
/-- The same as views: what each holds is stated through its view. -/
abbrev VS2_0 : View sig .tc .vmem S1024x1 .f32 := scM2_0.view
abbrev VS2_1 : View sig .tc .vmem S1024x1 .f32 := scM2_1.view
abbrev VS2_2 : View sig .tc .vmem S1024x1024 .f32 := scM2_2.view

/-- What the launch hands the region, opened at the call's own three scratch buffers: each owned whole at some
    contents, every other scoped buffer left in one unopened remainder, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]; try rfl

end Cert.Kernel.Gen

end
-- ==== Proof.K.Reg2RunA.lean ====
/- Attention region 2, the body's run at a point with `kk = 0`: the three running quantities are reset, one
   key tile is absorbed, nothing is stored to the output block. -/
import proofs.«111653_j86517821215425_2_alg».proof.Proof.K.Reg2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk = 0` and `kk ≠ 3`: the five input blocks at their contents,
    the output block at contents `xi5` that are handed back untouched, the three scratch buffers at anything.
    It runs to the continuation with the inputs as they were and each scratch buffer holding its stores, listed
    last first; those lists are found by the run itself. -/
noncomputable def kernelRun2_A (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Gen

end
-- ==== Proof.K.Reg2RunB.lean ====
/- Attention region 2, the body's run at a point with `kk = 1` or `kk = 2`: one key tile is absorbed into the
   running quantities the point before left; nothing is reset and nothing is stored to the output block. -/
import proofs.«111653_j86517821215425_2_alg».proof.Proof.K.Reg2RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk ≠ 3`: the five input blocks at their contents,
    the output block at contents `xi5` that are handed back untouched, the three scratch buffers at the contents
    `xs0`, `xs1`, `xs2` the point before left. It runs to the continuation with the inputs as they were and
    each scratch buffer holding its stores, listed last first; those lists are found by the run itself. -/
noncomputable def kernelRun2_B (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Gen

end
-- ==== Proof.K.Reg2RunC.lean ====
/- Attention region 2, the body's run at a point with `kk = 3`: the last key tile is absorbed and the weighted
   sum divided by the normaliser is stored to the output block. -/
import proofs.«111653_j86517821215425_2_alg».proof.Proof.K.Reg2RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk = 3`: the five input blocks at their contents,
    the output block at anything, the three scratch buffers at the contents `xs0`, `xs1`, `xs2` the point
    before left. It runs to the continuation with the inputs as they were and the output block and each scratch
    buffer holding their stores, listed last first; those lists are found by the run itself. -/
noncomputable def kernelRun2_C (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Gen

end
-- ==== Proof.LibWholeStore.lean ====
import Idealize.ShloMosaic.Lib.Pipeline.FrameBody
import Idealize.ShloMosaic.Lib.Pipeline.Value

/-!
# A store through the whole of a buffer, read back

A buffer of shape `S` is written through a list of pieces, the last written first. When the last
store's rectangle is the whole shape (offset zero on every axis, extent the shape's), what the buffer
holds afterwards, read through the view, is that store's payload: every index lies in the rectangle,
and the rectangle's embedding is the identity. Nothing is asked of the earlier stores or of the
contents before them.
-/

namespace Idealize.ShloMosaic.View

variable {Val : EltTy → Type} {sig : RefSig} {κ : Kind} {sp : Space} {S : Shape} {e : EltTy}

/-- After a list of stores whose LAST one (the head) fills the whole shape with `w`, the view reads `w`. -/
theorem read_writes_whole_head (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := View.read_writes_cons_emb (Val := Val) v f (Rect.whole S) w L y
  rw [Rect.emb_whole_apply] at e
  exact e

end Idealize.ShloMosaic.View
-- ==== Proof.LibWholeLoad.lean ====
import Idealize.ShloMosaic.Lib.Pipeline.FrameBody
import Idealize.ShloMosaic.Lib.Pipeline.Value

/-!
# A load through the whole of a buffer, after stores the last of which filled it

A buffer of shape `S` has been written through a list of pieces, the last written first. When the last
store's rectangle is the whole shape, a load through the whole shape reads that store's payload, whatever the
earlier stores were: every index lies in the last rectangle, whose embedding is the identity.
-/

namespace Idealize.ShloMosaic.View

variable {Val : EltTy → Type} [∀ e, Nonempty (Val e)] {sig : RefSig} {κ : Kind} {sp : Space} {S : Shape} {e : EltTy}

/-- A whole-shape load of what a list of stores left, the LAST of them (the head) a whole-shape store of `w`, reads `w`. -/
theorem readCov_whole_head (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.K.Reg2.lean ====
/- Attention region 2 (the first cross-attention call), its frame half at any contents `V` of the TensorCore's
   buffers when the region is entered.

   The grid is (batch, query tile, key tile) = (16, 2, 4), 128 points; along the last axis the kernel carries a
   running maximum `m`, a running normaliser `l` and a running weighted sum `acc` in three scratch buffers:
   reset where `kk = 0`, updated from the point's key tile at every point, and at `kk = 3` the quotient
   `acc / l` is stored to the output block. What the four buffers hold after each point is defined by
   recursion on the point (`outsAt2`), and the proof data, the body obligation and the two ends of the region's
   invariant are stated over it. Everything is generic in the float type. -/
import proofs.«111653_j86517821215425_2_alg».proof.Proof.K.Reg2RunC
import proofs.«111653_j86517821215425_2_alg».proof.Proof.LibWholeStore
import proofs.«111653_j86517821215425_2_alg».proof.Proof.LibWholeLoad

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds the window's block at every point, whether or not the block
    was fetched there (a block is not fetched again while its index stands still): for any proof data whose
    array is `V`'s and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  refine (dat.before_in_eq_fetched 1 rfl (fun _ => rfl) (fun _ _ _ => rfl) hkeep t d).trans ?_
  unfold Dat.fetched Dat.blockOf iblk2; rw [hA]; try rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  refine (dat.before_in_eq_fetched 2 rfl (fun _ => rfl) (fun _ _ _ => rfl) hkeep t d).trans ?_
  unfold Dat.fetched Dat.blockOf iblk2; rw [hA]; try rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  refine (dat.before_in_eq_fetched 3 rfl (fun _ => rfl) (fun _ _ _ => rfl) hkeep t d).trans ?_
  unfold Dat.fetched Dat.blockOf iblk2; rw [hA]; try rfl

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  refine (dat.before_in_eq_fetched 4 rfl (fun _ => rfl) (fun _ _ _ => rfl) hkeep t d).trans ?_
  unfold Dat.fetched Dat.blockOf iblk2; rw [hA]; try rfl

/-! ## What each case leaves in the scratch buffers and in the output block -/

/-- At a point with `kk = 0` the stores into the running maximum cover it (the last one alone does). -/
theorem scover2_A_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What a point with `kk = 0` leaves in the running maximum: its stores read back. -/
def sout2_A_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 hc0 hc1 x0 x1 x2 x3 x4).2.1)

/-- At a point with `kk = 0` the stores into the running normaliser cover it (the last one alone does). -/
theorem scover2_A_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What a point with `kk = 0` leaves in the running normaliser: its stores read back. -/
def sout2_A_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 hc0 hc1 x0 x1 x2 x3 x4).2.2.1)

/-- At a point with `kk = 0` the stores into the running weighted sum cover it (the last one alone does). -/
theorem scover2_A_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1024.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What a point with `kk = 0` leaves in the running weighted sum: its stores read back. -/
def sout2_A_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1024 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 hc0 hc1 x0 x1 x2 x3 x4).2.2.2.1)

/-- At a point with `kk = 1, 2` the stores into the running maximum cover it (the last one alone does). -/
theorem scover2_B_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 1, 2` leaves in the running maximum: its stores read back. -/
def sout2_B_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 1, 2` the stores into the running normaliser cover it (the last one alone does). -/
theorem scover2_B_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 1, 2` leaves in the running normaliser: its stores read back. -/
def sout2_B_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 1, 2` the stores into the running weighted sum cover it (the last one alone does). -/
theorem scover2_B_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 1, 2` leaves in the running weighted sum: its stores read back. -/
def sout2_B_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the stores into the running maximum cover it (the last one alone does). -/
theorem scover2_C_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 3` leaves in the running maximum: its stores read back. -/
def sout2_C_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 3` the stores into the running normaliser cover it (the last one alone does). -/
theorem scover2_C_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 3` leaves in the running normaliser: its stores read back. -/
def sout2_C_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 3` the stores into the running weighted sum cover it (the last one alone does). -/
theorem scover2_C_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 3` leaves in the running weighted sum: its stores read back. -/
def sout2_C_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the one store into the output block covers it. -/
theorem cover2_C_5 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1x1024x1024.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What a point with `kk = 3` leaves in the output block: its store read back. -/
def out2_C_5 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1x1024x1024 .f32 :=
  VO2_5.read (Elt F) (VO2_5.writes (Elt F) VO2_5.junk (kernelRun2_C c i arg3 harg3 arg4 harg4 arg5 harg5 arg6 harg6 arg7 harg7 arg8 harg8 arg9 harg9 arg10 harg10 arg11 harg11 hc0 hc1 x0 x1 x2 x3 x4 xs0 xs1 xs2).1)

/-- Where `kk ≠ 3` nothing is stored into the output block, the window is idle and its buffer is not written
    back: a placeholder that nothing consults. -/
def out2_idle_5 : Vec F S1x1024x1024 .f32 := VO2_5.read (Elt F) VO2_5.junk

/-! ## The four buffers after each point -/

/-- After a point with `kk = 0`: from the point's input blocks alone. -/
def pt2_A (c : Dev nD) (t : Fin cfg2.N) (h0 : t.val % 4 = 0) (h1 : ¬t.val % 4 = 3) : Vec F S1x1024x1024 .f32 × Vec F S1024x1 .f32 × Vec F S1024x1 .f32 × Vec F S1024x1024 .f32 :=
  (out2_idle_5,
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t))

/-- After a point with `kk = 1, 2`: from the point's input blocks and what the point before left (`p`). -/
def pt2_B (c : Dev nD) (t : Fin cfg2.N) (h0 : ¬t.val % 4 = 0) (h1 : ¬t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out2_idle_5,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2)

/-- After a point with `kk = 3`: from the point's input blocks and what the point before left (`p`). -/
def pt2_C (c : Dev nD) (t : Fin cfg2.N) (h0 : ¬t.val % 4 = 0) (h1 : t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2)

/-- THE ACCUMULATION: what the output block's staging buffer and the three scratch buffers hold after the body at
    position `n` — (output block, running maximum, running normaliser, running weighted sum) —, by recursion on
    the position: the case is read off `n` modulo 4. -/
def outsAt2 (c : Dev nD) : (n : ℕ) → n < cfg2.N → Vec F S1x1024x1024 .f32 × Vec F S1024x1 .f32 × Vec F S1024x1 .f32 × Vec F S1024x1024 .f32
  | 0, hn => pt2_A V c ⟨0, hn⟩ (Nat.zero_mod 4) (by decide : ¬(0 : ℕ) % 4 = 3)
  | n + 1, hn =>
    if h0 : (n + 1) % 4 = 0 then pt2_A V c ⟨n + 1, hn⟩ h0 (fun h => by have h' : (n + 1) % 4 = 3 := h; omega)
    else if h1 : (n + 1) % 4 = 3 then pt2_C V c ⟨n + 1, hn⟩ h0 h1 (outsAt2 c n (Nat.lt_of_succ_lt hn))
    else pt2_B V c ⟨n + 1, hn⟩ h0 h1 (outsAt2 c n (Nat.lt_of_succ_lt hn))

/-- At a point with `kk = 0`. -/
theorem outsAt2_A (c : Dev nD) (t : Fin cfg2.N) (h0 : t.val % 4 = 0) (h1 : ¬t.val % 4 = 3) :
    outsAt2 V c t.val t.isLt = pt2_A V c t h0 h1 := by
  obtain ⟨n, hn⟩ := t
  cases n with
  | zero => rfl
  | succ n => exact dif_pos h0

/-- At a point with `kk = 1, 2`: over what the point before left. -/
theorem outsAt2_B (c : Dev nD) (t : Fin cfg2.N) (h0 : ¬t.val % 4 = 0) (h1 : ¬t.val % 4 = 3) :
    outsAt2 V c t.val t.isLt = pt2_B V c t h0 h1 (outsAt2 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

/-- At a point with `kk = 3`: over what the point before left. -/
theorem outsAt2_C (c : Dev nD) (t : Fin cfg2.N) (h0 : ¬t.val % 4 = 0) (h1 : t.val % 4 = 3) :
    outsAt2 V c t.val t.isLt = pt2_C V c t h0 h1 (outsAt2 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The region's invariant -/

/-- The three scratch buffers owned whole at the scratch components of `p`, beside the unopened remainder of the
    core's scoped buffers and the generator register at some state. -/
def held2 (c : Dev nD) (p : Vec F S1x1024x1024 .f32 × Vec F S1024x1 .f32 × Vec F S1024x1 .f32 × Vec F S1024x1024 .f32) : sProp 𝕄 :=
  iprop(iprop(iprop(owns (c : Thread nD τ) scM2_0 fullShare p.2.1 ∗ owns (c : Thread nD τ) scM2_1 fullShare p.2.2.1 ∗ owns (c : Thread nD τ) scM2_2 fullShare p.2.2.2)
      ∗ Pipeline.scopedRestBut (Ix := Unit) (Name := ℕ) (U := UR sig nD τ) (Lvl := ℕ) (Val := Elt F) spec2 c [cc2_scratch0, cc2_scratch1, cc2_scratch2])
      ∗ (∃ r, prngReg c r))

/-- The invariant before position `n`: before the first point what the launch hands the region; afterwards the
    scratch buffers at what the point before left in them. -/
def PhiS2 (c : Dev nD) : (n : ℕ) → n ≤ cfg2.N → sProp 𝕄
  | 0, _ => Pipeline.ΦA spec2 c
  | n + 1, hn => held2 c (outsAt2 V c n hn)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = held2 c (outsAt2 V c n hn) := rfl

theorem PhiS2_pos (c : Dev nD) (n : ℕ) (h : n ≤ cfg2.N) (hz : n ≠ 0) :
    PhiS2 V c n h = held2 c (outsAt2 V c (n - 1) (by omega)) := by
  cases n with
  | zero => exact absurd rfl hz
  | succ n => rfl

/-! ## The proof data -/

/-- The proof data of the region on core `c`: the arrays as the region finds them; after the body at point `t`
    each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks; the point's index modulo 4 says which case it is
    in, so that case's run applies. The invariant hands the body the three scratch buffers — at anything before the
    first point, at what the point before left afterwards — and takes them back at this point's contents, each
    read back through its covering stores; the unopened scoped buffers, the generator register and what the core
    owes pass through untouched. Where `kk ≠ 3` the output window is idle and its buffer is handed back as found;
    where `kk = 3` it is taken back at the stored quotient. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬t.val % 4 = 3 := by omega
    have hn1 : ¬cond2_1 (grid2.coords t) := fun h => h1 ((hcond2_1 t).mp h)
    rw [Dat.leavesExact_idle (dat2 V c) 5 t (idleAt2_5 t hn1) (noFlush2_5 t hn1)]
    rw [outsAt2_A V c t h0 h1]
    unfold held2 pt2_A sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold held2 pt2_C out2_C_5 sout2_C_0 sout2_C_1 sout2_C_2; (try dsimp only)
      rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover2_C_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _ _ _ _ _ _ _)
    · have hn1 : ¬cond2_1 (grid2.coords t) := fun h => h1 ((hcond2_1 t).mp h)
      rw [Dat.leavesExact_idle (dat2 V c) 5 t (idleAt2_5 t hn1) (noFlush2_5 t hn1)]
      rw [outsAt2_B V c t h0 h1]
      unfold held2 pt2_B sout2_B_0 sout2_B_1 sout2_B_2; (try dsimp only)
      rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two ends of the invariant -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold held2
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.Kernel.Gen

end
-- ==== Proof.K.Reg3Runs.lean ====
/- Attention region 3 (the second cross-attention call): what its three case runs share. The kernel's two
   conditionals depend on the key-tile coordinate `kk` alone: the first is taken when `kk = 0` (the running
   maximum, normaliser and weighted sum are reset), the second when `kk = 3` (the normalised sum is stored to
   the output block). Over the 128 grid points, `kk` is the point's index modulo 4. -/
import proofs.«111653_j86517821215425_2_alg».proof.Proof.Gen.Kernel.Launch
import proofs.«111653_j86517821215425_2_alg».proof.Proof.Gen.Kernel.Skeleton
import proofs.«111653_j86517821215425_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The first conditional's condition (`kk = 0`), as the kernel computes it from the grid coordinates. -/
abbrev cond3_0 (i : grid3.Coords) : Prop :=
  (Scalar.cmpi .ne (Scalar.extui (Scalar.cmpi .eq (BitVec.ofNat 32 (i 2).val) 0#32)) 0#32) = 1#1
/-- It holds exactly at the points whose index is 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (`kk = 3`). -/
abbrev cond3_1 (i : grid3.Coords) : Prop := k3_cond2 i = 1#1
/-- It holds exactly at the points whose index is 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The five input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Where `kk ≠ 3` the output window is idle, and its block is not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- Where `kk = 3` it is live. -/
theorem liveAt3_5 : ∀ t : Fin cfg3.N, cond3_1 (grid3.coords t) → cfg3.idle 5 (grid3.coords t) = false := by decide +kernel

/-! ## The memrefs the body is called with -/

/-- One staging buffer of the output window, through which its contents are stated (which one does not matter). -/
abbrev VO3_5 : View sig .tc .vmem S1x1024x1024 .f32 := (Memref.whole cc3_stg5_0 : Memref sig .tc .vmem S1x1024x1024 .f32).view
/-- Each window's current staging memref at point `t`, and its wholeness. -/
abbrev ms3_0 (t : Fin cfg3.N) : Memref sig .tc .vmem S1x1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1024x1024 .f32 := win3_5.stage (cfg3.slots t 5)
abbrev hs3_5 (t : Fin cfg3.N) : (ms3_5 t).IsWhole := hstage3_5 ((cfg3.slots t 5).cast nbuf3_5)
/-- The three scratch operands: the running maximum, the running normaliser, the running weighted sum. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1024 .f32 := Memref.whole cc3_scratch2
/-- The same as views: what each holds is stated through its view. -/
abbrev VS3_0 : View sig .tc .vmem S1024x1 .f32 := scM3_0.view
abbrev VS3_1 : View sig .tc .vmem S1024x1 .f32 := scM3_1.view
abbrev VS3_2 : View sig .tc .vmem S1024x1024 .f32 := scM3_2.view

/-- What the launch hands the region, opened at the call's own three scratch buffers: each owned whole at some
    contents, every other scoped buffer left in one unopened remainder, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2])
          ∗ (∃ r, prngReg c r)) := by
  unfold Pipeline.ΦA; rw [scopedRest3_split]; simp only [scM3_0, scM3_1, scM3_2, owns_whole]; try rfl

end Cert.Kernel.Gen

end
-- ==== Proof.K.Reg3RunA.lean ====
/- Attention region 3, the body's run at a point with `kk = 0`: the three running quantities are reset, one
   key tile is absorbed, nothing is stored to the output block. -/
import proofs.«111653_j86517821215425_2_alg».proof.Proof.K.Reg3Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk = 0` and `kk ≠ 3`: the five input blocks at their contents,
    the output block at contents `xi5` that are handed back untouched, the three scratch buffers at anything.
    It runs to the continuation with the inputs as they were and each scratch buffer holding its stores, listed
    last first; those lists are found by the run itself. -/
noncomputable def kernelRun3_A (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Gen

end
-- ==== Proof.K.Reg3RunB.lean ====
/- Attention region 3, the body's run at a point with `kk = 1` or `kk = 2`: one key tile is absorbed into the
   running quantities the point before left; nothing is reset and nothing is stored to the output block. -/
import proofs.«111653_j86517821215425_2_alg».proof.Proof.K.Reg3RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk ≠ 3`: the five input blocks at their contents,
    the output block at contents `xi5` that are handed back untouched, the three scratch buffers at the contents
    `xs0`, `xs1`, `xs2` the point before left. It runs to the continuation with the inputs as they were and
    each scratch buffer holding its stores, listed last first; those lists are found by the run itself. -/
noncomputable def kernelRun3_B (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Gen

end
-- ==== Proof.K.Reg3RunC.lean ====
/- Attention region 3, the body's run at a point with `kk = 3`: the last key tile is absorbed and the weighted
   sum divided by the normaliser is stored to the output block. -/
import proofs.«111653_j86517821215425_2_alg».proof.Proof.K.Reg3RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk = 3`: the five input blocks at their contents,
    the output block at anything, the three scratch buffers at the contents `xs0`, `xs1`, `xs2` the point
    before left. It runs to the continuation with the inputs as they were and the output block and each scratch
    buffer holding their stores, listed last first; those lists are found by the run itself. -/
noncomputable def kernelRun3_C (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Gen

end
-- ==== Proof.K.Reg3.lean ====
/- Attention region 3 (the second cross-attention call), its frame half at any contents `V` of the TensorCore's
   buffers when the region is entered.

   The grid is (batch, query tile, key tile) = (16, 2, 4), 128 points; along the last axis the kernel carries a
   running maximum `m`, a running normaliser `l` and a running weighted sum `acc` in three scratch buffers:
   reset where `kk = 0`, updated from the point's key tile at every point, and at `kk = 3` the quotient
   `acc / l` is stored to the output block. What the four buffers hold after each point is defined by
   recursion on the point (`outsAt3`), and the proof data, the body obligation and the two ends of the region's
   invariant are stated over it. Everything is generic in the float type. -/
import proofs.«111653_j86517821215425_2_alg».proof.Proof.K.Reg3RunC
import proofs.«111653_j86517821215425_2_alg».proof.Proof.LibWholeStore
import proofs.«111653_j86517821215425_2_alg».proof.Proof.LibWholeLoad

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds the window's block at every point, whether or not the block
    was fetched there (a block is not fetched again while its index stands still): for any proof data whose
    array is `V`'s and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  refine (dat.before_in_eq_fetched 1 rfl (fun _ => rfl) (fun _ _ _ => rfl) hkeep t d).trans ?_
  unfold Dat.fetched Dat.blockOf iblk3; rw [hA]; try rfl

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hkeep : ∀ t, (cfg3.win 2).cut (cfg3.grid.coords t) (dat.after 2 t) = dat.blockOf 2 t := fun t => by
    rw [hafter]; unfold Dat.blockOf iblk3; rw [hA]; try rfl
  refine (dat.before_in_eq_fetched 2 rfl (fun _ => rfl) (fun _ _ _ => rfl) hkeep t d).trans ?_
  unfold Dat.fetched Dat.blockOf iblk3; rw [hA]; try rfl

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hkeep : ∀ t, (cfg3.win 3).cut (cfg3.grid.coords t) (dat.after 3 t) = dat.blockOf 3 t := fun t => by
    rw [hafter]; unfold Dat.blockOf iblk3; rw [hA]; try rfl
  refine (dat.before_in_eq_fetched 3 rfl (fun _ => rfl) (fun _ _ _ => rfl) hkeep t d).trans ?_
  unfold Dat.fetched Dat.blockOf iblk3; rw [hA]; try rfl

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hkeep : ∀ t, (cfg3.win 4).cut (cfg3.grid.coords t) (dat.after 4 t) = dat.blockOf 4 t := fun t => by
    rw [hafter]; unfold Dat.blockOf iblk3; rw [hA]; try rfl
  refine (dat.before_in_eq_fetched 4 rfl (fun _ => rfl) (fun _ _ _ => rfl) hkeep t d).trans ?_
  unfold Dat.fetched Dat.blockOf iblk3; rw [hA]; try rfl

/-! ## What each case leaves in the scratch buffers and in the output block -/

/-- At a point with `kk = 0` the stores into the running maximum cover it (the last one alone does). -/
theorem scover3_A_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What a point with `kk = 0` leaves in the running maximum: its stores read back. -/
def sout3_A_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 arg10 harg10 arg11 harg11 hc0 hc1 x0 x1 x2 x3 x4).2.1)

/-- At a point with `kk = 0` the stores into the running normaliser cover it (the last one alone does). -/
theorem scover3_A_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What a point with `kk = 0` leaves in the running normaliser: its stores read back. -/
def sout3_A_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 arg10 harg10 arg11 harg11 hc0 hc1 x0 x1 x2 x3 x4).2.2.1)

/-- At a point with `kk = 0` the stores into the running weighted sum cover it (the last one alone does). -/
theorem scover3_A_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1024.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What a point with `kk = 0` leaves in the running weighted sum: its stores read back. -/
def sout3_A_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1024 .f32 :=
  VS3_2.read (Elt F) (VS3_2.writes (Elt F) VS3_2.junk (kernelRun3_A c i arg3 harg3 arg4 harg4 arg5 harg5 arg6 harg6 arg7 harg7 arg8 harg8 arg9 harg9 arg10 harg10 arg11 harg11 hc0 hc1 x0 x1 x2 x3 x4).2.2.2.1)

/-- At a point with `kk = 1, 2` the stores into the running maximum cover it (the last one alone does). -/
theorem scover3_B_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 1, 2` leaves in the running maximum: its stores read back. -/
def sout3_B_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 1, 2` the stores into the running normaliser cover it (the last one alone does). -/
theorem scover3_B_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 1, 2` leaves in the running normaliser: its stores read back. -/
def sout3_B_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 1, 2` the stores into the running weighted sum cover it (the last one alone does). -/
theorem scover3_B_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 1, 2` leaves in the running weighted sum: its stores read back. -/
def sout3_B_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the stores into the running maximum cover it (the last one alone does). -/
theorem scover3_C_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 3` leaves in the running maximum: its stores read back. -/
def sout3_C_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_C c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 3` the stores into the running normaliser cover it (the last one alone does). -/
theorem scover3_C_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 3` leaves in the running normaliser: its stores read back. -/
def sout3_C_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 3` the stores into the running weighted sum cover it (the last one alone does). -/
theorem scover3_C_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 3` leaves in the running weighted sum: its stores read back. -/
def sout3_C_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the one store into the output block covers it. -/
theorem cover3_C_5 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1x1024x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What a point with `kk = 3` leaves in the output block: its store read back. -/
def out3_C_5 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1x1024x1024 .f32 :=
  VO3_5.read (Elt F) (VO3_5.writes (Elt F) VO3_5.junk (kernelRun3_C c i arg3 harg3 arg4 harg4 arg5 harg5 arg6 harg6 arg7 harg7 arg8 harg8 arg9 harg9 arg10 harg10 arg11 harg11 hc0 hc1 x0 x1 x2 x3 x4 xs0 xs1 xs2).1)

/-- Where `kk ≠ 3` nothing is stored into the output block, the window is idle and its buffer is not written
    back: a placeholder that nothing consults. -/
def out3_idle_5 : Vec F S1x1024x1024 .f32 := VO3_5.read (Elt F) VO3_5.junk

/-! ## The four buffers after each point -/

/-- After a point with `kk = 0`: from the point's input blocks alone. -/
def pt3_A (c : Dev nD) (t : Fin cfg3.N) (h0 : t.val % 4 = 0) (h1 : ¬t.val % 4 = 3) : Vec F S1x1024x1024 .f32 × Vec F S1024x1 .f32 × Vec F S1024x1 .f32 × Vec F S1024x1024 .f32 :=
  (out3_idle_5,
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))

/-- After a point with `kk = 1, 2`: from the point's input blocks and what the point before left (`p`). -/
def pt3_B (c : Dev nD) (t : Fin cfg3.N) (h0 : ¬t.val % 4 = 0) (h1 : ¬t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out3_idle_5,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2,
   sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2)

/-- After a point with `kk = 3`: from the point's input blocks and what the point before left (`p`). -/
def pt3_C (c : Dev nD) (t : Fin cfg3.N) (h0 : ¬t.val % 4 = 0) (h1 : t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2)

/-- THE ACCUMULATION: what the output block's staging buffer and the three scratch buffers hold after the body at
    position `n` — (output block, running maximum, running normaliser, running weighted sum) —, by recursion on
    the position: the case is read off `n` modulo 4. -/
def outsAt3 (c : Dev nD) : (n : ℕ) → n < cfg3.N → Vec F S1x1024x1024 .f32 × Vec F S1024x1 .f32 × Vec F S1024x1 .f32 × Vec F S1024x1024 .f32
  | 0, hn => pt3_A V c ⟨0, hn⟩ (Nat.zero_mod 4) (by decide : ¬(0 : ℕ) % 4 = 3)
  | n + 1, hn =>
    if h0 : (n + 1) % 4 = 0 then pt3_A V c ⟨n + 1, hn⟩ h0 (fun h => by have h' : (n + 1) % 4 = 3 := h; omega)
    else if h1 : (n + 1) % 4 = 3 then pt3_C V c ⟨n + 1, hn⟩ h0 h1 (outsAt3 c n (Nat.lt_of_succ_lt hn))
    else pt3_B V c ⟨n + 1, hn⟩ h0 h1 (outsAt3 c n (Nat.lt_of_succ_lt hn))

/-- At a point with `kk = 0`. -/
theorem outsAt3_A (c : Dev nD) (t : Fin cfg3.N) (h0 : t.val % 4 = 0) (h1 : ¬t.val % 4 = 3) :
    outsAt3 V c t.val t.isLt = pt3_A V c t h0 h1 := by
  obtain ⟨n, hn⟩ := t
  cases n with
  | zero => rfl
  | succ n => exact dif_pos h0

/-- At a point with `kk = 1, 2`: over what the point before left. -/
theorem outsAt3_B (c : Dev nD) (t : Fin cfg3.N) (h0 : ¬t.val % 4 = 0) (h1 : ¬t.val % 4 = 3) :
    outsAt3 V c t.val t.isLt = pt3_B V c t h0 h1 (outsAt3 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

/-- At a point with `kk = 3`: over what the point before left. -/
theorem outsAt3_C (c : Dev nD) (t : Fin cfg3.N) (h0 : ¬t.val % 4 = 0) (h1 : t.val % 4 = 3) :
    outsAt3 V c t.val t.isLt = pt3_C V c t h0 h1 (outsAt3 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The region's invariant -/

/-- The three scratch buffers owned whole at the scratch components of `p`, beside the unopened remainder of the
    core's scoped buffers and the generator register at some state. -/
def held3 (c : Dev nD) (p : Vec F S1x1024x1024 .f32 × Vec F S1024x1 .f32 × Vec F S1024x1 .f32 × Vec F S1024x1024 .f32) : sProp 𝕄 :=
  iprop(iprop(iprop(owns (c : Thread nD τ) scM3_0 fullShare p.2.1 ∗ owns (c : Thread nD τ) scM3_1 fullShare p.2.2.1 ∗ owns (c : Thread nD τ) scM3_2 fullShare p.2.2.2)
      ∗ Pipeline.scopedRestBut (Ix := Unit) (Name := ℕ) (U := UR sig nD τ) (Lvl := ℕ) (Val := Elt F) spec3 c [cc3_scratch0, cc3_scratch1, cc3_scratch2])
      ∗ (∃ r, prngReg c r))

/-- The invariant before position `n`: before the first point what the launch hands the region; afterwards the
    scratch buffers at what the point before left in them. -/
def PhiS3 (c : Dev nD) : (n : ℕ) → n ≤ cfg3.N → sProp 𝕄
  | 0, _ => Pipeline.ΦA spec3 c
  | n + 1, hn => held3 c (outsAt3 V c n hn)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = held3 c (outsAt3 V c n hn) := rfl

theorem PhiS3_pos (c : Dev nD) (n : ℕ) (h : n ≤ cfg3.N) (hz : n ≠ 0) :
    PhiS3 V c n h = held3 c (outsAt3 V c (n - 1) (by omega)) := by
  cases n with
  | zero => exact absurd rfl hz
  | succ n => rfl

/-! ## The proof data -/

/-- The proof data of the region on core `c`: the arrays as the region finds them; after the body at point `t`
    each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point. The inputs' buffers hold their blocks; the point's index modulo 4 says which case it is
    in, so that case's run applies. The invariant hands the body the three scratch buffers — at anything before the
    first point, at what the point before left afterwards — and takes them back at this point's contents, each
    read back through its covering stores; the unopened scoped buffers, the generator register and what the core
    owes pass through untouched. Where `kk ≠ 3` the output window is idle and its buffer is handed back as found;
    where `kk = 3` it is taken back at the stored quotient. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · have h1 : ¬t.val % 4 = 3 := by omega
    have hn1 : ¬cond3_1 (grid3.coords t) := fun h => h1 ((hcond3_1 t).mp h)
    rw [Dat.leavesExact_idle (dat3 V c) 5 t (idleAt3_5 t hn1) (noFlush3_5 t hn1)]
    rw [outsAt3_A V c t h0 h1]
    unfold held3 pt3_A sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold held3 pt3_C out3_C_5 sout3_C_0 sout3_C_1 sout3_C_2; (try dsimp only)
      rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _ _ _ _ _ _ _)
    · have hn1 : ¬cond3_1 (grid3.coords t) := fun h => h1 ((hcond3_1 t).mp h)
      rw [Dat.leavesExact_idle (dat3 V c) 5 t (idleAt3_5 t hn1) (noFlush3_5 t hn1)]
      rw [outsAt3_B V c t h0 h1]
      unfold held3 pt3_B sout3_B_0 sout3_B_1 sout3_B_2; (try dsimp only)
      rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the launch handed over: the scratch buffers' named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  unfold held3
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 128 := N_3; omega)

end Region3

end Cert.Kernel.Gen

end
-- ==== Proof.K.Stitch.lean ====
/-
  The whole program as one run.

  @main is six items in order: the host operations that prepare the two projections' operands, the two projection
  calls, the host operations that reshape their results and transpose the masks, and the two attention calls. Between
  two items every unscoped buffer of a core holds known contents: the launch memory, then what a stretch of host
  operations computes from them, then — after a call — the call's windows' arrays at what its write-backs leave and
  every other buffer untouched. The run below follows the six items and ends with every unscoped buffer at the last of
  these contents, from which both the unchanged arguments and the two results are read.
-/
import proofs.«111653_j86517821215425_2_alg».proof.Proof.K.Reg0
import proofs.«111653_j86517821215425_2_alg».proof.Proof.K.Reg1
import proofs.«111653_j86517821215425_2_alg».proof.Proof.K.Reg2
import proofs.«111653_j86517821215425_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- A core's buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After call 0: its windows' arrays at what the write-backs leave, every other buffer as the call found it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its windows' arrays at what the write-backs leave, every other buffer as the call found it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second stretch of host operations. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After call 2: its windows' arrays at what the write-backs leave, every other buffer as the call found it. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After call 3: its windows' arrays at what the write-backs leave, every other buffer as the call found it. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same at the TensorCore's references. -/
abbrev V6 : (c : Dev nD) → (b : Ref sig .tc) → Buf (Elt F) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The proof data of the four calls and what rides along -/

/-- No call has a prefetched table. -/
abbrev adm : (p : Fin 4) → (pcfgs (F := F) p).Adm := fun p => (cfgs p).toPCfg_adm
/-- Each call's proof data at the contents it is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped reference is among those a core's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W6 m c) ∗ ∃ r, prngReg c r)

/-! ## The four calls as segments -/

set_option backward.isDefEq.respectTransparency.types false in
/-- Call 0 as a segment of @main: entered with every unscoped buffer at `W1`, left with them at `W2`. Its
    windows' arrays are split out of the unscoped buffers on entry and put back, at what the write-backs leave, on exit;
    the generator register goes into the pipeline's invariant and comes back; nothing is owed; the call has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `W2`, left with them at `W3`. Its
    windows' arrays are split out of the unscoped buffers on entry and put back, at what the write-backs leave, on exit;
    the generator register goes into the pipeline's invariant and comes back; nothing is owed; the call has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at `W4`, left with them at `W5`. Its
    windows' arrays are split out of the unscoped buffers on entry and put back, at what the write-backs leave, on exit;
    the generator register goes into the pipeline's invariant and comes back; nothing is owed; the call has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of @main: entered with every unscoped buffer at `W5`, left with them at `W6`. Its
    windows' arrays are split out of the unscoped buffers on entry and put back, at what the write-backs leave, on exit;
    the generator register goes into the pipeline's invariant and comes back; nothing is owed; the call has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V5 m) c).Φ 0 from rfl]
    have h := hin3 (V5 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V5 m) c).Φ (Fin.last cfg3.N) from rfl]
    have h := hout3 (V5 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)),
    .region (reg2 m),
    .region (reg3 m) ]
theorem main_run (c : Dev nD) : main (F := F) c = Pipeline.Seg.run (segs m) :=
  main_segs adm (pdats m) () 𝒱₀ L lv _ _ (reg0 m) (reg1 m) (reg2 m) (reg3 m) rfl rfl c

set_option backward.isDefEq.respectTransparency.types false in
/-- From any memory with zero counters every weakly fair execution of @main on the TensorCores terminates, nothing
    faulting, and in every final state every unscoped buffer of every core holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Gen

end
-- ==== Proof.K.Ends.lean ====
/-
  Reading the ends of the whole-program run.

  The run of @main's six items ends with every unscoped buffer of a core at the last of the contents `W0 … W6`. Each
  of these is the one before it changed by one item: a stretch of host operations changes only the buffers its
  operations write, and a call changes only its windows' arrays — an input window's array not at all. Walking back from
  `W6` through the six items, an argument's buffer is found at its launch contents, a result's buffer at what the write-backs
  of the call that produces it leave, and a call's operands at what the earlier items left there.
-/
import proofs.«111653_j86517821215425_2_alg».proof.Proof.K.Stitch

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What the two host stretches write -/

/-- The references the first stretch of host operations writes. -/
abbrev host0_W : List (Ref sig .tc) := [main_v0, main_v1, main_v2, main_v3, main_v4, main_v5, main_v6, main_v7, main_v8, main_v9, main_v10, main_v11]
theorem host0_writes : (hostOps0 : List (HloOp τ sig (Elt F))).Forall fun op => op.writes ⊆ (host0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
/-- The references the second stretch of host operations writes. -/
abbrev host2_W : List (Ref sig .tc) := [main_v14, main_v15, main_v16, main_v17, main_v18, main_v19]
theorem host2_writes : (hostOps2 : List (HloOp τ sig (Elt F))).Forall fun op => op.writes ⊆ (host2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- A host stretch leaves a buffer it does not write. -/
theorem W1_of (c : Dev nD) (r : Ref sig .tc) (h : r ∉ host0_W) : W1 m c (Proc.devRef .tc r) = W0 m c (Proc.devRef .tc r) :=
  StableHlo.after_of_writes_sub hostOps0 _ host0_writes h
theorem W4_of (c : Dev nD) (r : Ref sig .tc) (h : r ∉ host2_W) : W4 m c (Proc.devRef .tc r) = W3 m c (Proc.devRef .tc r) :=
  StableHlo.after_of_writes_sub hostOps2 _ host2_writes h

/-! ## The arguments end as launched -/

/-- An argument that is no call's window: no item touches it. -/
theorem W6_of_untouched (c : Dev nD) (r : Ref sig .tc) (h3 : ∀ w, Pipeline.arrRef spec3 w ≠ r) (h2 : ∀ w, Pipeline.arrRef spec2 w ≠ r)
    (hh2 : r ∉ host2_W) (h1 : ∀ w, Pipeline.arrRef spec1 w ≠ r) (h0 : ∀ w, Pipeline.arrRef spec0 w ≠ r) (hh0 : r ∉ host0_W) :
    W6 m c (Proc.devRef .tc r) = m ((c : Thread nD τ).loc r) :=
  calc W6 m c (Proc.devRef .tc r)
    _ = W5 m c (Proc.devRef .tc r) := W6_of_ne m c r h3
    _ = W4 m c (Proc.devRef .tc r) := W5_of_ne m c r h2
    _ = W3 m c (Proc.devRef .tc r) := W4_of m c r hh2
    _ = W2 m c (Proc.devRef .tc r) := W3_of_ne m c r h1
    _ = W1 m c (Proc.devRef .tc r) := W2_of_ne m c r h0
    _ = W0 m c (Proc.devRef .tc r) := W1_of m c r hh0
    _ = m ((c : Thread nD τ).loc r) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide)
theorem W6_main_arg7 (c : Dev nD) : W6 m c (Proc.devRef .tc main_arg7) = m ((c : Thread nD τ).loc main_arg7) :=
  W6_of_untouched m c main_arg7 (by decide) (by decide) (by decide) (by decide) (by decide) (by decide)
theorem W6_main_arg8 (c : Dev nD) : W6 m c (Proc.devRef .tc main_arg8) = m ((c : Thread nD τ).loc main_arg8) :=
  W6_of_untouched m c main_arg8 (by decide) (by decide) (by decide) (by decide) (by decide) (by decide)

/-- The two masks that a call reads through a window reach that call as launched: the items before it neither write
    them nor have them as a window. -/
theorem W3_main_arg1 (c : Dev nD) : W3 m c (Proc.devRef .tc main_arg1) = W0 m c (Proc.devRef .tc main_arg1) :=
  (W3_of_ne m c main_arg1 (by decide)).trans <| (W2_of_ne m c main_arg1 (by decide)).trans (W1_of m c main_arg1 (by decide))
theorem W3_main_arg3 (c : Dev nD) : W3 m c (Proc.devRef .tc main_arg3) = W0 m c (Proc.devRef .tc main_arg3) :=
  (W3_of_ne m c main_arg3 (by decide)).trans <| (W2_of_ne m c main_arg3 (by decide)).trans (W1_of m c main_arg3 (by decide))
theorem W4_main_arg1 (c : Dev nD) : W4 m c (Proc.devRef .tc main_arg1) = W0 m c (Proc.devRef .tc main_arg1) :=
  (W4_of m c main_arg1 (by decide)).trans (W3_main_arg1 m c)
theorem W4_main_arg3 (c : Dev nD) : W4 m c (Proc.devRef .tc main_arg3) = W0 m c (Proc.devRef .tc main_arg3) :=
  (W4_of m c main_arg3 (by decide)).trans (W3_main_arg3 m c)

/-- Call 2 leaves its input windows' arrays as it found them. -/
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hin _).trans (A_eq2 (V4 m) c w))
/-- Call 3 leaves its input windows' arrays as it found them. -/
theorem W6_in (c : Dev nD) (w : Fin cfg3.W) (hin : (cfg3.win w).isOut = false) :
    W6 m c (Proc.devRef .tc (Pipeline.arrRef spec3 w)) = W5 m c (Proc.devRef .tc (Pipeline.arrRef spec3 w)) :=
  (W6_arr m c w).trans (((dat3 (V5 m) c).arrAt_in w hin _).trans (A_eq3 (V5 m) c w))

/-- The first mask is an input window of call 2 and no window of call 3. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_in m c 3 rfl
    _ = W0 m c (Proc.devRef .tc main_arg1) := W4_main_arg1 m c
    _ = m ((c : Thread nD τ).loc main_arg1) := rfl
/-- The second mask is no window of call 2 and an input window of call 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_in m c 3 rfl
    _ = W4 m c (Proc.devRef .tc main_arg3) := W5_of_ne m c main_arg3 (by decide)
    _ = W0 m c (Proc.devRef .tc main_arg3) := W4_main_arg3 m c
    _ = m ((c : Thread nD τ).loc main_arg3) := rfl

/-! ## The results -/

/-- The second result is the output window of call 3. -/
theorem W6_main_v21 (c : Dev nD) : W6 m c (Proc.devRef .tc main_v21) = (dat3 (V5 m) c).arrAt 5 cfg3.N :=
  W6_arr m c 5
/-- The first result is the output window of call 2, and no window of call 3. -/
theorem W6_main_v20 (c : Dev nD) : W6 m c (Proc.devRef .tc main_v20) = (dat2 (V4 m) c).arrAt 5 cfg2.N :=
  (W6_of_ne m c main_v20 (by decide)).trans (W5_arr m c 5)

/-! ## What each call is entered with -/

/-- Call 0's two outputs, untouched by call 1. -/
theorem W3_main_v12_0 (c : Dev nD) : W3 m c (Proc.devRef .tc main_v12_0) = (dat0 (V1 m) c).arrAt 3 cfg0.N :=
  (W3_of_ne m c main_v12_0 (by decide)).trans (W2_arr m c 3)
theorem W3_main_v12_1 (c : Dev nD) : W3 m c (Proc.devRef .tc main_v12_1) = (dat0 (V1 m) c).arrAt 4 cfg0.N :=
  (W3_of_ne m c main_v12_1 (by decide)).trans (W2_arr m c 4)
/-- Call 1's two outputs. -/
theorem W3_main_v13_0 (c : Dev nD) : W3 m c (Proc.devRef .tc main_v13_0) = (dat1 (V2 m) c).arrAt 3 cfg1.N :=
  W3_arr m c 3
theorem W3_main_v13_1 (c : Dev nD) : W3 m c (Proc.devRef .tc main_v13_1) = (dat1 (V2 m) c).arrAt 4 cfg1.N :=
  W3_arr m c 4

/-- Call 0 touches none of call 1's operands. -/
theorem V2_main_v11 (c : Dev nD) : V2 m c main_v11 = V1 m c main_v11 := W2_of_ne m c main_v11 (by decide)
theorem V2_main_v5 (c : Dev nD) : V2 m c main_v5 = V1 m c main_v5 := W2_of_ne m c main_v5 (by decide)
theorem V2_main_v9 (c : Dev nD) : V2 m c main_v9 = V1 m c main_v9 := W2_of_ne m c main_v9 (by decide)

/-- Call 2 leaves call 3's operands: two of them are input windows of its own, the others no window of it. -/
theorem V5_main_v15 (c : Dev nD) : V5 m c main_v15 = V4 m c main_v15 := W5_in m c 1 rfl
theorem V5_main_v14 (c : Dev nD) : V5 m c main_v14 = V4 m c main_v14 := W5_in m c 0 rfl
theorem V5_main_v16 (c : Dev nD) : V5 m c main_v16 = V4 m c main_v16 := W5_of_ne m c main_v16 (by decide)
theorem V5_main_arg3 (c : Dev nD) : V5 m c main_arg3 = V4 m c main_arg3 := W5_of_ne m c main_arg3 (by decide)
theorem V5_main_v18 (c : Dev nD) : V5 m c main_v18 = V4 m c main_v18 := W5_of_ne m c main_v18 (by decide)

/-! ## The frame, and the run with its results -/

/-- From any memory with zero counters every weakly fair execution of @main terminates, nothing faulting, and every
    final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

/-- The same run read at the two results as well: each holds what the write-backs of the call producing it leave. -/
theorem run_results : θ_run defs (onTc (τ := τ) (main (F := F))) ⟨m, fun _ => 0, ρ⟩ (fun r => ∀ c : Dev nD,
      r.2.mem ((c.tc : Thread nD τ).loc main_v21) = (dat3 (V5 m) c).arrAt 5 cfg3.N
      ∧ r.2.mem ((c.tc : Thread nD τ).loc main_v20) = (dat2 (V4 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v21 (by decide))).trans (W6_main_v21 m c),
     (h c _ (mem_uc main_v20 (by decide))).trans (W6_main_v20 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

end Cert.Kernel.Gen

end
-- ==== Proof.KI.Reg0.lean ====
/-
  Region 0 of @main — the projection kernel \`cc0__proj_kernel\` on its grid of 32 row blocks — as a body of the
  staging pipeline, stated at ANY contents \`V\` of the TensorCore's buffers at the region's entry.

  The kernel reads three operands through their whole staging buffers: a block \`x\` of 1024 rows of the input
  (window 0, a new block at every point), the weight \`w\` (window 1) and the bias row \`b\` (window 2), the last two
  the same block at every point and brought in once. It leaves two results: the block of \`relu (x · w + b)\`, narrowed
  to bf16 (window 3), and the block \`x\` itself narrowed to bf16 (window 4). Both result buffers are also read before
  they are written; nothing is computed from what those reads return.

  What is proved: whatever the two result buffers held, after the body window 4's holds \`k0_pay1 x\` and window 3's
  holds \`k0_pay2 x w b\` (the named payloads of the kernel's two stores), the operand buffers are as found, and this
  is the staging pipeline's body obligation for the proof data \`dat0\`.
-/
import proofs.«111653_j86517821215425_2_alg».proof.Proof.Gen.KernelIdeal.Launch
import proofs.«111653_j86517821215425_2_alg».proof.Proof.Gen.KernelIdeal.Skeleton
import proofs.«111653_j86517821215425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of every TensorCore buffer when region 0 is entered. Everything below is a function of it. -/
variable (V : (c : Dev nD) → (b : Ref sig .tc) → Buf (Elt F) ((c : Thread nD τ).loc b))

/-! ## Blocks -/

/-- The block of window \`w\`'s array that grid point \`t\` addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The three operands are found at their blocks

An operand's staging buffer holds, when the body runs at point \`t\`, the block point \`t\` addresses — at a point where
the pipeline has just brought the block in, because it has; at a point where it has not, because the block index is
the one of the point before, whose block the body left in place. The second case is the whole story of the weight and
the bias after the first point: their index never moves. The statement is for any proof data over the entry contents
whose \`after\` leaves the operand's block where it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-! ## The rectangles of the body's loads and stores: each is its whole buffer -/

/-- The two offsets of every access are zero. -/
theorem zeros0 : (![0, 0] : Fin 2 → Nat) = fun _ => 0 := funext fun a => by fin_cases a <;> rfl

/-- All of a [1024, 1024] buffer (the input block; its bf16 copy). -/
abbrev r0_x : Rect S1024x1024 := Rect.unit (s := S1024x1024) ![0, 0] S1024x1024.size inb_S1024x1024_S1024x1024_0_0
/-- All of a [1024, 512] buffer (the weight; the projected block). -/
abbrev r0_w : Rect S1024x512 := Rect.unit (s := S1024x512) ![0, 0] S1024x512.size inb_S1024x512_S1024x512_0_0
/-- All of the [1, 512] bias row. -/
abbrev r0_b : Rect S1x512 := Rect.unit (s := S1x512) ![0, 0] S1x512.size inb_S1x512_S1x512_0_0

/-! ## What the body leaves in the two result buffers -/

/-- Window 3 after the body: one store over the whole buffer, of the rectified projection of the three operands
    narrowed to bf16 (\`k0_pay2\`). -/
def out0_3 (x0 : Vec F S1024x1024 .f32) (x1 : Vec F S1024x512 .bf16) (x2 : Vec F S1x512 .f32) : Vec F S1024x512 .bf16 :=
  View.canon [⟨r0_w, k0_pay2 (View.ld x0 r0_x) (View.ld x1 r0_w) (View.ld x2 r0_b)⟩]

/-- Window 4 after the body: one store over the whole buffer, of the input block narrowed to bf16 (\`k0_pay1\`). -/
def out0_4 (x0 : Vec F S1024x1024 .f32) : Vec F S1024x1024 .bf16 :=
  View.canon [⟨r0_x, k0_pay1 (View.ld x0 r0_x)⟩]

/-- A load of a whole buffer reads its contents, and one store over a whole buffer leaves its payload: so window 4
    holds the narrowed input block, -/
theorem out0_4_eq (x0 : Vec F S1024x1024 .f32) : out0_4 x0 = k0_pay1 x0 := by
  unfold out0_4
  rw [View.canon_unit_zero (S := S1024x1024) zeros0, View.ld_unit_zero (S := S1024x1024) zeros0]

/-- and window 3 the narrowed rectified projection. -/
theorem out0_3_eq (x0 : Vec F S1024x1024 .f32) (x1 : Vec F S1024x512 .bf16) (x2 : Vec F S1x512 .f32) :
    out0_3 x0 x1 x2 = k0_pay2 x0 x1 x2 := by
  unfold out0_3
  rw [View.canon_unit_zero (S := S1024x512) zeros0, View.ld_unit_zero (S := S1024x1024) zeros0,
    View.ld_unit_zero (S := S1024x512) zeros0, View.ld_unit_zero (S := S1x512) zeros0]

/-- The one store into window 3 reaches every index of it: the rectangle is the whole buffer. -/
theorem cover0_3 (p0 : Vec F S1024x512 .bf16) (y : S1024x512.Idx) :
    ∃ pc ∈ ([⟨r0_w, p0⟩] : List (View.Piece (Elt F) S1024x512 .bf16)), y ∈ pc.1.set :=
  ⟨_, List.mem_singleton_self _, View.mem_set_unit_zero (S := S1024x512) zeros0 inb_S1024x512_S1024x512_0_0 y⟩

/-- The same for window 4. -/
theorem cover0_4 (p0 : Vec F S1024x1024 .bf16) (y : S1024x1024.Idx) :
    ∃ pc ∈ ([⟨r0_x, p0⟩] : List (View.Piece (Elt F) S1024x1024 .bf16)), y ∈ pc.1.set :=
  ⟨_, List.mem_singleton_self _, View.mem_set_unit_zero (S := S1024x1024) zeros0 inb_S1024x1024_S1024x1024_0_0 y⟩

/-! ## The body's triple -/

set_option maxHeartbeats 1000000 in
/-- The kernel on five whole staging memrefs — the operands' reading \`x0\`, \`x1\`, \`x2\`, the results' holding anything —
    runs to a continuation that is handed the operands' as they were, window 3's reading \`out0_3 x0 x1 x2\` and window
    4's reading \`out0_4 x0\`. The two reads of the result buffers return values the stores do not depend on; each
    store covers its buffer, so what it held before does not survive. -/
theorem sound_kernel0 (c : Dev nD) (E : Set ℕ) (i : grid0.Coords)
    (arg1 : Memref sig .tc .vmem S1024x1024 .f32) (harg1 : arg1.IsWhole)
    (arg2 : Memref sig .tc .vmem S1024x512 .bf16) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S1024x1024 .bf16) (harg5 : arg5.IsWhole)
    (x0 : Vec F S1024x1024 .f32) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0)) -∗ K ⟨⟩))
      ⊢ wp frame (wpE (defs₀ (F := F)) Variants.none c none) E
          (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data of pipeline 0 -/

/-- On core \`c\`: the arrays as the region finds them; after the body at point \`t\` each operand's buffer at its block
    and each result's at the body's function of the operand blocks; the invariant is the untouched rest (the scoped
    buffers the kernel does not name, the generator register); nothing is owed to any core; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the pipeline hands the body at point \`t\`, the five windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the operands' buffers hold their blocks, so the body's triple applies at those blocks; the invariant
    and what the core owes are the same before and after and are carried past the body. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The staging pipeline's body obligation for \`dat0\`, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen
-- ==== Proof.KI.Reg1.lean ====
/-
  Region 1 of @main — the projection kernel \`cc1__proj_kernel\` on its grid of 32 row blocks — as a body of the
  staging pipeline, stated at ANY contents \`V\` of the TensorCore's buffers at the region's entry.

  The kernel reads three operands through their whole staging buffers: a block \`x\` of 1024 rows of the input
  (window 0, a new block at every point), the weight \`w\` (window 1) and the bias row \`b\` (window 2), the last two
  the same block at every point and brought in once. It leaves two results: the block of \`relu (x · w + b)\`, narrowed
  to bf16 (window 3), and the block \`x\` itself narrowed to bf16 (window 4). Both result buffers are also read before
  they are written; nothing is computed from what those reads return.

  What is proved: whatever the two result buffers held, after the body window 4's holds \`k1_pay1 x\` and window 3's
  holds \`k1_pay2 x w b\` (the named payloads of the kernel's two stores), the operand buffers are as found, and this
  is the staging pipeline's body obligation for the proof data \`dat1\`.
-/
import proofs.«111653_j86517821215425_2_alg».proof.Proof.Gen.KernelIdeal.Launch
import proofs.«111653_j86517821215425_2_alg».proof.Proof.Gen.KernelIdeal.Skeleton
import proofs.«111653_j86517821215425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of every TensorCore buffer when region 1 is entered. Everything below is a function of it. -/
variable (V : (c : Dev nD) → (b : Ref sig .tc) → Buf (Elt F) ((c : Thread nD τ).loc b))

/-! ## Blocks -/

/-- The block of window \`w\`'s array that grid point \`t\` addresses, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three operands are found at their blocks

An operand's staging buffer holds, when the body runs at point \`t\`, the block point \`t\` addresses — at a point where
the pipeline has just brought the block in, because it has; at a point where it has not, because the block index is
the one of the point before, whose block the body left in place. The second case is the whole story of the weight and
the bias after the first point: their index never moves. The statement is for any proof data over the entry contents
whose \`after\` leaves the operand's block where it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

/-! ## The rectangles of the body's loads and stores: each is its whole buffer -/

/-- The two offsets of every access are zero. -/
theorem zeros1 : (![0, 0] : Fin 2 → Nat) = fun _ => 0 := funext fun a => by fin_cases a <;> rfl

/-- All of a [1024, 1024] buffer (the input block; its bf16 copy). -/
abbrev r1_x : Rect S1024x1024 := Rect.unit (s := S1024x1024) ![0, 0] S1024x1024.size inb_S1024x1024_S1024x1024_0_0
/-- All of a [1024, 512] buffer (the weight; the projected block). -/
abbrev r1_w : Rect S1024x512 := Rect.unit (s := S1024x512) ![0, 0] S1024x512.size inb_S1024x512_S1024x512_0_0
/-- All of the [1, 512] bias row. -/
abbrev r1_b : Rect S1x512 := Rect.unit (s := S1x512) ![0, 0] S1x512.size inb_S1x512_S1x512_0_0

/-! ## What the body leaves in the two result buffers -/

/-- Window 3 after the body: one store over the whole buffer, of the rectified projection of the three operands
    narrowed to bf16 (\`k1_pay2\`). -/
def out1_3 (x0 : Vec F S1024x1024 .f32) (x1 : Vec F S1024x512 .bf16) (x2 : Vec F S1x512 .f32) : Vec F S1024x512 .bf16 :=
  View.canon [⟨r1_w, k1_pay2 (View.ld x0 r1_x) (View.ld x1 r1_w) (View.ld x2 r1_b)⟩]

/-- Window 4 after the body: one store over the whole buffer, of the input block narrowed to bf16 (\`k1_pay1\`). -/
def out1_4 (x0 : Vec F S1024x1024 .f32) : Vec F S1024x1024 .bf16 :=
  View.canon [⟨r1_x, k1_pay1 (View.ld x0 r1_x)⟩]

/-- A load of a whole buffer reads its contents, and one store over a whole buffer leaves its payload: so window 4
    holds the narrowed input block, -/
theorem out1_4_eq (x0 : Vec F S1024x1024 .f32) : out1_4 x0 = k1_pay1 x0 := by
  unfold out1_4
  rw [View.canon_unit_zero (S := S1024x1024) zeros1, View.ld_unit_zero (S := S1024x1024) zeros1]

/-- and window 3 the narrowed rectified projection. -/
theorem out1_3_eq (x0 : Vec F S1024x1024 .f32) (x1 : Vec F S1024x512 .bf16) (x2 : Vec F S1x512 .f32) :
    out1_3 x0 x1 x2 = k1_pay2 x0 x1 x2 := by
  unfold out1_3
  rw [View.canon_unit_zero (S := S1024x512) zeros1, View.ld_unit_zero (S := S1024x1024) zeros1,
    View.ld_unit_zero (S := S1024x512) zeros1, View.ld_unit_zero (S := S1x512) zeros1]

/-- The one store into window 3 reaches every index of it: the rectangle is the whole buffer. -/
theorem cover1_3 (p0 : Vec F S1024x512 .bf16) (y : S1024x512.Idx) :
    ∃ pc ∈ ([⟨r1_w, p0⟩] : List (View.Piece (Elt F) S1024x512 .bf16)), y ∈ pc.1.set :=
  ⟨_, List.mem_singleton_self _, View.mem_set_unit_zero (S := S1024x512) zeros1 inb_S1024x512_S1024x512_0_0 y⟩

/-- The same for window 4. -/
theorem cover1_4 (p0 : Vec F S1024x1024 .bf16) (y : S1024x1024.Idx) :
    ∃ pc ∈ ([⟨r1_x, p0⟩] : List (View.Piece (Elt F) S1024x1024 .bf16)), y ∈ pc.1.set :=
  ⟨_, List.mem_singleton_self _, View.mem_set_unit_zero (S := S1024x1024) zeros1 inb_S1024x1024_S1024x1024_0_0 y⟩

/-! ## The body's triple -/

set_option maxHeartbeats 1000000 in
/-- The kernel on five whole staging memrefs — the operands' reading \`x0\`, \`x1\`, \`x2\`, the results' holding anything —
    runs to a continuation that is handed the operands' as they were, window 3's reading \`out1_3 x0 x1 x2\` and window
    4's reading \`out1_4 x0\`. The two reads of the result buffers return values the stores do not depend on; each
    store covers its buffer, so what it held before does not survive. -/
theorem sound_kernel1 (c : Dev nD) (E : Set ℕ) (i : grid1.Coords)
    (arg1 : Memref sig .tc .vmem S1024x1024 .f32) (harg1 : arg1.IsWhole)
    (arg2 : Memref sig .tc .vmem S1024x512 .bf16) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S1024x1024 .bf16) (harg5 : arg5.IsWhole)
    (x0 : Vec F S1024x1024 .f32) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E
          (cc1__proj_kernel i arg1 harg1 arg2 harg2 arg3 harg3 arg4 harg4 arg5 harg5) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data of pipeline 1 -/

/-- On core \`c\`: the arrays as the region finds them; after the body at point \`t\` each operand's buffer at its block
    and each result's at the body's function of the operand blocks; the invariant is the untouched rest (the scoped
    buffers the kernel does not name, the generator register); nothing is owed to any core; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the pipeline hands the body at point \`t\`, the five windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the operands' buffers hold their blocks, so the body's triple applies at those blocks; the invariant
    and what the core owes are the same before and after and are carried past the body. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The staging pipeline's body obligation for \`dat1\`, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen
-- ==== Proof.KI.Reg2Runs.lean ====
/- Attention region 2 (the first cross-attention call): what its three case runs share. The kernel's two
   conditionals depend on the key-tile coordinate `kk` alone: the first is taken when `kk = 0` (the running
   maximum, normaliser and weighted sum are reset), the second when `kk = 3` (the normalised sum is stored to
   the output block). Over the 128 grid points, `kk` is the point's index modulo 4. -/
import proofs.«111653_j86517821215425_2_alg».proof.Proof.Gen.KernelIdeal.Launch
import proofs.«111653_j86517821215425_2_alg».proof.Proof.Gen.KernelIdeal.Skeleton
import proofs.«111653_j86517821215425_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The first conditional's condition (`kk = 0`), as the kernel computes it from the grid coordinates. -/
abbrev cond2_0 (i : grid2.Coords) : Prop :=
  (Scalar.cmpi .ne (Scalar.extui (Scalar.cmpi .eq (BitVec.ofNat 32 (i 2).val) 0#32)) 0#32) = 1#1
/-- It holds exactly at the points whose index is 0 modulo 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition (`kk = 3`). -/
abbrev cond2_1 (i : grid2.Coords) : Prop := k2_cond2 i = 1#1
/-- It holds exactly at the points whose index is 3 modulo 4. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The five input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where `kk ≠ 3` the output window is idle, and its block is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- Where `kk = 3` it is live. -/
theorem liveAt2_5 : ∀ t : Fin cfg2.N, cond2_1 (grid2.coords t) → cfg2.idle 5 (grid2.coords t) = false := by decide +kernel

/-! ## The memrefs the body is called with -/

/-- One staging buffer of the output window, through which its contents are stated (which one does not matter). -/
abbrev VO2_5 : View sig .tc .vmem S1x1024x1024 .f32 := (Memref.whole cc2_stg5_0 : Memref sig .tc .vmem S1x1024x1024 .f32).view
/-- Each window's current staging memref at point `t`, and its wholeness. -/
abbrev ms2_0 (t : Fin cfg2.N) : Memref sig .tc .vmem S1x1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x1024 .f32 := win2_5.stage (cfg2.slots t 5)
abbrev hs2_5 (t : Fin cfg2.N) : (ms2_5 t).IsWhole := hstage2_5 ((cfg2.slots t 5).cast nbuf2_5)
/-- The three scratch operands: the running maximum, the running normaliser, the running weighted sum. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
/-- The same as views: what each holds is stated through its view. -/
abbrev VS2_0 : View sig .tc .vmem S1024x1 .f32 := scM2_0.view
abbrev VS2_1 : View sig .tc .vmem S1024x1 .f32 := scM2_1.view
abbrev VS2_2 : View sig .tc .vmem S1024x1024 .f32 := scM2_2.view

/-- What the launch hands the region, opened at the call's own three scratch buffers: each owned whole at some
    contents, every other scoped buffer left in one unopened remainder, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]; try rfl

end Cert.KernelIdeal.Gen

end
-- ==== Proof.KI.Reg2RunA.lean ====
/- Attention region 2, the body's run at a point with `kk = 0`: the three running quantities are reset, one
   key tile is absorbed, nothing is stored to the output block. -/
import proofs.«111653_j86517821215425_2_alg».proof.Proof.KI.Reg2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk = 0` and `kk ≠ 3`: the five input blocks at their contents,
    the output block at contents `xi5` that are handed back untouched, the three scratch buffers at anything.
    It runs to the continuation with the inputs as they were and each scratch buffer holding its stores, listed
    last first; those lists are found by the run itself. -/
noncomputable def kernelRun2_A (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.KI.Reg2RunB.lean ====
/- Attention region 2, the body's run at a point with `kk = 1` or `kk = 2`: one key tile is absorbed into the
   running quantities the point before left; nothing is reset and nothing is stored to the output block. -/
import proofs.«111653_j86517821215425_2_alg».proof.Proof.KI.Reg2RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk ≠ 3`: the five input blocks at their contents,
    the output block at contents `xi5` that are handed back untouched, the three scratch buffers at the contents
    `xs0`, `xs1`, `xs2` the point before left. It runs to the continuation with the inputs as they were and
    each scratch buffer holding its stores, listed last first; those lists are found by the run itself. -/
noncomputable def kernelRun2_B (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.KI.Reg2RunC.lean ====
/- Attention region 2, the body's run at a point with `kk = 3`: the last key tile is absorbed and the weighted
   sum divided by the normaliser is stored to the output block. -/
import proofs.«111653_j86517821215425_2_alg».proof.Proof.KI.Reg2RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk = 3`: the five input blocks at their contents,
    the output block at anything, the three scratch buffers at the contents `xs0`, `xs1`, `xs2` the point
    before left. It runs to the continuation with the inputs as they were and the output block and each scratch
    buffer holding their stores, listed last first; those lists are found by the run itself. -/
noncomputable def kernelRun2_C (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__cross_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2__cross_attn_kernel_eq_skeleton]; unfold cc2__cross_attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.KI.Reg2.lean ====
/- Attention region 2 (the first cross-attention call), its frame half at any contents `V` of the TensorCore's
   buffers when the region is entered.

   The grid is (batch, query tile, key tile) = (16, 2, 4), 128 points; along the last axis the kernel carries a
   running maximum `m`, a running normaliser `l` and a running weighted sum `acc` in three scratch buffers:
   reset where `kk = 0`, updated from the point's key tile at every point, and at `kk = 3` the quotient
   `acc / l` is stored to the output block. What the four buffers hold after each point is defined by
   recursion on the point (`outsAt2`), and the proof data, the body obligation and the two ends of the region's
   invariant are stated over it. Everything is generic in the float type. -/
import proofs.«111653_j86517821215425_2_alg».proof.Proof.KI.Reg2RunC
import proofs.«111653_j86517821215425_2_alg».proof.Proof.LibWholeStore
import proofs.«111653_j86517821215425_2_alg».proof.Proof.LibWholeLoad

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds the window's block at every point, whether or not the block
    was fetched there (a block is not fetched again while its index stands still): for any proof data whose
    array is `V`'s and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  refine (dat.before_in_eq_fetched 0 rfl (fun _ => rfl) (fun _ _ _ => rfl) hkeep t d).trans ?_
  unfold Dat.fetched Dat.blockOf iblk2; rw [hA]; try rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  refine (dat.before_in_eq_fetched 1 rfl (fun _ => rfl) (fun _ _ _ => rfl) hkeep t d).trans ?_
  unfold Dat.fetched Dat.blockOf iblk2; rw [hA]; try rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  refine (dat.before_in_eq_fetched 2 rfl (fun _ => rfl) (fun _ _ _ => rfl) hkeep t d).trans ?_
  unfold Dat.fetched Dat.blockOf iblk2; rw [hA]; try rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  refine (dat.before_in_eq_fetched 3 rfl (fun _ => rfl) (fun _ _ _ => rfl) hkeep t d).trans ?_
  unfold Dat.fetched Dat.blockOf iblk2; rw [hA]; try rfl

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  refine (dat.before_in_eq_fetched 4 rfl (fun _ => rfl) (fun _ _ _ => rfl) hkeep t d).trans ?_
  unfold Dat.fetched Dat.blockOf iblk2; rw [hA]; try rfl

/-! ## What each case leaves in the scratch buffers and in the output block -/

/-- At a point with `kk = 0` the stores into the running maximum cover it (the last one alone does). -/
theorem scover2_A_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What a point with `kk = 0` leaves in the running maximum: its stores read back. -/
def sout2_A_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 hc0 hc1 x0 x1 x2 x3 x4).2.1)

/-- At a point with `kk = 0` the stores into the running normaliser cover it (the last one alone does). -/
theorem scover2_A_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What a point with `kk = 0` leaves in the running normaliser: its stores read back. -/
def sout2_A_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 hc0 hc1 x0 x1 x2 x3 x4).2.2.1)

/-- At a point with `kk = 0` the stores into the running weighted sum cover it (the last one alone does). -/
theorem scover2_A_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (y : S1024x1024.Idx) :
    ∃ pc ∈ (kernelRun2_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun2_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What a point with `kk = 0` leaves in the running weighted sum: its stores read back. -/
def sout2_A_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) : Vec F S1024x1024 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 hc0 hc1 x0 x1 x2 x3 x4).2.2.2.1)

/-- At a point with `kk = 1, 2` the stores into the running maximum cover it (the last one alone does). -/
theorem scover2_B_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 1, 2` leaves in the running maximum: its stores read back. -/
def sout2_B_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 1, 2` the stores into the running normaliser cover it (the last one alone does). -/
theorem scover2_B_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 1, 2` leaves in the running normaliser: its stores read back. -/
def sout2_B_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 1, 2` the stores into the running weighted sum cover it (the last one alone does). -/
theorem scover2_B_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 1, 2` leaves in the running weighted sum: its stores read back. -/
def sout2_B_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the stores into the running maximum cover it (the last one alone does). -/
theorem scover2_C_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 3` leaves in the running maximum: its stores read back. -/
def sout2_C_0 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 3` the stores into the running normaliser cover it (the last one alone does). -/
theorem scover2_C_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 3` leaves in the running normaliser: its stores read back. -/
def sout2_C_1 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 3` the stores into the running weighted sum cover it (the last one alone does). -/
theorem scover2_C_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 3` leaves in the running weighted sum: its stores read back. -/
def sout2_C_2 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the one store into the output block covers it. -/
theorem cover2_C_5 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1x1024x1024.Idx) :
    ∃ pc ∈ (kernelRun2_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun2_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What a point with `kk = 3` leaves in the output block: its store read back. -/
def out2_C_5 (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1x1024x1024 .f32 :=
  VO2_5.read (Elt F) (VO2_5.writes (Elt F) VO2_5.junk (kernelRun2_C c i arg3 harg3 arg4 harg4 arg5 harg5 arg6 harg6 arg7 harg7 arg8 harg8 arg9 harg9 arg10 harg10 arg11 harg11 hc0 hc1 x0 x1 x2 x3 x4 xs0 xs1 xs2).1)

/-- Where `kk ≠ 3` nothing is stored into the output block, the window is idle and its buffer is not written
    back: a placeholder that nothing consults. -/
def out2_idle_5 : Vec F S1x1024x1024 .f32 := VO2_5.read (Elt F) VO2_5.junk

/-! ## The four buffers after each point -/

/-- After a point with `kk = 0`: from the point's input blocks alone. -/
def pt2_A (c : Dev nD) (t : Fin cfg2.N) (h0 : t.val % 4 = 0) (h1 : ¬t.val % 4 = 3) : Vec F S1x1024x1024 .f32 × Vec F S1024x1 .f32 × Vec F S1024x1 .f32 × Vec F S1024x1024 .f32 :=
  (out2_idle_5,
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t))

/-- After a point with `kk = 1, 2`: from the point's input blocks and what the point before left (`p`). -/
def pt2_B (c : Dev nD) (t : Fin cfg2.N) (h0 : ¬t.val % 4 = 0) (h1 : ¬t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out2_idle_5,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2)

/-- After a point with `kk = 3`: from the point's input blocks and what the point before left (`p`). -/
def pt2_C (c : Dev nD) (t : Fin cfg2.N) (h0 : ¬t.val % 4 = 0) (h1 : t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2)

/-- THE ACCUMULATION: what the output block's staging buffer and the three scratch buffers hold after the body at
    position `n` — (output block, running maximum, running normaliser, running weighted sum) —, by recursion on
    the position: the case is read off `n` modulo 4. -/
def outsAt2 (c : Dev nD) : (n : ℕ) → n < cfg2.N → Vec F S1x1024x1024 .f32 × Vec F S1024x1 .f32 × Vec F S1024x1 .f32 × Vec F S1024x1024 .f32
  | 0, hn => pt2_A V c ⟨0, hn⟩ (Nat.zero_mod 4) (by decide : ¬(0 : ℕ) % 4 = 3)
  | n + 1, hn =>
    if h0 : (n + 1) % 4 = 0 then pt2_A V c ⟨n + 1, hn⟩ h0 (fun h => by have h' : (n + 1) % 4 = 3 := h; omega)
    else if h1 : (n + 1) % 4 = 3 then pt2_C V c ⟨n + 1, hn⟩ h0 h1 (outsAt2 c n (Nat.lt_of_succ_lt hn))
    else pt2_B V c ⟨n + 1, hn⟩ h0 h1 (outsAt2 c n (Nat.lt_of_succ_lt hn))

/-- At a point with `kk = 0`. -/
theorem outsAt2_A (c : Dev nD) (t : Fin cfg2.N) (h0 : t.val % 4 = 0) (h1 : ¬t.val % 4 = 3) :
    outsAt2 V c t.val t.isLt = pt2_A V c t h0 h1 := by
  obtain ⟨n, hn⟩ := t
  cases n with
  | zero => rfl
  | succ n => exact dif_pos h0

/-- At a point with `kk = 1, 2`: over what the point before left. -/
theorem outsAt2_B (c : Dev nD) (t : Fin cfg2.N) (h0 : ¬t.val % 4 = 0) (h1 : ¬t.val % 4 = 3) :
    outsAt2 V c t.val t.isLt = pt2_B V c t h0 h1 (outsAt2 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

/-- At a point with `kk = 3`: over what the point before left. -/
theorem outsAt2_C (c : Dev nD) (t : Fin cfg2.N) (h0 : ¬t.val % 4 = 0) (h1 : t.val % 4 = 3) :
    outsAt2 V c t.val t.isLt = pt2_C V c t h0 h1 (outsAt2 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The region's invariant -/

/-- The three scratch buffers owned whole at the scratch components of `p`, beside the unopened remainder of the
    core's scoped buffers and the generator register at some state. -/
def held2 (c : Dev nD) (p : Vec F S1x1024x1024 .f32 × Vec F S1024x1 .f32 × Vec F S1024x1 .f32 × Vec F S1024x1024 .f32) : sProp 𝕄 :=
  iprop(iprop(iprop(owns (c : Thread nD τ) scM2_0 fullShare p.2.1 ∗ owns (c : Thread nD τ) scM2_1 fullShare p.2.2.1 ∗ owns (c : Thread nD τ) scM2_2 fullShare p.2.2.2)
      ∗ Pipeline.scopedRestBut (Ix := Unit) (Name := ℕ) (U := UR sig nD τ) (Lvl := ℕ) (Val := Elt F) spec2 c [cc2_scratch0, cc2_scratch1, cc2_scratch2])
      ∗ (∃ r, prngReg c r))

/-- The invariant before position `n`: before the first point what the launch hands the region; afterwards the
    scratch buffers at what the point before left in them. -/
def PhiS2 (c : Dev nD) : (n : ℕ) → n ≤ cfg2.N → sProp 𝕄
  | 0, _ => Pipeline.ΦA spec2 c
  | n + 1, hn => held2 c (outsAt2 V c n hn)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = held2 c (outsAt2 V c n hn) := rfl

theorem PhiS2_pos (c : Dev nD) (n : ℕ) (h : n ≤ cfg2.N) (hz : n ≠ 0) :
    PhiS2 V c n h = held2 c (outsAt2 V c (n - 1) (by omega)) := by
  cases n with
  | zero => exact absurd rfl hz
  | succ n => rfl

/-! ## The proof data -/

/-- The proof data of the region on core `c`: the arrays as the region finds them; after the body at point `t`
    each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks; the point's index modulo 4 says which case it is
    in, so that case's run applies. The invariant hands the body the three scratch buffers — at anything before the
    first point, at what the point before left afterwards — and takes them back at this point's contents, each
    read back through its covering stores; the unopened scoped buffers, the generator register and what the core
    owes pass through untouched. Where `kk ≠ 3` the output window is idle and its buffer is handed back as found;
    where `kk = 3` it is taken back at the stored quotient. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬t.val % 4 = 3 := by omega
    have hn1 : ¬cond2_1 (grid2.coords t) := fun h => h1 ((hcond2_1 t).mp h)
    rw [Dat.leavesExact_idle (dat2 V c) 5 t (idleAt2_5 t hn1) (noFlush2_5 t hn1)]
    rw [outsAt2_A V c t h0 h1]
    unfold held2 pt2_A sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold held2 pt2_C out2_C_5 sout2_C_0 sout2_C_1 sout2_C_2; (try dsimp only)
      rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover2_C_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _ _ _ _ _ _ _)
    · have hn1 : ¬cond2_1 (grid2.coords t) := fun h => h1 ((hcond2_1 t).mp h)
      rw [Dat.leavesExact_idle (dat2 V c) 5 t (idleAt2_5 t hn1) (noFlush2_5 t hn1)]
      rw [outsAt2_B V c t h0 h1]
      unfold held2 pt2_B sout2_B_0 sout2_B_1 sout2_B_2; (try dsimp only)
      rw [PhiS2_castSucc V c t, PhiS2_pos V c _ _ hz]; unfold held2
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two ends of the invariant -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold held2
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region2

end Cert.KernelIdeal.Gen

end
-- ==== Proof.KI.Reg3Runs.lean ====
/- Attention region 3 (the second cross-attention call): what its three case runs share. The kernel's two
   conditionals depend on the key-tile coordinate `kk` alone: the first is taken when `kk = 0` (the running
   maximum, normaliser and weighted sum are reset), the second when `kk = 3` (the normalised sum is stored to
   the output block). Over the 128 grid points, `kk` is the point's index modulo 4. -/
import proofs.«111653_j86517821215425_2_alg».proof.Proof.Gen.KernelIdeal.Launch
import proofs.«111653_j86517821215425_2_alg».proof.Proof.Gen.KernelIdeal.Skeleton
import proofs.«111653_j86517821215425_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the grid -/

/-- The first conditional's condition (`kk = 0`), as the kernel computes it from the grid coordinates. -/
abbrev cond3_0 (i : grid3.Coords) : Prop :=
  (Scalar.cmpi .ne (Scalar.extui (Scalar.cmpi .eq (BitVec.ofNat 32 (i 2).val) 0#32)) 0#32) = 1#1
/-- It holds exactly at the points whose index is 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (`kk = 3`). -/
abbrev cond3_1 (i : grid3.Coords) : Prop := k3_cond2 i = 1#1
/-- It holds exactly at the points whose index is 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The five input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Where `kk ≠ 3` the output window is idle, and its block is not written back. -/
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
/-- Where `kk = 3` it is live. -/
theorem liveAt3_5 : ∀ t : Fin cfg3.N, cond3_1 (grid3.coords t) → cfg3.idle 5 (grid3.coords t) = false := by decide +kernel

/-! ## The memrefs the body is called with -/

/-- One staging buffer of the output window, through which its contents are stated (which one does not matter). -/
abbrev VO3_5 : View sig .tc .vmem S1x1024x1024 .f32 := (Memref.whole cc3_stg5_0 : Memref sig .tc .vmem S1x1024x1024 .f32).view
/-- Each window's current staging memref at point `t`, and its wholeness. -/
abbrev ms3_0 (t : Fin cfg3.N) : Memref sig .tc .vmem S1x1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1024x1024 .f32 := win3_5.stage (cfg3.slots t 5)
abbrev hs3_5 (t : Fin cfg3.N) : (ms3_5 t).IsWhole := hstage3_5 ((cfg3.slots t 5).cast nbuf3_5)
/-- The three scratch operands: the running maximum, the running normaliser, the running weighted sum. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x1024 .f32 := Memref.whole cc3_scratch2
/-- The same as views: what each holds is stated through its view. -/
abbrev VS3_0 : View sig .tc .vmem S1024x1 .f32 := scM3_0.view
abbrev VS3_1 : View sig .tc .vmem S1024x1 .f32 := scM3_1.view
abbrev VS3_2 : View sig .tc .vmem S1024x1024 .f32 := scM3_2.view

/-- What the launch hands the region, opened at the call's own three scratch buffers: each owned whole at some
    contents, every other scoped buffer left in one unopened remainder, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2])
          ∗ (∃ r, prngReg c r)) := by
  unfold Pipeline.ΦA; rw [scopedRest3_split]; simp only [scM3_0, scM3_1, scM3_2, owns_whole]; try rfl

end Cert.KernelIdeal.Gen

end
-- ==== Proof.KI.Reg3RunA.lean ====
/- Attention region 3, the body's run at a point with `kk = 0`: the three running quantities are reset, one
   key tile is absorbed, nothing is stored to the output block. -/
import proofs.«111653_j86517821215425_2_alg».proof.Proof.KI.Reg3Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk = 0` and `kk ≠ 3`: the five input blocks at their contents,
    the output block at contents `xi5` that are handed back untouched, the three scratch buffers at anything.
    It runs to the continuation with the inputs as they were and each scratch buffer holding its stores, listed
    last first; those lists are found by the run itself. -/
noncomputable def kernelRun3_A (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.KI.Reg3RunB.lean ====
/- Attention region 3, the body's run at a point with `kk = 1` or `kk = 2`: one key tile is absorbed into the
   running quantities the point before left; nothing is reset and nothing is stored to the output block. -/
import proofs.«111653_j86517821215425_2_alg».proof.Proof.KI.Reg3RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk ≠ 3`: the five input blocks at their contents,
    the output block at contents `xi5` that are handed back untouched, the three scratch buffers at the contents
    `xs0`, `xs1`, `xs2` the point before left. It runs to the continuation with the inputs as they were and
    each scratch buffer holding its stores, listed last first; those lists are found by the run itself. -/
noncomputable def kernelRun3_B (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Gen

end
-- ==== Proof.KI.Reg3RunC.lean ====
/- Attention region 3, the body's run at a point with `kk = 3`: the last key tile is absorbed and the weighted
   sum divided by the normaliser is stored to the output block. -/
import proofs.«111653_j86517821215425_2_alg».proof.Proof.KI.Reg3RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs at a point where `kk ≠ 0` and `kk = 3`: the five input blocks at their contents,
    the output block at anything, the three scratch buffers at the contents `xs0`, `xs1`, `xs2` the point
    before left. It runs to the continuation with the inputs as they were and the output block and each scratch
    buffer holding their stores, listed last first; those lists are found by the run itself. -/
noncomputable def kernelRun3_C (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc3__cross_attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc3__cross_attn_kernel_eq_skeleton]; unfold cc3__cross_attn_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Gen

end
-- ==== Proof.KI.Reg3.lean ====
/- Attention region 3 (the second cross-attention call), its frame half at any contents `V` of the TensorCore's
   buffers when the region is entered.

   The grid is (batch, query tile, key tile) = (16, 2, 4), 128 points; along the last axis the kernel carries a
   running maximum `m`, a running normaliser `l` and a running weighted sum `acc` in three scratch buffers:
   reset where `kk = 0`, updated from the point's key tile at every point, and at `kk = 3` the quotient
   `acc / l` is stored to the output block. What the four buffers hold after each point is defined by
   recursion on the point (`outsAt3`), and the proof data, the body obligation and the two ends of the region's
   invariant are stated over it. Everything is generic in the float type. -/
import proofs.«111653_j86517821215425_2_alg».proof.Proof.KI.Reg3RunC
import proofs.«111653_j86517821215425_2_alg».proof.Proof.LibWholeStore
import proofs.«111653_j86517821215425_2_alg».proof.Proof.LibWholeLoad

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds the window's block at every point, whether or not the block
    was fetched there (a block is not fetched again while its index stands still): for any proof data whose
    array is `V`'s and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  refine (dat.before_in_eq_fetched 1 rfl (fun _ => rfl) (fun _ _ _ => rfl) hkeep t d).trans ?_
  unfold Dat.fetched Dat.blockOf iblk3; rw [hA]; try rfl

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hkeep : ∀ t, (cfg3.win 2).cut (cfg3.grid.coords t) (dat.after 2 t) = dat.blockOf 2 t := fun t => by
    rw [hafter]; unfold Dat.blockOf iblk3; rw [hA]; try rfl
  refine (dat.before_in_eq_fetched 2 rfl (fun _ => rfl) (fun _ _ _ => rfl) hkeep t d).trans ?_
  unfold Dat.fetched Dat.blockOf iblk3; rw [hA]; try rfl

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hkeep : ∀ t, (cfg3.win 3).cut (cfg3.grid.coords t) (dat.after 3 t) = dat.blockOf 3 t := fun t => by
    rw [hafter]; unfold Dat.blockOf iblk3; rw [hA]; try rfl
  refine (dat.before_in_eq_fetched 3 rfl (fun _ => rfl) (fun _ _ _ => rfl) hkeep t d).trans ?_
  unfold Dat.fetched Dat.blockOf iblk3; rw [hA]; try rfl

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hkeep : ∀ t, (cfg3.win 4).cut (cfg3.grid.coords t) (dat.after 4 t) = dat.blockOf 4 t := fun t => by
    rw [hafter]; unfold Dat.blockOf iblk3; rw [hA]; try rfl
  refine (dat.before_in_eq_fetched 4 rfl (fun _ => rfl) (fun _ _ _ => rfl) hkeep t d).trans ?_
  unfold Dat.fetched Dat.blockOf iblk3; rw [hA]; try rfl

/-! ## What each case leaves in the scratch buffers and in the output block -/

/-- At a point with `kk = 0` the stores into the running maximum cover it (the last one alone does). -/
theorem scover3_A_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What a point with `kk = 0` leaves in the running maximum: its stores read back. -/
def sout3_A_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 arg10 harg10 arg11 harg11 hc0 hc1 x0 x1 x2 x3 x4).2.1)

/-- At a point with `kk = 0` the stores into the running normaliser cover it (the last one alone does). -/
theorem scover3_A_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What a point with `kk = 0` leaves in the running normaliser: its stores read back. -/
def sout3_A_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 arg10 harg10 arg11 harg11 hc0 hc1 x0 x1 x2 x3 x4).2.2.1)

/-- At a point with `kk = 0` the stores into the running weighted sum cover it (the last one alone does). -/
theorem scover3_A_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (y : S1024x1024.Idx) :
    ∃ pc ∈ (kernelRun3_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun3_A c i arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

/-- What a point with `kk = 0` leaves in the running weighted sum: its stores read back. -/
def sout3_A_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) : Vec F S1024x1024 .f32 :=
  VS3_2.read (Elt F) (VS3_2.writes (Elt F) VS3_2.junk (kernelRun3_A c i arg3 harg3 arg4 harg4 arg5 harg5 arg6 harg6 arg7 harg7 arg8 harg8 arg9 harg9 arg10 harg10 arg11 harg11 hc0 hc1 x0 x1 x2 x3 x4).2.2.2.1)

/-- At a point with `kk = 1, 2` the stores into the running maximum cover it (the last one alone does). -/
theorem scover3_B_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 1, 2` leaves in the running maximum: its stores read back. -/
def sout3_B_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 1, 2` the stores into the running normaliser cover it (the last one alone does). -/
theorem scover3_B_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 1, 2` leaves in the running normaliser: its stores read back. -/
def sout3_B_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 1, 2` the stores into the running weighted sum cover it (the last one alone does). -/
theorem scover3_B_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 1, 2` leaves in the running weighted sum: its stores read back. -/
def sout3_B_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_B c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the stores into the running maximum cover it (the last one alone does). -/
theorem scover3_C_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.1 S1024x1.size (by sl_kernel_rfl) y

/-- What a point with `kk = 3` leaves in the running maximum: its stores read back. -/
def sout3_C_0 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_0.read (Elt F) (VS3_0.writes (Elt F) VS3_0.junk (kernelRun3_C c i arg3 harg3 arg4 harg4 arg5 harg5 arg6 harg6 arg7 harg7 arg8 harg8 arg9 harg9 arg10 harg10 arg11 harg11 hc0 hc1 x0 x1 x2 x3 x4 xs0 xs1 xs2).2.1)

/-- At a point with `kk = 3` the stores into the running normaliser cover it (the last one alone does). -/
theorem scover3_C_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.1 S1024x1.size (by sl_kernel_rfl) y

/-- What a point with `kk = 3` leaves in the running normaliser: its stores read back. -/
def sout3_C_1 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1 .f32 :=
  VS3_1.read (Elt F) (VS3_1.writes (Elt F) VS3_1.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.1)

/-- At a point with `kk = 3` the stores into the running weighted sum cover it (the last one alone does). -/
theorem scover3_C_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1024x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1 S1024x1024.size (by sl_kernel_rfl) y

/-- What a point with `kk = 3` leaves in the running weighted sum: its stores read back. -/
def sout3_C_2 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1024x1024 .f32 :=
  VS3_2.read (Elt F) (VS3_2.writes (Elt F) VS3_2.junk (kernelRun3_C c i arg3 harg3 arg4 harg4 arg5 harg5 arg6 harg6 arg7 harg7 arg8 harg8 arg9 harg9 arg10 harg10 arg11 harg11 hc0 hc1 x0 x1 x2 x3 x4 xs0 xs1 xs2).2.2.2.1)

/-- At a point with `kk = 3` the one store into the output block covers it. -/
theorem cover3_C_5 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) (y : S1x1024x1024.Idx) :
    ∃ pc ∈ (kernelRun3_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun3_C c i arg3 harg3 arg4 harg4 arg5 harg5 arg6 harg6 arg7 harg7 arg8 harg8 arg9 harg9 arg10 harg10 arg11 harg11 hc0 hc1 x0 x1 x2 x3 x4 xs0 xs1 xs2).1 S1x1024x1024.size (by sl_kernel_rfl) y

/-- What a point with `kk = 3` leaves in the output block: its store read back. -/
def out3_C_5 (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) : Vec F S1x1024x1024 .f32 :=
  VO3_5.read (Elt F) (VO3_5.writes (Elt F) VO3_5.junk (kernelRun3_C c i arg3 harg3 arg4 harg4 arg5 harg5 arg6 harg6 arg7 harg7 arg8 harg8 arg9 harg9 arg10 harg10 arg11 harg11 hc0 hc1 x0 x1 x2 x3 x4 xs0 xs1 xs2).1)

/-- Where `kk ≠ 3` nothing is stored into the output block, the window is idle and its buffer is not written
    back: a placeholder that nothing consults. -/
def out3_idle_5 : Vec F S1x1024x1024 .f32 := VO3_5.read (Elt F) VO3_5.junk

/-! ## The four buffers after each point -/

/-- After a point with `kk = 0`: from the point's input blocks alone. -/
def pt3_A (c : Dev nD) (t : Fin cfg3.N) (h0 : t.val % 4 = 0) (h1 : ¬t.val % 4 = 3) : Vec F S1x1024x1024 .f32 × Vec F S1024x1 .f32 × Vec F S1024x1 .f32 × Vec F S1024x1024 .f32 :=
  (out3_idle_5,
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
   sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))

/-- After a point with `kk = 1, 2`: from the point's input blocks and what the point before left (`p`). -/
def pt3_B (c : Dev nD) (t : Fin cfg3.N) (h0 : ¬t.val % 4 = 0) (h1 : ¬t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out3_idle_5,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2,
   sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) p.2.1 p.2.2.1 p.2.2.2)

/-- After a point with `kk = 3`: from the point's input blocks and what the point before left (`p`). -/
def pt3_C (c : Dev nD) (t : Fin cfg3.N) (h0 : ¬t.val % 4 = 0) (h1 : t.val % 4 = 3) (p : Vec F S1x1024x1024 .f32 × Vec F S1024x1 .f32 × Vec F S1024x1 .f32 × Vec F S1024x1024 .f32) : Vec F S1x1024x1024 .f32 × Vec F S1024x1 .f32 × Vec F S1024x1 .f32 × Vec F S1024x1024 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2,
   sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) p.2.1 p.2.2.1 p.2.2.2)

/-- THE ACCUMULATION: what the output block's staging buffer and the three scratch buffers hold after the body at
    position `n` — (output block, running maximum, running normaliser, running weighted sum) —, by recursion on
    the position: the case is read off `n` modulo 4. -/
def outsAt3 (c : Dev nD) : (n : ℕ) → n < cfg3.N → Vec F S1x1024x1024 .f32 × Vec F S1024x1 .f32 × Vec F S1024x1 .f32 × Vec F S1024x1024 .f32
  | 0, hn => pt3_A V c ⟨0, hn⟩ (Nat.zero_mod 4) (by decide : ¬(0 : ℕ) % 4 = 3)
  | n + 1, hn =>
    if h0 : (n + 1) % 4 = 0 then pt3_A V c ⟨n + 1, hn⟩ h0 (fun h => by have h' : (n + 1) % 4 = 3 := h; omega)
    else if h1 : (n + 1) % 4 = 3 then pt3_C V c ⟨n + 1, hn⟩ h0 h1 (outsAt3 c n (Nat.lt_of_succ_lt hn))
    else pt3_B V c ⟨n + 1, hn⟩ h0 h1 (outsAt3 c n (Nat.lt_of_succ_lt hn))

/-- At a point with `kk = 0`. -/
theorem outsAt3_A (c : Dev nD) (t : Fin cfg3.N) (h0 : t.val % 4 = 0) (h1 : ¬t.val % 4 = 3) :
    outsAt3 V c t.val t.isLt = pt3_A V c t h0 h1 := by
  obtain ⟨n, hn⟩ := t
  cases n with
  | zero => rfl
  | succ n => exact dif_pos h0

/-- At a point with `kk = 1, 2`: over what the point before left. -/
theorem outsAt3_B (c : Dev nD) (t : Fin cfg3.N) (h0 : ¬t.val % 4 = 0) (h1 : ¬t.val % 4 = 3) :
    outsAt3 V c t.val t.isLt = pt3_B V c t h0 h1 (outsAt3 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

/-- At a point with `kk = 3`: over what the point before left. -/
theorem outsAt3_C (c : Dev nD) (t : Fin cfg3.N) (h0 : ¬t.val % 4 = 0) (h1 : t.val % 4 = 3) :
    outsAt3 V c t.val t.isLt = pt3_C V c t h0 h1 (outsAt3 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The region's invariant -/

/-- The three scratch buffers owned whole at the scratch components of `p`, beside the unopened remainder of the
    core's scoped buffers and the generator register at some state. -/
def held3 (c : Dev nD) (p : Vec F S1x1024x1024 .f32 × Vec F S1024x1 .f32 × Vec F S1024x1 .f32 × Vec F S1024x1024 .f32) : sProp 𝕄 :=
  iprop(iprop(iprop(owns (c : Thread nD τ) scM3_0 fullShare p.2.1 ∗ owns (c : Thread nD τ) scM3_1 fullShare p.2.2.1 ∗ owns (c : Thread nD τ) scM3_2 fullShare p.2.2.2)
      ∗ Pipeline.scopedRestBut (Ix := Unit) (Name := ℕ) (U := UR sig nD τ) (Lvl := ℕ) (Val := Elt F) spec3 c [cc3_scratch0, cc3_scratch1, cc3_scratch2])
      ∗ (∃ r, prngReg c r))

/-- The invariant before position `n`: before the first point what the launch hands the region; afterwards the
    scratch buffers at what the point before left in them. -/
def PhiS3 (c : Dev nD) : (n : ℕ) → n ≤ cfg3.N → sProp 𝕄
  | 0, _ => Pipeline.ΦA spec3 c
  | n + 1, hn => held3 c (outsAt3 V c n hn)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = held3 c (outsAt3 V c n hn) := rfl

theorem PhiS3_pos (c : Dev nD) (n : ℕ) (h : n ≤ cfg3.N) (hz : n ≠ 0) :
    PhiS3 V c n h = held3 c (outsAt3 V c (n - 1) (by omega)) := by
  cases n with
  | zero => exact absurd rfl hz
  | succ n => rfl

/-! ## The proof data -/

/-- The proof data of the region on core `c`: the arrays as the region finds them; after the body at point `t`
    each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point. The inputs' buffers hold their blocks; the point's index modulo 4 says which case it is
    in, so that case's run applies. The invariant hands the body the three scratch buffers — at anything before the
    first point, at what the point before left afterwards — and takes them back at this point's contents, each
    read back through its covering stores; the unopened scoped buffers, the generator register and what the core
    owes pass through untouched. Where `kk ≠ 3` the output window is idle and its buffer is handed back as found;
    where `kk = 3` it is taken back at the stored quotient. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · have h1 : ¬t.val % 4 = 3 := by omega
    have hn1 : ¬cond3_1 (grid3.coords t) := fun h => h1 ((hcond3_1 t).mp h)
    rw [Dat.leavesExact_idle (dat3 V c) 5 t (idleAt3_5 t hn1) (noFlush3_5 t hn1)]
    rw [outsAt3_A V c t h0 h1]
    unfold held3 pt3_A sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold held3 pt3_C out3_C_5 sout3_C_0 sout3_C_1 sout3_C_2; (try dsimp only)
      rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _ _ _ _ _ _ _)
    · have hn1 : ¬cond3_1 (grid3.coords t) := fun h => h1 ((hcond3_1 t).mp h)
      rw [Dat.leavesExact_idle (dat3 V c) 5 t (idleAt3_5 t hn1) (noFlush3_5 t hn1)]
      rw [outsAt3_B V c t h0 h1]
      unfold held3 pt3_B sout3_B_0 sout3_B_1 sout3_B_2; (try dsimp only)
      rw [PhiS3_castSucc V c t, PhiS3_pos V c _ _ hz]; unfold held3
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the launch handed over: the scratch buffers' named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  unfold held3
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout3 (c : Dev nD) : (dat3 V c).Φ (Fin.last cfg3.N) ⊢ Pipeline.ΦA spec3 c :=
  Phi_out3 V c _ (by rw [Fin.val_last]; have : cfg3.N = 128 := N_3; omega)

end Region3

end Cert.KernelIdeal.Gen

end
-- ==== Proof.KI.Stitch.lean ====
/-
  The whole program as one run.

  @main is six items in order: the host operations that prepare the two projections' operands, the two projection
  calls, the host operations that reshape their results and transpose the masks, and the two attention calls. Between
  two items every unscoped buffer of a core holds known contents: the launch memory, then what a stretch of host
  operations computes from them, then — after a call — the call's windows' arrays at what its write-backs leave and
  every other buffer untouched. The run below follows the six items and ends with every unscoped buffer at the last of
  these contents, from which both the unchanged arguments and the two results are read.
-/
import proofs.«111653_j86517821215425_2_alg».proof.Proof.KI.Reg0
import proofs.«111653_j86517821215425_2_alg».proof.Proof.KI.Reg1
import proofs.«111653_j86517821215425_2_alg».proof.Proof.KI.Reg2
import proofs.«111653_j86517821215425_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- A core's buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After call 0: its windows' arrays at what the write-backs leave, every other buffer as the call found it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After call 1: its windows' arrays at what the write-backs leave, every other buffer as the call found it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same at the TensorCore's references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second stretch of host operations. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After call 2: its windows' arrays at what the write-backs leave, every other buffer as the call found it. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After call 3: its windows' arrays at what the write-backs leave, every other buffer as the call found it. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same at the TensorCore's references. -/
abbrev V6 : (c : Dev nD) → (b : Ref sig .tc) → Buf (Elt F) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The proof data of the four calls and what rides along -/

/-- No call has a prefetched table. -/
abbrev adm : (p : Fin 4) → (pcfgs (F := F) p).Adm := fun p => (cfgs p).toPCfg_adm
/-- Each call's proof data at the contents it is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
  | ⟨3, _⟩ => fun c => dat3 (V5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped reference is among those a core's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W6 m c) ∗ ∃ r, prngReg c r)

/-! ## The four calls as segments -/

set_option backward.isDefEq.respectTransparency.types false in
/-- Call 0 as a segment of @main: entered with every unscoped buffer at `W1`, left with them at `W2`. Its
    windows' arrays are split out of the unscoped buffers on entry and put back, at what the write-backs leave, on exit;
    the generator register goes into the pipeline's invariant and comes back; nothing is owed; the call has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `W2`, left with them at `W3`. Its
    windows' arrays are split out of the unscoped buffers on entry and put back, at what the write-backs leave, on exit;
    the generator register goes into the pipeline's invariant and comes back; nothing is owed; the call has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at `W4`, left with them at `W5`. Its
    windows' arrays are split out of the unscoped buffers on entry and put back, at what the write-backs leave, on exit;
    the generator register goes into the pipeline's invariant and comes back; nothing is owed; the call has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of @main: entered with every unscoped buffer at `W5`, left with them at `W6`. Its
    windows' arrays are split out of the unscoped buffers on entry and put back, at what the write-backs leave, on exit;
    the generator register goes into the pipeline's invariant and comes back; nothing is owed; the call has no
    semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V5 m) c).Φ 0 from rfl]
    have h := hin3 (V5 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V5 m) c).Φ (Fin.last cfg3.N) from rfl]
    have h := hout3 (V5 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)),
    .region (reg2 m),
    .region (reg3 m) ]
theorem main_run (c : Dev nD) : main (F := F) c = Pipeline.Seg.run (segs m) :=
  main_segs adm (pdats m) () 𝒱₀ L lv _ _ (reg0 m) (reg1 m) (reg2 m) (reg3 m) rfl rfl c

set_option backward.isDefEq.respectTransparency.types false in
/-- From any memory with zero counters every weakly fair execution of @main on the TensorCores terminates, nothing
    faulting, and in every final state every unscoped buffer of every core holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Gen

end
-- ==== Proof.KI.Ends.lean ====
/-
  Reading the ends of the whole-program run.

  The run of @main's six items ends with every unscoped buffer of a core at the last of the contents `W0 … W6`. Each
  of these is the one before it changed by one item: a stretch of host operations changes only the buffers its
  operations write, and a call changes only its windows' arrays — an input window's array not at all. Walking back from
  `W6` through the six items, an argument's buffer is found at its launch contents, a result's buffer at what the write-backs
  of the call that produces it leave, and a call's operands at what the earlier items left there.
-/
import proofs.«111653_j86517821215425_2_alg».proof.Proof.KI.Stitch

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What the two host stretches write -/

/-- The references the first stretch of host operations writes. -/
abbrev host0_W : List (Ref sig .tc) := [main_v0, main_v1, main_v2, main_v3, main_v4, main_v5, main_v6, main_v7, main_v8, main_v9, main_v10, main_v11]
theorem host0_writes : (hostOps0 : List (HloOp τ sig (Elt F))).Forall fun op => op.writes ⊆ (host0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)
/-- The references the second stretch of host operations writes. -/
abbrev host2_W : List (Ref sig .tc) := [main_v14, main_v15, main_v16, main_v17, main_v18, main_v19]
theorem host2_writes : (hostOps2 : List (HloOp τ sig (Elt F))).Forall fun op => op.writes ⊆ (host2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)

/-- A host stretch leaves a buffer it does not write. -/
theorem W1_of (c : Dev nD) (r : Ref sig .tc) (h : r ∉ host0_W) : W1 m c (Proc.devRef .tc r) = W0 m c (Proc.devRef .tc r) :=
  StableHlo.after_of_writes_sub hostOps0 _ host0_writes h
theorem W4_of (c : Dev nD) (r : Ref sig .tc) (h : r ∉ host2_W) : W4 m c (Proc.devRef .tc r) = W3 m c (Proc.devRef .tc r) :=
  StableHlo.after_of_writes_sub hostOps2 _ host2_writes h

/-! ## The arguments end as launched -/

/-- An argument that is no call's window: no item touches it. -/
theorem W6_of_untouched (c : Dev nD) (r : Ref sig .tc) (h3 : ∀ w, Pipeline.arrRef spec3 w ≠ r) (h2 : ∀ w, Pipeline.arrRef spec2 w ≠ r)
    (hh2 : r ∉ host2_W) (h1 : ∀ w, Pipeline.arrRef spec1 w ≠ r) (h0 : ∀ w, Pipeline.arrRef spec0 w ≠ r) (hh0 : r ∉ host0_W) :
    W6 m c (Proc.devRef .tc r) = m ((c : Thread nD τ).loc r) :=
  calc W6 m c (Proc.devRef .tc r)
    _ = W5 m c (Proc.devRef .tc r) := W6_of_ne m c r h3
    _ = W4 m c (Proc.devRef .tc r) := W5_of_ne m c r h2
    _ = W3 m c (Proc.devRef .tc r) := W4_of m c r hh2
    _ = W2 m c (Proc.devRef .tc r) := W3_of_ne m c r h1
    _ = W1 m c (Proc.devRef .tc r) := W2_of_ne m c r h0
    _ = W0 m c (Proc.devRef .tc r) := W1_of m c r hh0
    _ = m ((c : Thread nD τ).loc r) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide)
theorem W6_main_arg7 (c : Dev nD) : W6 m c (Proc.devRef .tc main_arg7) = m ((c : Thread nD τ).loc main_arg7) :=
  W6_of_untouched m c main_arg7 (by decide) (by decide) (by decide) (by decide) (by decide) (by decide)
theorem W6_main_arg8 (c : Dev nD) : W6 m c (Proc.devRef .tc main_arg8) = m ((c : Thread nD τ).loc main_arg8) :=
  W6_of_untouched m c main_arg8 (by decide) (by decide) (by decide) (by decide) (by decide) (by decide)

/-- The two masks that a call reads through a window reach that call as launched: the items before it neither write
    them nor have them as a window. -/
theorem W3_main_arg1 (c : Dev nD) : W3 m c (Proc.devRef .tc main_arg1) = W0 m c (Proc.devRef .tc main_arg1) :=
  (W3_of_ne m c main_arg1 (by decide)).trans <| (W2_of_ne m c main_arg1 (by decide)).trans (W1_of m c main_arg1 (by decide))
theorem W3_main_arg3 (c : Dev nD) : W3 m c (Proc.devRef .tc main_arg3) = W0 m c (Proc.devRef .tc main_arg3) :=
  (W3_of_ne m c main_arg3 (by decide)).trans <| (W2_of_ne m c main_arg3 (by decide)).trans (W1_of m c main_arg3 (by decide))
theorem W4_main_arg1 (c : Dev nD) : W4 m c (Proc.devRef .tc main_arg1) = W0 m c (Proc.devRef .tc main_arg1) :=
  (W4_of m c main_arg1 (by decide)).trans (W3_main_arg1 m c)
theorem W4_main_arg3 (c : Dev nD) : W4 m c (Proc.devRef .tc main_arg3) = W0 m c (Proc.devRef .tc main_arg3) :=
  (W4_of m c main_arg3 (by decide)).trans (W3_main_arg3 m c)

/-- Call 2 leaves its input windows' arrays as it found them. -/
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (V4 m) c).arrAt_in w hin _).trans (A_eq2 (V4 m) c w))
/-- Call 3 leaves its input windows' arrays as it found them. -/
theorem W6_in (c : Dev nD) (w : Fin cfg3.W) (hin : (cfg3.win w).isOut = false) :
    W6 m c (Proc.devRef .tc (Pipeline.arrRef spec3 w)) = W5 m c (Proc.devRef .tc (Pipeline.arrRef spec3 w)) :=
  (W6_arr m c w).trans (((dat3 (V5 m) c).arrAt_in w hin _).trans (A_eq3 (V5 m) c w))

/-- The first mask is an input window of call 2 and no window of call 3. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_in m c 3 rfl
    _ = W0 m c (Proc.devRef .tc main_arg1) := W4_main_arg1 m c
    _ = m ((c : Thread nD τ).loc main_arg1) := rfl
/-- The second mask is no window of call 2 and an input window of call 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_in m c 3 rfl
    _ = W4 m c (Proc.devRef .tc main_arg3) := W5_of_ne m c main_arg3 (by decide)
    _ = W0 m c (Proc.devRef .tc main_arg3) := W4_main_arg3 m c
    _ = m ((c : Thread nD τ).loc main_arg3) := rfl

/-! ## The results -/

/-- The second result is the output window of call 3. -/
theorem W6_main_v21 (c : Dev nD) : W6 m c (Proc.devRef .tc main_v21) = (dat3 (V5 m) c).arrAt 5 cfg3.N :=
  W6_arr m c 5
/-- The first result is the output window of call 2, and no window of call 3. -/
theorem W6_main_v20 (c : Dev nD) : W6 m c (Proc.devRef .tc main_v20) = (dat2 (V4 m) c).arrAt 5 cfg2.N :=
  (W6_of_ne m c main_v20 (by decide)).trans (W5_arr m c 5)

/-! ## What each call is entered with -/

/-- Call 0's two outputs, untouched by call 1. -/
theorem W3_main_v12_0 (c : Dev nD) : W3 m c (Proc.devRef .tc main_v12_0) = (dat0 (V1 m) c).arrAt 3 cfg0.N :=
  (W3_of_ne m c main_v12_0 (by decide)).trans (W2_arr m c 3)
theorem W3_main_v12_1 (c : Dev nD) : W3 m c (Proc.devRef .tc main_v12_1) = (dat0 (V1 m) c).arrAt 4 cfg0.N :=
  (W3_of_ne m c main_v12_1 (by decide)).trans (W2_arr m c 4)
/-- Call 1's two outputs. -/
theorem W3_main_v13_0 (c : Dev nD) : W3 m c (Proc.devRef .tc main_v13_0) = (dat1 (V2 m) c).arrAt 3 cfg1.N :=
  W3_arr m c 3
theorem W3_main_v13_1 (c : Dev nD) : W3 m c (Proc.devRef .tc main_v13_1) = (dat1 (V2 m) c).arrAt 4 cfg1.N :=
  W3_arr m c 4

/-- Call 0 touches none of call 1's operands. -/
theorem V2_main_v11 (c : Dev nD) : V2 m c main_v11 = V1 m c main_v11 := W2_of_ne m c main_v11 (by decide)
theorem V2_main_v5 (c : Dev nD) : V2 m c main_v5 = V1 m c main_v5 := W2_of_ne m c main_v5 (by decide)
theorem V2_main_v9 (c : Dev nD) : V2 m c main_v9 = V1 m c main_v9 := W2_of_ne m c main_v9 (by decide)

/-- Call 2 leaves call 3's operands: two of them are input windows of its own, the others no window of it. -/
theorem V5_main_v15 (c : Dev nD) : V5 m c main_v15 = V4 m c main_v15 := W5_in m c 1 rfl
theorem V5_main_v14 (c : Dev nD) : V5 m c main_v14 = V4 m c main_v14 := W5_in m c 0 rfl
theorem V5_main_v16 (c : Dev nD) : V5 m c main_v16 = V4 m c main_v16 := W5_of_ne m c main_v16 (by decide)
theorem V5_main_arg3 (c : Dev nD) : V5 m c main_arg3 = V4 m c main_arg3 := W5_of_ne m c main_arg3 (by decide)
theorem V5_main_v18 (c : Dev nD) : V5 m c main_v18 = V4 m c main_v18 := W5_of_ne m c main_v18 (by decide)

/-! ## The frame, and the run with its results -/

/-- From any memory with zero counters every weakly fair execution of @main terminates, nothing faulting, and every
    final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

/-- The same run read at the two results as well: each holds what the write-backs of the call producing it leave. -/
theorem run_results : θ_run defs (onTc (τ := τ) (main (F := F))) ⟨m, fun _ => 0, ρ⟩ (fun r => ∀ c : Dev nD,
      r.2.mem ((c.tc : Thread nD τ).loc main_v21) = (dat3 (V5 m) c).arrAt 5 cfg3.N
      ∧ r.2.mem ((c.tc : Thread nD τ).loc main_v20) = (dat2 (V4 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v21 (by decide))).trans (W6_main_v21 m c),
     (h c _ (mem_uc main_v20 (by decide))).trans (W6_main_v20 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

end Cert.KernelIdeal.Gen

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.PayProj.lean ====
/-
  The projection kernel's two stored values, read at coordinates over the extended reals.

  The kernel stores the input block unchanged (a change of float format is the identity on extended reals) and the
  dense layer with a rectifier: at row `r` and output column `h`, `max (∑ d, x (r, d) · w (d, h) + b (0, h)) 0`.
-/
import proofs.«111653_j86517821215425_2_alg».proof.Proof.Gen.KernelIdeal.Skeleton
import proofs.«111653_j86517821215425_2_alg».proof.Proof.LibPlain
import Idealize.ShloMosaic.Lib.ValueLayout

noncomputable section

namespace Cert.Pay

open Idealize.ShloMosaic Idealize.ShloMosaic.ValueIdx Cert.KernelIdeal Cert.KernelIdeal.Gen

/-- The copied input block: the block itself. -/
theorem k0_pay1_apply (x0 : Vec Ideal S1024x1024 .f32) (r d : Fin 1024) :
    k0_pay1 x0 (ix2 r d) = x0 (ix2 r d) := by
  unfold k0_pay1
  rw [truncf_apply, shapeCast_self]

/-- The dense layer with a rectifier at `(r, h)`. -/
theorem k0_pay2_apply (x0 : Vec Ideal S1024x1024 .f32) (x4 : Vec Ideal S1024x512 .bf16) (x7 : Vec Ideal S1x512 .f32)
    (r : Fin 1024) (h : Fin 512) :
    k0_pay2 x0 x4 x7 (ix2 r h)
      = max ((∑ d : Fin 1024, x0 (ix2 r d) * x4 (ix2 d h)) + x7 (ix2 (0 : Fin 1) h)) 0 := by
  unfold k0_pay2
  rw [truncf_apply, maximumf_apply, addf_apply, broadcast_apply]
  rw [Cert.LibPlain.matmul_zero_apply dot_S1024x1024_S1024x512_S1024x512_1_0_0_1_n_n rfl none _ _ r h]
  rw [broadcastTo_1b_ab_apply, shapeCast_self, shapeCast_self]
  refine congrArg₂ max (congrArg (· + _) (Finset.sum_congr rfl fun d _ => ?_)) Ideal.ofBits_zero_f32
  rw [k0_pay1_apply]

/-- The same two for the second projection (the same program text).
    The copied input block: the block itself. -/
theorem k1_pay1_apply (x0 : Vec Ideal S1024x1024 .f32) (r d : Fin 1024) :
    k1_pay1 x0 (ix2 r d) = x0 (ix2 r d) := by
  unfold k1_pay1
  rw [truncf_apply, shapeCast_self]

/-- The dense layer with a rectifier at `(r, h)`. -/
theorem k1_pay2_apply (x0 : Vec Ideal S1024x1024 .f32) (x4 : Vec Ideal S1024x512 .bf16) (x7 : Vec Ideal S1x512 .f32)
    (r : Fin 1024) (h : Fin 512) :
    k1_pay2 x0 x4 x7 (ix2 r h)
      = max ((∑ d : Fin 1024, x0 (ix2 r d) * x4 (ix2 d h)) + x7 (ix2 (0 : Fin 1) h)) 0 := by
  unfold k1_pay2
  rw [truncf_apply, maximumf_apply, addf_apply, broadcast_apply]
  rw [Cert.LibPlain.matmul_zero_apply dot_S1024x1024_S1024x512_S1024x512_1_0_0_1_n_n rfl none _ _ r h]
  rw [broadcastTo_1b_ab_apply, shapeCast_self, shapeCast_self]
  refine congrArg₂ max (congrArg (· + _) (Finset.sum_congr rfl fun d _ => ?_)) Ideal.ofBits_zero_f32
  rw [k1_pay1_apply]

end Cert.Pay

end
-- ==== Proof.KI.ProjValue.lean ====
/-
  What the two projection calls leave in their result arrays, over the extended reals, as functions of the contents
  \`V\` the TensorCore's buffers hold when the call is entered.

  Each call runs its kernel at 32 grid points; point \`t\` is handed rows \`[1024 t, 1024 t + 1024)\` of the input array,
  the whole weight and the whole bias row, and its two result blocks are written back to the same rows of the two
  result arrays. The kernel's stores are, index by index, the dense layer with a rectifier
  \`max (∑ d, x (r, d) · w (d, h) + b (0, h)) 0\` and the input itself (a change of float format is the identity on
  extended reals). Block \`t\` of those two functions OF THE WHOLE ARRAYS is therefore what point \`t\` writes back, the
  32 blocks cover the result arrays, and so the arrays end holding the two functions.
-/
import proofs.«111653_j86517821215425_2_alg».proof.Proof.KI.Reg0
import proofs.«111653_j86517821215425_2_alg».proof.Proof.KI.Reg1
import proofs.«111653_j86517821215425_2_alg».proof.Proof.PayProj
import Idealize.ShloMosaic.Lib.Pipeline.Value
import Idealize.ShloMosaic.Lib.ValueIdx

set_option maxRecDepth 16384

noncomputable section

namespace Cert.KernelIdeal.ProjValue

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The kernel's two stored values at an index of the block -/

/-- The copied block is the block, at every index. -/
theorem pay1_at0 (x0 : Vec Ideal S1024x1024 .f32) (j : S1024x1024.Idx) : k0_pay1 x0 j = x0 j :=
  (congrArg (k0_pay1 x0) (eq_ix2 j)).trans ((Cert.Pay.k0_pay1_apply x0 (j 0) (j 1)).trans (congrArg x0 (eq_ix2 j).symm))

/-- The projected block at index \`j\`: the rectified dense layer at row \`j 0\` and column \`j 1\`. -/
theorem pay2_at0 (x0 : Vec Ideal S1024x1024 .f32) (x4 : Vec Ideal S1024x512 .bf16) (x7 : Vec Ideal S1x512 .f32) (j : S1024x512.Idx) :
    k0_pay2 x0 x4 x7 j = max ((∑ d : Fin 1024, x0 (ix2 (j 0) d) * x4 (ix2 d (j 1))) + x7 (ix2 (0 : Fin 1) (j 1))) 0 :=
  (congrArg (k0_pay2 x0 x4 x7) (eq_ix2 j)).trans (Cert.Pay.k0_pay2_apply x0 x4 x7 (j 0) (j 1))

/-- The same two for the second call's kernel (the same program text). -/
theorem pay1_at1 (x0 : Vec Ideal S1024x1024 .f32) (j : S1024x1024.Idx) : k1_pay1 x0 j = x0 j :=
  (congrArg (k1_pay1 x0) (eq_ix2 j)).trans ((Cert.Pay.k1_pay1_apply x0 (j 0) (j 1)).trans (congrArg x0 (eq_ix2 j).symm))

theorem pay2_at1 (x0 : Vec Ideal S1024x1024 .f32) (x4 : Vec Ideal S1024x512 .bf16) (x7 : Vec Ideal S1x512 .f32) (j : S1024x512.Idx) :
    k1_pay2 x0 x4 x7 j = max ((∑ d : Fin 1024, x0 (ix2 (j 0) d) * x4 (ix2 d (j 1))) + x7 (ix2 (0 : Fin 1) (j 1))) 0 :=
  (congrArg (k1_pay2 x0 x4 x7) (eq_ix2 j)).trans (Cert.Pay.k1_pay2_apply x0 x4 x7 (j 0) (j 1))

/-! # The first projection call -/

section Call0

/-- The input array, the weight and the bias row as the call finds them, as plain functions of their indices. -/
abbrev inp0 (c : Dev nD) : S32768x1024.Idx → EReal := V c main_v10
abbrev wgt0 (c : Dev nD) : S1024x512.Idx → EReal := V c main_v3
abbrev bias0 (c : Dev nD) : S1x512.Idx → EReal := V c main_v8

/-- The rectified dense layer at row \`p\` of the input array and output column \`h\`. -/
def denseAt0 (c : Dev nD) (p : Fin 32768) (h : Fin 512) : EReal :=
  max ((∑ d : Fin 1024, inp0 V c (ix2 p d) * wgt0 V c (ix2 d h)) + bias0 V c (ix2 (0 : Fin 1) h)) 0

/-- What the projected result array ends holding, -/
def G0_3 (c : Dev nD) : S32768x512.Idx → EReal := fun i => denseAt0 V c (i 0) (i 1)
/-- and the copy. -/
def G0_4 (c : Dev nD) : S32768x1024.Idx → EReal := inp0 V c

/-- Where the blocks are: at point \`t\` the input window and the two result windows are on row block \`t\` and column
    block 0; the weight and the bias are on block (0, 0). Decided over the 32 points. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point \`t\` writes back into the copy is block \`t\` of the input array. -/
theorem flushed0_4_eq (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4 V c t, out0_4_eq (iblk0 V c 0 t)]
  obtain ⟨a0, a1, -, -, -, -, -, -, e0, e1⟩ := where0 t
  funext j
  show k0_pay1 (iblk0 V c 0 t) j = V c main_v10 (((cfg0.win 4).blk t).view.emb j)
  refine (pay1_at0 (iblk0 V c 0 t) j).trans ?_
  show V c main_v10 (((cfg0.win 0).blk t).view.emb j) = V c main_v10 (((cfg0.win 4).blk t).view.emb j)
  have h : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * (j 1).val = win0_4.index t (1 : Fin 2) * 1024 + 1 * (j 1).val; omega
  rw [h]

/-- What point \`t\` writes back into the projected result is block \`t\` of the rectified dense layer of the whole
    arrays: row \`r\` of the block is row \`1024 t + r\` of the input array, and the weight and bias blocks are the arrays. -/
theorem flushed0_3_eq (c : Dev nD) (t : Fin cfg0.N) :
    (dat0 V c).flushed 3 t = ((cfg0.win 3).blk t).view.read (Elt Ideal) (G0_3 V c) := by
  show (cfg0.win 3).cut (grid0.coords t) ((dat0 V c).after 3 t) = _
  rw [after0_3 V c t, out0_3_eq (iblk0 V c 0 t) (iblk0 V c 1 t) (iblk0 V c 2 t)]
  obtain ⟨a0, a1, b0, b1, c0, c1, e0, e1, -, -⟩ := where0 t
  funext j
  show k0_pay2 (iblk0 V c 0 t) (iblk0 V c 1 t) (iblk0 V c 2 t) j = G0_3 V c (((cfg0.win 3).blk t).view.emb j)
  refine (pay2_at0 (iblk0 V c 0 t) (iblk0 V c 1 t) (iblk0 V c 2 t) j).trans ?_
  unfold G0_3 denseAt0
  refine congrArg₂ max (congrArg₂ (· + ·) (Finset.sum_congr rfl fun d _ => congrArg₂ (· * ·) ?_ ?_) ?_) rfl
  · show V c main_v10 (((cfg0.win 0).blk t).view.emb (ix2 (j 0) d)) = V c main_v10 (ix2 ((((cfg0.win 3).blk t).view.emb j) 0) d)
    refine congrArg (V c main_v10) ?_
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  · show V c main_v3 (((cfg0.win 1).blk t).view.emb (ix2 d (j 1))) = V c main_v3 (ix2 d ((((cfg0.win 3).blk t).view.emb j) 1))
    refine congrArg (V c main_v3) ?_
    funext a; apply Fin.ext
    match a with
    | ⟨0, _⟩ => show win0_1.index t (0 : Fin 2) * 1024 + 1 * d.val = d.val; omega
    | ⟨1, _⟩ => show win0_1.index t (1 : Fin 2) * 512 + 1 * (j 1).val = win0_3.index t (1 : Fin 2) * 512 + 1 * (j 1).val; omega
  · show V c main_v8 (((cfg0.win 2).blk t).view.emb (ix2 (0 : Fin 1) (j 1))) = V c main_v8 (ix2 (0 : Fin 1) ((((cfg0.win 3).blk t).view.emb j) 1))
    refine congrArg (V c main_v8) ?_
    funext a; apply Fin.ext
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of a result array lies in point \`t\`'s block iff each coordinate lies in the block's range on its axis. -/
theorem mem_blk0_3 (t : Fin cfg0.N) (i : S32768x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v12_0).slice (win0_3.rect t)).set ↔ _
  rw [View.set_slice_whole, Rect.mem_set_unit]
  exact Iff.rfl

theorem mem_blk0_4 (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v12_1).slice (win0_4.rect t)).set ↔ _
  rw [View.set_slice_whole, Rect.mem_set_unit]
  exact Iff.rfl

/-- Row \`p\` of either result array is written back by point \`p / 1024\`. -/
theorem covered0_3 (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  let t : Fin cfg0.N := ⟨(i 0).val / 1024, by show (i 0).val / 1024 < grid0.N; rw [N_0]; omega⟩
  have ht : t.val = (i 0).val / 1024 := rfl
  obtain ⟨-, -, -, -, -, -, e0, e1, -, -⟩ := where0 t
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

theorem covered0_4 (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  let t : Fin cfg0.N := ⟨(i 0).val / 1024, by show (i 0).val / 1024 < grid0.N; rw [N_0]; omega⟩
  have ht : t.val = (i 0).val / 1024 := rfl
  obtain ⟨-, -, -, -, -, -, -, -, e0, e1⟩ := where0 t
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE PROJECTED RESULT after the call: at \`(p, h)\` the rectified dense layer of the arrays the call was entered with. -/
theorem proj0 (c : Dev nD) : (dat0 V c).arrAt 3 cfg0.N = G0_3 V c :=
  (dat0 V c).arrAt_eq_of_cover 3 (G0_3 V c) (fun t _ => flushed0_3_eq V c t) (covered0_3)

/-- The same at coordinates. -/
theorem proj0_at (c : Dev nD) (p : Fin 32768) (h : Fin 512) :
    (dat0 V c).arrAt 3 cfg0.N (ix2 p h)
      = max ((∑ d : Fin 1024, inp0 V c (ix2 p d) * wgt0 V c (ix2 d h)) + bias0 V c (ix2 (0 : Fin 1) h)) 0 :=
  congrFun (proj0 V c) (ix2 p h)

/-- THE COPY after the call: the input array. -/
theorem copy0 (c : Dev nD) : (dat0 V c).arrAt 4 cfg0.N = G0_4 V c :=
  (dat0 V c).arrAt_eq_of_cover 4 (G0_4 V c) (fun t _ => flushed0_4_eq V c t) (covered0_4)

theorem copy0_at (c : Dev nD) (i : S32768x1024.Idx) : (dat0 V c).arrAt 4 cfg0.N i = inp0 V c i :=
  congrFun (copy0 V c) i

end Call0

/-! # The second projection call -/

section Call1

/-- The input array, the weight and the bias row as the call finds them, as plain functions of their indices. -/
abbrev inp1 (c : Dev nD) : S32768x1024.Idx → EReal := V c main_v11
abbrev wgt1 (c : Dev nD) : S1024x512.Idx → EReal := V c main_v5
abbrev bias1 (c : Dev nD) : S1x512.Idx → EReal := V c main_v9

/-- The rectified dense layer at row \`p\` of the input array and output column \`h\`. -/
def denseAt1 (c : Dev nD) (p : Fin 32768) (h : Fin 512) : EReal :=
  max ((∑ d : Fin 1024, inp1 V c (ix2 p d) * wgt1 V c (ix2 d h)) + bias1 V c (ix2 (0 : Fin 1) h)) 0

/-- What the projected result array ends holding, -/
def G1_3 (c : Dev nD) : S32768x512.Idx → EReal := fun i => denseAt1 V c (i 0) (i 1)
/-- and the copy. -/
def G1_4 (c : Dev nD) : S32768x1024.Idx → EReal := inp1 V c

/-- Where the blocks are: at point \`t\` the input window and the two result windows are on row block \`t\` and column
    block 0; the weight and the bias are on block (0, 0). Decided over the 32 points. -/
theorem where1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point \`t\` writes back into the copy is block \`t\` of the input array. -/
theorem flushed1_4_eq (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4 V c t, out1_4_eq (iblk1 V c 0 t)]
  obtain ⟨a0, a1, -, -, -, -, -, -, e0, e1⟩ := where1 t
  funext j
  show k1_pay1 (iblk1 V c 0 t) j = V c main_v11 (((cfg1.win 4).blk t).view.emb j)
  refine (pay1_at1 (iblk1 V c 0 t) j).trans ?_
  show V c main_v11 (((cfg1.win 0).blk t).view.emb j) = V c main_v11 (((cfg1.win 4).blk t).view.emb j)
  have h : ((cfg1.win 0).blk t).view.emb j = ((cfg1.win 4).blk t).view.emb j := by
    funext a; apply Fin.ext
    match a with
    | ⟨0, _⟩ => show win1_0.index t (0 : Fin 2) * 1024 + 1 * (j 0).val = win1_4.index t (0 : Fin 2) * 1024 + 1 * (j 0).val; omega
    | ⟨1, _⟩ => show win1_0.index t (1 : Fin 2) * 1024 + 1 * (j 1).val = win1_4.index t (1 : Fin 2) * 1024 + 1 * (j 1).val; omega
  rw [h]

/-- What point \`t\` writes back into the projected result is block \`t\` of the rectified dense layer of the whole
    arrays: row \`r\` of the block is row \`1024 t + r\` of the input array, and the weight and bias blocks are the arrays. -/
theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3 V c t, out1_3_eq (iblk1 V c 0 t) (iblk1 V c 1 t) (iblk1 V c 2 t)]
  obtain ⟨a0, a1, b0, b1, c0, c1, e0, e1, -, -⟩ := where1 t
  funext j
  show k1_pay2 (iblk1 V c 0 t) (iblk1 V c 1 t) (iblk1 V c 2 t) j = G1_3 V c (((cfg1.win 3).blk t).view.emb j)
  refine (pay2_at1 (iblk1 V c 0 t) (iblk1 V c 1 t) (iblk1 V c 2 t) j).trans ?_
  unfold G1_3 denseAt1
  refine congrArg₂ max (congrArg₂ (· + ·) (Finset.sum_congr rfl fun d _ => congrArg₂ (· * ·) ?_ ?_) ?_) rfl
  · show V c main_v11 (((cfg1.win 0).blk t).view.emb (ix2 (j 0) d)) = V c main_v11 (ix2 ((((cfg1.win 3).blk t).view.emb j) 0) d)
    refine congrArg (V c main_v11) ?_
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * d.val = d.val; omega
  · show V c main_v5 (((cfg1.win 1).blk t).view.emb (ix2 d (j 1))) = V c main_v5 (ix2 d ((((cfg1.win 3).blk t).view.emb j) 1))
    refine congrArg (V c main_v5) ?_
    funext a; apply Fin.ext
    match a with
    | ⟨0, _⟩ => show win1_1.index t (0 : Fin 2) * 1024 + 1 * d.val = d.val; omega
    | ⟨1, _⟩ => show win1_1.index t (1 : Fin 2) * 512 + 1 * (j 1).val = win1_3.index t (1 : Fin 2) * 512 + 1 * (j 1).val; omega
  · show V c main_v9 (((cfg1.win 2).blk t).view.emb (ix2 (0 : Fin 1) (j 1))) = V c main_v9 (ix2 (0 : Fin 1) ((((cfg1.win 3).blk t).view.emb j) 1))
    refine congrArg (V c main_v9) ?_
    funext a; apply Fin.ext
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of a result array lies in point \`t\`'s block iff each coordinate lies in the block's range on its axis. -/
theorem mem_blk1_3 (t : Fin cfg1.N) (i : S32768x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v13_0).slice (win1_3.rect t)).set ↔ _
  rw [View.set_slice_whole, Rect.mem_set_unit]
  exact Iff.rfl

theorem mem_blk1_4 (t : Fin cfg1.N) (i : S32768x1024.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v13_1).slice (win1_4.rect t)).set ↔ _
  rw [View.set_slice_whole, Rect.mem_set_unit]
  exact Iff.rfl

/-- Row \`p\` of either result array is written back by point \`p / 1024\`. -/
theorem covered1_3 (i : S32768x512.Idx) : ∃ t : Fin cfg1.N, (cfg1.win 3).flush t = true ∧ i ∈ ((cfg1.win 3).blk t).view.set := by
  have hi0 : (i 0).val < 32768 := (i 0).isLt
  have hi1 : (i 1).val < 512 := (i 1).isLt
  let t : Fin cfg1.N := ⟨(i 0).val / 1024, by show (i 0).val / 1024 < grid1.N; rw [N_1]; omega⟩
  have ht : t.val = (i 0).val / 1024 := rfl
  obtain ⟨-, -, -, -, -, -, e0, e1, -, -⟩ := where1 t
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

theorem covered1_4 (i : S32768x1024.Idx) : ∃ t : Fin cfg1.N, (cfg1.win 4).flush t = true ∧ i ∈ ((cfg1.win 4).blk t).view.set := by
  have hi0 : (i 0).val < 32768 := (i 0).isLt
  have hi1 : (i 1).val < 1024 := (i 1).isLt
  let t : Fin cfg1.N := ⟨(i 0).val / 1024, by show (i 0).val / 1024 < grid1.N; rw [N_1]; omega⟩
  have ht : t.val = (i 0).val / 1024 := rfl
  obtain ⟨-, -, -, -, -, -, -, -, e0, e1⟩ := where1 t
  refine ⟨t, flush1_4 t, ?_⟩
  rw [mem_blk1_4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- THE PROJECTED RESULT after the call: at \`(p, h)\` the rectified dense layer of the arrays the call was entered with. -/
theorem proj1 (c : Dev nD) : (dat1 V c).arrAt 3 cfg1.N = G1_3 V c :=
  (dat1 V c).arrAt_eq_of_cover 3 (G1_3 V c) (fun t _ => flushed1_3_eq V c t) (covered1_3)

/-- The same at coordinates. -/
theorem proj1_at (c : Dev nD) (p : Fin 32768) (h : Fin 512) :
    (dat1 V c).arrAt 3 cfg1.N (ix2 p h)
      = max ((∑ d : Fin 1024, inp1 V c (ix2 p d) * wgt1 V c (ix2 d h)) + bias1 V c (ix2 (0 : Fin 1) h)) 0 :=
  congrFun (proj1 V c) (ix2 p h)

/-- THE COPY after the call: the input array. -/
theorem copy1 (c : Dev nD) : (dat1 V c).arrAt 4 cfg1.N = G1_4 V c :=
  (dat1 V c).arrAt_eq_of_cover 4 (G1_4 V c) (fun t _ => flushed1_4_eq V c t) (covered1_4)

theorem copy1_at (c : Dev nD) (i : S32768x1024.Idx) : (dat1 V c).arrAt 4 cfg1.N i = inp1 V c i :=
  congrFun (copy1 V c) i

end Call1

end Cert.KernelIdeal.ProjValue

end
-- ==== Proof.LibBroadcastRead.lean ====
/-
  Host broadcasts read at coordinates, and sums over small index sets as sums over rows.

  A scalar broadcast to any shape reads the scalar everywhere; an `[a]` vector broadcast along a new unit axis to an
  `[a, 1]` column reads, at `(i, u)`, the vector at `i`; an `[a, 1]` column broadcast to `[a, b]` reads, at `(i, j)`,
  the column at `(i, 0)`. A sum over the indices of an `[n]` vector, or of an `[n, 1]` column, is the sum over its `n` rows.
-/
import Idealize.ShloMosaic.Lib.Pipeline.Value
import Idealize.ShloMosaic.Lib.ValueIdx

namespace Cert.LibBroadcastRead

open Idealize.ShloMosaic Idealize.ShloMosaic.ValueIdx

variable {α : Type}

/-- A rank-0 value broadcast to any shape reads, at every index, the value. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An `[a]` vector broadcast to an `[a, 1]` column along axis 0 reads, at `(i, u)`, the vector at `i`. -/
theorem bcast_column_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along both axes reads, at `(i, j)`, the column at `(i, 0)`. -/
theorem bcast_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A sum over the indices of an `[n]` vector is the sum over its entries. -/
theorem sum_vector {M : Type*} [AddCommMonoid M] {n : ℕ} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ f (fun r => f (ix1 r))
    fun i => congrArg f (eq_ix1 i)

/-- A sum over the indices of an `[n, 1]` column is the sum over its rows. -/
theorem sum_column {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibBroadcastRead
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.KI.Glue.lean ====
/-
  The host operations of @main read at an index, at the ideal instance.

  Before the first call the program transposes the two weight matrices, multiplies the first (transposed) and the
  first bias by the temperature broadcast to their shapes, changes the format of the two matrices (the identity on
  extended reals), gives the two bias vectors a leading unit axis and flattens the two leading axes of the two inputs.
  Between the projection calls and the attention calls it splits the flattened axis of the four projection results
  back into batch and row, and swaps the two trailing axes of the two masks. Each result is read here at an index
  written by its coordinates, from an arbitrary valuation of the buffers; a reference no operation of a stretch writes
  keeps its contents.
-/
import proofs.«111653_j86517821215425_2_alg».proof.Proof.Gen.KernelIdeal.Launch
import proofs.«111653_j86517821215425_2_alg».proof.Proof.LibBroadcastRead
import proofs.«111653_j86517821215425_2_alg».proof.Proof.LibRank3Layout
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Glue

open Idealize.ShloMosaic Idealize.ShloMosaic.TcCoe Idealize.ShloMosaic.ValueIdx Idealize.ShloMosaic.ValueLayout3
open Cert.KernelIdeal Cert.KernelIdeal.Gen

variable (W : Valuation τ sig (Elt Ideal))

/-! ### Layout steps used below -/

/-- An `[a]` vector cast to `[1, a]` reads, at `(u, k)`, the vector at `k`. -/
theorem shapeCast_a_1a_apply {α : Type} {a : ℕ} (x : (⟨1, ![a]⟩ : Shape).Idx → α)
    (h : (⟨1, ![a]⟩ : Shape).ShapeCasts ⟨2, ![1, a]⟩) (u : Fin 1) (k : Fin a) :
    shapeCast ⟨2, ![1, a]⟩ x h (ix2 u k) = x (ix1 k) :=
  shapeCast_apply x h _ _ (by
    have hu : u.val = 0 := by omega
    rw [Shape.rowMajor_val_one, Shape.rowMajor_val_two]
    show k.val = u.val * a + k.val
    rw [hu, Nat.zero_mul, Nat.zero_add])

/-! ### What the two stretches write -/

/-- The references the operations before the first call write. -/
abbrev ops0_W : List (Ref sig .tc) :=
  [main_v0, main_v1, main_v2, main_v3, main_v4, main_v5, main_v6, main_v7, main_v8, main_v9, main_v10, main_v11]

theorem ops0_writes : (hostOps0 (F := Ideal) : List (HloOp τ sig (Elt Ideal))).Forall fun op =>
    op.writes ⊆ (ops0_W.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
     exact List.mem_map_of_mem (by decide))

/-- The references the operations between the projection calls and the attention calls write. -/
abbrev ops2_W : List (Ref sig .tc) := [main_v14, main_v15, main_v16, main_v17, main_v18, main_v19]

theorem ops2_writes : (hostOps2 (F := Ideal) : List (HloOp τ sig (Elt Ideal))).Forall fun op =>
    op.writes ⊆ (ops2_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
     exact List.mem_map_of_mem (by decide))

/-! ### Before the first call -/

/-- The first weight matrix, transposed and scaled by the temperature. -/
theorem v3_apply (d : Fin 1024) (h : Fin 512) :
    (StableHlo.after (hostOps0 (F := Ideal)) W (Proc.devRef .tc main_v3) : S1024x512.Idx → EReal) (ix2 d h)
      = @HMul.hMul EReal EReal EReal _ (W (Proc.devRef .tc main_arg4) (ix2 h d)) (W (Proc.devRef .tc main_arg8) ix0) := by
  after_results
  show @HMul.hMul EReal EReal EReal _
      (transpose (s := S512x1024) (α := EReal) S1024x512 [1, 0] (W (Proc.devRef .tc main_arg4)) transposes_S512x1024_S1024x512_1_0 (ix2 d h))
      (broadcastInDim (s := S_) (α := EReal) S1024x512 ![] bcast_S_S1024x512 (W (Proc.devRef .tc main_arg8)) (ix2 d h)) = _
  rw [transpose_ix2_apply, Cert.LibBroadcastRead.bcast_scalar_apply]

/-- The second weight matrix, transposed. -/
theorem v5_apply (d : Fin 1024) (h : Fin 512) :
    (StableHlo.after (hostOps0 (F := Ideal)) W (Proc.devRef .tc main_v5) : S1024x512.Idx → EReal) (ix2 d h)
      = W (Proc.devRef .tc main_arg6) (ix2 h d) := by
  after_results
  show transpose (s := S512x1024) (α := EReal) S1024x512 [1, 0] (W (Proc.devRef .tc main_arg6)) transposes_S512x1024_S1024x512_1_0 (ix2 d h) = _
  rw [transpose_ix2_apply]

/-- The first bias scaled by the temperature, as a row. -/
theorem v8_apply (u : Fin 1) (h : Fin 512) :
    (StableHlo.after (hostOps0 (F := Ideal)) W (Proc.devRef .tc main_v8) : S1x512.Idx → EReal) (ix2 u h)
      = @HMul.hMul EReal EReal EReal _ (W (Proc.devRef .tc main_arg5) (ix1 h)) (W (Proc.devRef .tc main_arg8) ix0) := by
  after_results
  show shapeCast (s := S512) (α := EReal) S1x512 (fun i => @HMul.hMul EReal EReal EReal _ (W (Proc.devRef .tc main_arg5) i)
      (broadcastInDim (s := S_) (α := EReal) S512 ![] bcast_S_S512 (W (Proc.devRef .tc main_arg8)) i)) shapeCasts_S512_S1x512 (ix2 u h) = _
  rw [shapeCast_a_1a_apply, Cert.LibBroadcastRead.bcast_scalar_apply]

/-- The second bias, as a row. -/
theorem v9_apply (u : Fin 1) (h : Fin 512) :
    (StableHlo.after (hostOps0 (F := Ideal)) W (Proc.devRef .tc main_v9) : S1x512.Idx → EReal) (ix2 u h)
      = W (Proc.devRef .tc main_arg7) (ix1 h) := by
  after_results
  show shapeCast (s := S512) (α := EReal) S1x512 (W (Proc.devRef .tc main_arg7)) shapeCasts_S512_S1x512 (ix2 u h) = _
  rw [shapeCast_a_1a_apply]

/-- The first input with batch and row flattened: row `2048 n + i` is row `i` of batch `n`. -/
theorem v10_apply (p : Fin 32768) (n : Fin 16) (i : Fin 2048) (d : Fin 1024) (hp : p.val = 2048 * n.val + i.val) :
    (StableHlo.after (hostOps0 (F := Ideal)) W (Proc.devRef .tc main_v10) : S32768x1024.Idx → EReal) (ix2 p d)
      = W (Proc.devRef .tc main_arg0) (ix3 n i d) := by
  after_results
  show shapeCast (s := S16x2048x1024) (α := EReal) S32768x1024 (W (Proc.devRef .tc main_arg0)) shapeCasts_S16x2048x1024_S32768x1024 (ix2 p d) = _
  exact shapeCast_abc_nc_apply _ _ p n i d (by omega)

/-- The second input with batch and row flattened. -/
theorem v11_apply (p : Fin 32768) (n : Fin 16) (i : Fin 2048) (d : Fin 1024) (hp : p.val = 2048 * n.val + i.val) :
    (StableHlo.after (hostOps0 (F := Ideal)) W (Proc.devRef .tc main_v11) : S32768x1024.Idx → EReal) (ix2 p d)
      = W (Proc.devRef .tc main_arg2) (ix3 n i d) := by
  after_results
  show shapeCast (s := S16x2048x1024) (α := EReal) S32768x1024 (W (Proc.devRef .tc main_arg2)) shapeCasts_S16x2048x1024_S32768x1024 (ix2 p d) = _
  exact shapeCast_abc_nc_apply _ _ p n i d (by omega)

/-- A reference the first stretch does not write keeps its contents. -/
theorem ops0_keep (r : Ref sig .tc) (h : r ∉ ops0_W) :
    StableHlo.after (hostOps0 (F := Ideal)) W (Proc.devRef .tc r) = W (Proc.devRef .tc r) :=
  StableHlo.after_of_writes_sub hostOps0 W ops0_writes h

theorem ops0_main_arg0 : StableHlo.after (hostOps0 (F := Ideal)) W (Proc.devRef .tc main_arg0) = W (Proc.devRef .tc main_arg0) :=
  ops0_keep W main_arg0 (by decide)
theorem ops0_main_arg1 : StableHlo.after (hostOps0 (F := Ideal)) W (Proc.devRef .tc main_arg1) = W (Proc.devRef .tc main_arg1) :=
  ops0_keep W main_arg1 (by decide)
theorem ops0_main_arg2 : StableHlo.after (hostOps0 (F := Ideal)) W (Proc.devRef .tc main_arg2) = W (Proc.devRef .tc main_arg2) :=
  ops0_keep W main_arg2 (by decide)
theorem ops0_main_arg3 : StableHlo.after (hostOps0 (F := Ideal)) W (Proc.devRef .tc main_arg3) = W (Proc.devRef .tc main_arg3) :=
  ops0_keep W main_arg3 (by decide)
theorem ops0_main_arg4 : StableHlo.after (hostOps0 (F := Ideal)) W (Proc.devRef .tc main_arg4) = W (Proc.devRef .tc main_arg4) :=
  ops0_keep W main_arg4 (by decide)
theorem ops0_main_arg5 : StableHlo.after (hostOps0 (F := Ideal)) W (Proc.devRef .tc main_arg5) = W (Proc.devRef .tc main_arg5) :=
  ops0_keep W main_arg5 (by decide)
theorem ops0_main_arg6 : StableHlo.after (hostOps0 (F := Ideal)) W (Proc.devRef .tc main_arg6) = W (Proc.devRef .tc main_arg6) :=
  ops0_keep W main_arg6 (by decide)
theorem ops0_main_arg7 : StableHlo.after (hostOps0 (F := Ideal)) W (Proc.devRef .tc main_arg7) = W (Proc.devRef .tc main_arg7) :=
  ops0_keep W main_arg7 (by decide)
theorem ops0_main_arg8 : StableHlo.after (hostOps0 (F := Ideal)) W (Proc.devRef .tc main_arg8) = W (Proc.devRef .tc main_arg8) :=
  ops0_keep W main_arg8 (by decide)

/-! ### Between the projection calls and the attention calls -/

/-- The first projection, batch and row split again: row `i` of batch `n` is row `2048 n + i`. -/
theorem v14_apply (p : Fin 32768) (n : Fin 16) (i : Fin 2048) (k : Fin 512) (hp : p.val = 2048 * n.val + i.val) :
    (StableHlo.after (hostOps2 (F := Ideal)) W (Proc.devRef .tc main_v14) : S16x2048x512.Idx → EReal) (ix3 n i k)
      = W (Proc.devRef .tc main_v12_0) (ix2 p k) := by
  after_results
  show shapeCast (s := S32768x512) (α := EReal) S16x2048x512 (W (Proc.devRef .tc main_v12_0)) shapeCasts_S32768x512_S16x2048x512 (ix3 n i k) = _
  exact shapeCast_nc_abc_apply _ _ p n i k (by omega)

/-- The second projection, batch and row split again. -/
theorem v15_apply (p : Fin 32768) (n : Fin 16) (i : Fin 2048) (k : Fin 512) (hp : p.val = 2048 * n.val + i.val) :
    (StableHlo.after (hostOps2 (F := Ideal)) W (Proc.devRef .tc main_v15) : S16x2048x512.Idx → EReal) (ix3 n i k)
      = W (Proc.devRef .tc main_v13_0) (ix2 p k) := by
  after_results
  show shapeCast (s := S32768x512) (α := EReal) S16x2048x512 (W (Proc.devRef .tc main_v13_0)) shapeCasts_S32768x512_S16x2048x512 (ix3 n i k) = _
  exact shapeCast_nc_abc_apply _ _ p n i k (by omega)

/-- The copy of the first input the first projection call returns, batch and row split again. -/
theorem v16_apply (p : Fin 32768) (n : Fin 16) (i : Fin 2048) (k : Fin 1024) (hp : p.val = 2048 * n.val + i.val) :
    (StableHlo.after (hostOps2 (F := Ideal)) W (Proc.devRef .tc main_v16) : S16x2048x1024.Idx → EReal) (ix3 n i k)
      = W (Proc.devRef .tc main_v12_1) (ix2 p k) := by
  after_results
  show shapeCast (s := S32768x1024) (α := EReal) S16x2048x1024 (W (Proc.devRef .tc main_v12_1)) shapeCasts_S32768x1024_S16x2048x1024 (ix3 n i k) = _
  exact shapeCast_nc_abc_apply _ _ p n i k (by omega)

/-- The copy of the second input the second projection call returns, batch and row split again. -/
theorem v17_apply (p : Fin 32768) (n : Fin 16) (i : Fin 2048) (k : Fin 1024) (hp : p.val = 2048 * n.val + i.val) :
    (StableHlo.after (hostOps2 (F := Ideal)) W (Proc.devRef .tc main_v17) : S16x2048x1024.Idx → EReal) (ix3 n i k)
      = W (Proc.devRef .tc main_v13_1) (ix2 p k) := by
  after_results
  show shapeCast (s := S32768x1024) (α := EReal) S16x2048x1024 (W (Proc.devRef .tc main_v13_1)) shapeCasts_S32768x1024_S16x2048x1024 (ix3 n i k) = _
  exact shapeCast_nc_abc_apply _ _ p n i k (by omega)

/-- The first mask with its two trailing axes swapped. -/
theorem v18_apply (n : Fin 16) (u : Fin 1) (i : Fin 2048) :
    (StableHlo.after (hostOps2 (F := Ideal)) W (Proc.devRef .tc main_v18) : S16x1x2048.Idx → EReal) (ix3 n u i)
      = W (Proc.devRef .tc main_arg1) (ix3 n i u) := by
  after_results
  show transpose (s := S16x2048x1) (α := EReal) S16x1x2048 [0, 2, 1] (W (Proc.devRef .tc main_arg1)) transposes_S16x2048x1_S16x1x2048_0_2_1 (ix3 n u i) = _
  rw [transpose_ix3_021_apply]

/-- The second mask with its two trailing axes swapped. -/
theorem v19_apply (n : Fin 16) (u : Fin 1) (i : Fin 2048) :
    (StableHlo.after (hostOps2 (F := Ideal)) W (Proc.devRef .tc main_v19) : S16x1x2048.Idx → EReal) (ix3 n u i)
      = W (Proc.devRef .tc main_arg3) (ix3 n i u) := by
  after_results
  show transpose (s := S16x2048x1) (α := EReal) S16x1x2048 [0, 2, 1] (W (Proc.devRef .tc main_arg3)) transposes_S16x2048x1_S16x1x2048_0_2_1 (ix3 n u i) = _
  rw [transpose_ix3_021_apply]

/-- A reference the second stretch does not write keeps its contents. -/
theorem ops2_keep (r : Ref sig .tc) (h : r ∉ ops2_W) :
    StableHlo.after (hostOps2 (F := Ideal)) W (Proc.devRef .tc r) = W (Proc.devRef .tc r) :=
  StableHlo.after_of_writes_sub hostOps2 W ops2_writes h

theorem ops2_main_arg0 : StableHlo.after (hostOps2 (F := Ideal)) W (Proc.devRef .tc main_arg0) = W (Proc.devRef .tc main_arg0) :=
  ops2_keep W main_arg0 (by decide)
theorem ops2_main_arg1 : StableHlo.after (hostOps2 (F := Ideal)) W (Proc.devRef .tc main_arg1) = W (Proc.devRef .tc main_arg1) :=
  ops2_keep W main_arg1 (by decide)
theorem ops2_main_arg2 : StableHlo.after (hostOps2 (F := Ideal)) W (Proc.devRef .tc main_arg2) = W (Proc.devRef .tc main_arg2) :=
  ops2_keep W main_arg2 (by decide)
theorem ops2_main_arg3 : StableHlo.after (hostOps2 (F := Ideal)) W (Proc.devRef .tc main_arg3) = W (Proc.devRef .tc main_arg3) :=
  ops2_keep W main_arg3 (by decide)
theorem ops2_main_arg4 : StableHlo.after (hostOps2 (F := Ideal)) W (Proc.devRef .tc main_arg4) = W (Proc.devRef .tc main_arg4) :=
  ops2_keep W main_arg4 (by decide)
theorem ops2_main_arg5 : StableHlo.after (hostOps2 (F := Ideal)) W (Proc.devRef .tc main_arg5) = W (Proc.devRef .tc main_arg5) :=
  ops2_keep W main_arg5 (by decide)
theorem ops2_main_arg6 : StableHlo.after (hostOps2 (F := Ideal)) W (Proc.devRef .tc main_arg6) = W (Proc.devRef .tc main_arg6) :=
  ops2_keep W main_arg6 (by decide)
theorem ops2_main_arg7 : StableHlo.after (hostOps2 (F := Ideal)) W (Proc.devRef .tc main_arg7) = W (Proc.devRef .tc main_arg7) :=
  ops2_keep W main_arg7 (by decide)
theorem ops2_main_arg8 : StableHlo.after (hostOps2 (F := Ideal)) W (Proc.devRef .tc main_arg8) = W (Proc.devRef .tc main_arg8) :=
  ops2_keep W main_arg8 (by decide)
theorem ops2_main_v12_0 : StableHlo.after (hostOps2 (F := Ideal)) W (Proc.devRef .tc main_v12_0) = W (Proc.devRef .tc main_v12_0) :=
  ops2_keep W main_v12_0 (by decide)
theorem ops2_main_v12_1 : StableHlo.after (hostOps2 (F := Ideal)) W (Proc.devRef .tc main_v12_1) = W (Proc.devRef .tc main_v12_1) :=
  ops2_keep W main_v12_1 (by decide)
theorem ops2_main_v13_0 : StableHlo.after (hostOps2 (F := Ideal)) W (Proc.devRef .tc main_v13_0) = W (Proc.devRef .tc main_v13_0) :=
  ops2_keep W main_v13_0 (by decide)
theorem ops2_main_v13_1 : StableHlo.after (hostOps2 (F := Ideal)) W (Proc.devRef .tc main_v13_1) = W (Proc.devRef .tc main_v13_1) :=
  ops2_keep W main_v13_1 (by decide)
theorem ops2_main_v3 : StableHlo.after (hostOps2 (F := Ideal)) W (Proc.devRef .tc main_v3) = W (Proc.devRef .tc main_v3) :=
  ops2_keep W main_v3 (by decide)
theorem ops2_main_v5 : StableHlo.after (hostOps2 (F := Ideal)) W (Proc.devRef .tc main_v5) = W (Proc.devRef .tc main_v5) :=
  ops2_keep W main_v5 (by decide)
theorem ops2_main_v8 : StableHlo.after (hostOps2 (F := Ideal)) W (Proc.devRef .tc main_v8) = W (Proc.devRef .tc main_v8) :=
  ops2_keep W main_v8 (by decide)
theorem ops2_main_v9 : StableHlo.after (hostOps2 (F := Ideal)) W (Proc.devRef .tc main_v9) = W (Proc.devRef .tc main_v9) :=
  ops2_keep W main_v9 (by decide)
theorem ops2_main_v10 : StableHlo.after (hostOps2 (F := Ideal)) W (Proc.devRef .tc main_v10) = W (Proc.devRef .tc main_v10) :=
  ops2_keep W main_v10 (by decide)
theorem ops2_main_v11 : StableHlo.after (hostOps2 (F := Ideal)) W (Proc.devRef .tc main_v11) = W (Proc.devRef .tc main_v11) :=
  ops2_keep W main_v11 (by decide)

end Cert.KernelIdeal.Glue

end
-- ==== Proof.KI.Reg2Val.lean ====
/- Attention region 2: what each case leaves in the three scratch buffers and in the output block, as the
   kernel's own arithmetic applied to the point's input blocks and to the scratch contents before the point. -/
import proofs.«111653_j86517821215425_2_alg».proof.Proof.KI.Reg2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces, case by case -/

/-- What a point with `kk = 0` leaves in the running maximum, as the kernel's arithmetic on the point's input blocks and the reset values:
    the last store into the buffer fills it, and every load before it reads a whole buffer. -/
theorem sout2_A_0_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) :
    sout2_A_0 c i arg3 harg3 arg4 harg4 arg5 harg5 arg6 harg6 arg7 harg7 arg8 harg8 arg9 harg9 arg10 harg10 arg11 harg11 hc0 hc1 x0 x1 x2 x3 x4 = k2_pay4 (k2_pay11 x0 x1 x3 x4 k2_pay6) := by
  unfold sout2_A_0 kernelRun2_A
  dsimp only
  refine (View.read_writes_whole_head VS2_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 0` leaves in the running normaliser, as the kernel's arithmetic on the point's input blocks and the reset values:
    the last store into the buffer fills it, and every load before it reads a whole buffer. -/
theorem sout2_A_1_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) :
    sout2_A_1 c i arg3 harg3 arg4 harg4 arg5 harg5 arg6 harg6 arg7 harg7 arg8 harg8 arg9 harg9 arg10 harg10 arg11 harg11 hc0 hc1 x0 x1 x2 x3 x4 = k2_pay2 (k2_pay10 x0 x1 x3 x4) (k2_pay11 x0 x1 x3 x4 k2_pay6) (k2_pay12 x0 x1 x3 x4 k2_pay6 k2_pay6) k2_pay7 := by
  unfold sout2_A_1 kernelRun2_A
  dsimp only
  refine (View.read_writes_whole_head VS2_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 0` leaves in the running weighted sum, as the kernel's arithmetic on the point's input blocks and the reset values:
    the last store into the buffer fills it, and every load before it reads a whole buffer. -/
theorem sout2_A_2_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) :
    sout2_A_2 c i arg3 harg3 arg4 harg4 arg5 harg5 arg6 harg6 arg7 harg7 arg8 harg8 arg9 harg9 arg10 harg10 arg11 harg11 hc0 hc1 x0 x1 x2 x3 x4 = k2_pay3 (k2_pay9 x2) (k2_pay10 x0 x1 x3 x4) (k2_pay11 x0 x1 x3 x4 k2_pay6) (k2_pay12 x0 x1 x3 x4 k2_pay6 k2_pay6) k2_pay8 := by
  unfold sout2_A_2 kernelRun2_A
  dsimp only
  refine (View.read_writes_whole_head VS2_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running maximum, as the kernel's arithmetic on the point's input blocks and what the point before left:
    the last store into the buffer fills it, and every load before it reads a whole buffer. -/
theorem sout2_B_0_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_B_0 c i arg3 harg3 arg4 harg4 arg5 harg5 arg6 harg6 arg7 harg7 arg8 harg8 arg9 harg9 arg10 harg10 arg11 harg11 hc0 hc1 x0 x1 x2 x3 x4 xs0 xs1 xs2 = k2_pay4 (k2_pay11 x0 x1 x3 x4 xs0) := by
  unfold sout2_B_0 kernelRun2_B
  dsimp only
  refine (View.read_writes_whole_head VS2_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running normaliser, as the kernel's arithmetic on the point's input blocks and what the point before left:
    the last store into the buffer fills it, and every load before it reads a whole buffer. -/
theorem sout2_B_1_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_B_1 c i arg3 harg3 arg4 harg4 arg5 harg5 arg6 harg6 arg7 harg7 arg8 harg8 arg9 harg9 arg10 harg10 arg11 harg11 hc0 hc1 x0 x1 x2 x3 x4 xs0 xs1 xs2 = k2_pay2 (k2_pay10 x0 x1 x3 x4) (k2_pay11 x0 x1 x3 x4 xs0) (k2_pay12 x0 x1 x3 x4 xs0 xs0) xs1 := by
  unfold sout2_B_1 kernelRun2_B
  dsimp only
  refine (View.read_writes_whole_head VS2_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running weighted sum, as the kernel's arithmetic on the point's input blocks and what the point before left:
    the last store into the buffer fills it, and every load before it reads a whole buffer. -/
theorem sout2_B_2_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_B_2 c i arg3 harg3 arg4 harg4 arg5 harg5 arg6 harg6 arg7 harg7 arg8 harg8 arg9 harg9 arg10 harg10 arg11 harg11 hc0 hc1 x0 x1 x2 x3 x4 xs0 xs1 xs2 = k2_pay3 (k2_pay9 x2) (k2_pay10 x0 x1 x3 x4) (k2_pay11 x0 x1 x3 x4 xs0) (k2_pay12 x0 x1 x3 x4 xs0 xs0) xs2 := by
  unfold sout2_B_2 kernelRun2_B
  dsimp only
  refine (View.read_writes_whole_head VS2_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running maximum, as the kernel's arithmetic on the point's input blocks and what the point before left:
    the last store into the buffer fills it, and every load before it reads a whole buffer. -/
theorem sout2_C_0_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_C_0 c i arg3 harg3 arg4 harg4 arg5 harg5 arg6 harg6 arg7 harg7 arg8 harg8 arg9 harg9 arg10 harg10 arg11 harg11 hc0 hc1 x0 x1 x2 x3 x4 xs0 xs1 xs2 = k2_pay4 (k2_pay11 x0 x1 x3 x4 xs0) := by
  unfold sout2_C_0 kernelRun2_C
  dsimp only
  refine (View.read_writes_whole_head VS2_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running normaliser, as the kernel's arithmetic on the point's input blocks and what the point before left:
    the last store into the buffer fills it, and every load before it reads a whole buffer. -/
theorem sout2_C_1_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_C_1 c i arg3 harg3 arg4 harg4 arg5 harg5 arg6 harg6 arg7 harg7 arg8 harg8 arg9 harg9 arg10 harg10 arg11 harg11 hc0 hc1 x0 x1 x2 x3 x4 xs0 xs1 xs2 = k2_pay2 (k2_pay10 x0 x1 x3 x4) (k2_pay11 x0 x1 x3 x4 xs0) (k2_pay12 x0 x1 x3 x4 xs0 xs0) xs1 := by
  unfold sout2_C_1 kernelRun2_C
  dsimp only
  refine (View.read_writes_whole_head VS2_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running weighted sum, as the kernel's arithmetic on the point's input blocks and what the point before left:
    the last store into the buffer fills it, and every load before it reads a whole buffer. -/
theorem sout2_C_2_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout2_C_2 c i arg3 harg3 arg4 harg4 arg5 harg5 arg6 harg6 arg7 harg7 arg8 harg8 arg9 harg9 arg10 harg10 arg11 harg11 hc0 hc1 x0 x1 x2 x3 x4 xs0 xs1 xs2 = k2_pay3 (k2_pay9 x2) (k2_pay10 x0 x1 x3 x4) (k2_pay11 x0 x1 x3 x4 xs0) (k2_pay12 x0 x1 x3 x4 xs0 xs0) xs2 := by
  unfold sout2_C_2 kernelRun2_C
  dsimp only
  refine (View.read_writes_whole_head VS2_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` stores to the output block: the updated weighted sum divided by the updated normaliser
    (both read back from the scratch buffers just stored). -/
theorem out2_C_5_eq (c : Dev nD) (i : grid2.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    out2_C_5 c i arg3 harg3 arg4 harg4 arg5 harg5 arg6 harg6 arg7 harg7 arg8 harg8 arg9 harg9 arg10 harg10 arg11 harg11 hc0 hc1 x0 x1 x2 x3 x4 xs0 xs1 xs2 = k2_pay5 (k2_pay3 (k2_pay9 x2) (k2_pay10 x0 x1 x3 x4) (k2_pay11 x0 x1 x3 x4 xs0) (k2_pay12 x0 x1 x3 x4 xs0 xs0) xs2) (k2_pay2 (k2_pay10 x0 x1 x3 x4) (k2_pay11 x0 x1 x3 x4 xs0) (k2_pay12 x0 x1 x3 x4 xs0 xs0) xs1) := by
  unfold out2_C_5 kernelRun2_C
  dsimp only
  refine (View.read_writes_whole_head VO2_5 _ hz3 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-! ## One key tile absorbed: the recurrences, point by point -/

/-- The running maximum after one key tile: the old maximum against the tile's row maxima of the masked scores. -/
def step2_m (x0 : Vec F S1x1024x512 .bf16) (x1 : Vec F S1x512x512 .bf16) (x3 : Vec F S1x1024x1 .f32) (x4 : Vec F S1x1x512 .f32) (m : Vec F S1024x1 .f32) : Vec F S1024x1 .f32 :=
  k2_pay4 (k2_pay11 x0 x1 x3 x4 m)

/-- The running normaliser after one key tile: the old one rescaled to the new maximum, plus the tile's row sums of
    the exponentials. -/
def step2_l (x0 : Vec F S1x1024x512 .bf16) (x1 : Vec F S1x512x512 .bf16) (x3 : Vec F S1x1024x1 .f32) (x4 : Vec F S1x1x512 .f32) (m l : Vec F S1024x1 .f32) : Vec F S1024x1 .f32 :=
  k2_pay2 (k2_pay10 x0 x1 x3 x4) (k2_pay11 x0 x1 x3 x4 m) (k2_pay12 x0 x1 x3 x4 m m) l

/-- The running weighted sum after one key tile: the old one rescaled to the new maximum, plus the tile's
    exponentials times its values. -/
def step2_acc (x0 : Vec F S1x1024x512 .bf16) (x1 : Vec F S1x512x512 .bf16) (x2 : Vec F S1x512x1024 .bf16) (x3 : Vec F S1x1024x1 .f32) (x4 : Vec F S1x1x512 .f32) (m : Vec F S1024x1 .f32) (acc : Vec F S1024x1024 .f32) : Vec F S1024x1024 .f32 :=
  k2_pay3 (k2_pay9 x2) (k2_pay10 x0 x1 x3 x4) (k2_pay11 x0 x1 x3 x4 m) (k2_pay12 x0 x1 x3 x4 m m) acc

/-- What is stored to the output block at the last key tile: the weighted sum over the normaliser. -/
def fin2_out (l : Vec F S1024x1 .f32) (acc : Vec F S1024x1024 .f32) : Vec F S1x1024x1024 .f32 :=
  k2_pay5 acc l

section Points

variable (V : (c : Dev nD) → (b : Ref sig .tc) → Buf (Elt F) ((c : Thread nD τ).loc b))

/-- After a point with `kk = 0`: one tile absorbed into the reset values (maximum `-∞`, normaliser 0, sum 0). -/
theorem outsAt2_A_eq (c : Dev nD) (t : Fin cfg2.N) (h0 : t.val % 4 = 0) (h1 : ¬t.val % 4 = 3) :
    outsAt2 V c t.val t.isLt =
      (out2_idle_5,
       step2_m (iblk2 V c 0 t) (iblk2 V c 1 t) (iblk2 V c 3 t) (iblk2 V c 4 t) k2_pay6,
       step2_l (iblk2 V c 0 t) (iblk2 V c 1 t) (iblk2 V c 3 t) (iblk2 V c 4 t) k2_pay6 k2_pay7,
       step2_acc (iblk2 V c 0 t) (iblk2 V c 1 t) (iblk2 V c 2 t) (iblk2 V c 3 t) (iblk2 V c 4 t) k2_pay6 k2_pay8) := by
  rw [outsAt2_A V c t h0 h1]; unfold pt2_A step2_m step2_l step2_acc
  rw [sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
    sout2_A_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t),
    sout2_A_2_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t)]

/-- After a point with `kk = 1, 2`: one tile absorbed into what the point before left. -/
theorem outsAt2_B_eq (c : Dev nD) (t : Fin cfg2.N) (h0 : ¬t.val % 4 = 0) (h1 : ¬t.val % 4 = 3) :
    outsAt2 V c t.val t.isLt =
      (out2_idle_5,
       step2_m (iblk2 V c 0 t) (iblk2 V c 1 t) (iblk2 V c 3 t) (iblk2 V c 4 t) (outsAt2 V c (t.val - 1) (Nat.lt_of_le_of_lt (Nat.sub_le _ _) t.isLt)).2.1,
       step2_l (iblk2 V c 0 t) (iblk2 V c 1 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1,
       step2_acc (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.2) := by
  rw [outsAt2_B V c t h0 h1]; unfold pt2_B step2_m step2_l step2_acc
  rw [sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_B_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_B_2_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2]

/-- After a point with `kk = 3`: one tile absorbed into what the point before left, and the quotient stored. -/
theorem outsAt2_C_eq (c : Dev nD) (t : Fin cfg2.N) (h0 : ¬t.val % 4 = 0) (h1 : t.val % 4 = 3) :
    outsAt2 V c t.val t.isLt =
      (fin2_out (step2_l (iblk2 V c 0 t) (iblk2 V c 1 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1) (step2_acc (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.2),
       step2_m (iblk2 V c 0 t) (iblk2 V c 1 t) (iblk2 V c 3 t) (iblk2 V c 4 t) (outsAt2 V c (t.val - 1) (Nat.lt_of_le_of_lt (Nat.sub_le _ _) t.isLt)).2.1,
       step2_l (iblk2 V c 0 t) (iblk2 V c 1 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1,
       step2_acc (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.2) := by
  rw [outsAt2_C V c t h0 h1]; unfold pt2_C fin2_out step2_m step2_l step2_acc
  rw [out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_C_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_C_2_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2]

end Points

end Cert.KernelIdeal.Gen

end
-- ==== Proof.KI.AttnIdx.lean ====
/-
  Where the blocks of the first attention call lie in their arrays.

  The call runs over a grid `16 × 2 × 4`: point `t` has coordinates `(n, qi, kk) = (t / 8, (t / 4) % 2, t % 4)` — a batch
  entry, a tile of 1024 query rows, a tile of 512 key rows. Each window's block index is read off those coordinates by
  its index map, and a block's element at a coordinate inside the block is the array's element at
  `index × size + coordinate` on every axis. The query-side windows (the query projections, the query mask, the
  output) follow `(n, qi)`; the key-side windows (the key projections, the value rows, the key mask) follow `(n, kk)`.
  The output is written back only at the last key tile, `kk = 3`; those points' blocks tile the output array.
-/
import proofs.«111653_j86517821215425_2_alg».proof.Proof.Gen.KernelIdeal.Launch
import proofs.«111653_j86517821215425_2_alg».proof.Proof.Gen.KernelIdeal.Points
import Idealize.ShloMosaic.Lib.Pipeline.Value
import Idealize.ShloMosaic.Lib.ValueIdx

noncomputable section

namespace Cert.KernelIdeal.AttnIdx

open Cert.KernelIdeal Cert.KernelIdeal.Gen Idealize.ShloMosaic Idealize.ShloMosaic.ValueIdx

/-- The block indices of the six windows at point `t`, decided over the grid. -/
theorem idx_facts : ∀ t : Fin cfg2.N,
    (win2_0.index t (0 : Fin 3) = t.val / 8 ∧ win2_0.index t (1 : Fin 3) = t.val / 4 % 2 ∧ win2_0.index t (2 : Fin 3) = 0)
    ∧ (win2_1.index t (0 : Fin 3) = t.val / 8 ∧ win2_1.index t (1 : Fin 3) = t.val % 4 ∧ win2_1.index t (2 : Fin 3) = 0)
    ∧ (win2_2.index t (0 : Fin 3) = t.val / 8 ∧ win2_2.index t (1 : Fin 3) = t.val % 4 ∧ win2_2.index t (2 : Fin 3) = 0)
    ∧ (win2_3.index t (0 : Fin 3) = t.val / 8 ∧ win2_3.index t (1 : Fin 3) = t.val / 4 % 2 ∧ win2_3.index t (2 : Fin 3) = 0)
    ∧ (win2_4.index t (0 : Fin 3) = t.val / 8 ∧ win2_4.index t (1 : Fin 3) = 0 ∧ win2_4.index t (2 : Fin 3) = t.val % 4)
    ∧ (win2_5.index t (0 : Fin 3) = t.val / 8 ∧ win2_5.index t (1 : Fin 3) = t.val / 4 % 2 ∧ win2_5.index t (2 : Fin 3) = 0) :=
  (by decide +kernel : ∀ t : Fin grid2.N, _)

/-- A point of the grid is below 128. -/
theorem lt_N (t : Fin cfg2.N) : t.val < 128 := lt_of_lt_of_eq t.isLt N_2

/-- The batch entry of point `t`. -/
abbrev bat (t : Fin cfg2.N) : Fin 16 := ⟨t.val / 8, by have := lt_N t; omega⟩

/-- The array row under row `r` of point `t`'s query tile. -/
abbrev qrow (t : Fin cfg2.N) (r : Fin 1024) : Fin 2048 := ⟨1024 * (t.val / 4 % 2) + r.val, by have := r.isLt; omega⟩

/-- The array row under row `cc` of point `t`'s key tile. -/
abbrev krow (t : Fin cfg2.N) (cc : Fin 512) : Fin 2048 := ⟨512 * (t.val % 4) + cc.val, by have := cc.isLt; omega⟩

variable {Val : EltTy → Type}

/-- Window 0 (the query projections `[16, 2048, 512]`, block `[1, 1024, 512]` at `(n, qi, 0)`). -/
theorem read_0 (arr : (⟨S16x2048x512, .bf16⟩ : BufTy).Contents Val) (t : Fin cfg2.N) (r : Fin 1024) (h : Fin 512) :
    ((cfg2.win 0).blk t).view.read Val arr (ix3 (0 : Fin 1) r h) = arr (ix3 (bat t) (qrow t r) h) := by
  obtain ⟨⟨e0, e1, e2⟩, -⟩ := idx_facts t
  show arr (((cfg2.win 0).blk t).view.emb (ix3 (0 : Fin 1) r h)) = _
  refine congrArg arr (funext fun a => Fin.ext ?_)
  match a with
  | ⟨0, _⟩ => show win2_0.index t (0 : Fin 3) * 1 + 1 * 0 = t.val / 8; omega
  | ⟨1, _⟩ => show win2_0.index t (1 : Fin 3) * 1024 + 1 * r.val = 1024 * (t.val / 4 % 2) + r.val; omega
  | ⟨2, _⟩ => show win2_0.index t (2 : Fin 3) * 512 + 1 * h.val = h.val; omega

/-- Window 1 (the key projections `[16, 2048, 512]`, block `[1, 512, 512]` at `(n, kk, 0)`). -/
theorem read_1 (arr : (⟨S16x2048x512, .bf16⟩ : BufTy).Contents Val) (t : Fin cfg2.N) (cc : Fin 512) (h : Fin 512) :
    ((cfg2.win 1).blk t).view.read Val arr (ix3 (0 : Fin 1) cc h) = arr (ix3 (bat t) (krow t cc) h) := by
  obtain ⟨-, ⟨e0, e1, e2⟩, -⟩ := idx_facts t
  show arr (((cfg2.win 1).blk t).view.emb (ix3 (0 : Fin 1) cc h)) = _
  refine congrArg arr (funext fun a => Fin.ext ?_)
  match a with
  | ⟨0, _⟩ => show win2_1.index t (0 : Fin 3) * 1 + 1 * 0 = t.val / 8; omega
  | ⟨1, _⟩ => show win2_1.index t (1 : Fin 3) * 512 + 1 * cc.val = 512 * (t.val % 4) + cc.val; omega
  | ⟨2, _⟩ => show win2_1.index t (2 : Fin 3) * 512 + 1 * h.val = h.val; omega

/-- Window 2 (the value rows `[16, 2048, 1024]`, block `[1, 512, 1024]` at `(n, kk, 0)`). -/
theorem read_2 (arr : (⟨S16x2048x1024, .bf16⟩ : BufTy).Contents Val) (t : Fin cfg2.N) (cc : Fin 512) (d : Fin 1024) :
    ((cfg2.win 2).blk t).view.read Val arr (ix3 (0 : Fin 1) cc d) = arr (ix3 (bat t) (krow t cc) d) := by
  obtain ⟨-, -, ⟨e0, e1, e2⟩, -⟩ := idx_facts t
  show arr (((cfg2.win 2).blk t).view.emb (ix3 (0 : Fin 1) cc d)) = _
  refine congrArg arr (funext fun a => Fin.ext ?_)
  match a with
  | ⟨0, _⟩ => show win2_2.index t (0 : Fin 3) * 1 + 1 * 0 = t.val / 8; omega
  | ⟨1, _⟩ => show win2_2.index t (1 : Fin 3) * 512 + 1 * cc.val = 512 * (t.val % 4) + cc.val; omega
  | ⟨2, _⟩ => show win2_2.index t (2 : Fin 3) * 1024 + 1 * d.val = d.val; omega

/-- Window 3 (the query mask `[16, 2048, 1]`, block `[1, 1024, 1]` at `(n, qi, 0)`). -/
theorem read_3 (arr : (⟨S16x2048x1, .f32⟩ : BufTy).Contents Val) (t : Fin cfg2.N) (r : Fin 1024) :
    ((cfg2.win 3).blk t).view.read Val arr (ix3 (0 : Fin 1) r (0 : Fin 1)) = arr (ix3 (bat t) (qrow t r) (0 : Fin 1)) := by
  obtain ⟨-, -, -, ⟨e0, e1, e2⟩, -⟩ := idx_facts t
  show arr (((cfg2.win 3).blk t).view.emb (ix3 (0 : Fin 1) r (0 : Fin 1))) = _
  refine congrArg arr (funext fun a => Fin.ext ?_)
  match a with
  | ⟨0, _⟩ => show win2_3.index t (0 : Fin 3) * 1 + 1 * 0 = t.val / 8; omega
  | ⟨1, _⟩ => show win2_3.index t (1 : Fin 3) * 1024 + 1 * r.val = 1024 * (t.val / 4 % 2) + r.val; omega
  | ⟨2, _⟩ => show win2_3.index t (2 : Fin 3) * 1 + 1 * 0 = 0; omega

/-- Window 4 (the key mask as a row `[16, 1, 2048]`, block `[1, 1, 512]` at `(n, 0, kk)`). -/
theorem read_4 (arr : (⟨S16x1x2048, .f32⟩ : BufTy).Contents Val) (t : Fin cfg2.N) (cc : Fin 512) :
    ((cfg2.win 4).blk t).view.read Val arr (ix3 (0 : Fin 1) (0 : Fin 1) cc) = arr (ix3 (bat t) (0 : Fin 1) (krow t cc)) := by
  obtain ⟨-, -, -, -, ⟨e0, e1, e2⟩, -⟩ := idx_facts t
  show arr (((cfg2.win 4).blk t).view.emb (ix3 (0 : Fin 1) (0 : Fin 1) cc)) = _
  refine congrArg arr (funext fun a => Fin.ext ?_)
  match a with
  | ⟨0, _⟩ => show win2_4.index t (0 : Fin 3) * 1 + 1 * 0 = t.val / 8; omega
  | ⟨1, _⟩ => show win2_4.index t (1 : Fin 3) * 1 + 1 * 0 = 0; omega
  | ⟨2, _⟩ => show win2_4.index t (2 : Fin 3) * 512 + 1 * cc.val = 512 * (t.val % 4) + cc.val; omega

/-- Window 5 (the output `[16, 2048, 1024]`, block `[1, 1024, 1024]` at `(n, qi, 0)`). -/
theorem read_5 (arr : (⟨S16x2048x1024, .f32⟩ : BufTy).Contents Val) (t : Fin cfg2.N) (r : Fin 1024) (d : Fin 1024) :
    ((cfg2.win 5).blk t).view.read Val arr (ix3 (0 : Fin 1) r d) = arr (ix3 (bat t) (qrow t r) d) := by
  obtain ⟨-, -, -, -, -, e0, e1, e2⟩ := idx_facts t
  show arr (((cfg2.win 5).blk t).view.emb (ix3 (0 : Fin 1) r d)) = _
  refine congrArg arr (funext fun a => Fin.ext ?_)
  match a with
  | ⟨0, _⟩ => show win2_5.index t (0 : Fin 3) * 1 + 1 * 0 = t.val / 8; omega
  | ⟨1, _⟩ => show win2_5.index t (1 : Fin 3) * 1024 + 1 * r.val = 1024 * (t.val / 4 % 2) + r.val; omega
  | ⟨2, _⟩ => show win2_5.index t (2 : Fin 3) * 1024 + 1 * d.val = d.val; omega

/-- An index of the output array is in point `t`'s block iff each coordinate is in the block's range on its axis. -/
theorem mem_blk_5 (t : Fin cfg2.N) (i : S16x2048x1024.Idx) :
    i ∈ ((cfg2.win 5).blk t).view.set ↔ ∀ a : Fin 3, win2_5.index t a * S1x1024x1024.size a ≤ (i a).val
      ∧ (i a).val < win2_5.index t a * S1x1024x1024.size a + S1x1024x1024.size a := by
  show i ∈ ((View.whole main_v20).slice (win2_5.rect t)).set ↔ _
  rw [View.set_slice_whole, Rect.mem_set_unit]
  exact Iff.rfl

/-- The same by coordinates: the batch entry is `t`'s and the row lies in `t`'s query tile. -/
theorem mem_blk_5_iff (t : Fin cfg2.N) (i : S16x2048x1024.Idx) :
    i ∈ ((cfg2.win 5).blk t).view.set ↔ (i 0).val = t.val / 8 ∧ (i 1).val / 1024 = t.val / 4 % 2 := by
  rw [mem_blk_5]
  obtain ⟨-, -, -, -, -, e0, e1, e2⟩ := idx_facts t
  have h2 : (i 2).val < 1024 := (i 2).isLt
  constructor
  · intro hi
    have b0 : win2_5.index t (0 : Fin 3) * 1 ≤ (i 0).val ∧ (i 0).val < win2_5.index t (0 : Fin 3) * 1 + 1 := hi 0
    have b1 : win2_5.index t (1 : Fin 3) * 1024 ≤ (i 1).val ∧ (i 1).val < win2_5.index t (1 : Fin 3) * 1024 + 1024 := hi 1
    omega
  · rintro ⟨h0, h1⟩ a
    match a with
    | ⟨0, _⟩ => show win2_5.index t (0 : Fin 3) * 1 ≤ (i 0).val ∧ (i 0).val < win2_5.index t (0 : Fin 3) * 1 + 1; omega
    | ⟨1, _⟩ => show win2_5.index t (1 : Fin 3) * 1024 ≤ (i 1).val ∧ (i 1).val < win2_5.index t (1 : Fin 3) * 1024 + 1024; omega
    | ⟨2, _⟩ => show win2_5.index t (2 : Fin 3) * 1024 ≤ (i 2).val ∧ (i 2).val < win2_5.index t (2 : Fin 3) * 1024 + 1024; omega

/-- The point that writes back the block holding row `i` of batch entry `n`: the last key tile of its query tile. -/
abbrev flusher (n : Fin 16) (i : Fin 2048) : Fin cfg2.N :=
  ⟨8 * n.val + 4 * (i.val / 1024) + 3, lt_of_lt_of_eq (by have := n.isLt; have := i.isLt; omega) N_2.symm⟩

/-- It does write back. -/
theorem flusher_flush (n : Fin 16) (i : Fin 2048) : (cfg2.win 5).flush (flusher n i) = true :=
  (flush2_5 (flusher n i)).mpr (by show (8 * n.val + 4 * (i.val / 1024) + 3) % 4 = 3; omega)

/-- THE COVER: every index of the output array lies in the block of a point that writes back. -/
theorem cover_5 (i : S16x2048x1024.Idx) :
    ∃ t : Fin cfg2.N, (cfg2.win 5).flush t = true ∧ i ∈ ((cfg2.win 5).blk t).view.set := by
  have h0 : (i 0).val < 16 := (i 0).isLt
  have h1 : (i 1).val < 2048 := (i 1).isLt
  refine ⟨flusher ⟨(i 0).val, h0⟩ ⟨(i 1).val, h1⟩, flusher_flush _ _, ?_⟩
  rw [mem_blk_5_iff]
  show (i 0).val = (8 * (i 0).val + 4 * ((i 1).val / 1024) + 3) / 8
    ∧ (i 1).val / 1024 = (8 * (i 0).val + 4 * ((i 1).val / 1024) + 3) / 4 % 2
  omega

end Cert.KernelIdeal.AttnIdx

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibOnlineSoftmax.lean ====
/-
  The online softmax is the softmax.

  A row's scores arrive tile by tile (`t` columns a tile). The online form keeps a running maximum `m`, a running
  sum `l` of `exp (score − m)` and a running weighted sum `acc` of value rows; a new tile rescales the two sums by
  `exp (m − m')` for the new maximum `m'` and adds the tile's terms. After the live tiles, `acc / l` is the
  softmax-weighted sum of ALL the value rows, the columns of the tiles never visited having score `-∞`
  (weight `exp (-∞) = 0`). Scores are real or `-∞`, value entries real, and tile 0 holds a real score, so the running
  maximum is real from the first tile on and no `-∞ − -∞` is ever formed.
-/
import Mathlib
import Idealize.ShloMosaic.PureOps.Ideal

noncomputable section

open scoped BigOperators

namespace OnlineSoftmax

open Idealize.ShloMosaic

variable {O : Type}

/-- The running state of one row: maximum, sum of weights, weighted sum of value rows. -/
structure St (O : Type) where
  m : EReal
  l : EReal
  acc : O → EReal

/-- Before the first tile: maximum `-∞`, both sums zero. -/
def init : St O := ⟨⊥, 0, fun _ => 0⟩

/-- One tile of `t` columns, scores `s j` and value rows `v j`. -/
def step {t : ℕ} (s : Fin t → EReal) (v : Fin t → O → EReal) (st : St O) : St O :=
  ⟨max st.m (Finset.univ.fold max ⊥ s),
   Ideal.exp (st.m - max st.m (Finset.univ.fold max ⊥ s)) * st.l
     + ∑ j : Fin t, Ideal.exp (s j - max st.m (Finset.univ.fold max ⊥ s)),
   fun o => Ideal.exp (st.m - max st.m (Finset.univ.fold max ⊥ s)) * st.acc o
     + ∑ j : Fin t, Ideal.exp (s j - max st.m (Finset.univ.fold max ⊥ s)) * v j o⟩

/-- The state after the first `K` tiles. -/
def run {t : ℕ} (s : ℕ → Fin t → EReal) (v : ℕ → Fin t → O → EReal) : ℕ → St O
  | 0 => init
  | k + 1 => step (s k) (v k) (run s v k)

/-! ### Weights as real numbers -/

/-- The unnormalised weight exp x of a score, as a real number: 0 at -∞. -/
def ew (x : EReal) : ℝ := (Ideal.exp x).toReal

theorem ew_bot : ew ⊥ = 0 := by
  rw [ew, Ideal.exp_bot, EReal.toReal_zero]

theorem ew_coe (r : ℝ) : ew (r : EReal) = Real.exp r := by
  rw [ew, Ideal.exp_coe, EReal.toReal_coe]

theorem ew_nonneg {x : EReal} (hx : x = ⊥ ∨ ∃ r : ℝ, x = (r : EReal)) : 0 ≤ ew x := by
  rcases hx with rfl | ⟨r, rfl⟩
  · rw [ew_bot]
  · rw [ew_coe]; exact (Real.exp_pos r).le

/-- exp (x − m) = exp x · exp (−m) for a real m and x real or -∞ (both sides 0 at -∞). -/
theorem exp_sub_coe {x : EReal} (hx : x = ⊥ ∨ ∃ r : ℝ, x = (r : EReal)) (m : ℝ) :
    Ideal.exp (x - (m : EReal)) = ((ew x * Real.exp (-m) : ℝ) : EReal) := by
  rcases hx with rfl | ⟨r, rfl⟩
  · rw [EReal.bot_sub, Ideal.exp_bot, ew_bot, zero_mul, EReal.coe_zero]
  · rw [← EReal.coe_sub, Ideal.exp_coe, ew_coe, ← Real.exp_add, sub_eq_add_neg]

/-- The coercion of a finite real sum is the sum of the coercions. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ### Maxima of scores that are real or -∞ -/

theorem fold_max_ne_top {ι : Type} (S : Finset ι) (f : ι → EReal) (hf : ∀ i, f i ≠ ⊤) :
    S.fold max ⊥ f ≠ ⊤ := by
  classical
  induction S using Finset.induction_on with
  | empty => simp
  | insert a S ha ih =>
    rw [Finset.fold_insert ha]
    intro h
    rcases max_choice (f a) (S.fold max ⊥ f) with h' | h'
    · exact hf a (h' ▸ h)
    · exact ih (h' ▸ h)

theorem le_fold_max {ι : Type} (S : Finset ι) (f : ι → EReal) {i : ι} (hi : i ∈ S) :
    f i ≤ S.fold max ⊥ f := by
  classical
  induction S using Finset.induction_on with
  | empty => simp at hi
  | insert a S ha ih =>
    rw [Finset.fold_insert ha]
    rcases Finset.mem_insert.1 hi with rfl | h
    · exact le_max_left _ _
    · exact (ih h).trans (le_max_right _ _)

theorem ne_top_of {x : EReal} (hx : x = ⊥ ∨ ∃ r : ℝ, x = (r : EReal)) : x ≠ ⊤ := by
  rcases hx with rfl | ⟨r, rfl⟩
  · exact bot_ne_top
  · exact EReal.coe_ne_top r

/-! ### One tile -/

variable {t : ℕ}

theorem sum_exp_sub (s : Fin t → EReal) (hs : ∀ j, s j = ⊥ ∨ ∃ r : ℝ, s j = (r : EReal)) (m : ℝ) :
    ∑ j, Ideal.exp (s j - (m : EReal)) = (((∑ j, ew (s j)) * Real.exp (-m) : ℝ) : EReal) := by
  rw [Finset.sum_mul, coe_sum]
  exact Finset.sum_congr rfl fun j _ => exp_sub_coe (hs j) m

theorem sum_exp_sub_mul (s : Fin t → EReal) (w : Fin t → EReal)
    (hs : ∀ j, s j = ⊥ ∨ ∃ r : ℝ, s j = (r : EReal)) (hw : ∀ j, ∃ r : ℝ, w j = (r : EReal)) (m : ℝ) :
    ∑ j, Ideal.exp (s j - (m : EReal)) * w j
      = (((∑ j, ew (s j) * (w j).toReal) * Real.exp (-m) : ℝ) : EReal) := by
  rw [Finset.sum_mul, coe_sum]
  refine Finset.sum_congr rfl fun j _ => ?_
  obtain ⟨r, hr⟩ := hw j
  rw [exp_sub_coe (hs j) m, hr, EReal.toReal_coe, ← EReal.coe_mul]
  congr 1; ring

/-- One tile, given what the rescaled old sums are against the new (real) maximum m'. -/
theorem step_gen (s : Fin t → EReal) (v : Fin t → O → EReal)
    (hs : ∀ j, s j = ⊥ ∨ ∃ r : ℝ, s j = (r : EReal)) (hv : ∀ j o, ∃ r : ℝ, v j o = (r : EReal))
    (st : St O) (m' A : ℝ) (B : O → ℝ)
    (hm' : max st.m (Finset.univ.fold max ⊥ s) = (m' : EReal))
    (hl : Ideal.exp (st.m - (m' : EReal)) * st.l = ((A * Real.exp (-m') : ℝ) : EReal))
    (hacc : ∀ o, Ideal.exp (st.m - (m' : EReal)) * st.acc o = ((B o * Real.exp (-m') : ℝ) : EReal)) :
    (step s v st).m = (m' : EReal)
      ∧ (step s v st).l = (((A + ∑ j, ew (s j)) * Real.exp (-m') : ℝ) : EReal)
      ∧ ∀ o, (step s v st).acc o
          = (((B o + ∑ j, ew (s j) * (v j o).toReal) * Real.exp (-m') : ℝ) : EReal) := by
  refine ⟨hm', ?_, fun o => ?_⟩
  · show Ideal.exp (st.m - max st.m (Finset.univ.fold max ⊥ s)) * st.l
        + ∑ j : Fin t, Ideal.exp (s j - max st.m (Finset.univ.fold max ⊥ s)) = _
    rw [hm', hl, sum_exp_sub s hs m', ← EReal.coe_add, add_mul]
  · show Ideal.exp (st.m - max st.m (Finset.univ.fold max ⊥ s)) * st.acc o
        + ∑ j : Fin t, Ideal.exp (s j - max st.m (Finset.univ.fold max ⊥ s)) * v j o = _
    rw [hm', hacc o, sum_exp_sub_mul s (fun j => v j o) hs (fun j => hv j o) m', ← EReal.coe_add, add_mul]

/-! ### The tiles so far -/

/-- Sum of the weights of the first k tiles. -/
def wsum (s : ℕ → Fin t → EReal) (k : ℕ) : ℝ := ∑ k' ∈ Finset.range k, ∑ j, ew (s k' j)

/-- Weighted sum of the value rows of the first k tiles. -/
def vsum (s : ℕ → Fin t → EReal) (v : ℕ → Fin t → O → EReal) (o : O) (k : ℕ) : ℝ :=
  ∑ k' ∈ Finset.range k, ∑ j, ew (s k' j) * (v k' j o).toReal

/-- A tile holding a real score has a real maximum. -/
theorem tile_max_real (s : Fin t → EReal) (hs : ∀ j, s j = ⊥ ∨ ∃ r : ℝ, s j = (r : EReal))
    (h0 : ∃ j, ∃ r : ℝ, s j = (r : EReal)) : ∃ m : ℝ, Finset.univ.fold max ⊥ s = (m : EReal) := by
  obtain ⟨j, r, hr⟩ := h0
  have h1 : Finset.univ.fold max ⊥ s ≠ ⊤ := fold_max_ne_top _ _ fun j => ne_top_of (hs j)
  have h2 : Finset.univ.fold max ⊥ s ≠ ⊥ := by
    intro h
    have h3 := le_fold_max Finset.univ s (Finset.mem_univ j)
    rw [h, hr] at h3
    exact EReal.coe_ne_bot r (le_bot_iff.1 h3)
  exact ⟨_, (EReal.coe_toReal h1 h2).symm⟩

/-- The maximum of a real number and something real or -∞ is real. -/
theorem max_coe_real (m : ℝ) {x : EReal} (hx : x ≠ ⊤) : ∃ m' : ℝ, max (m : EReal) x = (m' : EReal) := by
  have h1 : max (m : EReal) x ≠ ⊤ := by
    rcases max_choice (m : EReal) x with h | h <;> rw [h]
    · exact EReal.coe_ne_top m
    · exact hx
  have h2 : max (m : EReal) x ≠ ⊥ := fun h =>
    EReal.coe_ne_bot m (le_bot_iff.1 (h ▸ le_max_left (m : EReal) x))
  exact ⟨_, (EReal.coe_toReal h1 h2).symm⟩

/-- After k + 1 tiles the maximum is a real m, and the two running sums are the plain sums of the
    weights exp (score), scaled by exp (−m). -/
theorem run_inv (s : ℕ → Fin t → EReal) (v : ℕ → Fin t → O → EReal)
    (hs : ∀ k j, s k j = ⊥ ∨ ∃ r : ℝ, s k j = (r : EReal))
    (hv : ∀ k j o, ∃ r : ℝ, v k j o = (r : EReal))
    (h0 : ∃ j, ∃ r : ℝ, s 0 j = (r : EReal)) (k : ℕ) :
    ∃ m : ℝ, (run s v (k + 1)).m = (m : EReal)
      ∧ (run s v (k + 1)).l = ((wsum s (k + 1) * Real.exp (-m) : ℝ) : EReal)
      ∧ ∀ o, (run s v (k + 1)).acc o = ((vsum s v o (k + 1) * Real.exp (-m) : ℝ) : EReal) := by
  induction k with
  | zero =>
    obtain ⟨m', hm'⟩ := tile_max_real (s 0) (hs 0) h0
    have h := step_gen (s 0) (v 0) (hs 0) (hv 0) init m' 0 (fun _ => 0)
      (by show max ⊥ _ = _; rw [max_bot_left, hm'])
      (by show _ * (0 : EReal) = _; rw [mul_zero, zero_mul, EReal.coe_zero])
      (fun o => by show _ * (0 : EReal) = _; rw [mul_zero, zero_mul, EReal.coe_zero])
    refine ⟨m', h.1, ?_, fun o => ?_⟩
    · rw [wsum, Finset.sum_range_succ, Finset.sum_range_zero]; exact h.2.1
    · rw [vsum, Finset.sum_range_succ, Finset.sum_range_zero]; exact h.2.2 o
  | succ k ih =>
    obtain ⟨m, hm, hl, hacc⟩ := ih
    obtain ⟨m', hm'⟩ := max_coe_real m
      (fold_max_ne_top Finset.univ (s (k + 1)) fun j => ne_top_of (hs (k + 1) j))
    rw [← hm] at hm'
    have key : Real.exp (m - m') * Real.exp (-m) = Real.exp (-m') := by
      rw [← Real.exp_add]; congr 1; ring
    have h := step_gen (s (k + 1)) (v (k + 1)) (hs (k + 1)) (hv (k + 1)) (run s v (k + 1)) m'
      (wsum s (k + 1)) (fun o => vsum s v o (k + 1)) hm'
      (by rw [hm, hl, ← EReal.coe_sub, Ideal.exp_coe, ← EReal.coe_mul]; congr 1
          linear_combination wsum s (k + 1) * key)
      (fun o => by
        rw [hm, hacc o, ← EReal.coe_sub, Ideal.exp_coe, ← EReal.coe_mul]; congr 1
        linear_combination vsum s v o (k + 1) * key)
    refine ⟨m', h.1, ?_, fun o => ?_⟩
    · rw [wsum, Finset.sum_range_succ]; exact h.2.1
    · rw [vsum, Finset.sum_range_succ]; exact h.2.2 o

/-! ### The tiles never visited -/

theorem wsum_dead {K N : ℕ} (hKN : K ≤ N) (s : ℕ → Fin t → EReal)
    (hdead : ∀ k, K ≤ k → ∀ j, s k j = ⊥) : wsum s N = wsum s K := by
  rw [wsum, wsum]
  symm
  refine Finset.sum_subset (Finset.range_subset_range.2 hKN) fun k _ hk => ?_
  have hk' : K ≤ k := by simpa using hk
  exact Finset.sum_eq_zero fun j _ => by rw [hdead k hk' j, ew_bot]

theorem vsum_dead {K N : ℕ} (hKN : K ≤ N) (s : ℕ → Fin t → EReal) (v : ℕ → Fin t → O → EReal) (o : O)
    (hdead : ∀ k, K ≤ k → ∀ j, s k j = ⊥) : vsum s v o N = vsum s v o K := by
  rw [vsum, vsum]
  symm
  refine Finset.sum_subset (Finset.range_subset_range.2 hKN) fun k _ hk => ?_
  have hk' : K ≤ k := by simpa using hk
  exact Finset.sum_eq_zero fun j _ => by rw [hdead k hk' j, ew_bot, zero_mul]

theorem wsum_pos (s : ℕ → Fin t → EReal) (hs : ∀ k j, s k j = ⊥ ∨ ∃ r : ℝ, s k j = (r : EReal))
    (h0 : ∃ j, ∃ r : ℝ, s 0 j = (r : EReal)) {K : ℕ} (hK : 0 < K) : 0 < wsum s K := by
  obtain ⟨j, r, hr⟩ := h0
  refine Finset.sum_pos' (fun k _ => Finset.sum_nonneg fun j _ => ew_nonneg (hs k j))
    ⟨0, Finset.mem_range.2 hK, ?_⟩
  refine Finset.sum_pos' (fun j _ => ew_nonneg (hs 0 j)) ⟨j, Finset.mem_univ j, ?_⟩
  rw [hr, ew_coe]; exact Real.exp_pos r

/-- The maximum over all the tiles is real. -/
theorem all_max_real {N : ℕ} (hN : 0 < N) (s : ℕ → Fin t → EReal)
    (hs : ∀ k j, s k j = ⊥ ∨ ∃ r : ℝ, s k j = (r : EReal))
    (h0 : ∃ j, ∃ r : ℝ, s 0 j = (r : EReal)) :
    ∃ M : ℝ, Finset.univ.fold max ⊥ (fun k' : Fin N => Finset.univ.fold max ⊥ (fun j' : Fin t => s k' j'))
      = (M : EReal) := by
  obtain ⟨m0, hm0⟩ := tile_max_real (s 0) (hs 0) h0
  have h1 : Finset.univ.fold max ⊥ (fun k' : Fin N => Finset.univ.fold max ⊥ (fun j' : Fin t => s k' j')) ≠ ⊤ :=
    fold_max_ne_top _ _ fun k' => fold_max_ne_top _ _ fun j => ne_top_of (hs k' j)
  have h2 : Finset.univ.fold max ⊥ (fun k' : Fin N => Finset.univ.fold max ⊥ (fun j' : Fin t => s k' j')) ≠ ⊥ := by
    intro h
    have h3 := le_fold_max Finset.univ
      (fun k' : Fin N => Finset.univ.fold max ⊥ (fun j' : Fin t => s k' j')) (Finset.mem_univ ⟨0, hN⟩)
    rw [h] at h3
    have h4 : Finset.univ.fold max ⊥ (s 0) = ⊥ := le_bot_iff.1 h3
    rw [hm0] at h4
    exact EReal.coe_ne_bot m0 h4
  exact ⟨_, (EReal.coe_toReal h1 h2).symm⟩
/-- After `K ≥ 1` live tiles out of `N`, the tiles from `K` on all `-∞`: `acc / l` is the softmax-weighted sum over
    all `N` tiles, with the maximum and the normaliser taken over all of them. -/
theorem run_div {N t : ℕ} (K : ℕ) (hK : 0 < K) (hKN : K ≤ N)
    (s : ℕ → Fin t → EReal) (v : ℕ → Fin t → O → EReal)
    (hs : ∀ k j, s k j = ⊥ ∨ ∃ r : ℝ, s k j = (r : EReal))
    (hv : ∀ k j o, ∃ r : ℝ, v k j o = (r : EReal))
    (h0 : ∃ j, ∃ r : ℝ, s 0 j = (r : EReal))
    (hdead : ∀ k, K ≤ k → ∀ j, s k j = ⊥) (o : O) :
    Ideal.div ((run s v K).acc o) ((run s v K).l)
      = ∑ k : Fin N, ∑ j : Fin t,
          Ideal.div
            (Ideal.exp (s k j - Finset.univ.fold max ⊥ (fun k' : Fin N => Finset.univ.fold max ⊥ (fun j' : Fin t => s k' j'))))
            (∑ k' : Fin N, ∑ j' : Fin t,
              Ideal.exp (s k' j' - Finset.univ.fold max ⊥ (fun k'' : Fin N => Finset.univ.fold max ⊥ (fun j'' : Fin t => s k'' j''))))
          * v k j o := by
  obtain ⟨k, rfl⟩ : ∃ k, K = k + 1 := ⟨K - 1, by omega⟩
  obtain ⟨m, -, hl, hacc⟩ := run_inv s v hs hv h0 k
  obtain ⟨M, hM⟩ := all_max_real (lt_of_lt_of_le hK hKN) s hs h0
  have hA : 0 < wsum s (k + 1) := wsum_pos s hs h0 hK
  have hAN : wsum s N = wsum s (k + 1) := wsum_dead hKN s hdead
  have hBN : vsum s v o N = vsum s v o (k + 1) := vsum_dead hKN s v o hdead
  have hA' : wsum s N ≠ 0 := by rw [hAN]; exact hA.ne'
  have hem : Real.exp (-m) ≠ 0 := (Real.exp_pos _).ne'
  have heM : Real.exp (-M) ≠ 0 := (Real.exp_pos _).ne'
  have h1 : wsum s (k + 1) * Real.exp (-m) ≠ 0 := mul_ne_zero hA.ne' hem
  have h2 : wsum s N * Real.exp (-M) ≠ 0 := mul_ne_zero hA' heM
  -- the normaliser over all the tiles
  have hden : ∑ k' : Fin N, ∑ j' : Fin t, Ideal.exp (s k' j' - (M : EReal))
      = ((wsum s N * Real.exp (-M) : ℝ) : EReal) := by
    rw [wsum, ← Fin.sum_univ_eq_sum_range (fun k' => ∑ j, ew (s k' j)) N, Finset.sum_mul, coe_sum]
    exact Finset.sum_congr rfl fun k' _ => sum_exp_sub (s k') (hs k') M
  -- one term of the softmax-weighted sum
  have hterm : ∀ (k' : Fin N) (j : Fin t),
      Ideal.div (Ideal.exp (s k' j - (M : EReal))) ((wsum s N * Real.exp (-M) : ℝ) : EReal) * v k' j o
        = ((ew (s k' j) * (v k' j o).toReal / wsum s N : ℝ) : EReal) := by
    intro k' j
    obtain ⟨r, hr⟩ := hv k' j o
    rw [Ideal.div_coe h2, exp_sub_coe (hs k' j) M, hr, EReal.toReal_coe, ← EReal.coe_mul, ← EReal.coe_mul]
    congr 1
    field_simp
  have hsum : ∑ k' : Fin N, ∑ j : Fin t,
      Ideal.div (Ideal.exp (s k' j - (M : EReal))) ((wsum s N * Real.exp (-M) : ℝ) : EReal) * v k' j o
        = ((vsum s v o N / wsum s N : ℝ) : EReal) := by
    rw [vsum, ← Fin.sum_univ_eq_sum_range (fun k' => ∑ j, ew (s k' j) * (v k' j o).toReal) N,
      Finset.sum_div, coe_sum]
    refine Finset.sum_congr rfl fun k' _ => ?_
    rw [Finset.sum_div, coe_sum]
    exact Finset.sum_congr rfl fun j _ => hterm k' j
  rw [hM, hden, hsum, hacc o, hl, Ideal.div_coe h1, ← EReal.coe_mul, hBN, hAN]
  congr 1
  field_simp

end OnlineSoftmax

end
-- ==== Proof.Spec.lean ====
/-
  What the two programs compute, written once over plain coordinates.

  A batch holds two sequences of feature rows, `A n i ·` and `X n j ·`. Each is projected by a dense layer with a
  rectifier; row `i` of the first and row `j` of the second meet in a score, their inner product scaled by the
  temperature and blended with a large negative fill by the product of the two rows' mask entries. The first result
  weights the rows of `A` by the softmax of the scores over `i` (for each `j`); the second weights the rows of
  `X` by the softmax over `j` (for each `i`).

  The kernel arranges the same numbers differently: the temperature multiplies the first layer's weights and bias
  before the rectifier, and each softmax-weighted sum is accumulated over four tiles of 512 columns by the online
  recurrence (running maximum, running normaliser, running weighted sum).
-/
import Mathlib
import Idealize.ShloMosaic.PureOps.Ideal
import proofs.«111653_j86517821215425_2_alg».proof.Proof.LibOnlineSoftmax

noncomputable section

open scoped BigOperators

namespace Cert.Spec

open Idealize.ShloMosaic

/-- The mask fill, `-10⁹` as a binary32 word, as both programs spell it. -/
def negBig : EReal := Ideal.ofBits .f32 0xCE6E6B28#32

/-- The word of `1.0`. -/
def one : EReal := Ideal.ofBits .f32 0x3F800000#32

/-- A dense layer with a rectifier: `max (Σ_d x_d · w_{h,d} + b_h) 0`. -/
def dense {B L D H : ℕ} (X : Fin B → Fin L → Fin D → EReal) (W : Fin H → Fin D → EReal) (b : Fin H → EReal) :
    Fin B → Fin L → Fin H → EReal :=
  fun n i h => max ((∑ d, X n i d * W h d) + b h) 0

/-- A score `sc` blended with the fill by a mask value `mk`: `mk · sc + (1 − mk) · fill`. -/
def blend (mk sc : EReal) : EReal := mk * sc + (one - mk) * negBig

/-- The reference's scores: the inner product of the two projected rows, times the temperature, blended by the
    product of the two mask entries. -/
def score {B L H : ℕ} (P Q : Fin B → Fin L → Fin H → EReal) (pm qm : Fin B → Fin L → EReal) (t : EReal) :
    Fin B → Fin L → Fin L → EReal :=
  fun n i j => blend (pm n i * qm n j) ((∑ h, P n i h * Q n j h) * t)

/-- The kernel's scores of a query row `i` against a key row `j`: no temperature (it sits in the projection). -/
def scoreK {B L H : ℕ} (Q K : Fin B → Fin L → Fin H → EReal) (qm km : Fin B → Fin L → EReal) :
    Fin B → Fin L → Fin L → EReal :=
  fun n i j => blend (qm n i * km n j) (∑ h, Q n i h * K n j h)

/-- The largest entry of a finite family, `-∞` for the empty one. -/
def top {ι : Type} [Fintype ι] (f : ι → EReal) : EReal := Finset.univ.fold max ⊥ f

/-- The reference's first result: rows of `A` weighted by the softmax of the scores over `i`. -/
def refA {B L D : ℕ} (s : Fin B → Fin L → Fin L → EReal) (A : Fin B → Fin L → Fin D → EReal) :
    Fin B → Fin L → Fin D → EReal :=
  fun n j d => ∑ i, Ideal.div (Ideal.exp (s n i j - top fun i' => s n i' j))
    (∑ i', Ideal.exp (s n i' j - top fun i'' => s n i'' j)) * A n i d

/-- The reference's second result: rows of `X` weighted by the softmax of the scores over `j`. -/
def refB {B L D : ℕ} (s : Fin B → Fin L → Fin L → EReal) (X : Fin B → Fin L → Fin D → EReal) :
    Fin B → Fin L → Fin D → EReal :=
  fun n i d => ∑ j, Ideal.div (Ideal.exp (s n i j - top fun j' => s n i j'))
    (∑ j', Ideal.exp (s n i j' - top fun j'' => s n i j'')) * X n j d

/-- Column `c` of tile `k` (tiles of `T` columns) as a column of the whole row; beyond the row it is column 0,
    a value no statement reads. -/
def col {L : ℕ} [NeZero L] (T k : ℕ) (c : Fin T) : Fin L := Fin.ofNat L (T * k + c.val)

/-- The kernel's attention: for the query row `i` the online recurrence over `N` tiles of `T` key columns,
    divided out at the end. `sK n i j` is the score of query row `i` against key row `j`, `V` the value rows. -/
def attnK {B L D : ℕ} [NeZero L] (T N : ℕ) (sK : Fin B → Fin L → Fin L → EReal) (V : Fin B → Fin L → Fin D → EReal) :
    Fin B → Fin L → Fin D → EReal :=
  fun n i d =>
    Ideal.div ((OnlineSoftmax.run (fun k (c : Fin T) => sK n i (col T k c)) (fun k (c : Fin T) d' => V n (col T k c) d') N).acc d)
      ((OnlineSoftmax.run (fun k (c : Fin T) => sK n i (col T k c)) (fun k (c : Fin T) d' => V n (col T k c) d') N).l)

end Cert.Spec

end
-- ==== Proof.PayScore.lean ====
/-
  The attention kernel's scores, read at coordinates over the extended reals.

  For the query row `r` and the key row `c` of the tile, the kernel multiplies the query block by the transposed key
  block — the inner product `∑ h, q (r, h) · k (c, h)` — and blends it with the fill by the product of the two rows'
  mask entries: `mk · sc + (1 − mk) · fill`.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout

noncomputable section

namespace Cert.Pay

open Idealize.ShloMosaic Idealize.ShloMosaic.ValueIdx Cert.KernelIdeal Cert.KernelIdeal.Gen

/-- The score of query row `r` against key row `c`. -/
theorem k2_pay10_apply (q : Vec Ideal S1x1024x512 .bf16) (k : Vec Ideal S1x512x512 .bf16)
    (qm : Vec Ideal S1x1024x1 .f32) (km : Vec Ideal S1x1x512 .f32) (r : Fin 1024) (c : Fin 512) :
    k2_pay10 q k qm km (ix2 r c)
      = Cert.Spec.blend (qm (ix3 (0 : Fin 1) r (0 : Fin 1)) * km (ix3 (0 : Fin 1) (0 : Fin 1) c))
          (∑ h : Fin 512, q (ix3 (0 : Fin 1) r h) * k (ix3 (0 : Fin 1) c h)) := by
  unfold k2_pay10
  rw [addf_apply, mulf_apply, mulf_apply, mulf_apply, subf_apply, mulf_apply, broadcast_apply, broadcast_apply]
  rw [Cert.LibPlain.matmul_zero_apply dot_S1024x512_S512x512_S1024x512_1_0_0_1_n_n rfl none _ _ r c]
  rw [Cert.LibKeepdims.broadcastTo_a1_ab_apply, broadcastTo_1b_ab_apply, shapeCast_1ab_ab_apply, shapeCast_1ab_ab_apply]
  have hs : ∀ h : Fin 512,
      shapeCast S1024x512 q shapeCasts_S1x1024x512_S1024x512 (ix2 r h)
        * transpose S512x512 [1, 0] (shapeCast S512x512 k shapeCasts_S1x512x512_S512x512)
            transposes_S512x512_p1_0_S512x512 (ix2 h c)
        = q (ix3 (0 : Fin 1) r h) * k (ix3 (0 : Fin 1) c h) := fun h => by
    rw [shapeCast_1ab_ab_apply, transpose_ix2_apply, shapeCast_1ab_ab_apply]
  rw [Finset.sum_congr rfl fun h _ => hs h]
  rfl

end Cert.Pay

end
-- ==== Proof.PayTile.lean ====
/-
  The attention kernel's tile update, read at coordinates over the extended reals.

  With the tile's scores `S`, the new running maximum `M` (a column) and the rescaling factor `E` (a column) given,
  the weights are `exp (S (r, c) − M (r, 0))`; the running normaliser becomes `E · l + ∑ c, weight`, the running
  weighted sum `E · acc + ∑ c, weight · v (c, d)`. The new maximum is the larger of the old one and the row's largest
  score, and the rescaling factor is `exp (old − new)`.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout

noncomputable section

namespace Cert.Pay

open Idealize.ShloMosaic Idealize.ShloMosaic.ValueIdx Cert.KernelIdeal Cert.KernelIdeal.Gen

/-- A kernel's sum over the last axis of an `a × b` array from zero, at row `p`: the sum of the row's entries. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

/-- A kernel's maximum over the last axis of an `a × b` array from `-∞`, at row `p`: the fold of `max` from `⊥` over
    the row's entries. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max ⊥ (fun k => src (ix2 p k)) :=
  Cert.LibPlain.rowMax_apply src h hφ hacc p

/-- The weight of column `c` in row `r`. -/
theorem k2_pay1_apply (S : FVec Ideal S1024x512 .f32) (M : FVec Ideal S1024x1 .f32) (r : Fin 1024) (c : Fin 512) :
    k2_pay1 S M (ix2 r c) = Ideal.exp (S (ix2 r c) - M (ix2 r (0 : Fin 1))) := by
  unfold k2_pay1
  show Ideal.exp (S (ix2 r c) - broadcastTo S1024x512 M broadcasts_S1024x1_S1024x512 (ix2 r c)) = _
  rw [Cert.LibKeepdims.broadcastTo_a1_ab_apply]

/-- The running normaliser after the tile. -/
theorem k2_pay2_apply (S : FVec Ideal S1024x512 .f32) (M E : FVec Ideal S1024x1 .f32) (lo : Vec Ideal S1024x1 .f32)
    (r : Fin 1024) :
    k2_pay2 S M E lo (ix2 r (0 : Fin 1))
      = E (ix2 r (0 : Fin 1)) * lo (ix2 r (0 : Fin 1))
          + ∑ c : Fin 512, Ideal.exp (S (ix2 r c) - M (ix2 r (0 : Fin 1))) := by
  unfold k2_pay2
  rw [shapeCast_self, addf_apply, mulf_apply, Cert.LibKeepdims.shapeCast_a_a1_apply, rowSum_apply]
  exact congrArg (_ + ·) (Finset.sum_congr rfl fun c _ => k2_pay1_apply S M r c)

/-- The running weighted sum after the tile. -/
theorem k2_pay3_apply (V : FVec Ideal S512x1024 .bf16) (S : FVec Ideal S1024x512 .f32) (M E : FVec Ideal S1024x1 .f32)
    (ao : Vec Ideal S1024x1024 .f32) (r d : Fin 1024) :
    k2_pay3 V S M E ao (ix2 r d)
      = E (ix2 r (0 : Fin 1)) * ao (ix2 r d)
          + ∑ c : Fin 512, Ideal.exp (S (ix2 r c) - M (ix2 r (0 : Fin 1))) * V (ix2 c d) := by
  unfold k2_pay3
  rw [shapeCast_self, addf_apply, mulf_apply, Cert.LibKeepdims.broadcastTo_a1_ab_apply,
    Cert.LibPlain.matmul_zero_apply dot_S1024x512_S512x1024_S1024x1024_1_0_0_1_n_n rfl none _ _ r d]
  refine congrArg (_ + ·) (Finset.sum_congr rfl fun c _ => ?_)
  rw [truncf_apply, k2_pay1_apply]

/-- The stored running maximum is the new maximum. -/
theorem k2_pay4_apply (M : FVec Ideal S1024x1 .f32) (i : S1024x1.Idx) : k2_pay4 M i = M i := by
  unfold k2_pay4
  rw [shapeCast_self]

/-- The value block with its leading unit axis dropped. -/
theorem k2_pay9_apply (vv : Vec Ideal S1x512x1024 .bf16) (c : Fin 512) (d : Fin 1024) :
    k2_pay9 vv (ix2 c d) = vv (ix3 (0 : Fin 1) c d) := by
  unfold k2_pay9
  rw [shapeCast_1ab_ab_apply]

/-- The new running maximum: the larger of the old one and the row's largest score. -/
theorem k2_pay11_apply (q : Vec Ideal S1x1024x512 .bf16) (k : Vec Ideal S1x512x512 .bf16)
    (qm : Vec Ideal S1x1024x1 .f32) (km : Vec Ideal S1x1x512 .f32) (mo : Vec Ideal S1024x1 .f32) (r : Fin 1024) :
    k2_pay11 q k qm km mo (ix2 r (0 : Fin 1))
      = max (mo (ix2 r (0 : Fin 1)))
          ((Finset.univ : Finset (Fin 512)).fold max ⊥ fun c => k2_pay10 q k qm km (ix2 r c)) := by
  unfold k2_pay11
  rw [maximumf_apply, Cert.LibKeepdims.shapeCast_a_a1_apply, rowMax_apply]

/-- The rescaling factor: `exp (old maximum − new maximum)`. -/
theorem k2_pay12_apply (q : Vec Ideal S1x1024x512 .bf16) (k : Vec Ideal S1x512x512 .bf16)
    (qm : Vec Ideal S1x1024x1 .f32) (km : Vec Ideal S1x1x512 .f32) (mo mo' : Vec Ideal S1024x1 .f32) (i : S1024x1.Idx) :
    k2_pay12 q k qm km mo mo' i = Ideal.exp (mo' i - k2_pay11 q k qm km mo i) := by
  unfold k2_pay12
  rfl

end Cert.Pay

end
-- ==== Proof.PayStep.lean ====
/-
  One tile of the attention kernel is one step of the online softmax.

  For the query row `r`, the three values the kernel stores back — the running maximum, the running normaliser and the
  running weighted sum — are the online recurrence's step applied to the values found there, with the tile's scores
  of row `r` and the tile's value rows.
-/
import proofs.«111653_j86517821215425_2_alg».proof.Proof.PayScore
import proofs.«111653_j86517821215425_2_alg».proof.Proof.PayTile

noncomputable section

namespace Cert.Pay

open Idealize.ShloMosaic Idealize.ShloMosaic.ValueIdx Cert.KernelIdeal Cert.KernelIdeal.Gen

/-- The tile's update of row `r`, with the scores as the kernel computes them. -/
theorem k2_step (q : Vec Ideal S1x1024x512 .bf16) (k : Vec Ideal S1x512x512 .bf16)
    (qm : Vec Ideal S1x1024x1 .f32) (km : Vec Ideal S1x1x512 .f32) (vv : Vec Ideal S1x512x1024 .bf16)
    (mo lo : Vec Ideal S1024x1 .f32) (ao : Vec Ideal S1024x1024 .f32) (r : Fin 1024) :
    OnlineSoftmax.St.mk
        (k2_pay4 (k2_pay11 q k qm km mo) (ix2 r (0 : Fin 1)))
        (k2_pay2 (k2_pay10 q k qm km) (k2_pay11 q k qm km mo) (k2_pay12 q k qm km mo mo) lo (ix2 r (0 : Fin 1)))
        (fun d : Fin 1024 =>
          k2_pay3 (k2_pay9 vv) (k2_pay10 q k qm km) (k2_pay11 q k qm km mo) (k2_pay12 q k qm km mo mo) ao (ix2 r d))
      = OnlineSoftmax.step (fun c : Fin 512 => k2_pay10 q k qm km (ix2 r c))
          (fun (c : Fin 512) (d : Fin 1024) => vv (ix3 (0 : Fin 1) c d))
          ⟨mo (ix2 r (0 : Fin 1)), lo (ix2 r (0 : Fin 1)), fun d : Fin 1024 => ao (ix2 r d)⟩ := by
  have hM := k2_pay11_apply q k qm km mo r
  unfold OnlineSoftmax.step
  dsimp only
  rw [k2_pay4_apply, k2_pay2_apply, k2_pay12_apply, hM]
  congr 1
  funext d
  rw [k2_pay3_apply, k2_pay12_apply, hM]
  exact congrArg (_ + ·) (Finset.sum_congr rfl fun c _ => by rw [k2_pay9_apply])

/-- The same with the scores written out: the inner products blended with the fill by the masks. -/
theorem k2_step_blend (q : Vec Ideal S1x1024x512 .bf16) (k : Vec Ideal S1x512x512 .bf16)
    (qm : Vec Ideal S1x1024x1 .f32) (km : Vec Ideal S1x1x512 .f32) (vv : Vec Ideal S1x512x1024 .bf16)
    (mo lo : Vec Ideal S1024x1 .f32) (ao : Vec Ideal S1024x1024 .f32) (r : Fin 1024) :
    OnlineSoftmax.St.mk
        (k2_pay4 (k2_pay11 q k qm km mo) (ix2 r (0 : Fin 1)))
        (k2_pay2 (k2_pay10 q k qm km) (k2_pay11 q k qm km mo) (k2_pay12 q k qm km mo mo) lo (ix2 r (0 : Fin 1)))
        (fun d : Fin 1024 =>
          k2_pay3 (k2_pay9 vv) (k2_pay10 q k qm km) (k2_pay11 q k qm km mo) (k2_pay12 q k qm km mo mo) ao (ix2 r d))
      = OnlineSoftmax.step
          (fun c : Fin 512 =>
            Cert.Spec.blend (qm (ix3 (0 : Fin 1) r (0 : Fin 1)) * km (ix3 (0 : Fin 1) (0 : Fin 1) c))
              (∑ h : Fin 512, q (ix3 (0 : Fin 1) r h) * k (ix3 (0 : Fin 1) c h)))
          (fun (c : Fin 512) (d : Fin 1024) => vv (ix3 (0 : Fin 1) c d))
          ⟨mo (ix2 r (0 : Fin 1)), lo (ix2 r (0 : Fin 1)), fun d : Fin 1024 => ao (ix2 r d)⟩ :=
  (k2_step q k qm km vv mo lo ao r).trans
    (congrArg (fun s : Fin 512 → EReal => OnlineSoftmax.step s (fun (c : Fin 512) (d : Fin 1024) => vv (ix3 (0 : Fin 1) c d))
        ⟨mo (ix2 r (0 : Fin 1)), lo (ix2 r (0 : Fin 1)), fun d : Fin 1024 => ao (ix2 r d)⟩)
      (funext fun c => k2_pay10_apply q k qm km r c))

end Cert.Pay

end
-- ==== Proof.PayInit.lean ====
/-
  The attention kernel's first and last stores, read at coordinates over the extended reals.

  Before the first tile the running maximum is `-∞` (the word `0xFF800000`), the running normaliser and the running
  weighted sum are zero. After the last tile the output block is the weighted sum divided by the normaliser, row by row.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout

noncomputable section

namespace Cert.Pay

open Idealize.ShloMosaic Idealize.ShloMosaic.ValueIdx Cert.KernelIdeal Cert.KernelIdeal.Gen

/-- The initial running maximum: `-∞`. -/
theorem k2_pay6_apply (i : S1024x1.Idx) : k2_pay6 (F := Ideal) i = ⊥ := by
  unfold k2_pay6
  rw [shapeCast_self, broadcast_apply]
  exact Cert.LibPlain.ofBits_neg_inf_f32

/-- The initial running normaliser: zero. -/
theorem k2_pay7_apply (i : S1024x1.Idx) : k2_pay7 (F := Ideal) i = 0 := by
  unfold k2_pay7
  rw [shapeCast_self, broadcast_apply]
  exact Ideal.ofBits_zero_f32

/-- The initial running weighted sum: zero. -/
theorem k2_pay8_apply (i : S1024x1024.Idx) : k2_pay8 (F := Ideal) i = 0 := by
  unfold k2_pay8
  rw [shapeCast_self, broadcast_apply]
  exact Ideal.ofBits_zero_f32

/-- The output block: the weighted sum over the normaliser. -/
theorem k2_pay5_apply (a : Vec Ideal S1024x1024 .f32) (l : Vec Ideal S1024x1 .f32) (u : Fin 1) (r d : Fin 1024) :
    k2_pay5 a l (ix3 u r d) = Ideal.div (a (ix2 r d)) (l (ix2 r (0 : Fin 1))) := by
  unfold k2_pay5
  rw [shapeCast_ab_1ab_apply, divf_apply, Cert.LibKeepdims.broadcastTo_a1_ab_apply]

end Cert.Pay

end
-- ==== Proof.KI.AttnRow.lean ====
/-
  One query row of the attention kernel across its key tiles.

  Row `r` of the three scratch buffers — running maximum, running normaliser, running weighted sum — is a state of the
  online recurrence. A tile of the kernel moves it by one step of the recurrence, with the tile's scores of that row
  and the tile's value rows; the first tile of a group starts from the initial state, whatever the buffers held. So
  after tile `k` of a group the row's state is the recurrence run over the tiles `0 … k`, and after the last of four
  tiles the stored quotient is the tiled attention of the specification.

  The grid is abstract here: a point `t` has a batch entry `nOf t`, a query row `iOf t r` of the whole sequence for each
  row `r` of its block, and a key tile `kOf t`; each block is read through the whole arrays at those coordinates.
-/
import proofs.«111653_j86517821215425_2_alg».proof.Proof.PayStep
import proofs.«111653_j86517821215425_2_alg».proof.Proof.PayInit

noncomputable section

namespace Cert.KernelIdeal.AttnValue

open Idealize.ShloMosaic Idealize.ShloMosaic.ValueIdx Cert.KernelIdeal Cert.KernelIdeal.Gen Cert.Pay

/-- Row `r` of the three scratch buffers as a state of the online recurrence. -/
def rowSt (m l : Vec Ideal S1024x1 .f32) (acc : Vec Ideal S1024x1024 .f32) (r : Fin 1024) : OnlineSoftmax.St (Fin 1024) :=
  ⟨m (ix2 r (0 : Fin 1)), l (ix2 r (0 : Fin 1)), fun d => acc (ix2 r d)⟩

/-- The running maximum after a tile. -/
abbrev tileM (q : Vec Ideal S1x1024x512 .bf16) (k : Vec Ideal S1x512x512 .bf16) (qm : Vec Ideal S1x1024x1 .f32)
    (km : Vec Ideal S1x1x512 .f32) (mo : Vec Ideal S1024x1 .f32) : Vec Ideal S1024x1 .f32 :=
  k2_pay4 (k2_pay11 q k qm km mo)

/-- The running normaliser after a tile. -/
abbrev tileL (q : Vec Ideal S1x1024x512 .bf16) (k : Vec Ideal S1x512x512 .bf16) (qm : Vec Ideal S1x1024x1 .f32)
    (km : Vec Ideal S1x1x512 .f32) (mo lo : Vec Ideal S1024x1 .f32) : Vec Ideal S1024x1 .f32 :=
  k2_pay2 (k2_pay10 q k qm km) (k2_pay11 q k qm km mo) (k2_pay12 q k qm km mo mo) lo

/-- The running weighted sum after a tile. -/
abbrev tileA (q : Vec Ideal S1x1024x512 .bf16) (k : Vec Ideal S1x512x512 .bf16) (qm : Vec Ideal S1x1024x1 .f32)
    (km : Vec Ideal S1x1x512 .f32) (vv : Vec Ideal S1x512x1024 .bf16) (mo : Vec Ideal S1024x1 .f32)
    (ao : Vec Ideal S1024x1024 .f32) : Vec Ideal S1024x1024 .f32 :=
  k2_pay3 (k2_pay9 vv) (k2_pay10 q k qm km) (k2_pay11 q k qm km mo) (k2_pay12 q k qm km mo mo) ao

/-- The buffers as the first tile of a group resets them are the initial state. -/
theorem rowSt_init (r : Fin 1024) : rowSt (k2_pay6 (F := Ideal)) (k2_pay7 (F := Ideal)) (k2_pay8 (F := Ideal)) r = OnlineSoftmax.init := by
  unfold rowSt OnlineSoftmax.init
  rw [k2_pay6_apply, k2_pay7_apply]
  congr 1
  funext d
  rw [k2_pay8_apply]

section Tile

variable (Q K : Fin 16 → Fin 2048 → Fin 512 → EReal) (QM KM : Fin 16 → Fin 2048 → EReal)
  (Vv : Fin 16 → Fin 2048 → Fin 1024 → EReal)

/-- One tile moves row `r` by one step of the recurrence, with the scores and value rows read through the whole arrays:
    the row is row `i` of batch entry `n`, the tile's columns are the columns `col 512 kk c`. -/
theorem rowSt_tile (n : Fin 16) (i : Fin 2048) (kk : ℕ)
    (q : Vec Ideal S1x1024x512 .bf16) (k : Vec Ideal S1x512x512 .bf16) (qm : Vec Ideal S1x1024x1 .f32)
    (km : Vec Ideal S1x1x512 .f32) (vv : Vec Ideal S1x512x1024 .bf16)
    (mo lo : Vec Ideal S1024x1 .f32) (ao : Vec Ideal S1024x1024 .f32) (r : Fin 1024)
    (hq : ∀ h : Fin 512, q (ix3 (0 : Fin 1) r h) = Q n i h)
    (hk : ∀ (c : Fin 512) (h : Fin 512), k (ix3 (0 : Fin 1) c h) = K n (Cert.Spec.col 512 kk c) h)
    (hqm : qm (ix3 (0 : Fin 1) r (0 : Fin 1)) = QM n i)
    (hkm : ∀ c : Fin 512, km (ix3 (0 : Fin 1) (0 : Fin 1) c) = KM n (Cert.Spec.col 512 kk c))
    (hv : ∀ (c : Fin 512) (d : Fin 1024), vv (ix3 (0 : Fin 1) c d) = Vv n (Cert.Spec.col 512 kk c) d) :
    rowSt (tileM q k qm km mo) (tileL q k qm km mo lo) (tileA q k qm km vv mo ao) r
      = OnlineSoftmax.step (fun c : Fin 512 => Cert.Spec.scoreK Q K QM KM n i (Cert.Spec.col 512 kk c))
          (fun (c : Fin 512) (d : Fin 1024) => Vv n (Cert.Spec.col 512 kk c) d) (rowSt mo lo ao r) := by
  refine (k2_step_blend q k qm km vv mo lo ao r).trans ?_
  have hs : (fun c : Fin 512 =>
        Cert.Spec.blend (qm (ix3 (0 : Fin 1) r (0 : Fin 1)) * km (ix3 (0 : Fin 1) (0 : Fin 1) c))
          (∑ h : Fin 512, q (ix3 (0 : Fin 1) r h) * k (ix3 (0 : Fin 1) c h)))
      = fun c : Fin 512 => Cert.Spec.scoreK Q K QM KM n i (Cert.Spec.col 512 kk c) := by
    funext c
    unfold Cert.Spec.scoreK
    rw [hqm, hkm c, Finset.sum_congr rfl fun h _ => by rw [hq h, hk c h]]
  have hvv : (fun (c : Fin 512) (d : Fin 1024) => vv (ix3 (0 : Fin 1) c d))
      = fun (c : Fin 512) (d : Fin 1024) => Vv n (Cert.Spec.col 512 kk c) d := by
    funext c d
    exact hv c d
  rw [hs, hvv]
  rfl

end Tile

section Chain

variable {N : ℕ} (Q K : Fin 16 → Fin 2048 → Fin 512 → EReal) (QM KM : Fin 16 → Fin 2048 → EReal)
  (Vv : Fin 16 → Fin 2048 → Fin 1024 → EReal)
  (nOf : Fin N → Fin 16) (iOf : Fin N → Fin 1024 → Fin 2048) (kOf : Fin N → ℕ) (first : Fin N → Prop)
  (q : Fin N → Vec Ideal S1x1024x512 .bf16) (k : Fin N → Vec Ideal S1x512x512 .bf16)
  (qm : Fin N → Vec Ideal S1x1024x1 .f32) (km : Fin N → Vec Ideal S1x1x512 .f32)
  (vv : Fin N → Vec Ideal S1x512x1024 .bf16)
  (M L : Fin N → Vec Ideal S1024x1 .f32) (A : Fin N → Vec Ideal S1024x1024 .f32)

/-- After the point `t`, row `r` of the scratch buffers is the recurrence run over the key tiles `0 … kOf t` of the row's
    scores and of the value rows. The hypotheses: each block is the whole array read at the point's coordinates; a
    point that is first in its group has tile 0 and leaves one tile's update of the reset buffers; any other point
    follows a point of the same batch entry and query rows, one tile earlier, and leaves one tile's update of what
    that point left. By induction on the point. -/
theorem state_at
    (hq : ∀ t r h, q t (ix3 (0 : Fin 1) r h) = Q (nOf t) (iOf t r) h)
    (hk : ∀ t c h, k t (ix3 (0 : Fin 1) c h) = K (nOf t) (Cert.Spec.col 512 (kOf t) c) h)
    (hqm : ∀ t r, qm t (ix3 (0 : Fin 1) r (0 : Fin 1)) = QM (nOf t) (iOf t r))
    (hkm : ∀ t c, km t (ix3 (0 : Fin 1) (0 : Fin 1) c) = KM (nOf t) (Cert.Spec.col 512 (kOf t) c))
    (hv : ∀ t c d, vv t (ix3 (0 : Fin 1) c d) = Vv (nOf t) (Cert.Spec.col 512 (kOf t) c) d)
    (hfirst : ∀ t, first t → kOf t = 0)
    (hnext : ∀ t, ¬ first t → ∃ p : Fin N, p.val + 1 = t.val ∧ nOf p = nOf t ∧ iOf p = iOf t ∧ kOf p + 1 = kOf t)
    (hA : ∀ t, first t →
      M t = tileM (q t) (k t) (qm t) (km t) (k2_pay6 (F := Ideal))
        ∧ L t = tileL (q t) (k t) (qm t) (km t) (k2_pay6 (F := Ideal)) (k2_pay7 (F := Ideal))
        ∧ A t = tileA (q t) (k t) (qm t) (km t) (vv t) (k2_pay6 (F := Ideal)) (k2_pay8 (F := Ideal)))
    (hB : ∀ t p : Fin N, ¬ first t → p.val + 1 = t.val →
      M t = tileM (q t) (k t) (qm t) (km t) (M p)
        ∧ L t = tileL (q t) (k t) (qm t) (km t) (M p) (L p)
        ∧ A t = tileA (q t) (k t) (qm t) (km t) (vv t) (M p) (A p)) :
    ∀ (m : ℕ) (t : Fin N), t.val = m → ∀ r : Fin 1024,
      rowSt (M t) (L t) (A t) r
        = OnlineSoftmax.run (fun kk (c : Fin 512) => Cert.Spec.scoreK Q K QM KM (nOf t) (iOf t r) (Cert.Spec.col 512 kk c))
            (fun kk (c : Fin 512) (d : Fin 1024) => Vv (nOf t) (Cert.Spec.col 512 kk c) d) (kOf t + 1) := by
  intro m
  induction m using Nat.strong_induction_on with
  | _ m ih =>
    intro t htm r
    by_cases hf : first t
    · obtain ⟨e1, e2, e3⟩ := hA t hf
      rw [e1, e2, e3, rowSt_tile Q K QM KM Vv (nOf t) (iOf t r) (kOf t) (q t) (k t) (qm t) (km t) (vv t)
        (k2_pay6 (F := Ideal)) (k2_pay7 (F := Ideal)) (k2_pay8 (F := Ideal)) r
        (hq t r) (hk t) (hqm t r) (hkm t) (hv t), rowSt_init, hfirst t hf]
      rfl
    · obtain ⟨p, hp, en, ei, ek⟩ := hnext t hf
      obtain ⟨e1, e2, e3⟩ := hB t p hf hp
      rw [e1, e2, e3, rowSt_tile Q K QM KM Vv (nOf t) (iOf t r) (kOf t) (q t) (k t) (qm t) (km t) (vv t)
        (M p) (L p) (A p) r (hq t r) (hk t) (hqm t r) (hkm t) (hv t),
        ih p.val (by omega) p rfl r, en, ei, ← ek]
      rfl

/-- At the last of four key tiles the stored output block holds, in row `r`, the tiled attention of the whole arrays
    at the row's coordinates. -/
theorem out_at
    (hq : ∀ t r h, q t (ix3 (0 : Fin 1) r h) = Q (nOf t) (iOf t r) h)
    (hk : ∀ t c h, k t (ix3 (0 : Fin 1) c h) = K (nOf t) (Cert.Spec.col 512 (kOf t) c) h)
    (hqm : ∀ t r, qm t (ix3 (0 : Fin 1) r (0 : Fin 1)) = QM (nOf t) (iOf t r))
    (hkm : ∀ t c, km t (ix3 (0 : Fin 1) (0 : Fin 1) c) = KM (nOf t) (Cert.Spec.col 512 (kOf t) c))
    (hv : ∀ t c d, vv t (ix3 (0 : Fin 1) c d) = Vv (nOf t) (Cert.Spec.col 512 (kOf t) c) d)
    (hfirst : ∀ t, first t → kOf t = 0)
    (hnext : ∀ t, ¬ first t → ∃ p : Fin N, p.val + 1 = t.val ∧ nOf p = nOf t ∧ iOf p = iOf t ∧ kOf p + 1 = kOf t)
    (hA : ∀ t, first t →
      M t = tileM (q t) (k t) (qm t) (km t) (k2_pay6 (F := Ideal))
        ∧ L t = tileL (q t) (k t) (qm t) (km t) (k2_pay6 (F := Ideal)) (k2_pay7 (F := Ideal))
        ∧ A t = tileA (q t) (k t) (qm t) (km t) (vv t) (k2_pay6 (F := Ideal)) (k2_pay8 (F := Ideal)))
    (hB : ∀ t p : Fin N, ¬ first t → p.val + 1 = t.val →
      M t = tileM (q t) (k t) (qm t) (km t) (M p)
        ∧ L t = tileL (q t) (k t) (qm t) (km t) (M p) (L p)
        ∧ A t = tileA (q t) (k t) (qm t) (km t) (vv t) (M p) (A p))
    (t : Fin N) (h3 : kOf t = 3) (u : Fin 1) (r d : Fin 1024) :
    k2_pay5 (A t) (L t) (ix3 u r d)
      = Cert.Spec.attnK 512 4 (Cert.Spec.scoreK Q K QM KM) Vv (nOf t) (iOf t r) d := by
  have hst := state_at Q K QM KM Vv nOf iOf kOf first q k qm km vv M L A hq hk hqm hkm hv hfirst hnext hA hB t.val t rfl r
  rw [h3] at hst
  rw [k2_pay5_apply]
  show Ideal.div ((rowSt (M t) (L t) (A t) r).acc d) ((rowSt (M t) (L t) (A t) r).l) = _
  rw [hst]
  rfl

end Chain

end Cert.KernelIdeal.AttnValue

end
-- ==== Proof.Bridge.lean ====
/-
  The tiled online softmax with the temperature folded into the first projection computes the reference's two
  softmax-weighted sums.

  Three facts carry it. (1) For a temperature τ ≥ 0 and real data, the rectified projection with weights and bias
  scaled by τ is τ times the rectified projection: Σ_d a_d (w_d τ) + b τ = τ (Σ_d a_d w_d + b) and
  max (τ z) 0 = τ max z 0. (2) Hence the kernel's scores (no temperature, scaled first projection) are the
  reference's scores (temperature applied to the inner product), read in either order of the two rows, and every
  score is a real number. (3) For a row of real scores the online recurrence over N tiles of T columns, divided
  out at the end, is the softmax-weighted sum over the N·T columns: the pair (tile, column in the tile) runs through
  the columns of the row once, so a double sum over it is the sum over the row and a maximum of maxima is the maximum
  of the row.
-/
import Mathlib
import Idealize.ShloMosaic.PureOps.Ideal
import proofs.«111653_j86517821215425_2_alg».proof.Proof.Spec

noncomputable section

open scoped BigOperators

namespace Cert.Bridge

open Idealize.ShloMosaic

/-! ### The two literals are real numbers -/

theorem one_real : ∃ r : ℝ, Cert.Spec.one = (r : EReal) := ⟨1, by
  simp [Cert.Spec.one, Ideal.ofBits, Ideal.ieee, -EReal.coe_mul]; norm_num⟩

theorem negBig_real : ∃ r : ℝ, Cert.Spec.negBig = (r : EReal) := ⟨-1000000000, by
  simp [Cert.Spec.negBig, Ideal.ofBits, Ideal.ieee, -EReal.coe_mul]; norm_num⟩

/-! ### The projection over the reals -/

theorem coe_max (x y : ℝ) : ((max x y : ℝ) : EReal) = max (x : EReal) (y : EReal) :=
  EReal.coe_strictMono.monotone.map_max

/-- The rectified dense layer on real data. -/
def denseR {B L D H : ℕ} (a : Fin B → Fin L → Fin D → ℝ) (w : Fin H → Fin D → ℝ) (b : Fin H → ℝ) :
    Fin B → Fin L → Fin H → ℝ :=
  fun n i h => max ((∑ d, a n i d * w h d) + b h) 0

theorem dense_coe {B L D H : ℕ} (a : Fin B → Fin L → Fin D → ℝ) (w : Fin H → Fin D → ℝ) (b : Fin H → ℝ) :
    Cert.Spec.dense (fun n i d => ((a n i d : ℝ) : EReal)) (fun h d => ((w h d : ℝ) : EReal))
        (fun h => ((b h : ℝ) : EReal))
      = fun n i h => ((denseR a w b n i h : ℝ) : EReal) := by
  funext n i h
  simp only [Cert.Spec.dense, denseR]
  rw [coe_max, EReal.coe_add, OnlineSoftmax.coe_sum, EReal.coe_zero]
  simp only [EReal.coe_mul]

/-- Scaling weights and bias by τ ≥ 0 scales the rectified projection by τ. -/
theorem denseR_scale {B L D H : ℕ} (a : Fin B → Fin L → Fin D → ℝ) (w : Fin H → Fin D → ℝ) (b : Fin H → ℝ)
    {τ : ℝ} (hτ : 0 ≤ τ) (n : Fin B) (i : Fin L) (h : Fin H) :
    denseR a (fun h d => w h d * τ) (fun h => b h * τ) n i h = τ * denseR a w b n i h := by
  simp only [denseR]
  have e : (∑ d, a n i d * (w h d * τ)) + b h * τ = τ * ((∑ d, a n i d * w h d) + b h) := by
    rw [mul_add, Finset.mul_sum, mul_comm τ (b h)]
    congr 1
    exact Finset.sum_congr rfl fun d _ => by ring
  rw [e, mul_max_of_nonneg _ _ hτ, mul_zero]

/-! ### The scores over the reals -/

/-- The blended score on real data; o and nb stand for the two literals. -/
def scoreR {B L H : ℕ} (o nb : ℝ) (p q : Fin B → Fin L → Fin H → ℝ) (pm qm : Fin B → Fin L → ℝ) (τ : ℝ) :
    Fin B → Fin L → Fin L → ℝ :=
  fun n i j => (pm n i * qm n j) * ((∑ h, p n i h * q n j h) * τ) + (o - pm n i * qm n j) * nb

theorem blend_coe {o nb : ℝ} (ho : Cert.Spec.one = (o : EReal)) (hnb : Cert.Spec.negBig = (nb : EReal))
    (mk sc : ℝ) : Cert.Spec.blend (mk : EReal) (sc : EReal) = ((mk * sc + (o - mk) * nb : ℝ) : EReal) := by
  rw [Cert.Spec.blend, ho, hnb, EReal.coe_add, EReal.coe_mul, EReal.coe_mul, EReal.coe_sub]

theorem score_coe {B L H : ℕ} {o nb : ℝ} (ho : Cert.Spec.one = (o : EReal))
    (hnb : Cert.Spec.negBig = (nb : EReal))
    (p q : Fin B → Fin L → Fin H → ℝ) (pm qm : Fin B → Fin L → ℝ) (τ : ℝ) :
    Cert.Spec.score (fun n i h => ((p n i h : ℝ) : EReal)) (fun n j h => ((q n j h : ℝ) : EReal))
        (fun n i => ((pm n i : ℝ) : EReal)) (fun n j => ((qm n j : ℝ) : EReal)) (τ : EReal)
      = fun n i j => ((scoreR o nb p q pm qm τ n i j : ℝ) : EReal) := by
  funext n i j
  simp only [Cert.Spec.score, scoreR]
  simp only [← EReal.coe_mul, ← OnlineSoftmax.coe_sum]
  exact blend_coe ho hnb _ _

/-- The kernel's scores, first projection scaled by τ, query rows from the first sequence. -/
theorem scoreK_coe {B L H : ℕ} {o nb : ℝ} (ho : Cert.Spec.one = (o : EReal))
    (hnb : Cert.Spec.negBig = (nb : EReal))
    (p q : Fin B → Fin L → Fin H → ℝ) (pm qm : Fin B → Fin L → ℝ) (τ : ℝ) :
    Cert.Spec.scoreK (fun n i h => ((τ * p n i h : ℝ) : EReal)) (fun n j h => ((q n j h : ℝ) : EReal))
        (fun n i => ((pm n i : ℝ) : EReal)) (fun n j => ((qm n j : ℝ) : EReal))
      = fun n i j => ((scoreR o nb p q pm qm τ n i j : ℝ) : EReal) := by
  funext n i j
  simp only [Cert.Spec.scoreK, scoreR]
  simp only [← EReal.coe_mul, ← OnlineSoftmax.coe_sum]
  rw [blend_coe ho hnb]
  congr 3
  rw [Finset.sum_mul]
  exact Finset.sum_congr rfl fun h _ => by ring

/-- The kernel's scores with the query rows from the second sequence: the same numbers, transposed. -/
theorem scoreK_coe' {B L H : ℕ} {o nb : ℝ} (ho : Cert.Spec.one = (o : EReal))
    (hnb : Cert.Spec.negBig = (nb : EReal))
    (p q : Fin B → Fin L → Fin H → ℝ) (pm qm : Fin B → Fin L → ℝ) (τ : ℝ) :
    Cert.Spec.scoreK (fun n j h => ((q n j h : ℝ) : EReal)) (fun n i h => ((τ * p n i h : ℝ) : EReal))
        (fun n j => ((qm n j : ℝ) : EReal)) (fun n i => ((pm n i : ℝ) : EReal))
      = fun n j i => ((scoreR o nb p q pm qm τ n i j : ℝ) : EReal) := by
  funext n j i
  simp only [Cert.Spec.scoreK, scoreR]
  simp only [← EReal.coe_mul, ← OnlineSoftmax.coe_sum]
  rw [blend_coe ho hnb, mul_comm (qm n j) (pm n i)]
  congr 3
  rw [Finset.sum_mul]
  exact Finset.sum_congr rfl fun h _ => by ring

/-! ### Tiles: the pair (tile, column in the tile) runs through the row once -/

theorem col_val_gen {L : ℕ} [NeZero L] {N T : ℕ} (hL : L = N * T) (k : Fin N) (c : Fin T) :
    (Cert.Spec.col (L := L) T k c).val = T * k.val + c.val := by
  have h1 : T * k.val + c.val < L := by
    calc T * k.val + c.val < T * k.val + T := Nat.add_lt_add_left c.isLt _
      _ = T * (k.val + 1) := by ring
      _ ≤ T * N := Nat.mul_le_mul_left _ k.isLt
      _ = L := by rw [hL, mul_comm]
  rw [Cert.Spec.col, Fin.val_ofNat, Nat.mod_eq_of_lt h1]

/-- Column c of tile k < 4, tiles of 512 columns, is column 512 k + c of a row of 2048. -/
theorem col_val {k : ℕ} (hk : k < 4) (c : Fin 512) :
    (Cert.Spec.col (L := 2048) 512 k c).val = 512 * k + c.val :=
  col_val_gen (L := 2048) (N := 4) (T := 512) (by norm_num) ⟨k, hk⟩ c

theorem col_eq {N T : ℕ} [NeZero (N * T)] (k : Fin N) (c : Fin T) :
    Cert.Spec.col (L := N * T) T k.val c = finProdFinEquiv (k, c) := by
  apply Fin.ext
  rw [col_val_gen rfl, finProdFinEquiv_apply_val, add_comm]

/-- A double sum over tiles and columns in the tile is the sum over the row. -/
theorem sum_tiles {M : Type} [AddCommMonoid M] {N T : ℕ} [NeZero (N * T)] (g : Fin (N * T) → M) :
    ∑ k : Fin N, ∑ c : Fin T, g (Cert.Spec.col T k.val c) = ∑ j, g j := by
  simp only [col_eq]
  rw [← Fintype.sum_prod_type (fun x : Fin N × Fin T => g (finProdFinEquiv x))]
  exact Equiv.sum_comp finProdFinEquiv g

/-- The maximum of the tiles' maxima is the maximum of the row. -/
theorem top_tiles {N T : ℕ} [NeZero (N * T)] (g : Fin (N * T) → EReal) :
    Finset.univ.fold max ⊥ (fun k : Fin N => Finset.univ.fold max ⊥ (fun c : Fin T => g (Cert.Spec.col T k.val c)))
      = Cert.Spec.top g := by
  apply le_antisymm
  · rw [Finset.fold_max_le]
    refine ⟨bot_le, fun k _ => ?_⟩
    rw [Finset.fold_max_le]
    exact ⟨bot_le, fun c _ => OnlineSoftmax.le_fold_max _ _ (Finset.mem_univ _)⟩
  · rw [Cert.Spec.top, Finset.fold_max_le]
    refine ⟨bot_le, fun j _ => ?_⟩
    obtain ⟨⟨k, c⟩, rfl⟩ := finProdFinEquiv.surjective j
    rw [← col_eq]
    exact (OnlineSoftmax.le_fold_max Finset.univ (fun c : Fin T => g (Cert.Spec.col T k.val c))
        (Finset.mem_univ c)).trans
      (OnlineSoftmax.le_fold_max Finset.univ
        (fun k : Fin N => Finset.univ.fold max ⊥ (fun c : Fin T => g (Cert.Spec.col T k.val c)))
        (Finset.mem_univ k))

/-! ### One row: the online recurrence over the tiles is the softmax-weighted sum over the row -/

/-- The state after K tiles reads only the first K tiles. -/
theorem run_congr {O : Type} {t : ℕ} (s s' : ℕ → Fin t → EReal) (v v' : ℕ → Fin t → O → EReal) (K : ℕ)
    (hs : ∀ k, k < K → s k = s' k) (hv : ∀ k, k < K → v k = v' k) :
    OnlineSoftmax.run s v K = OnlineSoftmax.run s' v' K := by
  induction K with
  | zero => rfl
  | succ K ih =>
    show OnlineSoftmax.step (s K) (v K) (OnlineSoftmax.run s v K)
      = OnlineSoftmax.step (s' K) (v' K) (OnlineSoftmax.run s' v' K)
    rw [ih (fun k hk => hs k (Nat.lt_succ_of_lt hk)) (fun k hk => hv k (Nat.lt_succ_of_lt hk)),
      hs K (Nat.lt_succ_self K), hv K (Nat.lt_succ_self K)]

theorem online_row {D N T L : ℕ} [NeZero L] (hL : L = N * T) (hT : 0 < T) (hN : 0 < N)
    (r : Fin L → EReal) (v : Fin L → Fin D → EReal)
    (hr : ∀ j, ∃ x : ℝ, r j = (x : EReal)) (hv : ∀ j d, ∃ x : ℝ, v j d = (x : EReal)) (d : Fin D) :
    Ideal.div
        ((OnlineSoftmax.run (fun k (c : Fin T) => r (Cert.Spec.col T k c))
          (fun k (c : Fin T) d' => v (Cert.Spec.col T k c) d') N).acc d)
        ((OnlineSoftmax.run (fun k (c : Fin T) => r (Cert.Spec.col T k c))
          (fun k (c : Fin T) d' => v (Cert.Spec.col T k c) d') N).l)
      = ∑ j, Ideal.div (Ideal.exp (r j - Cert.Spec.top r)) (∑ j', Ideal.exp (r j' - Cert.Spec.top r)) * v j d := by
  subst hL
  -- beyond the last tile the scores are set to -∞; the first N tiles, all that the recurrence reads, are unchanged
  rw [run_congr (fun k (c : Fin T) => r (Cert.Spec.col T k c))
    (fun k (c : Fin T) => if k < N then r (Cert.Spec.col T k c) else ⊥)
    (fun k (c : Fin T) d' => v (Cert.Spec.col T k c) d') (fun k (c : Fin T) d' => v (Cert.Spec.col T k c) d') N
    (fun k hk => by funext c; rw [if_pos hk]) (fun k _ => rfl)]
  rw [OnlineSoftmax.run_div (N := N) N hN le_rfl
    (fun k (c : Fin T) => if k < N then r (Cert.Spec.col T k c) else ⊥)
    (fun k (c : Fin T) d' => v (Cert.Spec.col T k c) d')
    (fun k c => by
      by_cases hk : k < N
      · rw [if_pos hk]; exact Or.inr (hr _)
      · rw [if_neg hk]; exact Or.inl rfl)
    (fun k c o => hv _ o) ⟨⟨0, hT⟩, by rw [if_pos hN]; exact hr _⟩
    (fun k hk j => if_neg (Nat.not_lt.2 hk)) d]
  simp only [Fin.is_lt, if_true]
  rw [top_tiles r, sum_tiles (fun j => Ideal.exp (r j - Cert.Spec.top r)),
    sum_tiles (fun j => Ideal.div (Ideal.exp (r j - Cert.Spec.top r)) (∑ j', Ideal.exp (r j' - Cert.Spec.top r)) * v j d)]

/-! ### Whole tensors -/

theorem attnK_refB {B D N T L : ℕ} [NeZero L] (hL : L = N * T) (hT : 0 < T) (hN : 0 < N)
    (s : Fin B → Fin L → Fin L → ℝ) (x : Fin B → Fin L → Fin D → ℝ) :
    Cert.Spec.attnK T N (fun n i j => ((s n i j : ℝ) : EReal)) (fun n j d => ((x n j d : ℝ) : EReal))
      = Cert.Spec.refB (fun n i j => ((s n i j : ℝ) : EReal)) (fun n j d => ((x n j d : ℝ) : EReal)) := by
  funext n i d
  exact online_row hL hT hN (fun j => ((s n i j : ℝ) : EReal)) (fun j d => ((x n j d : ℝ) : EReal))
    (fun j => ⟨_, rfl⟩) (fun j d => ⟨_, rfl⟩) d

theorem attnK_refA {B D N T L : ℕ} [NeZero L] (hL : L = N * T) (hT : 0 < T) (hN : 0 < N)
    (s : Fin B → Fin L → Fin L → ℝ) (a : Fin B → Fin L → Fin D → ℝ) :
    Cert.Spec.attnK T N (fun n j i => ((s n i j : ℝ) : EReal)) (fun n i d => ((a n i d : ℝ) : EReal))
      = Cert.Spec.refA (fun n i j => ((s n i j : ℝ) : EReal)) (fun n i d => ((a n i d : ℝ) : EReal)) := by
  funext n j d
  exact online_row hL hT hN (fun i => ((s n i j : ℝ) : EReal)) (fun i d => ((a n i d : ℝ) : EReal))
    (fun i => ⟨_, rfl⟩) (fun i d => ⟨_, rfl⟩) d

/-! ### The two results -/

section Main

variable {B D H : ℕ}
  (A X : Fin B → Fin 2048 → Fin D → EReal) (W1 W2 : Fin H → Fin D → EReal) (b1 b2 : Fin H → EReal)
  (am xm : Fin B → Fin 2048 → EReal) (t : EReal) (τ : ℝ)

/-- With real data and a positive temperature: the kernel's projections and scores against the reference's. -/
theorem scores_eq
    (hA : ∀ n i d, ∃ r : ℝ, A n i d = (r : EReal)) (hX : ∀ n i d, ∃ r : ℝ, X n i d = (r : EReal))
    (hW1 : ∀ h d, ∃ r : ℝ, W1 h d = (r : EReal)) (hW2 : ∀ h d, ∃ r : ℝ, W2 h d = (r : EReal))
    (hb1 : ∀ h, ∃ r : ℝ, b1 h = (r : EReal)) (hb2 : ∀ h, ∃ r : ℝ, b2 h = (r : EReal))
    (ham : ∀ n i, ∃ r : ℝ, am n i = (r : EReal)) (hxm : ∀ n i, ∃ r : ℝ, xm n i = (r : EReal))
    (ht : t = ((τ : ℝ) : EReal)) (hτ : 0 < τ) :
    ∃ s : Fin B → Fin 2048 → Fin 2048 → ℝ,
      Cert.Spec.score (Cert.Spec.dense A W1 b1) (Cert.Spec.dense X W2 b2) am xm t
          = (fun n i j => ((s n i j : ℝ) : EReal))
        ∧ Cert.Spec.scoreK (Cert.Spec.dense A (fun h d => W1 h d * t) (fun h => b1 h * t))
            (Cert.Spec.dense X W2 b2) am xm = (fun n i j => ((s n i j : ℝ) : EReal))
        ∧ Cert.Spec.scoreK (Cert.Spec.dense X W2 b2)
            (Cert.Spec.dense A (fun h d => W1 h d * t) (fun h => b1 h * t)) xm am
            = (fun n j i => ((s n i j : ℝ) : EReal)) := by
  choose a ha using hA
  choose x hx using hX
  choose w1 hw1 using hW1
  choose w2 hw2 using hW2
  choose c1 hc1 using hb1
  choose c2 hc2 using hb2
  choose pm hpm using ham
  choose qm hqm using hxm
  obtain rfl : A = fun n i d => ((a n i d : ℝ) : EReal) := by funext n i d; exact ha n i d
  obtain rfl : X = fun n i d => ((x n i d : ℝ) : EReal) := by funext n i d; exact hx n i d
  obtain rfl : W1 = fun h d => ((w1 h d : ℝ) : EReal) := by funext h d; exact hw1 h d
  obtain rfl : W2 = fun h d => ((w2 h d : ℝ) : EReal) := by funext h d; exact hw2 h d
  obtain rfl : b1 = fun h => ((c1 h : ℝ) : EReal) := by funext h; exact hc1 h
  obtain rfl : b2 = fun h => ((c2 h : ℝ) : EReal) := by funext h; exact hc2 h
  obtain rfl : am = fun n i => ((pm n i : ℝ) : EReal) := by funext n i; exact hpm n i
  obtain rfl : xm = fun n i => ((qm n i : ℝ) : EReal) := by funext n i; exact hqm n i
  subst ht
  obtain ⟨o, ho⟩ := one_real
  obtain ⟨nb, hnb⟩ := negBig_real
  have hPK : Cert.Spec.dense (fun n i d => ((a n i d : ℝ) : EReal)) (fun h d => ((w1 h d : ℝ) : EReal) * (τ : EReal))
      (fun h => ((c1 h : ℝ) : EReal) * (τ : EReal))
      = fun n i h => ((τ * denseR a w1 c1 n i h : ℝ) : EReal) := by
    simp only [← EReal.coe_mul]
    rw [dense_coe]
    funext n i h
    rw [denseR_scale a w1 c1 hτ.le]
  refine ⟨scoreR o nb (denseR a w1 c1) (denseR x w2 c2) pm qm τ, ?_, ?_, ?_⟩
  · rw [dense_coe, dense_coe]; exact score_coe ho hnb _ _ _ _ _
  · rw [hPK, dense_coe]; exact scoreK_coe ho hnb _ _ _ _ _
  · rw [hPK, dense_coe]; exact scoreK_coe' ho hnb _ _ _ _ _

theorem attnB_eq
    (hA : ∀ n i d, ∃ r : ℝ, A n i d = (r : EReal)) (hX : ∀ n i d, ∃ r : ℝ, X n i d = (r : EReal))
    (hW1 : ∀ h d, ∃ r : ℝ, W1 h d = (r : EReal)) (hW2 : ∀ h d, ∃ r : ℝ, W2 h d = (r : EReal))
    (hb1 : ∀ h, ∃ r : ℝ, b1 h = (r : EReal)) (hb2 : ∀ h, ∃ r : ℝ, b2 h = (r : EReal))
    (ham : ∀ n i, ∃ r : ℝ, am n i = (r : EReal)) (hxm : ∀ n i, ∃ r : ℝ, xm n i = (r : EReal))
    (ht : t = ((τ : ℝ) : EReal)) (hτ : 0 < τ) :
    Cert.Spec.attnK 512 4
        (Cert.Spec.scoreK (Cert.Spec.dense A (fun h d => W1 h d * t) (fun h => b1 h * t))
          (Cert.Spec.dense X W2 b2) am xm) X
      = Cert.Spec.refB (Cert.Spec.score (Cert.Spec.dense A W1 b1) (Cert.Spec.dense X W2 b2) am xm t) X := by
  obtain ⟨s, h1, h2, -⟩ := scores_eq A X W1 W2 b1 b2 am xm t τ hA hX hW1 hW2 hb1 hb2 ham hxm ht hτ
  rw [h1, h2]
  choose x hx using hX
  obtain rfl : X = fun n i d => ((x n i d : ℝ) : EReal) := by funext n i d; exact hx n i d
  exact attnK_refB (N := 4) (T := 512) (by norm_num) (by norm_num) (by norm_num) s x

theorem attnA_eq
    (hA : ∀ n i d, ∃ r : ℝ, A n i d = (r : EReal)) (hX : ∀ n i d, ∃ r : ℝ, X n i d = (r : EReal))
    (hW1 : ∀ h d, ∃ r : ℝ, W1 h d = (r : EReal)) (hW2 : ∀ h d, ∃ r : ℝ, W2 h d = (r : EReal))
    (hb1 : ∀ h, ∃ r : ℝ, b1 h = (r : EReal)) (hb2 : ∀ h, ∃ r : ℝ, b2 h = (r : EReal))
    (ham : ∀ n i, ∃ r : ℝ, am n i = (r : EReal)) (hxm : ∀ n i, ∃ r : ℝ, xm n i = (r : EReal))
    (ht : t = ((τ : ℝ) : EReal)) (hτ : 0 < τ) :
    Cert.Spec.attnK 512 4
        (Cert.Spec.scoreK (Cert.Spec.dense X W2 b2)
          (Cert.Spec.dense A (fun h d => W1 h d * t) (fun h => b1 h * t)) xm am) A
      = Cert.Spec.refA (Cert.Spec.score (Cert.Spec.dense A W1 b1) (Cert.Spec.dense X W2 b2) am xm t) A := by
  obtain ⟨s, h1, -, h3⟩ := scores_eq A X W1 W2 b1 b2 am xm t τ hA hX hW1 hW2 hb1 hb2 ham hxm ht hτ
  rw [h1, h3]
  choose a ha using hA
  obtain rfl : A = fun n i d => ((a n i d : ℝ) : EReal) := by funext n i d; exact ha n i d
  exact attnK_refA (N := 4) (T := 512) (by norm_num) (by norm_num) (by norm_num) s a

end Main

end Cert.Bridge

end
-- ==== Proof.KI.AttnValue.lean ====
/-
  What the first attention call leaves in its output array.

  Row `i` of batch entry `n` lies in the block of the points `(n, i / 1024, kk)`, `kk = 0 … 3`. Along them the scratch
  buffers' row for `i` runs the online recurrence over the four key tiles — the first point of the group starts it
  afresh, each later one continues from what the point before left — and the last one stores the weighted sum over the
  normaliser into the output block, which is written back to rows `1024 (i / 1024) …` of batch entry `n`. Those
  blocks tile the array, so the array ends holding the tiled attention of the specification at every index.
-/
import proofs.«111653_j86517821215425_2_alg».proof.Proof.KI.Reg2Val
import proofs.«111653_j86517821215425_2_alg».proof.Proof.KI.AttnIdx
import proofs.«111653_j86517821215425_2_alg».proof.Proof.KI.AttnRow
import proofs.«111653_j86517821215425_2_alg».proof.Proof.Bridge

set_option maxRecDepth 16384

noncomputable section

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.AttnIdx Cert.Pay

section Call2

variable (V : (c : Dev nD) → (b : Ref sig .tc) → Buf (Elt Ideal) ((c : Thread nD τ).loc b)) (c : Dev nD)

/-! ## The whole arrays by coordinates -/

/-- The query projections. -/
abbrev Qa : Fin 16 → Fin 2048 → Fin 512 → EReal := fun n i h => V c main_v14 (ix3 n i h)
/-- The key projections. -/
abbrev Ka : Fin 16 → Fin 2048 → Fin 512 → EReal := fun n j h => V c main_v15 (ix3 n j h)
/-- The query mask. -/
abbrev QMa : Fin 16 → Fin 2048 → EReal := fun n i => V c main_arg1 (ix3 n i (0 : Fin 1))
/-- The key mask. -/
abbrev KMa : Fin 16 → Fin 2048 → EReal := fun n j => V c main_v19 (ix3 n (0 : Fin 1) j)
/-- The value rows. -/
abbrev Va : Fin 16 → Fin 2048 → Fin 1024 → EReal := fun n j d => V c main_v17 (ix3 n j d)

/-- The result: the tiled attention at every index of the output array. -/
def G : Buf (Elt Ideal) ((c : Thread nD τ).loc main_v20) := fun j =>
  Cert.Spec.attnK 512 4 (Cert.Spec.scoreK (Qa V c) (Ka V c) (QMa V c) (KMa V c)) (Va V c) (j 0) (j 1) (j 2)

/-! ## The scratch buffers after a point -/

/-- The running maximum after point `t`. -/
def Mt (t : Fin cfg2.N) : Vec Ideal S1024x1 .f32 := (outsAt2 V c t.val t.isLt).2.1
/-- The running normaliser after point `t`. -/
def Lt (t : Fin cfg2.N) : Vec Ideal S1024x1 .f32 := (outsAt2 V c t.val t.isLt).2.2.1
/-- The running weighted sum after point `t`. -/
def At (t : Fin cfg2.N) : Vec Ideal S1024x1024 .f32 := (outsAt2 V c t.val t.isLt).2.2.2

/-- Row `cc` of point `t`'s key tile is column `cc` of tile `t % 4` of the row of scores. -/
theorem krow_eq_col (t : Fin cfg2.N) (cc : Fin 512) : krow t cc = Cert.Spec.col 512 (t.val % 4) cc :=
  Fin.ext (Cert.Bridge.col_val (Nat.mod_lt _ (by decide)) cc).symm

/-! ## The blocks are the whole arrays at the point's coordinates -/

theorem hq (t : Fin cfg2.N) (r : Fin 1024) (h : Fin 512) :
    (iblk2 V c 0 t : Vec Ideal S1x1024x512 .bf16) (ix3 (0 : Fin 1) r h) = Qa V c (bat t) (qrow t r) h :=
  read_0 (Val := Elt Ideal) (V c (Pipeline.arrRef spec2 0)) t r h

theorem hk (t : Fin cfg2.N) (cc : Fin 512) (h : Fin 512) :
    (iblk2 V c 1 t : Vec Ideal S1x512x512 .bf16) (ix3 (0 : Fin 1) cc h)
      = Ka V c (bat t) (Cert.Spec.col 512 (t.val % 4) cc) h :=
  (read_1 (Val := Elt Ideal) (V c (Pipeline.arrRef spec2 1)) t cc h).trans
    (congrArg (fun j => Ka V c (bat t) j h) (krow_eq_col t cc))

theorem hv (t : Fin cfg2.N) (cc : Fin 512) (d : Fin 1024) :
    (iblk2 V c 2 t : Vec Ideal S1x512x1024 .bf16) (ix3 (0 : Fin 1) cc d)
      = Va V c (bat t) (Cert.Spec.col 512 (t.val % 4) cc) d :=
  (read_2 (Val := Elt Ideal) (V c (Pipeline.arrRef spec2 2)) t cc d).trans
    (congrArg (fun j => Va V c (bat t) j d) (krow_eq_col t cc))

theorem hqm (t : Fin cfg2.N) (r : Fin 1024) :
    (iblk2 V c 3 t : Vec Ideal S1x1024x1 .f32) (ix3 (0 : Fin 1) r (0 : Fin 1)) = QMa V c (bat t) (qrow t r) :=
  read_3 (Val := Elt Ideal) (V c (Pipeline.arrRef spec2 3)) t r

theorem hkm (t : Fin cfg2.N) (cc : Fin 512) :
    (iblk2 V c 4 t : Vec Ideal S1x1x512 .f32) (ix3 (0 : Fin 1) (0 : Fin 1) cc)
      = KMa V c (bat t) (Cert.Spec.col 512 (t.val % 4) cc) :=
  (read_4 (Val := Elt Ideal) (V c (Pipeline.arrRef spec2 4)) t cc).trans
    (congrArg (fun j => KMa V c (bat t) j) (krow_eq_col t cc))

/-! ## The grid's order -/

/-- A point that is not the first of its group follows a point of the same batch entry and query tile, one key tile
    earlier. -/
theorem hnext (t : Fin cfg2.N) (h0 : ¬ t.val % 4 = 0) :
    ∃ p : Fin cfg2.N, p.val + 1 = t.val ∧ bat p = bat t ∧ qrow p = qrow t ∧ p.val % 4 + 1 = t.val % 4 := by
  have ht := lt_N t
  refine ⟨⟨t.val - 1, lt_of_le_of_lt (Nat.sub_le _ _) t.isLt⟩, ?_, ?_, ?_, ?_⟩
  · show t.val - 1 + 1 = t.val; omega
  · exact Fin.ext (by show (t.val - 1) / 8 = t.val / 8; omega)
  · funext r
    exact Fin.ext (by show 1024 * ((t.val - 1) / 4 % 2) + r.val = 1024 * (t.val / 4 % 2) + r.val; omega)
  · show (t.val - 1) % 4 + 1 = t.val % 4; omega

/-! ## One tile at every point -/

/-- The buffers after a position do not depend on how the position is written. -/
theorem outsAt2_congr {n n' : ℕ} (e : n = n') (h : n < cfg2.N) (h' : n' < cfg2.N) :
    outsAt2 V c n h = outsAt2 V c n' h' := by
  subst e; rfl

/-- The first point of a group leaves one tile's update of the reset buffers. -/
theorem scratch_first (t : Fin cfg2.N) (h0 : t.val % 4 = 0) :
    Mt V c t = tileM (iblk2 V c 0 t) (iblk2 V c 1 t) (iblk2 V c 3 t) (iblk2 V c 4 t) (k2_pay6 (F := Ideal))
      ∧ Lt V c t = tileL (iblk2 V c 0 t) (iblk2 V c 1 t) (iblk2 V c 3 t) (iblk2 V c 4 t) (k2_pay6 (F := Ideal))
          (k2_pay7 (F := Ideal))
      ∧ At V c t = tileA (iblk2 V c 0 t) (iblk2 V c 1 t) (iblk2 V c 3 t) (iblk2 V c 4 t) (iblk2 V c 2 t)
          (k2_pay6 (F := Ideal)) (k2_pay8 (F := Ideal)) := by
  have h1 : ¬ t.val % 4 = 3 := by omega
  unfold Mt Lt At
  rw [outsAt2_A_eq V c t h0 h1]
  exact ⟨rfl, rfl, rfl⟩

/-- Any other point leaves one tile's update of what the point before left. -/
theorem scratch_next (t p : Fin cfg2.N) (h0 : ¬ t.val % 4 = 0) (hp : p.val + 1 = t.val) :
    Mt V c t = tileM (iblk2 V c 0 t) (iblk2 V c 1 t) (iblk2 V c 3 t) (iblk2 V c 4 t) (Mt V c p)
      ∧ Lt V c t = tileL (iblk2 V c 0 t) (iblk2 V c 1 t) (iblk2 V c 3 t) (iblk2 V c 4 t) (Mt V c p) (Lt V c p)
      ∧ At V c t = tileA (iblk2 V c 0 t) (iblk2 V c 1 t) (iblk2 V c 3 t) (iblk2 V c 4 t) (iblk2 V c 2 t) (Mt V c p)
          (At V c p) := by
  have hprev : outsAt2 V c (t.val - 1) (Nat.lt_of_le_of_lt (Nat.sub_le _ _) t.isLt) = outsAt2 V c p.val p.isLt :=
    outsAt2_congr V c (by omega) _ _
  unfold Mt Lt At
  by_cases h1 : t.val % 4 = 3
  · rw [outsAt2_C_eq V c t h0 h1, hprev]
    exact ⟨rfl, rfl, rfl⟩
  · rw [outsAt2_B_eq V c t h0 h1, hprev]
    exact ⟨rfl, rfl, rfl⟩

/-- At the last key tile the output block holds the new weighted sum over the new normaliser. -/
theorem out_block (t : Fin cfg2.N) (h3 : t.val % 4 = 3) :
    (outsAt2 V c t.val t.isLt).1 = k2_pay5 (At V c t) (Lt V c t) := by
  have h0 : ¬ t.val % 4 = 0 := by omega
  unfold At Lt
  rw [outsAt2_C_eq V c t h0 h3]
  rfl

/-! ## The output block in the array's coordinates -/

/-- Row `r` of the block stored at a last key tile is the tiled attention of row `qrow t r` of batch entry `bat t`. -/
theorem out_row (t : Fin cfg2.N) (h3 : t.val % 4 = 3) (u : Fin 1) (r d : Fin 1024) :
    k2_pay5 (At V c t) (Lt V c t) (ix3 u r d) = G V c (ix3 (bat t) (qrow t r) d) :=
  out_at (Qa V c) (Ka V c) (QMa V c) (KMa V c) (Va V c) bat qrow (fun t => t.val % 4) (fun t => t.val % 4 = 0)
    (fun t => iblk2 V c 0 t) (fun t => iblk2 V c 1 t) (fun t => iblk2 V c 3 t) (fun t => iblk2 V c 4 t)
    (fun t => iblk2 V c 2 t) (Mt V c) (Lt V c) (At V c)
    (hq V c) (hk V c) (hqm V c) (hkm V c) (hv V c) (fun _ h => h) (hnext) (scratch_first V c)
    (fun t p h hp => scratch_next V c t p h hp) t h3 u r d

/-- What a flushing point writes back is the result read through the point's block. -/
theorem flushed_eq (t : Fin cfg2.N) (hf : (cfg2.win 5).flush t = true) :
    (dat2 V c).flushed 5 t = ((cfg2.win 5).blk t).view.read (Elt Ideal) (G V c) := by
  have h3 : t.val % 4 = 3 := (flush2_5 t).mp hf
  have key : (k2_pay5 (At V c t) (Lt V c t) : S1x1024x1024.Idx → EReal)
      = fun y => G V c (ix3 (bat t) (qrow t (y 1)) (y 2)) := funext fun y => by
    obtain ⟨u, r, d, rfl⟩ : ∃ (u : Fin 1) (r d : Fin 1024), y = ix3 u r d := ⟨y 0, y 1, y 2, eq_ix3 y⟩
    exact out_row V c t h3 u r d
  have rd : (((cfg2.win 5).blk t).view.read (Elt Ideal) (G V c) : S1x1024x1024.Idx → EReal)
      = fun y => G V c (ix3 (bat t) (qrow t (y 1)) (y 2)) := funext fun y => by
    obtain ⟨u, r, d, rfl⟩ : ∃ (u : Fin 1) (r d : Fin 1024), y = ix3 u r d := ⟨y 0, y 1, y 2, eq_ix3 y⟩
    obtain rfl : u = 0 := Subsingleton.elim _ _
    exact read_5 (Val := Elt Ideal) (G V c) t r d
  show (cfg2.win 5).cut (grid2.coords t) ((dat2 V c).after 5 t) = _
  rw [after2_5, out_block V c t h3]
  exact key.trans rd.symm

/-- The output array after the call. -/
theorem final : (dat2 V c).arrAt 5 cfg2.N = G V c :=
  (dat2 V c).arrAt_eq_of_cover 5 (G V c) (flushed_eq V c) cover_5

/-- At every index: the tiled attention of the specification over the whole arrays. -/
theorem attn2 (n : Fin 16) (i : Fin 2048) (d : Fin 1024) :
    (dat2 (F := Ideal) V c).arrAt 5 cfg2.N (ix3 n i d)
      = Cert.Spec.attnK 512 4
          (Cert.Spec.scoreK (fun n i h => V c main_v14 (ix3 n i h)) (fun n j h => V c main_v15 (ix3 n j h))
            (fun n i => V c main_arg1 (ix3 n i (0 : Fin 1))) (fun n j => V c main_v19 (ix3 n (0 : Fin 1) j)))
          (fun n j d => V c main_v17 (ix3 n j d)) n i d :=
  congrFun (final V c) (ix3 n i d)

end Call2

end Cert.KernelIdeal.AttnValue

end
-- ==== Proof.KI.Reg3Val.lean ====
/- Attention region 3: what each case leaves in the three scratch buffers and in the output block, as the
   kernel's own arithmetic applied to the point's input blocks and to the scratch contents before the point. -/
import proofs.«111653_j86517821215425_2_alg».proof.Proof.KI.Reg3
import proofs.«111653_j86517821215425_2_alg».proof.Proof.KI.Reg2Val

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces, case by case -/

/-- What a point with `kk = 0` leaves in the running maximum, as the kernel's arithmetic on the point's input blocks and the reset values:
    the last store into the buffer fills it, and every load before it reads a whole buffer. -/
theorem sout3_A_0_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) :
    sout3_A_0 c i arg3 harg3 arg4 harg4 arg5 harg5 arg6 harg6 arg7 harg7 arg8 harg8 arg9 harg9 arg10 harg10 arg11 harg11 hc0 hc1 x0 x1 x2 x3 x4 = k3_pay4 (k3_pay11 x0 x1 x3 x4 k3_pay6) := by
  unfold sout3_A_0 kernelRun3_A
  dsimp only
  refine (View.read_writes_whole_head VS3_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 0` leaves in the running normaliser, as the kernel's arithmetic on the point's input blocks and the reset values:
    the last store into the buffer fills it, and every load before it reads a whole buffer. -/
theorem sout3_A_1_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) :
    sout3_A_1 c i arg3 harg3 arg4 harg4 arg5 harg5 arg6 harg6 arg7 harg7 arg8 harg8 arg9 harg9 arg10 harg10 arg11 harg11 hc0 hc1 x0 x1 x2 x3 x4 = k3_pay2 (k3_pay10 x0 x1 x3 x4) (k3_pay11 x0 x1 x3 x4 k3_pay6) (k3_pay12 x0 x1 x3 x4 k3_pay6 k3_pay6) k3_pay7 := by
  unfold sout3_A_1 kernelRun3_A
  dsimp only
  refine (View.read_writes_whole_head VS3_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 0` leaves in the running weighted sum, as the kernel's arithmetic on the point's input blocks and the reset values:
    the last store into the buffer fills it, and every load before it reads a whole buffer. -/
theorem sout3_A_2_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) :
    sout3_A_2 c i arg3 harg3 arg4 harg4 arg5 harg5 arg6 harg6 arg7 harg7 arg8 harg8 arg9 harg9 arg10 harg10 arg11 harg11 hc0 hc1 x0 x1 x2 x3 x4 = k3_pay3 (k3_pay9 x2) (k3_pay10 x0 x1 x3 x4) (k3_pay11 x0 x1 x3 x4 k3_pay6) (k3_pay12 x0 x1 x3 x4 k3_pay6 k3_pay6) k3_pay8 := by
  unfold sout3_A_2 kernelRun3_A
  dsimp only
  refine (View.read_writes_whole_head VS3_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running maximum, as the kernel's arithmetic on the point's input blocks and what the point before left:
    the last store into the buffer fills it, and every load before it reads a whole buffer. -/
theorem sout3_B_0_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_B_0 c i arg3 harg3 arg4 harg4 arg5 harg5 arg6 harg6 arg7 harg7 arg8 harg8 arg9 harg9 arg10 harg10 arg11 harg11 hc0 hc1 x0 x1 x2 x3 x4 xs0 xs1 xs2 = k3_pay4 (k3_pay11 x0 x1 x3 x4 xs0) := by
  unfold sout3_B_0 kernelRun3_B
  dsimp only
  refine (View.read_writes_whole_head VS3_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running normaliser, as the kernel's arithmetic on the point's input blocks and what the point before left:
    the last store into the buffer fills it, and every load before it reads a whole buffer. -/
theorem sout3_B_1_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_B_1 c i arg3 harg3 arg4 harg4 arg5 harg5 arg6 harg6 arg7 harg7 arg8 harg8 arg9 harg9 arg10 harg10 arg11 harg11 hc0 hc1 x0 x1 x2 x3 x4 xs0 xs1 xs2 = k3_pay2 (k3_pay10 x0 x1 x3 x4) (k3_pay11 x0 x1 x3 x4 xs0) (k3_pay12 x0 x1 x3 x4 xs0 xs0) xs1 := by
  unfold sout3_B_1 kernelRun3_B
  dsimp only
  refine (View.read_writes_whole_head VS3_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 1, 2` leaves in the running weighted sum, as the kernel's arithmetic on the point's input blocks and what the point before left:
    the last store into the buffer fills it, and every load before it reads a whole buffer. -/
theorem sout3_B_2_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : ¬cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_B_2 c i arg3 harg3 arg4 harg4 arg5 harg5 arg6 harg6 arg7 harg7 arg8 harg8 arg9 harg9 arg10 harg10 arg11 harg11 hc0 hc1 x0 x1 x2 x3 x4 xs0 xs1 xs2 = k3_pay3 (k3_pay9 x2) (k3_pay10 x0 x1 x3 x4) (k3_pay11 x0 x1 x3 x4 xs0) (k3_pay12 x0 x1 x3 x4 xs0 xs0) xs2 := by
  unfold sout3_B_2 kernelRun3_B
  dsimp only
  refine (View.read_writes_whole_head VS3_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running maximum, as the kernel's arithmetic on the point's input blocks and what the point before left:
    the last store into the buffer fills it, and every load before it reads a whole buffer. -/
theorem sout3_C_0_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_C_0 c i arg3 harg3 arg4 harg4 arg5 harg5 arg6 harg6 arg7 harg7 arg8 harg8 arg9 harg9 arg10 harg10 arg11 harg11 hc0 hc1 x0 x1 x2 x3 x4 xs0 xs1 xs2 = k3_pay4 (k3_pay11 x0 x1 x3 x4 xs0) := by
  unfold sout3_C_0 kernelRun3_C
  dsimp only
  refine (View.read_writes_whole_head VS3_0 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running normaliser, as the kernel's arithmetic on the point's input blocks and what the point before left:
    the last store into the buffer fills it, and every load before it reads a whole buffer. -/
theorem sout3_C_1_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_C_1 c i arg3 harg3 arg4 harg4 arg5 harg5 arg6 harg6 arg7 harg7 arg8 harg8 arg9 harg9 arg10 harg10 arg11 harg11 hc0 hc1 x0 x1 x2 x3 x4 xs0 xs1 xs2 = k3_pay2 (k3_pay10 x0 x1 x3 x4) (k3_pay11 x0 x1 x3 x4 xs0) (k3_pay12 x0 x1 x3 x4 xs0 xs0) xs1 := by
  unfold sout3_C_1 kernelRun3_C
  dsimp only
  refine (View.read_writes_whole_head VS3_1 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` leaves in the running weighted sum, as the kernel's arithmetic on the point's input blocks and what the point before left:
    the last store into the buffer fills it, and every load before it reads a whole buffer. -/
theorem sout3_C_2_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    sout3_C_2 c i arg3 harg3 arg4 harg4 arg5 harg5 arg6 harg6 arg7 harg7 arg8 harg8 arg9 harg9 arg10 harg10 arg11 harg11 hc0 hc1 x0 x1 x2 x3 x4 xs0 xs1 xs2 = k3_pay3 (k3_pay9 x2) (k3_pay10 x0 x1 x3 x4) (k3_pay11 x0 x1 x3 x4 xs0) (k3_pay12 x0 x1 x3 x4 xs0 xs0) xs2 := by
  unfold sout3_C_2 kernelRun3_C
  dsimp only
  refine (View.read_writes_whole_head VS3_2 _ hz2 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-- What a point with `kk = 3` stores to the output block: the updated weighted sum divided by the updated normaliser
    (both read back from the scratch buffers just stored). -/
theorem out3_C_5_eq (c : Dev nD) (i : grid3.Coords) (arg3 : Memref sig .tc .vmem S1x1024x512 .bf16) (harg3 : arg3.IsWhole) (arg4 : Memref sig .tc .vmem S1x512x512 .bf16) (harg4 : arg4.IsWhole) (arg5 : Memref sig .tc .vmem S1x512x1024 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond3_0 i) (hc1 : cond3_1 i)
    (x0 : Vec F S1x1024x512 .bf16) (x1 : Vec F S1x512x512 .bf16) (x2 : Vec F S1x512x1024 .bf16) (x3 : Vec F S1x1024x1 .f32) (x4 : Vec F S1x1x512 .f32) (xs0 : Vec F S1024x1 .f32) (xs1 : Vec F S1024x1 .f32) (xs2 : Vec F S1024x1024 .f32) :
    out3_C_5 c i arg3 harg3 arg4 harg4 arg5 harg5 arg6 harg6 arg7 harg7 arg8 harg8 arg9 harg9 arg10 harg10 arg11 harg11 hc0 hc1 x0 x1 x2 x3 x4 xs0 xs1 xs2 = k3_pay5 (k3_pay3 (k3_pay9 x2) (k3_pay10 x0 x1 x3 x4) (k3_pay11 x0 x1 x3 x4 xs0) (k3_pay12 x0 x1 x3 x4 xs0 xs0) xs2) (k3_pay2 (k3_pay10 x0 x1 x3 x4) (k3_pay11 x0 x1 x3 x4 xs0) (k3_pay12 x0 x1 x3 x4 xs0 xs0) xs1) := by
  unfold out3_C_5 kernelRun3_C
  dsimp only
  refine (View.read_writes_whole_head VO3_5 _ hz3 _ _ _).trans ?_
  sl_unfold_words
  simp only [View.readAt_eq_ld, harg3.read_unread, harg4.read_unread, harg5.read_unread, harg6.read_unread, harg7.read_unread,
    harg9.read_unread, harg10.read_unread, harg11.read_unread,
    View.ld_unit_zero (S := S1x1024x512) hz3, View.ld_unit_zero (S := S1x512x512) hz3, View.ld_unit_zero (S := S1x512x1024) hz3,
    View.ld_unit_zero (S := S1x1024x1) hz3, View.ld_unit_zero (S := S1x1x512) hz3,
    View.ld_unit_zero (S := S1024x1) hz2, View.ld_unit_zero (S := S1024x1024) hz2,
    View.readCov_whole_head (S := S1024x1) _ hz2, View.readCov_whole_head (S := S1024x1024) _ hz2]

/-! ## One key tile absorbed: the recurrences, point by point -/

/-- The running maximum after one key tile: the old maximum against the tile's row maxima of the masked scores. -/
def step3_m (x0 : Vec F S1x1024x512 .bf16) (x1 : Vec F S1x512x512 .bf16) (x3 : Vec F S1x1024x1 .f32) (x4 : Vec F S1x1x512 .f32) (m : Vec F S1024x1 .f32) : Vec F S1024x1 .f32 :=
  k3_pay4 (k3_pay11 x0 x1 x3 x4 m)

/-- The running normaliser after one key tile: the old one rescaled to the new maximum, plus the tile's row sums of
    the exponentials. -/
def step3_l (x0 : Vec F S1x1024x512 .bf16) (x1 : Vec F S1x512x512 .bf16) (x3 : Vec F S1x1024x1 .f32) (x4 : Vec F S1x1x512 .f32) (m l : Vec F S1024x1 .f32) : Vec F S1024x1 .f32 :=
  k3_pay2 (k3_pay10 x0 x1 x3 x4) (k3_pay11 x0 x1 x3 x4 m) (k3_pay12 x0 x1 x3 x4 m m) l

/-- The running weighted sum after one key tile: the old one rescaled to the new maximum, plus the tile's
    exponentials times its values. -/
def step3_acc (x0 : Vec F S1x1024x512 .bf16) (x1 : Vec F S1x512x512 .bf16) (x2 : Vec F S1x512x1024 .bf16) (x3 : Vec F S1x1024x1 .f32) (x4 : Vec F S1x1x512 .f32) (m : Vec F S1024x1 .f32) (acc : Vec F S1024x1024 .f32) : Vec F S1024x1024 .f32 :=
  k3_pay3 (k3_pay9 x2) (k3_pay10 x0 x1 x3 x4) (k3_pay11 x0 x1 x3 x4 m) (k3_pay12 x0 x1 x3 x4 m m) acc

/-- What is stored to the output block at the last key tile: the weighted sum over the normaliser. -/
def fin3_out (l : Vec F S1024x1 .f32) (acc : Vec F S1024x1024 .f32) : Vec F S1x1024x1024 .f32 :=
  k3_pay5 acc l

section Points

variable (V : (c : Dev nD) → (b : Ref sig .tc) → Buf (Elt F) ((c : Thread nD τ).loc b))

/-- After a point with `kk = 0`: one tile absorbed into the reset values (maximum `-∞`, normaliser 0, sum 0). -/
theorem outsAt3_A_eq (c : Dev nD) (t : Fin cfg3.N) (h0 : t.val % 4 = 0) (h1 : ¬t.val % 4 = 3) :
    outsAt3 V c t.val t.isLt =
      (out3_idle_5,
       step3_m (iblk3 V c 0 t) (iblk3 V c 1 t) (iblk3 V c 3 t) (iblk3 V c 4 t) k3_pay6,
       step3_l (iblk3 V c 0 t) (iblk3 V c 1 t) (iblk3 V c 3 t) (iblk3 V c 4 t) k3_pay6 k3_pay7,
       step3_acc (iblk3 V c 0 t) (iblk3 V c 1 t) (iblk3 V c 2 t) (iblk3 V c 3 t) (iblk3 V c 4 t) k3_pay6 k3_pay8) := by
  rw [outsAt3_A V c t h0 h1]; unfold pt3_A step3_m step3_l step3_acc
  rw [sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
    sout3_A_1_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t),
    sout3_A_2_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t)]

/-- After a point with `kk = 1, 2`: one tile absorbed into what the point before left. -/
theorem outsAt3_B_eq (c : Dev nD) (t : Fin cfg3.N) (h0 : ¬t.val % 4 = 0) (h1 : ¬t.val % 4 = 3) :
    outsAt3 V c t.val t.isLt =
      (out3_idle_5,
       step3_m (iblk3 V c 0 t) (iblk3 V c 1 t) (iblk3 V c 3 t) (iblk3 V c 4 t) (outsAt3 V c (t.val - 1) (Nat.lt_of_le_of_lt (Nat.sub_le _ _) t.isLt)).2.1,
       step3_l (iblk3 V c 0 t) (iblk3 V c 1 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1,
       step3_acc (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.2) := by
  rw [outsAt3_B V c t h0 h1]; unfold pt3_B step3_m step3_l step3_acc
  rw [sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2,
    sout3_B_1_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2,
    sout3_B_2_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2]

/-- After a point with `kk = 3`: one tile absorbed into what the point before left, and the quotient stored. -/
theorem outsAt3_C_eq (c : Dev nD) (t : Fin cfg3.N) (h0 : ¬t.val % 4 = 0) (h1 : t.val % 4 = 3) :
    outsAt3 V c t.val t.isLt =
      (fin3_out (step3_l (iblk3 V c 0 t) (iblk3 V c 1 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1) (step3_acc (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.2),
       step3_m (iblk3 V c 0 t) (iblk3 V c 1 t) (iblk3 V c 3 t) (iblk3 V c 4 t) (outsAt3 V c (t.val - 1) (Nat.lt_of_le_of_lt (Nat.sub_le _ _) t.isLt)).2.1,
       step3_l (iblk3 V c 0 t) (iblk3 V c 1 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1,
       step3_acc (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.2) := by
  rw [outsAt3_C V c t h0 h1]; unfold pt3_C fin3_out step3_m step3_l step3_acc
  rw [out3_C_5_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2,
    sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2,
    sout3_C_1_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2,
    sout3_C_2_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2]

end Points

end Cert.KernelIdeal.Gen

end
-- ==== Proof.KI.AttnIdx3.lean ====
/-
  Where the blocks of the second attention call lie in their arrays.

  The call runs over a grid `16 × 2 × 4`: point `t` has coordinates `(n, qi, kk) = (t / 8, (t / 4) % 2, t % 4)` — a batch
  entry, a tile of 1024 query rows, a tile of 512 key rows. Each window's block index is read off those coordinates by
  its index map, and a block's element at a coordinate inside the block is the array's element at
  `index × size + coordinate` on every axis. The query-side windows (the query projections, the query mask, the
  output) follow `(n, qi)`; the key-side windows (the key projections, the value rows, the key mask) follow `(n, kk)`.
  The output is written back only at the last key tile, `kk = 3`; those points' blocks tile the output array.
-/
import proofs.«111653_j86517821215425_2_alg».proof.Proof.Gen.KernelIdeal.Launch
import proofs.«111653_j86517821215425_2_alg».proof.Proof.Gen.KernelIdeal.Points
import Idealize.ShloMosaic.Lib.Pipeline.Value
import Idealize.ShloMosaic.Lib.ValueIdx

noncomputable section

namespace Cert.KernelIdeal.AttnIdx3

open Cert.KernelIdeal Cert.KernelIdeal.Gen Idealize.ShloMosaic Idealize.ShloMosaic.ValueIdx

/-- The block indices of the six windows at point `t`, decided over the grid. -/
theorem idx_facts : ∀ t : Fin cfg3.N,
    (win3_0.index t (0 : Fin 3) = t.val / 8 ∧ win3_0.index t (1 : Fin 3) = t.val / 4 % 2 ∧ win3_0.index t (2 : Fin 3) = 0)
    ∧ (win3_1.index t (0 : Fin 3) = t.val / 8 ∧ win3_1.index t (1 : Fin 3) = t.val % 4 ∧ win3_1.index t (2 : Fin 3) = 0)
    ∧ (win3_2.index t (0 : Fin 3) = t.val / 8 ∧ win3_2.index t (1 : Fin 3) = t.val % 4 ∧ win3_2.index t (2 : Fin 3) = 0)
    ∧ (win3_3.index t (0 : Fin 3) = t.val / 8 ∧ win3_3.index t (1 : Fin 3) = t.val / 4 % 2 ∧ win3_3.index t (2 : Fin 3) = 0)
    ∧ (win3_4.index t (0 : Fin 3) = t.val / 8 ∧ win3_4.index t (1 : Fin 3) = 0 ∧ win3_4.index t (2 : Fin 3) = t.val % 4)
    ∧ (win3_5.index t (0 : Fin 3) = t.val / 8 ∧ win3_5.index t (1 : Fin 3) = t.val / 4 % 2 ∧ win3_5.index t (2 : Fin 3) = 0) :=
  (by decide +kernel : ∀ t : Fin grid3.N, _)

/-- A point of the grid is below 128. -/
theorem lt_N (t : Fin cfg3.N) : t.val < 128 := lt_of_lt_of_eq t.isLt N_3

/-- The batch entry of point `t`. -/
abbrev bat (t : Fin cfg3.N) : Fin 16 := ⟨t.val / 8, by have := lt_N t; omega⟩

/-- The array row under row `r` of point `t`'s query tile. -/
abbrev qrow (t : Fin cfg3.N) (r : Fin 1024) : Fin 2048 := ⟨1024 * (t.val / 4 % 2) + r.val, by have := r.isLt; omega⟩

/-- The array row under row `cc` of point `t`'s key tile. -/
abbrev krow (t : Fin cfg3.N) (cc : Fin 512) : Fin 2048 := ⟨512 * (t.val % 4) + cc.val, by have := cc.isLt; omega⟩

variable {Val : EltTy → Type}

/-- Window 0 (the query projections `[16, 2048, 512]`, block `[1, 1024, 512]` at `(n, qi, 0)`). -/
theorem read_0 (arr : (⟨S16x2048x512, .bf16⟩ : BufTy).Contents Val) (t : Fin cfg3.N) (r : Fin 1024) (h : Fin 512) :
    ((cfg3.win 0).blk t).view.read Val arr (ix3 (0 : Fin 1) r h) = arr (ix3 (bat t) (qrow t r) h) := by
  obtain ⟨⟨e0, e1, e2⟩, -⟩ := idx_facts t
  show arr (((cfg3.win 0).blk t).view.emb (ix3 (0 : Fin 1) r h)) = _
  refine congrArg arr (funext fun a => Fin.ext ?_)
  match a with
  | ⟨0, _⟩ => show win3_0.index t (0 : Fin 3) * 1 + 1 * 0 = t.val / 8; omega
  | ⟨1, _⟩ => show win3_0.index t (1 : Fin 3) * 1024 + 1 * r.val = 1024 * (t.val / 4 % 2) + r.val; omega
  | ⟨2, _⟩ => show win3_0.index t (2 : Fin 3) * 512 + 1 * h.val = h.val; omega

/-- Window 1 (the key projections `[16, 2048, 512]`, block `[1, 512, 512]` at `(n, kk, 0)`). -/
theorem read_1 (arr : (⟨S16x2048x512, .bf16⟩ : BufTy).Contents Val) (t : Fin cfg3.N) (cc : Fin 512) (h : Fin 512) :
    ((cfg3.win 1).blk t).view.read Val arr (ix3 (0 : Fin 1) cc h) = arr (ix3 (bat t) (krow t cc) h) := by
  obtain ⟨-, ⟨e0, e1, e2⟩, -⟩ := idx_facts t
  show arr (((cfg3.win 1).blk t).view.emb (ix3 (0 : Fin 1) cc h)) = _
  refine congrArg arr (funext fun a => Fin.ext ?_)
  match a with
  | ⟨0, _⟩ => show win3_1.index t (0 : Fin 3) * 1 + 1 * 0 = t.val / 8; omega
  | ⟨1, _⟩ => show win3_1.index t (1 : Fin 3) * 512 + 1 * cc.val = 512 * (t.val % 4) + cc.val; omega
  | ⟨2, _⟩ => show win3_1.index t (2 : Fin 3) * 512 + 1 * h.val = h.val; omega

/-- Window 2 (the value rows `[16, 2048, 1024]`, block `[1, 512, 1024]` at `(n, kk, 0)`). -/
theorem read_2 (arr : (⟨S16x2048x1024, .bf16⟩ : BufTy).Contents Val) (t : Fin cfg3.N) (cc : Fin 512) (d : Fin 1024) :
    ((cfg3.win 2).blk t).view.read Val arr (ix3 (0 : Fin 1) cc d) = arr (ix3 (bat t) (krow t cc) d) := by
  obtain ⟨-, -, ⟨e0, e1, e2⟩, -⟩ := idx_facts t
  show arr (((cfg3.win 2).blk t).view.emb (ix3 (0 : Fin 1) cc d)) = _
  refine congrArg arr (funext fun a => Fin.ext ?_)
  match a with
  | ⟨0, _⟩ => show win3_2.index t (0 : Fin 3) * 1 + 1 * 0 = t.val / 8; omega
  | ⟨1, _⟩ => show win3_2.index t (1 : Fin 3) * 512 + 1 * cc.val = 512 * (t.val % 4) + cc.val; omega
  | ⟨2, _⟩ => show win3_2.index t (2 : Fin 3) * 1024 + 1 * d.val = d.val; omega

/-- Window 3 (the query mask `[16, 2048, 1]`, block `[1, 1024, 1]` at `(n, qi, 0)`). -/
theorem read_3 (arr : (⟨S16x2048x1, .f32⟩ : BufTy).Contents Val) (t : Fin cfg3.N) (r : Fin 1024) :
    ((cfg3.win 3).blk t).view.read Val arr (ix3 (0 : Fin 1) r (0 : Fin 1)) = arr (ix3 (bat t) (qrow t r) (0 : Fin 1)) := by
  obtain ⟨-, -, -, ⟨e0, e1, e2⟩, -⟩ := idx_facts t
  show arr (((cfg3.win 3).blk t).view.emb (ix3 (0 : Fin 1) r (0 : Fin 1))) = _
  refine congrArg arr (funext fun a => Fin.ext ?_)
  match a with
  | ⟨0, _⟩ => show win3_3.index t (0 : Fin 3) * 1 + 1 * 0 = t.val / 8; omega
  | ⟨1, _⟩ => show win3_3.index t (1 : Fin 3) * 1024 + 1 * r.val = 1024 * (t.val / 4 % 2) + r.val; omega
  | ⟨2, _⟩ => show win3_3.index t (2 : Fin 3) * 1 + 1 * 0 = 0; omega

/-- Window 4 (the key mask as a row `[16, 1, 2048]`, block `[1, 1, 512]` at `(n, 0, kk)`). -/
theorem read_4 (arr : (⟨S16x1x2048, .f32⟩ : BufTy).Contents Val) (t : Fin cfg3.N) (cc : Fin 512) :
    ((cfg3.win 4).blk t).view.read Val arr (ix3 (0 : Fin 1) (0 : Fin 1) cc) = arr (ix3 (bat t) (0 : Fin 1) (krow t cc)) := by
  obtain ⟨-, -, -, -, ⟨e0, e1, e2⟩, -⟩ := idx_facts t
  show arr (((cfg3.win 4).blk t).view.emb (ix3 (0 : Fin 1) (0 : Fin 1) cc)) = _
  refine congrArg arr (funext fun a => Fin.ext ?_)
  match a with
  | ⟨0, _⟩ => show win3_4.index t (0 : Fin 3) * 1 + 1 * 0 = t.val / 8; omega
  | ⟨1, _⟩ => show win3_4.index t (1 : Fin 3) * 1 + 1 * 0 = 0; omega
  | ⟨2, _⟩ => show win3_4.index t (2 : Fin 3) * 512 + 1 * cc.val = 512 * (t.val % 4) + cc.val; omega

/-- Window 5 (the output `[16, 2048, 1024]`, block `[1, 1024, 1024]` at `(n, qi, 0)`). -/
theorem read_5 (arr : (⟨S16x2048x1024, .f32⟩ : BufTy).Contents Val) (t : Fin cfg3.N) (r : Fin 1024) (d : Fin 1024) :
    ((cfg3.win 5).blk t).view.read Val arr (ix3 (0 : Fin 1) r d) = arr (ix3 (bat t) (qrow t r) d) := by
  obtain ⟨-, -, -, -, -, e0, e1, e2⟩ := idx_facts t
  show arr (((cfg3.win 5).blk t).view.emb (ix3 (0 : Fin 1) r d)) = _
  refine congrArg arr (funext fun a => Fin.ext ?_)
  match a with
  | ⟨0, _⟩ => show win3_5.index t (0 : Fin 3) * 1 + 1 * 0 = t.val / 8; omega
  | ⟨1, _⟩ => show win3_5.index t (1 : Fin 3) * 1024 + 1 * r.val = 1024 * (t.val / 4 % 2) + r.val; omega
  | ⟨2, _⟩ => show win3_5.index t (2 : Fin 3) * 1024 + 1 * d.val = d.val; omega

/-- An index of the output array is in point `t`'s block iff each coordinate is in the block's range on its axis. -/
theorem mem_blk_5 (t : Fin cfg3.N) (i : S16x2048x1024.Idx) :
    i ∈ ((cfg3.win 5).blk t).view.set ↔ ∀ a : Fin 3, win3_5.index t a * S1x1024x1024.size a ≤ (i a).val
      ∧ (i a).val < win3_5.index t a * S1x1024x1024.size a + S1x1024x1024.size a := by
  show i ∈ ((View.whole main_v21).slice (win3_5.rect t)).set ↔ _
  rw [View.set_slice_whole, Rect.mem_set_unit]
  exact Iff.rfl

/-- The same by coordinates: the batch entry is `t`'s and the row lies in `t`'s query tile. -/
theorem mem_blk_5_iff (t : Fin cfg3.N) (i : S16x2048x1024.Idx) :
    i ∈ ((cfg3.win 5).blk t).view.set ↔ (i 0).val = t.val / 8 ∧ (i 1).val / 1024 = t.val / 4 % 2 := by
  rw [mem_blk_5]
  obtain ⟨-, -, -, -, -, e0, e1, e2⟩ := idx_facts t
  have h2 : (i 2).val < 1024 := (i 2).isLt
  constructor
  · intro hi
    have b0 : win3_5.index t (0 : Fin 3) * 1 ≤ (i 0).val ∧ (i 0).val < win3_5.index t (0 : Fin 3) * 1 + 1 := hi 0
    have b1 : win3_5.index t (1 : Fin 3) * 1024 ≤ (i 1).val ∧ (i 1).val < win3_5.index t (1 : Fin 3) * 1024 + 1024 := hi 1
    omega
  · rintro ⟨h0, h1⟩ a
    match a with
    | ⟨0, _⟩ => show win3_5.index t (0 : Fin 3) * 1 ≤ (i 0).val ∧ (i 0).val < win3_5.index t (0 : Fin 3) * 1 + 1; omega
    | ⟨1, _⟩ => show win3_5.index t (1 : Fin 3) * 1024 ≤ (i 1).val ∧ (i 1).val < win3_5.index t (1 : Fin 3) * 1024 + 1024; omega
    | ⟨2, _⟩ => show win3_5.index t (2 : Fin 3) * 1024 ≤ (i 2).val ∧ (i 2).val < win3_5.index t (2 : Fin 3) * 1024 + 1024; omega

/-- The point that writes back the block holding row `i` of batch entry `n`: the last key tile of its query tile. -/
abbrev flusher (n : Fin 16) (i : Fin 2048) : Fin cfg3.N :=
  ⟨8 * n.val + 4 * (i.val / 1024) + 3, lt_of_lt_of_eq (by have := n.isLt; have := i.isLt; omega) N_3.symm⟩

/-- It does write back. -/
theorem flusher_flush (n : Fin 16) (i : Fin 2048) : (cfg3.win 5).flush (flusher n i) = true :=
  (flush3_5 (flusher n i)).mpr (by show (8 * n.val + 4 * (i.val / 1024) + 3) % 4 = 3; omega)

/-- THE COVER: every index of the output array lies in the block of a point that writes back. -/
theorem cover_5 (i : S16x2048x1024.Idx) :
    ∃ t : Fin cfg3.N, (cfg3.win 5).flush t = true ∧ i ∈ ((cfg3.win 5).blk t).view.set := by
  have h0 : (i 0).val < 16 := (i 0).isLt
  have h1 : (i 1).val < 2048 := (i 1).isLt
  refine ⟨flusher ⟨(i 0).val, h0⟩ ⟨(i 1).val, h1⟩, flusher_flush _ _, ?_⟩
  rw [mem_blk_5_iff]
  show (i 0).val = (8 * (i 0).val + 4 * ((i 1).val / 1024) + 3) / 8
    ∧ (i 1).val / 1024 = (8 * (i 0).val + 4 * ((i 1).val / 1024) + 3) / 4 % 2
  omega

end Cert.KernelIdeal.AttnIdx3

end
-- ==== Proof.Pay3Score.lean ====
/-
  The attention kernel's scores at its second call (the same program text), read at coordinates over the extended reals.

  For the query row `r` and the key row `c` of the tile, the kernel multiplies the query block by the transposed key
  block — the inner product `∑ h, q (r, h) · k (c, h)` — and blends it with the fill by the product of the two rows'
  mask entries: `mk · sc + (1 − mk) · fill`.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout

noncomputable section

namespace Cert.Pay

open Idealize.ShloMosaic Idealize.ShloMosaic.ValueIdx Cert.KernelIdeal Cert.KernelIdeal.Gen

/-- The score of query row `r` against key row `c`. -/
theorem k3_pay10_apply (q : Vec Ideal S1x1024x512 .bf16) (k : Vec Ideal S1x512x512 .bf16)
    (qm : Vec Ideal S1x1024x1 .f32) (km : Vec Ideal S1x1x512 .f32) (r : Fin 1024) (c : Fin 512) :
    k3_pay10 q k qm km (ix2 r c)
      = Cert.Spec.blend (qm (ix3 (0 : Fin 1) r (0 : Fin 1)) * km (ix3 (0 : Fin 1) (0 : Fin 1) c))
          (∑ h : Fin 512, q (ix3 (0 : Fin 1) r h) * k (ix3 (0 : Fin 1) c h)) := by
  unfold k3_pay10
  rw [addf_apply, mulf_apply, mulf_apply, mulf_apply, subf_apply, mulf_apply, broadcast_apply, broadcast_apply]
  rw [Cert.LibPlain.matmul_zero_apply dot_S1024x512_S512x512_S1024x512_1_0_0_1_n_n rfl none _ _ r c]
  rw [Cert.LibKeepdims.broadcastTo_a1_ab_apply, broadcastTo_1b_ab_apply, shapeCast_1ab_ab_apply, shapeCast_1ab_ab_apply]
  have hs : ∀ h : Fin 512,
      shapeCast S1024x512 q shapeCasts_S1x1024x512_S1024x512 (ix2 r h)
        * transpose S512x512 [1, 0] (shapeCast S512x512 k shapeCasts_S1x512x512_S512x512)
            transposes_S512x512_p1_0_S512x512 (ix2 h c)
        = q (ix3 (0 : Fin 1) r h) * k (ix3 (0 : Fin 1) c h) := fun h => by
    rw [shapeCast_1ab_ab_apply, transpose_ix2_apply, shapeCast_1ab_ab_apply]
  rw [Finset.sum_congr rfl fun h _ => hs h]
  rfl

end Cert.Pay

end
-- ==== Proof.Pay3Tile.lean ====
/-
  The attention kernel's tile update at its second call (the same program text), read at coordinates over the extended
  reals.

  With the tile's scores `S`, the new running maximum `M` (a column) and the rescaling factor `E` (a column) given,
  the weights are `exp (S (r, c) − M (r, 0))`; the running normaliser becomes `E · l + ∑ c, weight`, the running
  weighted sum `E · acc + ∑ c, weight · v (c, d)`. The new maximum is the larger of the old one and the row's largest
  score, and the rescaling factor is `exp (old − new)`.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout
import proofs.«111653_j86517821215425_2_alg».proof.Proof.PayTile

noncomputable section

namespace Cert.Pay

open Idealize.ShloMosaic Idealize.ShloMosaic.ValueIdx Cert.KernelIdeal Cert.KernelIdeal.Gen

/-- The weight of column `c` in row `r`. -/
theorem k3_pay1_apply (S : FVec Ideal S1024x512 .f32) (M : FVec Ideal S1024x1 .f32) (r : Fin 1024) (c : Fin 512) :
    k3_pay1 S M (ix2 r c) = Ideal.exp (S (ix2 r c) - M (ix2 r (0 : Fin 1))) := by
  unfold k3_pay1
  show Ideal.exp (S (ix2 r c) - broadcastTo S1024x512 M broadcasts_S1024x1_S1024x512 (ix2 r c)) = _
  rw [Cert.LibKeepdims.broadcastTo_a1_ab_apply]

/-- The running normaliser after the tile. -/
theorem k3_pay2_apply (S : FVec Ideal S1024x512 .f32) (M E : FVec Ideal S1024x1 .f32) (lo : Vec Ideal S1024x1 .f32)
    (r : Fin 1024) :
    k3_pay2 S M E lo (ix2 r (0 : Fin 1))
      = E (ix2 r (0 : Fin 1)) * lo (ix2 r (0 : Fin 1))
          + ∑ c : Fin 512, Ideal.exp (S (ix2 r c) - M (ix2 r (0 : Fin 1))) := by
  unfold k3_pay2
  rw [shapeCast_self, addf_apply, mulf_apply, Cert.LibKeepdims.shapeCast_a_a1_apply, rowSum_apply]
  exact congrArg (_ + ·) (Finset.sum_congr rfl fun c _ => k3_pay1_apply S M r c)

/-- The running weighted sum after the tile. -/
theorem k3_pay3_apply (V : FVec Ideal S512x1024 .bf16) (S : FVec Ideal S1024x512 .f32) (M E : FVec Ideal S1024x1 .f32)
    (ao : Vec Ideal S1024x1024 .f32) (r d : Fin 1024) :
    k3_pay3 V S M E ao (ix2 r d)
      = E (ix2 r (0 : Fin 1)) * ao (ix2 r d)
          + ∑ c : Fin 512, Ideal.exp (S (ix2 r c) - M (ix2 r (0 : Fin 1))) * V (ix2 c d) := by
  unfold k3_pay3
  rw [shapeCast_self, addf_apply, mulf_apply, Cert.LibKeepdims.broadcastTo_a1_ab_apply,
    Cert.LibPlain.matmul_zero_apply dot_S1024x512_S512x1024_S1024x1024_1_0_0_1_n_n rfl none _ _ r d]
  refine congrArg (_ + ·) (Finset.sum_congr rfl fun c _ => ?_)
  rw [truncf_apply, k3_pay1_apply]

/-- The stored running maximum is the new maximum. -/
theorem k3_pay4_apply (M : FVec Ideal S1024x1 .f32) (i : S1024x1.Idx) : k3_pay4 M i = M i := by
  unfold k3_pay4
  rw [shapeCast_self]

/-- The value block with its leading unit axis dropped. -/
theorem k3_pay9_apply (vv : Vec Ideal S1x512x1024 .bf16) (c : Fin 512) (d : Fin 1024) :
    k3_pay9 vv (ix2 c d) = vv (ix3 (0 : Fin 1) c d) := by
  unfold k3_pay9
  rw [shapeCast_1ab_ab_apply]

/-- The new running maximum: the larger of the old one and the row's largest score. -/
theorem k3_pay11_apply (q : Vec Ideal S1x1024x512 .bf16) (k : Vec Ideal S1x512x512 .bf16)
    (qm : Vec Ideal S1x1024x1 .f32) (km : Vec Ideal S1x1x512 .f32) (mo : Vec Ideal S1024x1 .f32) (r : Fin 1024) :
    k3_pay11 q k qm km mo (ix2 r (0 : Fin 1))
      = max (mo (ix2 r (0 : Fin 1)))
          ((Finset.univ : Finset (Fin 512)).fold max ⊥ fun c => k3_pay10 q k qm km (ix2 r c)) := by
  unfold k3_pay11
  rw [maximumf_apply, Cert.LibKeepdims.shapeCast_a_a1_apply, rowMax_apply]

/-- The rescaling factor: `exp (old maximum − new maximum)`. -/
theorem k3_pay12_apply (q : Vec Ideal S1x1024x512 .bf16) (k : Vec Ideal S1x512x512 .bf16)
    (qm : Vec Ideal S1x1024x1 .f32) (km : Vec Ideal S1x1x512 .f32) (mo mo' : Vec Ideal S1024x1 .f32) (i : S1024x1.Idx) :
    k3_pay12 q k qm km mo mo' i = Ideal.exp (mo' i - k3_pay11 q k qm km mo i) := by
  unfold k3_pay12
  rfl

end Cert.Pay

end
-- ==== Proof.Pay3Step.lean ====
/-
  One tile of the attention kernel at its second call (the same program text) is one step of the online softmax.

  For the query row `r`, the three values the kernel stores back — the running maximum, the running normaliser and the
  running weighted sum — are the online recurrence's step applied to the values found there, with the tile's scores
  of row `r` and the tile's value rows.
-/
import proofs.«111653_j86517821215425_2_alg».proof.Proof.Pay3Score
import proofs.«111653_j86517821215425_2_alg».proof.Proof.Pay3Tile

noncomputable section

namespace Cert.Pay

open Idealize.ShloMosaic Idealize.ShloMosaic.ValueIdx Cert.KernelIdeal Cert.KernelIdeal.Gen

/-- The tile's update of row `r`, with the scores as the kernel computes them. -/
theorem k3_step (q : Vec Ideal S1x1024x512 .bf16) (k : Vec Ideal S1x512x512 .bf16)
    (qm : Vec Ideal S1x1024x1 .f32) (km : Vec Ideal S1x1x512 .f32) (vv : Vec Ideal S1x512x1024 .bf16)
    (mo lo : Vec Ideal S1024x1 .f32) (ao : Vec Ideal S1024x1024 .f32) (r : Fin 1024) :
    OnlineSoftmax.St.mk
        (k3_pay4 (k3_pay11 q k qm km mo) (ix2 r (0 : Fin 1)))
        (k3_pay2 (k3_pay10 q k qm km) (k3_pay11 q k qm km mo) (k3_pay12 q k qm km mo mo) lo (ix2 r (0 : Fin 1)))
        (fun d : Fin 1024 =>
          k3_pay3 (k3_pay9 vv) (k3_pay10 q k qm km) (k3_pay11 q k qm km mo) (k3_pay12 q k qm km mo mo) ao (ix2 r d))
      = OnlineSoftmax.step (fun c : Fin 512 => k3_pay10 q k qm km (ix2 r c))
          (fun (c : Fin 512) (d : Fin 1024) => vv (ix3 (0 : Fin 1) c d))
          ⟨mo (ix2 r (0 : Fin 1)), lo (ix2 r (0 : Fin 1)), fun d : Fin 1024 => ao (ix2 r d)⟩ := by
  have hM := k3_pay11_apply q k qm km mo r
  unfold OnlineSoftmax.step
  dsimp only
  rw [k3_pay4_apply, k3_pay2_apply, k3_pay12_apply, hM]
  congr 1
  funext d
  rw [k3_pay3_apply, k3_pay12_apply, hM]
  exact congrArg (_ + ·) (Finset.sum_congr rfl fun c _ => by rw [k3_pay9_apply])

/-- The same with the scores written out: the inner products blended with the fill by the masks. -/
theorem k3_step_blend (q : Vec Ideal S1x1024x512 .bf16) (k : Vec Ideal S1x512x512 .bf16)
    (qm : Vec Ideal S1x1024x1 .f32) (km : Vec Ideal S1x1x512 .f32) (vv : Vec Ideal S1x512x1024 .bf16)
    (mo lo : Vec Ideal S1024x1 .f32) (ao : Vec Ideal S1024x1024 .f32) (r : Fin 1024) :
    OnlineSoftmax.St.mk
        (k3_pay4 (k3_pay11 q k qm km mo) (ix2 r (0 : Fin 1)))
        (k3_pay2 (k3_pay10 q k qm km) (k3_pay11 q k qm km mo) (k3_pay12 q k qm km mo mo) lo (ix2 r (0 : Fin 1)))
        (fun d : Fin 1024 =>
          k3_pay3 (k3_pay9 vv) (k3_pay10 q k qm km) (k3_pay11 q k qm km mo) (k3_pay12 q k qm km mo mo) ao (ix2 r d))
      = OnlineSoftmax.step
          (fun c : Fin 512 =>
            Cert.Spec.blend (qm (ix3 (0 : Fin 1) r (0 : Fin 1)) * km (ix3 (0 : Fin 1) (0 : Fin 1) c))
              (∑ h : Fin 512, q (ix3 (0 : Fin 1) r h) * k (ix3 (0 : Fin 1) c h)))
          (fun (c : Fin 512) (d : Fin 1024) => vv (ix3 (0 : Fin 1) c d))
          ⟨mo (ix2 r (0 : Fin 1)), lo (ix2 r (0 : Fin 1)), fun d : Fin 1024 => ao (ix2 r d)⟩ :=
  (k3_step q k qm km vv mo lo ao r).trans
    (congrArg (fun s : Fin 512 → EReal => OnlineSoftmax.step s (fun (c : Fin 512) (d : Fin 1024) => vv (ix3 (0 : Fin 1) c d))
        ⟨mo (ix2 r (0 : Fin 1)), lo (ix2 r (0 : Fin 1)), fun d : Fin 1024 => ao (ix2 r d)⟩)
      (funext fun c => k3_pay10_apply q k qm km r c))

end Cert.Pay

end
-- ==== Proof.Pay3Init.lean ====
/-
  The attention kernel's first and last stores at its second call (the same program text), read at coordinates over the
  extended reals.

  Before the first tile the running maximum is `-∞` (the word `0xFF800000`), the running normaliser and the running
  weighted sum are zero. After the last tile the output block is the weighted sum divided by the normaliser, row by row.
-/
import proofs.«111653_j86517821215425_2_alg».proof.Proof.Gen.KernelIdeal.Skeleton
import proofs.«111653_j86517821215425_2_alg».proof.Proof.LibPlain
import proofs.«111653_j86517821215425_2_alg».proof.Proof.LibKeepdims
import proofs.«111653_j86517821215425_2_alg».proof.Proof.Spec
import Idealize.ShloMosaic.Lib.ValueLayout

noncomputable section

namespace Cert.Pay

open Idealize.ShloMosaic Idealize.ShloMosaic.ValueIdx Cert.KernelIdeal Cert.KernelIdeal.Gen

/-- The initial running maximum: `-∞`. -/
theorem k3_pay6_apply (i : S1024x1.Idx) : k3_pay6 (F := Ideal) i = ⊥ := by
  unfold k3_pay6
  rw [shapeCast_self, broadcast_apply]
  exact Cert.LibPlain.ofBits_neg_inf_f32

/-- The initial running normaliser: zero. -/
theorem k3_pay7_apply (i : S1024x1.Idx) : k3_pay7 (F := Ideal) i = 0 := by
  unfold k3_pay7
  rw [shapeCast_self, broadcast_apply]
  exact Ideal.ofBits_zero_f32

/-- The initial running weighted sum: zero. -/
theorem k3_pay8_apply (i : S1024x1024.Idx) : k3_pay8 (F := Ideal) i = 0 := by
  unfold k3_pay8
  rw [shapeCast_self, broadcast_apply]
  exact Ideal.ofBits_zero_f32

/-- The output block: the weighted sum over the normaliser. -/
theorem k3_pay5_apply (a : Vec Ideal S1024x1024 .f32) (l : Vec Ideal S1024x1 .f32) (u : Fin 1) (r d : Fin 1024) :
    k3_pay5 a l (ix3 u r d) = Ideal.div (a (ix2 r d)) (l (ix2 r (0 : Fin 1))) := by
  unfold k3_pay5
  rw [shapeCast_ab_1ab_apply, divf_apply, Cert.LibKeepdims.broadcastTo_a1_ab_apply]

end Cert.Pay

end
-- ==== Proof.KI.AttnRow3.lean ====
/-
  One query row of the attention kernel across its key tiles, at the kernel's second call (the same program text).

  Row `r` of the three scratch buffers — running maximum, running normaliser, running weighted sum — is a state of the
  online recurrence. A tile of the kernel moves it by one step of the recurrence, with the tile's scores of that row
  and the tile's value rows; the first tile of a group starts from the initial state, whatever the buffers held. So
  after tile `k` of a group the row's state is the recurrence run over the tiles `0 … k`, and after the last of four
  tiles the stored quotient is the tiled attention of the specification.

  The grid is abstract here: a point `t` has a batch entry `nOf t`, a query row `iOf t r` of the whole sequence for each
  row `r` of its block, and a key tile `kOf t`; each block is read through the whole arrays at those coordinates.
-/
import proofs.«111653_j86517821215425_2_alg».proof.Proof.Pay3Step
import proofs.«111653_j86517821215425_2_alg».proof.Proof.Pay3Init

noncomputable section

namespace Cert.KernelIdeal.AttnValue3

open Idealize.ShloMosaic Idealize.ShloMosaic.ValueIdx Cert.KernelIdeal Cert.KernelIdeal.Gen Cert.Pay

/-- Row `r` of the three scratch buffers as a state of the online recurrence. -/
def rowSt (m l : Vec Ideal S1024x1 .f32) (acc : Vec Ideal S1024x1024 .f32) (r : Fin 1024) : OnlineSoftmax.St (Fin 1024) :=
  ⟨m (ix2 r (0 : Fin 1)), l (ix2 r (0 : Fin 1)), fun d => acc (ix2 r d)⟩

/-- The running maximum after a tile. -/
abbrev tileM (q : Vec Ideal S1x1024x512 .bf16) (k : Vec Ideal S1x512x512 .bf16) (qm : Vec Ideal S1x1024x1 .f32)
    (km : Vec Ideal S1x1x512 .f32) (mo : Vec Ideal S1024x1 .f32) : Vec Ideal S1024x1 .f32 :=
  k3_pay4 (k3_pay11 q k qm km mo)

/-- The running normaliser after a tile. -/
abbrev tileL (q : Vec Ideal S1x1024x512 .bf16) (k : Vec Ideal S1x512x512 .bf16) (qm : Vec Ideal S1x1024x1 .f32)
    (km : Vec Ideal S1x1x512 .f32) (mo lo : Vec Ideal S1024x1 .f32) : Vec Ideal S1024x1 .f32 :=
  k3_pay2 (k3_pay10 q k qm km) (k3_pay11 q k qm km mo) (k3_pay12 q k qm km mo mo) lo

/-- The running weighted sum after a tile. -/
abbrev tileA (q : Vec Ideal S1x1024x512 .bf16) (k : Vec Ideal S1x512x512 .bf16) (qm : Vec Ideal S1x1024x1 .f32)
    (km : Vec Ideal S1x1x512 .f32) (vv : Vec Ideal S1x512x1024 .bf16) (mo : Vec Ideal S1024x1 .f32)
    (ao : Vec Ideal S1024x1024 .f32) : Vec Ideal S1024x1024 .f32 :=
  k3_pay3 (k3_pay9 vv) (k3_pay10 q k qm km) (k3_pay11 q k qm km mo) (k3_pay12 q k qm km mo mo) ao

/-- The buffers as the first tile of a group resets them are the initial state. -/
theorem rowSt_init (r : Fin 1024) : rowSt (k3_pay6 (F := Ideal)) (k3_pay7 (F := Ideal)) (k3_pay8 (F := Ideal)) r = OnlineSoftmax.init := by
  unfold rowSt OnlineSoftmax.init
  rw [k3_pay6_apply, k3_pay7_apply]
  congr 1
  funext d
  rw [k3_pay8_apply]

section Tile

variable (Q K : Fin 16 → Fin 2048 → Fin 512 → EReal) (QM KM : Fin 16 → Fin 2048 → EReal)
  (Vv : Fin 16 → Fin 2048 → Fin 1024 → EReal)

/-- One tile moves row `r` by one step of the recurrence, with the scores and value rows read through the whole arrays:
    the row is row `i` of batch entry `n`, the tile's columns are the columns `col 512 kk c`. -/
theorem rowSt_tile (n : Fin 16) (i : Fin 2048) (kk : ℕ)
    (q : Vec Ideal S1x1024x512 .bf16) (k : Vec Ideal S1x512x512 .bf16) (qm : Vec Ideal S1x1024x1 .f32)
    (km : Vec Ideal S1x1x512 .f32) (vv : Vec Ideal S1x512x1024 .bf16)
    (mo lo : Vec Ideal S1024x1 .f32) (ao : Vec Ideal S1024x1024 .f32) (r : Fin 1024)
    (hq : ∀ h : Fin 512, q (ix3 (0 : Fin 1) r h) = Q n i h)
    (hk : ∀ (c : Fin 512) (h : Fin 512), k (ix3 (0 : Fin 1) c h) = K n (Cert.Spec.col 512 kk c) h)
    (hqm : qm (ix3 (0 : Fin 1) r (0 : Fin 1)) = QM n i)
    (hkm : ∀ c : Fin 512, km (ix3 (0 : Fin 1) (0 : Fin 1) c) = KM n (Cert.Spec.col 512 kk c))
    (hv : ∀ (c : Fin 512) (d : Fin 1024), vv (ix3 (0 : Fin 1) c d) = Vv n (Cert.Spec.col 512 kk c) d) :
    rowSt (tileM q k qm km mo) (tileL q k qm km mo lo) (tileA q k qm km vv mo ao) r
      = OnlineSoftmax.step (fun c : Fin 512 => Cert.Spec.scoreK Q K QM KM n i (Cert.Spec.col 512 kk c))
          (fun (c : Fin 512) (d : Fin 1024) => Vv n (Cert.Spec.col 512 kk c) d) (rowSt mo lo ao r) := by
  refine (k3_step_blend q k qm km vv mo lo ao r).trans ?_
  have hs : (fun c : Fin 512 =>
        Cert.Spec.blend (qm (ix3 (0 : Fin 1) r (0 : Fin 1)) * km (ix3 (0 : Fin 1) (0 : Fin 1) c))
          (∑ h : Fin 512, q (ix3 (0 : Fin 1) r h) * k (ix3 (0 : Fin 1) c h)))
      = fun c : Fin 512 => Cert.Spec.scoreK Q K QM KM n i (Cert.Spec.col 512 kk c) := by
    funext c
    unfold Cert.Spec.scoreK
    rw [hqm, hkm c, Finset.sum_congr rfl fun h _ => by rw [hq h, hk c h]]
  have hvv : (fun (c : Fin 512) (d : Fin 1024) => vv (ix3 (0 : Fin 1) c d))
      = fun (c : Fin 512) (d : Fin 1024) => Vv n (Cert.Spec.col 512 kk c) d := by
    funext c d
    exact hv c d
  rw [hs, hvv]
  rfl

end Tile

section Chain

variable {N : ℕ} (Q K : Fin 16 → Fin 2048 → Fin 512 → EReal) (QM KM : Fin 16 → Fin 2048 → EReal)
  (Vv : Fin 16 → Fin 2048 → Fin 1024 → EReal)
  (nOf : Fin N → Fin 16) (iOf : Fin N → Fin 1024 → Fin 2048) (kOf : Fin N → ℕ) (first : Fin N → Prop)
  (q : Fin N → Vec Ideal S1x1024x512 .bf16) (k : Fin N → Vec Ideal S1x512x512 .bf16)
  (qm : Fin N → Vec Ideal S1x1024x1 .f32) (km : Fin N → Vec Ideal S1x1x512 .f32)
  (vv : Fin N → Vec Ideal S1x512x1024 .bf16)
  (M L : Fin N → Vec Ideal S1024x1 .f32) (A : Fin N → Vec Ideal S1024x1024 .f32)

/-- After the point `t`, row `r` of the scratch buffers is the recurrence run over the key tiles `0 … kOf t` of the row's
    scores and of the value rows. The hypotheses: each block is the whole array read at the point's coordinates; a
    point that is first in its group has tile 0 and leaves one tile's update of the reset buffers; any other point
    follows a point of the same batch entry and query rows, one tile earlier, and leaves one tile's update of what
    that point left. By induction on the point. -/
theorem state_at
    (hq : ∀ t r h, q t (ix3 (0 : Fin 1) r h) = Q (nOf t) (iOf t r) h)
    (hk : ∀ t c h, k t (ix3 (0 : Fin 1) c h) = K (nOf t) (Cert.Spec.col 512 (kOf t) c) h)
    (hqm : ∀ t r, qm t (ix3 (0 : Fin 1) r (0 : Fin 1)) = QM (nOf t) (iOf t r))
    (hkm : ∀ t c, km t (ix3 (0 : Fin 1) (0 : Fin 1) c) = KM (nOf t) (Cert.Spec.col 512 (kOf t) c))
    (hv : ∀ t c d, vv t (ix3 (0 : Fin 1) c d) = Vv (nOf t) (Cert.Spec.col 512 (kOf t) c) d)
    (hfirst : ∀ t, first t → kOf t = 0)
    (hnext : ∀ t, ¬ first t → ∃ p : Fin N, p.val + 1 = t.val ∧ nOf p = nOf t ∧ iOf p = iOf t ∧ kOf p + 1 = kOf t)
    (hA : ∀ t, first t →
      M t = tileM (q t) (k t) (qm t) (km t) (k3_pay6 (F := Ideal))
        ∧ L t = tileL (q t) (k t) (qm t) (km t) (k3_pay6 (F := Ideal)) (k3_pay7 (F := Ideal))
        ∧ A t = tileA (q t) (k t) (qm t) (km t) (vv t) (k3_pay6 (F := Ideal)) (k3_pay8 (F := Ideal)))
    (hB : ∀ t p : Fin N, ¬ first t → p.val + 1 = t.val →
      M t = tileM (q t) (k t) (qm t) (km t) (M p)
        ∧ L t = tileL (q t) (k t) (qm t) (km t) (M p) (L p)
        ∧ A t = tileA (q t) (k t) (qm t) (km t) (vv t) (M p) (A p)) :
    ∀ (m : ℕ) (t : Fin N), t.val = m → ∀ r : Fin 1024,
      rowSt (M t) (L t) (A t) r
        = OnlineSoftmax.run (fun kk (c : Fin 512) => Cert.Spec.scoreK Q K QM KM (nOf t) (iOf t r) (Cert.Spec.col 512 kk c))
            (fun kk (c : Fin 512) (d : Fin 1024) => Vv (nOf t) (Cert.Spec.col 512 kk c) d) (kOf t + 1) := by
  intro m
  induction m using Nat.strong_induction_on with
  | _ m ih =>
    intro t htm r
    by_cases hf : first t
    · obtain ⟨e1, e2, e3⟩ := hA t hf
      rw [e1, e2, e3, rowSt_tile Q K QM KM Vv (nOf t) (iOf t r) (kOf t) (q t) (k t) (qm t) (km t) (vv t)
        (k3_pay6 (F := Ideal)) (k3_pay7 (F := Ideal)) (k3_pay8 (F := Ideal)) r
        (hq t r) (hk t) (hqm t r) (hkm t) (hv t), rowSt_init, hfirst t hf]
      rfl
    · obtain ⟨p, hp, en, ei, ek⟩ := hnext t hf
      obtain ⟨e1, e2, e3⟩ := hB t p hf hp
      rw [e1, e2, e3, rowSt_tile Q K QM KM Vv (nOf t) (iOf t r) (kOf t) (q t) (k t) (qm t) (km t) (vv t)
        (M p) (L p) (A p) r (hq t r) (hk t) (hqm t r) (hkm t) (hv t),
        ih p.val (by omega) p rfl r, en, ei, ← ek]
      rfl

/-- At the last of four key tiles the stored output block holds, in row `r`, the tiled attention of the whole arrays
    at the row's coordinates. -/
theorem out_at
    (hq : ∀ t r h, q t (ix3 (0 : Fin 1) r h) = Q (nOf t) (iOf t r) h)
    (hk : ∀ t c h, k t (ix3 (0 : Fin 1) c h) = K (nOf t) (Cert.Spec.col 512 (kOf t) c) h)
    (hqm : ∀ t r, qm t (ix3 (0 : Fin 1) r (0 : Fin 1)) = QM (nOf t) (iOf t r))
    (hkm : ∀ t c, km t (ix3 (0 : Fin 1) (0 : Fin 1) c) = KM (nOf t) (Cert.Spec.col 512 (kOf t) c))
    (hv : ∀ t c d, vv t (ix3 (0 : Fin 1) c d) = Vv (nOf t) (Cert.Spec.col 512 (kOf t) c) d)
    (hfirst : ∀ t, first t → kOf t = 0)
    (hnext : ∀ t, ¬ first t → ∃ p : Fin N, p.val + 1 = t.val ∧ nOf p = nOf t ∧ iOf p = iOf t ∧ kOf p + 1 = kOf t)
    (hA : ∀ t, first t →
      M t = tileM (q t) (k t) (qm t) (km t) (k3_pay6 (F := Ideal))
        ∧ L t = tileL (q t) (k t) (qm t) (km t) (k3_pay6 (F := Ideal)) (k3_pay7 (F := Ideal))
        ∧ A t = tileA (q t) (k t) (qm t) (km t) (vv t) (k3_pay6 (F := Ideal)) (k3_pay8 (F := Ideal)))
    (hB : ∀ t p : Fin N, ¬ first t → p.val + 1 = t.val →
      M t = tileM (q t) (k t) (qm t) (km t) (M p)
        ∧ L t = tileL (q t) (k t) (qm t) (km t) (M p) (L p)
        ∧ A t = tileA (q t) (k t) (qm t) (km t) (vv t) (M p) (A p))
    (t : Fin N) (h3 : kOf t = 3) (u : Fin 1) (r d : Fin 1024) :
    k3_pay5 (A t) (L t) (ix3 u r d)
      = Cert.Spec.attnK 512 4 (Cert.Spec.scoreK Q K QM KM) Vv (nOf t) (iOf t r) d := by
  have hst := state_at Q K QM KM Vv nOf iOf kOf first q k qm km vv M L A hq hk hqm hkm hv hfirst hnext hA hB t.val t rfl r
  rw [h3] at hst
  rw [k3_pay5_apply]
  show Ideal.div ((rowSt (M t) (L t) (A t) r).acc d) ((rowSt (M t) (L t) (A t) r).l) = _
  rw [hst]
  rfl

end Chain

end Cert.KernelIdeal.AttnValue3

end
-- ==== Proof.KI.AttnValue3.lean ====
/-
  What the second attention call leaves in its output array (the same program text, the two sequences exchanged).

  Row `i` of batch entry `n` lies in the block of the points `(n, i / 1024, kk)`, `kk = 0 … 3`. Along them the scratch
  buffers' row for `i` runs the online recurrence over the four key tiles — the first point of the group starts it
  afresh, each later one continues from what the point before left — and the last one stores the weighted sum over the
  normaliser into the output block, which is written back to rows `1024 (i / 1024) …` of batch entry `n`. Those
  blocks tile the array, so the array ends holding the tiled attention of the specification at every index.
-/
import proofs.«111653_j86517821215425_2_alg».proof.Proof.KI.Reg3Val
import proofs.«111653_j86517821215425_2_alg».proof.Proof.KI.AttnIdx3
import proofs.«111653_j86517821215425_2_alg».proof.Proof.KI.AttnRow3
import proofs.«111653_j86517821215425_2_alg».proof.Proof.Bridge

set_option maxRecDepth 16384

noncomputable section

namespace Cert.KernelIdeal.AttnValue3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.AttnIdx3 Cert.Pay

section Call3

variable (V : (c : Dev nD) → (b : Ref sig .tc) → Buf (Elt Ideal) ((c : Thread nD τ).loc b)) (c : Dev nD)

/-! ## The whole arrays by coordinates -/

/-- The query projections. -/
abbrev Qa : Fin 16 → Fin 2048 → Fin 512 → EReal := fun n i h => V c main_v15 (ix3 n i h)
/-- The key projections. -/
abbrev Ka : Fin 16 → Fin 2048 → Fin 512 → EReal := fun n j h => V c main_v14 (ix3 n j h)
/-- The query mask. -/
abbrev QMa : Fin 16 → Fin 2048 → EReal := fun n i => V c main_arg3 (ix3 n i (0 : Fin 1))
/-- The key mask. -/
abbrev KMa : Fin 16 → Fin 2048 → EReal := fun n j => V c main_v18 (ix3 n (0 : Fin 1) j)
/-- The value rows. -/
abbrev Va : Fin 16 → Fin 2048 → Fin 1024 → EReal := fun n j d => V c main_v16 (ix3 n j d)

/-- The result: the tiled attention at every index of the output array. -/
def G : Buf (Elt Ideal) ((c : Thread nD τ).loc main_v21) := fun j =>
  Cert.Spec.attnK 512 4 (Cert.Spec.scoreK (Qa V c) (Ka V c) (QMa V c) (KMa V c)) (Va V c) (j 0) (j 1) (j 2)

/-! ## The scratch buffers after a point -/

/-- The running maximum after point `t`. -/
def Mt (t : Fin cfg3.N) : Vec Ideal S1024x1 .f32 := (outsAt3 V c t.val t.isLt).2.1
/-- The running normaliser after point `t`. -/
def Lt (t : Fin cfg3.N) : Vec Ideal S1024x1 .f32 := (outsAt3 V c t.val t.isLt).2.2.1
/-- The running weighted sum after point `t`. -/
def At (t : Fin cfg3.N) : Vec Ideal S1024x1024 .f32 := (outsAt3 V c t.val t.isLt).2.2.2

/-- Row `cc` of point `t`'s key tile is column `cc` of tile `t % 4` of the row of scores. -/
theorem krow_eq_col (t : Fin cfg3.N) (cc : Fin 512) : krow t cc = Cert.Spec.col 512 (t.val % 4) cc :=
  Fin.ext (Cert.Bridge.col_val (Nat.mod_lt _ (by decide)) cc).symm

/-! ## The blocks are the whole arrays at the point's coordinates -/

theorem hq (t : Fin cfg3.N) (r : Fin 1024) (h : Fin 512) :
    (iblk3 V c 0 t : Vec Ideal S1x1024x512 .bf16) (ix3 (0 : Fin 1) r h) = Qa V c (bat t) (qrow t r) h :=
  read_0 (Val := Elt Ideal) (V c (Pipeline.arrRef spec3 0)) t r h

theorem hk (t : Fin cfg3.N) (cc : Fin 512) (h : Fin 512) :
    (iblk3 V c 1 t : Vec Ideal S1x512x512 .bf16) (ix3 (0 : Fin 1) cc h)
      = Ka V c (bat t) (Cert.Spec.col 512 (t.val % 4) cc) h :=
  (read_1 (Val := Elt Ideal) (V c (Pipeline.arrRef spec3 1)) t cc h).trans
    (congrArg (fun j => Ka V c (bat t) j h) (krow_eq_col t cc))

theorem hv (t : Fin cfg3.N) (cc : Fin 512) (d : Fin 1024) :
    (iblk3 V c 2 t : Vec Ideal S1x512x1024 .bf16) (ix3 (0 : Fin 1) cc d)
      = Va V c (bat t) (Cert.Spec.col 512 (t.val % 4) cc) d :=
  (read_2 (Val := Elt Ideal) (V c (Pipeline.arrRef spec3 2)) t cc d).trans
    (congrArg (fun j => Va V c (bat t) j d) (krow_eq_col t cc))

theorem hqm (t : Fin cfg3.N) (r : Fin 1024) :
    (iblk3 V c 3 t : Vec Ideal S1x1024x1 .f32) (ix3 (0 : Fin 1) r (0 : Fin 1)) = QMa V c (bat t) (qrow t r) :=
  read_3 (Val := Elt Ideal) (V c (Pipeline.arrRef spec3 3)) t r

theorem hkm (t : Fin cfg3.N) (cc : Fin 512) :
    (iblk3 V c 4 t : Vec Ideal S1x1x512 .f32) (ix3 (0 : Fin 1) (0 : Fin 1) cc)
      = KMa V c (bat t) (Cert.Spec.col 512 (t.val % 4) cc) :=
  (read_4 (Val := Elt Ideal) (V c (Pipeline.arrRef spec3 4)) t cc).trans
    (congrArg (fun j => KMa V c (bat t) j) (krow_eq_col t cc))

/-! ## The grid's order -/

/-- A point that is not the first of its group follows a point of the same batch entry and query tile, one key tile
    earlier. -/
theorem hnext (t : Fin cfg3.N) (h0 : ¬ t.val % 4 = 0) :
    ∃ p : Fin cfg3.N, p.val + 1 = t.val ∧ bat p = bat t ∧ qrow p = qrow t ∧ p.val % 4 + 1 = t.val % 4 := by
  have ht := lt_N t
  refine ⟨⟨t.val - 1, lt_of_le_of_lt (Nat.sub_le _ _) t.isLt⟩, ?_, ?_, ?_, ?_⟩
  · show t.val - 1 + 1 = t.val; omega
  · exact Fin.ext (by show (t.val - 1) / 8 = t.val / 8; omega)
  · funext r
    exact Fin.ext (by show 1024 * ((t.val - 1) / 4 % 2) + r.val = 1024 * (t.val / 4 % 2) + r.val; omega)
  · show (t.val - 1) % 4 + 1 = t.val % 4; omega

/-! ## One tile at every point -/

/-- The buffers after a position do not depend on how the position is written. -/
theorem outsAt3_congr {n n' : ℕ} (e : n = n') (h : n < cfg3.N) (h' : n' < cfg3.N) :
    outsAt3 V c n h = outsAt3 V c n' h' := by
  subst e; rfl

/-- The first point of a group leaves one tile's update of the reset buffers. -/
theorem scratch_first (t : Fin cfg3.N) (h0 : t.val % 4 = 0) :
    Mt V c t = tileM (iblk3 V c 0 t) (iblk3 V c 1 t) (iblk3 V c 3 t) (iblk3 V c 4 t) (k3_pay6 (F := Ideal))
      ∧ Lt V c t = tileL (iblk3 V c 0 t) (iblk3 V c 1 t) (iblk3 V c 3 t) (iblk3 V c 4 t) (k3_pay6 (F := Ideal))
          (k3_pay7 (F := Ideal))
      ∧ At V c t = tileA (iblk3 V c 0 t) (iblk3 V c 1 t) (iblk3 V c 3 t) (iblk3 V c 4 t) (iblk3 V c 2 t)
          (k3_pay6 (F := Ideal)) (k3_pay8 (F := Ideal)) := by
  have h1 : ¬ t.val % 4 = 3 := by omega
  unfold Mt Lt At
  rw [outsAt3_A_eq V c t h0 h1]
  exact ⟨rfl, rfl, rfl⟩

/-- Any other point leaves one tile's update of what the point before left. -/
theorem scratch_next (t p : Fin cfg3.N) (h0 : ¬ t.val % 4 = 0) (hp : p.val + 1 = t.val) :
    Mt V c t = tileM (iblk3 V c 0 t) (iblk3 V c 1 t) (iblk3 V c 3 t) (iblk3 V c 4 t) (Mt V c p)
      ∧ Lt V c t = tileL (iblk3 V c 0 t) (iblk3 V c 1 t) (iblk3 V c 3 t) (iblk3 V c 4 t) (Mt V c p) (Lt V c p)
      ∧ At V c t = tileA (iblk3 V c 0 t) (iblk3 V c 1 t) (iblk3 V c 3 t) (iblk3 V c 4 t) (iblk3 V c 2 t) (Mt V c p)
          (At V c p) := by
  have hprev : outsAt3 V c (t.val - 1) (Nat.lt_of_le_of_lt (Nat.sub_le _ _) t.isLt) = outsAt3 V c p.val p.isLt :=
    outsAt3_congr V c (by omega) _ _
  unfold Mt Lt At
  by_cases h1 : t.val % 4 = 3
  · rw [outsAt3_C_eq V c t h0 h1, hprev]
    exact ⟨rfl, rfl, rfl⟩
  · rw [outsAt3_B_eq V c t h0 h1, hprev]
    exact ⟨rfl, rfl, rfl⟩

/-- At the last key tile the output block holds the new weighted sum over the new normaliser. -/
theorem out_block (t : Fin cfg3.N) (h3 : t.val % 4 = 3) :
    (outsAt3 V c t.val t.isLt).1 = k3_pay5 (At V c t) (Lt V c t) := by
  have h0 : ¬ t.val % 4 = 0 := by omega
  unfold At Lt
  rw [outsAt3_C_eq V c t h0 h3]
  rfl

/-! ## The output block in the array's coordinates -/

/-- Row `r` of the block stored at a last key tile is the tiled attention of row `qrow t r` of batch entry `bat t`. -/
theorem out_row (t : Fin cfg3.N) (h3 : t.val % 4 = 3) (u : Fin 1) (r d : Fin 1024) :
    k3_pay5 (At V c t) (Lt V c t) (ix3 u r d) = G V c (ix3 (bat t) (qrow t r) d) :=
  out_at (Qa V c) (Ka V c) (QMa V c) (KMa V c) (Va V c) bat qrow (fun t => t.val % 4) (fun t => t.val % 4 = 0)
    (fun t => iblk3 V c 0 t) (fun t => iblk3 V c 1 t) (fun t => iblk3 V c 3 t) (fun t => iblk3 V c 4 t)
    (fun t => iblk3 V c 2 t) (Mt V c) (Lt V c) (At V c)
    (hq V c) (hk V c) (hqm V c) (hkm V c) (hv V c) (fun _ h => h) (hnext) (scratch_first V c)
    (fun t p h hp => scratch_next V c t p h hp) t h3 u r d

/-- What a flushing point writes back is the result read through the point's block. -/
theorem flushed_eq (t : Fin cfg3.N) (hf : (cfg3.win 5).flush t = true) :
    (dat3 V c).flushed 5 t = ((cfg3.win 5).blk t).view.read (Elt Ideal) (G V c) := by
  have h3 : t.val % 4 = 3 := (flush3_5 t).mp hf
  have key : (k3_pay5 (At V c t) (Lt V c t) : S1x1024x1024.Idx → EReal)
      = fun y => G V c (ix3 (bat t) (qrow t (y 1)) (y 2)) := funext fun y => by
    obtain ⟨u, r, d, rfl⟩ : ∃ (u : Fin 1) (r d : Fin 1024), y = ix3 u r d := ⟨y 0, y 1, y 2, eq_ix3 y⟩
    exact out_row V c t h3 u r d
  have rd : (((cfg3.win 5).blk t).view.read (Elt Ideal) (G V c) : S1x1024x1024.Idx → EReal)
      = fun y => G V c (ix3 (bat t) (qrow t (y 1)) (y 2)) := funext fun y => by
    obtain ⟨u, r, d, rfl⟩ : ∃ (u : Fin 1) (r d : Fin 1024), y = ix3 u r d := ⟨y 0, y 1, y 2, eq_ix3 y⟩
    obtain rfl : u = 0 := Subsingleton.elim _ _
    exact read_5 (Val := Elt Ideal) (G V c) t r d
  show (cfg3.win 5).cut (grid3.coords t) ((dat3 V c).after 5 t) = _
  rw [after3_5, out_block V c t h3]
  exact key.trans rd.symm

/-- The output array after the call. -/
theorem final : (dat3 V c).arrAt 5 cfg3.N = G V c :=
  (dat3 V c).arrAt_eq_of_cover 5 (G V c) (flushed_eq V c) cover_5

/-- At every index: the tiled attention of the specification over the whole arrays. -/
theorem attn3 (n : Fin 16) (i : Fin 2048) (d : Fin 1024) :
    (dat3 (F := Ideal) V c).arrAt 5 cfg3.N (ix3 n i d)
      = Cert.Spec.attnK 512 4
          (Cert.Spec.scoreK (fun n i h => V c main_v15 (ix3 n i h)) (fun n j h => V c main_v14 (ix3 n j h))
            (fun n i => V c main_arg3 (ix3 n i (0 : Fin 1))) (fun n j => V c main_v18 (ix3 n (0 : Fin 1) j)))
          (fun n j d => V c main_v16 (ix3 n j d)) n i d :=
  congrFun (final V c) (ix3 n i d)

end Call3

end Cert.KernelIdeal.AttnValue3

end
-- ==== Proof.PreFacts.lean ====
/-
  The precondition read back. The claim's precondition is a printed predicate: the conjunction, over the nine inputs, of
  "every entry has absolute value below +∞" and, last, "the temperature is above zero". At the ideal values an entry is an
  extended real, its absolute value is `max x (-x)`, the word 0x7F800000 denotes `⊤`, and the word 0 denotes `0`; so the
  predicate being 1 says that every entry of every input is a real number and that the temperature is a positive real.
  Each `jnp.all` is a reduction by `and` into the one-index result, read back entry by entry without evaluating it.
-/
import proofs.«111653_j86517821215425_2_alg».proof.Pre_finite_inputs
import Idealize.ShloMosaic.Lib.ReduceAll
import Idealize.ShloMosaic.Lib.IdealHost

noncomputable section

namespace Cert.PreFacts

open Idealize.ShloMosaic Idealize.ShloMosaic.ValueIdx Cert.Pre_finite_inputs

/-- A rank-0 array has one index. -/
instance : Subsingleton S_.Idx := ⟨fun a b => funext fun d => d.elim0⟩

/-- The f32 word of +∞ denotes `⊤`. -/
theorem top_f32 : Ideal.ofBits .f32 0x7F800000#32 = ⊤ := by simp [Ideal.ofBits, Ideal.ieee]

theorem ofBool_eq_one (b : Bool) : BitVec.ofBool b = 1#1 ↔ b = true := by cases b <;> decide

/-- An extended real whose absolute value `max x (-x)` is below `⊤` is neither `⊤` nor `⊥`: it is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [top_f32] at h
  unfold Ideal.cmp at h
  rw [ofBool_eq_one] at h
  simp only [decide_eq_true_eq, max_lt_iff] at h
  induction x using EReal.rec with
  | bot => exact absurd h.2 (by simp)
  | top => exact absurd h.1 (by simp)
  | coe r => exact ⟨r, rfl⟩

/-- `jnp.all(|a| < +∞)` being 1 gives every entry of `a` as a real (the bound is a scalar broadcast to `a`'s shape). -/
theorem all_real {S : Shape} {axes : List (Fin S.rank)} (hb : S_.BroadcastsInDim S (![] : Fin 0 → Fin S.rank))
    (hr : S.ReducesTo axes S_) (hu : 0 < S_.numel) (a : FVec Ideal S .f32) (init : IVec S_ 1)
    (h : Host.reduce IntOp.andi
      (cmpf .olt (Host.absf a) (broadcastInDim S ![] hb (constant (F := Ideal) S_ .f32 0x7F800000#32))) init hr hu ix0 = 1#1) :
    ∀ i, ∃ r : ℝ, a i = (r : EReal) := fun i =>
  real_of_abs_lt (a i) (Host.reduce_andi_all _ init hr hu ix0 h i)

/-- The same for a scalar, which meets the bound without a broadcast. -/
theorem scalar_real {axes : List (Fin S_.rank)} (hr : S_.ReducesTo axes S_) (hu : 0 < S_.numel) (a : FVec Ideal S_ .f32)
    (init : IVec S_ 1)
    (h : Host.reduce IntOp.andi (cmpf .olt (Host.absf a) (constant (F := Ideal) S_ .f32 0x7F800000#32)) init hr hu ix0 = 1#1) :
    ∀ i, ∃ r : ℝ, a i = (r : EReal) := fun i =>
  real_of_abs_lt (a i) (Host.reduce_andi_all _ init hr hu ix0 h i)

/-- `a > 0` for a scalar `a`, being 1, is the order of the extended reals: `0 < a`. -/
theorem scalar_pos {axes : List (Fin S_.rank)} (hr : S_.ReducesTo axes S_) (hu : 0 < S_.numel) (a : FVec Ideal S_ .f32)
    (init : IVec S_ 1)
    (h : Host.reduce IntOp.andi (cmpf .ogt a (constant (F := Ideal) S_ .f32 0x00000000#32)) init hr hu ix0 = 1#1) :
    (0 : EReal) < a ix0 := by
  have e := Host.reduce_andi_all _ init hr hu ix0 h ix0
  change Ideal.cmp .ogt (a ix0) (Ideal.ofBits .f32 0x00000000#32) = 1#1 at e
  rw [Ideal.ofBits_zero_f32] at e
  unfold Ideal.cmp at e
  rw [ofBool_eq_one] at e
  simpa only [decide_eq_true_eq] using e

variable [Facts]
variable {a0 : FVec Ideal S16x2048x1024 .f32} {a1 : FVec Ideal S16x2048x1 .f32} {a2 : FVec Ideal S16x2048x1024 .f32}
  {a3 : FVec Ideal S16x2048x1 .f32} {a4 : FVec Ideal S512x1024 .f32} {a5 : FVec Ideal S512 .f32}
  {a6 : FVec Ideal S512x1024 .f32} {a7 : FVec Ideal S512 .f32} {a8 : FVec Ideal S_ .f32}

/-- The precondition at the ideal values: every entry of the nine inputs is a real, and the temperature (the scalar
    `a8`) is a positive real. -/
theorem decode (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∃ τ : ℝ, 0 < τ ∧ a8 ix0 = (τ : EReal)) := by
  have h0 := congrFun h ix0
  dsimp only [fn, fn_part1, fn_part2] at h0
  simp only [andi, IntOp.andi_eq_one] at h0
  obtain ⟨⟨⟨⟨⟨⟨⟨⟨⟨e0, e1⟩, e2⟩, e3⟩, e4⟩, e5⟩, e6⟩, e7⟩, e8⟩, e9⟩ := h0
  have r8 := scalar_real _ _ a8 _ e8
  have p8 := scalar_pos _ _ a8 _ e9
  refine ⟨all_real _ _ _ a0 _ e0, all_real _ _ _ a1 _ e1, all_real _ _ _ a2 _ e2, all_real _ _ _ a3 _ e3,
    all_real _ _ _ a4 _ e4, all_real _ _ _ a5 _ e5, all_real _ _ _ a6 _ e6, all_real _ _ _ a7 _ e7, r8, ?_⟩
  obtain ⟨τ, hτ⟩ := r8 ix0
  refine ⟨τ, ?_, hτ⟩
  rw [hτ] at p8
  exact_mod_cast p8

/-- The temperature alone, at every (that is, the one) index of the scalar. -/
theorem temperature (h : fn (F := Ideal) a0 a1 a2 a3 a4 a5 a6 a7 a8 = fun _ => 1#1) :
    ∃ τ : ℝ, 0 < τ ∧ ∀ i, a8 i = (τ : EReal) := by
  obtain ⟨τ, hpos, hτ⟩ := (decode h).2.2.2.2.2.2.2.2.2
  exact ⟨τ, hpos, fun i => by rw [eq_ix0 i]; exact hτ⟩

end Cert.PreFacts
-- ==== Proof.RefProj.lean ====
import proofs.«111653_j86517821215425_2_alg».proof.Proof.Spec
import proofs.«111653_j86517821215425_2_alg».proof.Proof.Gen.ReferenceIdeal.Run
import proofs.«111653_j86517821215425_2_alg».proof.Proof.Gen.ReferenceIdeal.Read

/-!
  The two projections of the reference, read at coordinates.

  Each sequence of feature rows goes through a dense layer with a rectifier: the host program computes the inner
  products of a row with the 512 weight rows (a contraction over the 1024 features), adds the bias spread over batch
  and row, and takes the maximum with a zero array. At row `(n, i)` and output feature `h` that is
  `max (Σ_d x_{n,i,d} · w_{h,d} + b_h) 0`, the specification's dense layer.
-/

noncomputable section

open scoped BigOperators

namespace Cert.RefProj

open Cert.ReferenceIdeal Cert.ReferenceIdeal.Gen Cert.ReferenceIdeal.Read Idealize.ShloMosaic Idealize.ShloMosaic.ValueIdx

/-- A rank-3 array as a function of its three coordinates. -/
abbrev rows {a b c : ℕ} (x : (⟨3, ![a, b, c]⟩ : Shape).Idx → EReal) : Fin a → Fin b → Fin c → EReal :=
  fun n i d => x (ix3 n i d)

/-- A mask array `[a, b, 1]` as a function of batch and row. -/
abbrev mask {a b : ℕ} (x : (⟨3, ![a, b, 1]⟩ : Shape).Idx → EReal) : Fin a → Fin b → EReal :=
  fun n i => x (ix3 n i 0)

/-- A weight matrix as a function of its two coordinates. -/
abbrev mat {a b : ℕ} (x : (⟨2, ![a, b]⟩ : Shape).Idx → EReal) : Fin a → Fin b → EReal :=
  fun h d => x (ix2 h d)

/-- A bias vector as a function of its coordinate. -/
abbrev vec {a : ℕ} (x : (⟨1, ![a]⟩ : Shape).Idx → EReal) : Fin a → EReal :=
  fun h => x (ix1 h)

/-- The first projection at row `(n, i)`, feature `h`: the dense layer with its rectifier. -/
theorem proj_a (A : (⟨S16x2048x1024, .f32⟩ : BufTy).Contents (Elt Ideal)) (W : (⟨S512x1024, .f32⟩ : BufTy).Contents (Elt Ideal))
    (b : (⟨S512, .f32⟩ : BufTy).Contents (Elt Ideal)) (n : Fin 16) (i : Fin 2048) (h : Fin 512) :
    val_main_v4 (F := Ideal) A W b (ix3 n i h) = Cert.Spec.dense (rows A) (mat W) (vec b) n i h := by
  have el : ∀ k : Fin 1024, lidx_main_v0 (ix3 n i h) k = ix3 n i k := fun k => funext fun a => Fin.ext (by
    match a with | ⟨0, _⟩ => rfl | ⟨1, _⟩ => rfl | ⟨2, _⟩ => rfl)
  have er : ∀ k : Fin 1024, ridx_main_v0 (ix3 n i h) k = ix2 h k := fun k => funext fun a => Fin.ext (by
    match a with | ⟨0, _⟩ => rfl | ⟨1, _⟩ => rfl)
  have eb : idx_main_v1 (idx_main_v2 (ix3 n i h)) = ix1 h := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- The second projection, the same layer over the other sequence with its own weights and bias. -/
theorem proj_b (X : (⟨S16x2048x1024, .f32⟩ : BufTy).Contents (Elt Ideal)) (W : (⟨S512x1024, .f32⟩ : BufTy).Contents (Elt Ideal))
    (b : (⟨S512, .f32⟩ : BufTy).Contents (Elt Ideal)) (n : Fin 16) (j : Fin 2048) (h : Fin 512) :
    val_main_v9 (F := Ideal) X W b (ix3 n j h) = Cert.Spec.dense (rows X) (mat W) (vec b) n j h := by
  have el : ∀ k : Fin 1024, lidx_main_v5 (ix3 n j h) k = ix3 n j k := fun k => funext fun a => Fin.ext (by
    match a with | ⟨0, _⟩ => rfl | ⟨1, _⟩ => rfl | ⟨2, _⟩ => rfl)
  have er : ∀ k : Fin 1024, ridx_main_v5 (ix3 n j h) k = ix2 h k := fun k => funext fun a => Fin.ext (by
    match a with | ⟨0, _⟩ => rfl | ⟨1, _⟩ => rfl)
  have eb : idx_main_v6 (idx_main_v7 (ix3 n j h)) = ix1 h := funext fun a => Fin.ext (by
    match a with | ⟨0, _⟩ => rfl)
  rw [val_main_v9_apply, val_main_v8_apply, val_main_v5_apply, val_main_v7_apply, val_main_v6_apply,
    val_main_call1_v0_apply, val_main_call1_cst_apply]
  simp only [el, er, eb, Ideal.maximumf_def, Ideal.addf_def, Ideal.ofBits_def, Ideal.ofBits_zero_f32]
  rfl

end Cert.RefProj

end
-- ==== Proof.RefScore.lean ====
/-
  The reference's scores, read at coordinates.

  The score of row `i` of the first sequence against row `j` of the second is the inner product of their projections
  (a contraction over the 512 projected features, batched over `n`), multiplied by the temperature spread over the
  whole array, and then blended: with `mk` the product of the two rows' mask entries, `mk · score + (1 − mk) · fill`.
-/
import proofs.«111653_j86517821215425_2_alg».proof.Proof.RefProj

noncomputable section

open scoped BigOperators

namespace Cert.RefScore

open Cert.ReferenceIdeal Cert.ReferenceIdeal.Gen Cert.ReferenceIdeal.Read Idealize.ShloMosaic Idealize.ShloMosaic.ValueIdx Cert.RefProj

/-- The reference's score array at `(n, i, j)`: the inner product of the two projected rows times the temperature,
    blended with the fill by the product of the two rows' mask entries. The mask product is a contraction over an
    axis of extent one, a single term. -/
theorem score_apply (A : (⟨S16x2048x1024, .f32⟩ : BufTy).Contents (Elt Ideal)) (Am : (⟨S16x2048x1, .f32⟩ : BufTy).Contents (Elt Ideal))
    (X : (⟨S16x2048x1024, .f32⟩ : BufTy).Contents (Elt Ideal)) (Xm : (⟨S16x2048x1, .f32⟩ : BufTy).Contents (Elt Ideal))
    (W1 : (⟨S512x1024, .f32⟩ : BufTy).Contents (Elt Ideal)) (b1 : (⟨S512, .f32⟩ : BufTy).Contents (Elt Ideal))
    (W2 : (⟨S512x1024, .f32⟩ : BufTy).Contents (Elt Ideal)) (b2 : (⟨S512, .f32⟩ : BufTy).Contents (Elt Ideal))
    (t : (⟨S_, .f32⟩ : BufTy).Contents (Elt Ideal)) (n : Fin 16) (i j : Fin 2048) :
    val_main_v19 (F := Ideal) A Am X Xm W1 b1 W2 b2 t (ix3 n i j)
      = Cert.Spec.score (Cert.Spec.dense (rows A) (mat W1) (vec b1)) (Cert.Spec.dense (rows X) (mat W2) (vec b2))
          (mask Am) (mask Xm) (t ix0) n i j := by
  have el : ∀ k : Fin 512, lidx_main_v10 (ix3 n i j) k = ix3 n i k := fun k => funext fun a => Fin.ext (by
    match a with | ⟨0, _⟩ => rfl | ⟨1, _⟩ => rfl | ⟨2, _⟩ => rfl)
  have er : ∀ k : Fin 512, ridx_main_v10 (ix3 n i j) k = ix3 n j k := fun k => funext fun a => Fin.ext (by
    match a with | ⟨0, _⟩ => rfl | ⟨1, _⟩ => rfl | ⟨2, _⟩ => rfl)
  have ml : ∀ k : Fin 1, lidx_main_v13 (ix3 n i j) k = ix3 n i k := fun k => funext fun a => Fin.ext (by
    match a with | ⟨0, _⟩ => rfl | ⟨1, _⟩ => rfl | ⟨2, _⟩ => rfl)
  have mr : ∀ k : Fin 1, ridx_main_v13 (ix3 n i j) k = ix3 n j k := fun k => funext fun a => Fin.ext (by
    match a with | ⟨0, _⟩ => rfl | ⟨1, _⟩ => rfl | ⟨2, _⟩ => rfl)
  have et : idx_main_v11 (ix3 n i j) = ix0 := rfl
  rw [val_main_v19_apply, val_main_v14_apply, val_main_v13_apply, val_main_v12_apply, val_main_v10_apply,
    val_main_v11_apply, val_main_v18_apply, val_main_v16_apply, val_main_v13_apply, val_main_v15_apply, val_main_cst_apply,
    val_main_v17_apply, val_main_cst_0_apply]
  simp only [el, er, ml, mr, et, proj_a, proj_b, Fin.sum_univ_one, Ideal.mulf_def, Ideal.addf_def, Ideal.subf_def,
    Ideal.ofBits_def]
  rfl

end Cert.RefScore

end
-- ==== Proof.RefSoft.lean ====
/-
  The reference's two softmaxes, read at coordinates.

  From the score array `s` the host program computes, twice, a softmax along one axis: the maximum along the axis (a
  reduce with a maximum body started from `-∞`, then a maximum with a `-∞` array, which changes nothing), the
  exponential of the difference, the sum of the exponentials along the axis (started from zero), and the quotient.
  The reduced arrays come back to the full shape through a unit axis; read at coordinates that is: the value at the
  two kept coordinates. A max-reduce over one axis is the fold of `max` over that axis's coordinates, the
  specification's `top`.

  The statements take the score array as any function `s` of the coordinates that the program's array agrees with, so
  that they do not depend on how the scores were computed.
-/
import proofs.«111653_j86517821215425_2_alg».proof.Proof.Spec
import proofs.«111653_j86517821215425_2_alg».proof.Proof.Gen.ReferenceIdeal.Run
import proofs.«111653_j86517821215425_2_alg».proof.Proof.Gen.ReferenceIdeal.Read

import Idealize.ShloMosaic.PureOps.Reduce

noncomputable section

open scoped BigOperators

namespace Cert.RefSoft

open Cert.ReferenceIdeal Cert.ReferenceIdeal.Gen Cert.ReferenceIdeal.Read Idealize.ShloMosaic Idealize.ShloMosaic.ValueIdx

variable (A : (⟨S16x2048x1024, .f32⟩ : BufTy).Contents (Elt Ideal)) (Am : (⟨S16x2048x1, .f32⟩ : BufTy).Contents (Elt Ideal))
  (X : (⟨S16x2048x1024, .f32⟩ : BufTy).Contents (Elt Ideal)) (Xm : (⟨S16x2048x1, .f32⟩ : BufTy).Contents (Elt Ideal))
  (W1 : (⟨S512x1024, .f32⟩ : BufTy).Contents (Elt Ideal)) (b1 : (⟨S512, .f32⟩ : BufTy).Contents (Elt Ideal))
  (W2 : (⟨S512x1024, .f32⟩ : BufTy).Contents (Elt Ideal)) (b2 : (⟨S512, .f32⟩ : BufTy).Contents (Elt Ideal))
  (t : (⟨S_, .f32⟩ : BufTy).Contents (Elt Ideal))

/-- The word of `-∞` denotes the bottom of the extended reals. -/
theorem ofBits_neg_inf : Ideal.ofBits .f32 0xFF800000#32 = (⊥ : EReal) := by simp [Ideal.ofBits, Ideal.ieee]

/-- Dropping axis 1 of the score array leaves `[16, 2048]`. -/
theorem reduces_d1 : S16x2048x2048.Reduces [1] S16x2048 := by decide

/-- Dropping axis 2 of the score array leaves `[16, 2048]`. -/
theorem reduces_d2 : S16x2048x2048.Reduces [2] S16x2048 := by decide

/-- The reduced index `(n, j)` with the coordinate `k` put back on axis 1 is `(n, k, j)`. -/
theorem lift_d1 (n : Fin 16) (j : Fin 2048) (k : Fin (S16x2048x2048.size 1)) :
    reduces_d1.lift (ix2 n j) k = ix3 n (⟨k.val, k.isLt⟩ : Fin 2048) j := by
  funext c; apply Fin.ext
  fin_cases c <;> rfl

/-- The reduced index `(n, i)` with the coordinate `k` put back on axis 2 is `(n, i, k)`. -/
theorem lift_d2 (n : Fin 16) (i : Fin 2048) (k : Fin (S16x2048x2048.size 2)) :
    reduces_d2.lift (ix2 n i) k = ix3 n i (⟨k.val, k.isLt⟩ : Fin 2048) := by
  funext c; apply Fin.ext
  fin_cases c <;> rfl

/-- The maximum over axis 1 from `-∞`, at `(n, j)`: the largest entry of column `j`. -/
theorem colTop (y : (⟨S16x2048x2048, .f32⟩ : BufTy).Contents (Elt Ideal)) (n : Fin 16) (j : Fin 2048) :
    Host.reduce FloatOps.maximumf y (constant (F := Ideal) S_ .f32 0xFF800000#32) reducesTo_S16x2048x2048_S16x2048_d1 h_S_ (ix2 n j)
      = Cert.Spec.top fun i : Fin 2048 => y (ix3 n i j) := by
  rw [Host.reduce_eq_fold_single (FloatOps.maximumf (F := Ideal) (φ := .f32)) y _ reducesTo_S16x2048x2048_S16x2048_d1 reduces_d1 h_S_]
  show (Finset.univ : Finset (Fin 2048)).fold max (Ideal.ofBits .f32 0xFF800000#32) _ = (Finset.univ : Finset (Fin 2048)).fold max ⊥ _
  rw [ofBits_neg_inf]
  refine congrArg (Finset.fold max ⊥ · Finset.univ) (funext fun k => ?_)
  exact congrArg y (lift_d1 n j k)

/-- The maximum over axis 2 from `-∞`, at `(n, i)`: the largest entry of row `i`. -/
theorem rowTop (y : (⟨S16x2048x2048, .f32⟩ : BufTy).Contents (Elt Ideal)) (n : Fin 16) (i : Fin 2048) :
    Host.reduce FloatOps.maximumf y (constant (F := Ideal) S_ .f32 0xFF800000#32) reducesTo_S16x2048x2048_S16x2048_d2 h_S_ (ix2 n i)
      = Cert.Spec.top fun j : Fin 2048 => y (ix3 n i j) := by
  rw [Host.reduce_eq_fold_single (FloatOps.maximumf (F := Ideal) (φ := .f32)) y _ reducesTo_S16x2048x2048_S16x2048_d2 reduces_d2 h_S_]
  show (Finset.univ : Finset (Fin 2048)).fold max (Ideal.ofBits .f32 0xFF800000#32) _ = (Finset.univ : Finset (Fin 2048)).fold max ⊥ _
  rw [ofBits_neg_inf]
  refine congrArg (Finset.fold max ⊥ · Finset.univ) (funext fun k => ?_)
  exact congrArg y (lift_d2 n i k)

/-! ### The softmax over the rows of the first sequence (axis 1), for each row `j` of the second -/

/-- The column maximum the first softmax subtracts: the program takes the maximum of a `-∞` array with the reduce,
    which is the reduce. -/
theorem colmax_apply (s : Fin 16 → Fin 2048 → Fin 2048 → EReal)
    (hs : ∀ n i j, val_main_v19 (F := Ideal) A Am X Xm W1 b1 W2 b2 t (ix3 n i j) = s n i j) (n : Fin 16) (j : Fin 2048) :
    val_main_v22 (F := Ideal) A Am X Xm W1 b1 W2 b2 t (ix2 n j) = Cert.Spec.top fun i => s n i j := by
  rw [val_main_v22_apply, val_main_v21_apply, val_main_cst_2_apply]
  refine (congrArg (FloatOps.maximumf (F := Ideal) (φ := .f32) _)
    (colTop (val_main_v19 (F := Ideal) A Am X Xm W1 b1 W2 b2 t) n j)).trans ?_
  simp only [hs, Ideal.maximumf_def, Ideal.ofBits_def, ofBits_neg_inf]
  exact max_eq_right bot_le

/-- The exponentials of the first softmax. -/
theorem colexp_apply (s : Fin 16 → Fin 2048 → Fin 2048 → EReal)
    (hs : ∀ n i j, val_main_v19 (F := Ideal) A Am X Xm W1 b1 W2 b2 t (ix3 n i j) = s n i j) (n : Fin 16) (i j : Fin 2048) :
    val_main_v26 (F := Ideal) A Am X Xm W1 b1 W2 b2 t (ix3 n i j) = Ideal.exp (s n i j - Cert.Spec.top fun i' => s n i' j) := by
  have e : idx_main_v23 (idx_main_v24 (ix3 n i j)) = ix2 n j := funext fun a => Fin.ext (by
    match a with | ⟨0, _⟩ => rfl | ⟨1, _⟩ => rfl)
  rw [val_main_v26_apply, val_main_v25_apply, val_main_v24_apply, val_main_v23_apply, e,
    colmax_apply A Am X Xm W1 b1 W2 b2 t s hs, hs]
  rfl

/-- The normaliser of the first softmax: a sum started from the zero word is the sum. -/
theorem colsum_apply (s : Fin 16 → Fin 2048 → Fin 2048 → EReal)
    (hs : ∀ n i j, val_main_v19 (F := Ideal) A Am X Xm W1 b1 W2 b2 t (ix3 n i j) = s n i j) (n : Fin 16) (j : Fin 2048) :
    val_main_v27 (F := Ideal) A Am X Xm W1 b1 W2 b2 t (ix2 n j)
      = ∑ i : Fin 2048, Ideal.exp (s n i j - Cert.Spec.top fun i' => s n i' j) := by
  have e : ∀ k : Fin 2048, idx_main_v27 (ix2 n j) k = ix3 n k j := fun k => funext fun a => Fin.ext (by
    match a with | ⟨0, _⟩ => rfl | ⟨1, _⟩ => rfl | ⟨2, _⟩ => rfl)
  rw [val_main_v27_apply, val_main_cst_3_apply]
  simp only [e, colexp_apply A Am X Xm W1 b1 W2 b2 t s hs, Ideal.ofBits_def, Ideal.ofBits_zero_f32, zero_add]

/-- The first softmax at `(n, i, j)`: the weight of row `i` of the first sequence for row `j` of the second. -/
theorem colsoft_apply (s : Fin 16 → Fin 2048 → Fin 2048 → EReal)
    (hs : ∀ n i j, val_main_v19 (F := Ideal) A Am X Xm W1 b1 W2 b2 t (ix3 n i j) = s n i j) (n : Fin 16) (i j : Fin 2048) :
    val_main_v30 (F := Ideal) A Am X Xm W1 b1 W2 b2 t (ix3 n i j)
      = Ideal.div (Ideal.exp (s n i j - Cert.Spec.top fun i' => s n i' j))
          (∑ i' : Fin 2048, Ideal.exp (s n i' j - Cert.Spec.top fun i'' => s n i'' j)) := by
  have e : idx_main_v28 (idx_main_v29 (ix3 n i j)) = ix2 n j := funext fun a => Fin.ext (by
    match a with | ⟨0, _⟩ => rfl | ⟨1, _⟩ => rfl)
  rw [val_main_v30_apply, val_main_v29_apply, val_main_v28_apply, e,
    colsum_apply A Am X Xm W1 b1 W2 b2 t s hs, colexp_apply A Am X Xm W1 b1 W2 b2 t s hs]
  rfl

/-! ### The softmax over the rows of the second sequence (axis 2), for each row `i` of the first -/

/-- The row maximum the second softmax subtracts. -/
theorem rowmax_apply (s : Fin 16 → Fin 2048 → Fin 2048 → EReal)
    (hs : ∀ n i j, val_main_v19 (F := Ideal) A Am X Xm W1 b1 W2 b2 t (ix3 n i j) = s n i j) (n : Fin 16) (i : Fin 2048) :
    val_main_v33 (F := Ideal) A Am X Xm W1 b1 W2 b2 t (ix2 n i) = Cert.Spec.top fun j => s n i j := by
  rw [val_main_v33_apply, val_main_v32_apply, val_main_cst_5_apply]
  refine (congrArg (FloatOps.maximumf (F := Ideal) (φ := .f32) _)
    (rowTop (val_main_v19 (F := Ideal) A Am X Xm W1 b1 W2 b2 t) n i)).trans ?_
  simp only [hs, Ideal.maximumf_def, Ideal.ofBits_def, ofBits_neg_inf]
  exact max_eq_right bot_le

/-- The exponentials of the second softmax. -/
theorem rowexp_apply (s : Fin 16 → Fin 2048 → Fin 2048 → EReal)
    (hs : ∀ n i j, val_main_v19 (F := Ideal) A Am X Xm W1 b1 W2 b2 t (ix3 n i j) = s n i j) (n : Fin 16) (i j : Fin 2048) :
    val_main_v37 (F := Ideal) A Am X Xm W1 b1 W2 b2 t (ix3 n i j) = Ideal.exp (s n i j - Cert.Spec.top fun j' => s n i j') := by
  have e : idx_main_v34 (idx_main_v35 (ix3 n i j)) = ix2 n i := funext fun a => Fin.ext (by
    match a with | ⟨0, _⟩ => rfl | ⟨1, _⟩ => rfl)
  rw [val_main_v37_apply, val_main_v36_apply, val_main_v35_apply, val_main_v34_apply, e,
    rowmax_apply A Am X Xm W1 b1 W2 b2 t s hs, hs]
  rfl

/-- The normaliser of the second softmax. -/
theorem rowsum_apply (s : Fin 16 → Fin 2048 → Fin 2048 → EReal)
    (hs : ∀ n i j, val_main_v19 (F := Ideal) A Am X Xm W1 b1 W2 b2 t (ix3 n i j) = s n i j) (n : Fin 16) (i : Fin 2048) :
    val_main_v38 (F := Ideal) A Am X Xm W1 b1 W2 b2 t (ix2 n i)
      = ∑ j : Fin 2048, Ideal.exp (s n i j - Cert.Spec.top fun j' => s n i j') := by
  have e : ∀ k : Fin 2048, idx_main_v38 (ix2 n i) k = ix3 n i k := fun k => funext fun a => Fin.ext (by
    match a with | ⟨0, _⟩ => rfl | ⟨1, _⟩ => rfl | ⟨2, _⟩ => rfl)
  rw [val_main_v38_apply, val_main_cst_6_apply]
  simp only [e, rowexp_apply A Am X Xm W1 b1 W2 b2 t s hs, Ideal.ofBits_def, Ideal.ofBits_zero_f32, zero_add]

/-- The second softmax at `(n, i, j)`: the weight of row `j` of the second sequence for row `i` of the first. -/
theorem rowsoft_apply (s : Fin 16 → Fin 2048 → Fin 2048 → EReal)
    (hs : ∀ n i j, val_main_v19 (F := Ideal) A Am X Xm W1 b1 W2 b2 t (ix3 n i j) = s n i j) (n : Fin 16) (i j : Fin 2048) :
    val_main_v41 (F := Ideal) A Am X Xm W1 b1 W2 b2 t (ix3 n i j)
      = Ideal.div (Ideal.exp (s n i j - Cert.Spec.top fun j' => s n i j'))
          (∑ j' : Fin 2048, Ideal.exp (s n i j' - Cert.Spec.top fun j'' => s n i j'')) := by
  have e : idx_main_v39 (idx_main_v40 (ix3 n i j)) = ix2 n i := funext fun a => Fin.ext (by
    match a with | ⟨0, _⟩ => rfl | ⟨1, _⟩ => rfl)
  rw [val_main_v41_apply, val_main_v40_apply, val_main_v39_apply, e,
    rowsum_apply A Am X Xm W1 b1 W2 b2 t s hs, rowexp_apply A Am X Xm W1 b1 W2 b2 t s hs]
  rfl

end Cert.RefSoft

end
-- ==== Proof.RefValue.lean ====
/-
  The reference's two results in the specification's terms.

  Each result is a batched contraction of a softmax of the scores with one of the two sequences: the first result
  contracts the softmax over the rows of the first sequence with those rows, the second the softmax over the rows of
  the second sequence with those rows. Read at coordinates, with the projections, the scores and the softmaxes read
  before, they are the specification's `refA` and `refB` of the score function. The last statement restates the
  program's run with the results written in this way.
-/
import proofs.«111653_j86517821215425_2_alg».proof.Proof.Spec
import proofs.«111653_j86517821215425_2_alg».proof.Proof.Gen.ReferenceIdeal.Run
import proofs.«111653_j86517821215425_2_alg».proof.Proof.Gen.ReferenceIdeal.Read
import proofs.«111653_j86517821215425_2_alg».proof.Proof.RefProj
import proofs.«111653_j86517821215425_2_alg».proof.Proof.RefScore
import proofs.«111653_j86517821215425_2_alg».proof.Proof.RefSoft

noncomputable section

open scoped BigOperators

namespace Cert.RefValue

open Cert.ReferenceIdeal Cert.ReferenceIdeal.Gen Cert.ReferenceIdeal.Read Idealize.ShloMosaic Idealize.ShloMosaic.ValueIdx Cert.RefProj Cert.RefScore Cert.RefSoft

variable (A : (⟨S16x2048x1024, .f32⟩ : BufTy).Contents (Elt Ideal)) (Am : (⟨S16x2048x1, .f32⟩ : BufTy).Contents (Elt Ideal))
  (X : (⟨S16x2048x1024, .f32⟩ : BufTy).Contents (Elt Ideal)) (Xm : (⟨S16x2048x1, .f32⟩ : BufTy).Contents (Elt Ideal))
  (W1 : (⟨S512x1024, .f32⟩ : BufTy).Contents (Elt Ideal)) (b1 : (⟨S512, .f32⟩ : BufTy).Contents (Elt Ideal))
  (W2 : (⟨S512x1024, .f32⟩ : BufTy).Contents (Elt Ideal)) (b2 : (⟨S512, .f32⟩ : BufTy).Contents (Elt Ideal))
  (t : (⟨S_, .f32⟩ : BufTy).Contents (Elt Ideal))

/-- The reference's scores in the specification's terms: the two dense projections, the two masks, the temperature. -/
abbrev refScore : Fin 16 → Fin 2048 → Fin 2048 → EReal :=
  Cert.Spec.score (Cert.Spec.dense (rows A) (mat W1) (vec b1)) (Cert.Spec.dense (rows X) (mat W2) (vec b2))
    (mask Am) (mask Xm) (t ix0)

/-- The first result array as a function of the nine arguments: at `(n, j, d)` the rows of the first sequence
    weighted by the softmax of the scores over those rows. -/
abbrev outA : (⟨S16x2048x1024, .f32⟩ : BufTy).Contents (Elt Ideal) :=
  fun idx => Cert.Spec.refA (refScore A Am X Xm W1 b1 W2 b2 t) (rows A) (idx 0) (idx 1) (idx 2)

/-- The second result array: at `(n, i, d)` the rows of the second sequence weighted by the softmax of the scores
    over those rows. -/
abbrev outB : (⟨S16x2048x1024, .f32⟩ : BufTy).Contents (Elt Ideal) :=
  fun idx => Cert.Spec.refB (refScore A Am X Xm W1 b1 W2 b2 t) (rows X) (idx 0) (idx 1) (idx 2)

/-- The first result at `(n, j, d)`: a contraction of the first softmax with the first sequence over its rows. -/
theorem refA_apply (n : Fin 16) (j : Fin 2048) (d : Fin 1024) :
    val_main_v42 (F := Ideal) A Am X Xm W1 b1 W2 b2 t (ix3 n j d)
      = Cert.Spec.refA (refScore A Am X Xm W1 b1 W2 b2 t) (rows A) n j d := by
  have el : ∀ k : Fin 2048, lidx_main_v42 (ix3 n j d) k = ix3 n k j := fun k => funext fun a => Fin.ext (by
    match a with | ⟨0, _⟩ => rfl | ⟨1, _⟩ => rfl | ⟨2, _⟩ => rfl)
  have er : ∀ k : Fin 2048, ridx_main_v42 (ix3 n j d) k = ix3 n k d := fun k => funext fun a => Fin.ext (by
    match a with | ⟨0, _⟩ => rfl | ⟨1, _⟩ => rfl | ⟨2, _⟩ => rfl)
  rw [val_main_v42_apply]
  simp only [el, er, colsoft_apply A Am X Xm W1 b1 W2 b2 t _ (score_apply A Am X Xm W1 b1 W2 b2 t)]
  rfl

/-- The second result at `(n, i, d)`: a contraction of the second softmax with the second sequence over its rows. -/
theorem refB_apply (n : Fin 16) (i : Fin 2048) (d : Fin 1024) :
    val_main_v43 (F := Ideal) A Am X Xm W1 b1 W2 b2 t (ix3 n i d)
      = Cert.Spec.refB (refScore A Am X Xm W1 b1 W2 b2 t) (rows X) n i d := by
  have el : ∀ k : Fin 2048, lidx_main_v43 (ix3 n i d) k = ix3 n i k := fun k => funext fun a => Fin.ext (by
    match a with | ⟨0, _⟩ => rfl | ⟨1, _⟩ => rfl | ⟨2, _⟩ => rfl)
  have er : ∀ k : Fin 2048, ridx_main_v43 (ix3 n i d) k = ix3 n k d := fun k => funext fun a => Fin.ext (by
    match a with | ⟨0, _⟩ => rfl | ⟨1, _⟩ => rfl | ⟨2, _⟩ => rfl)
  rw [val_main_v43_apply]
  simp only [el, er, rowsoft_apply A Am X Xm W1 b1 W2 b2 t _ (score_apply A Am X Xm W1 b1 W2 b2 t)]
  rfl

/-- The first result as a whole array. -/
theorem refA_eq : val_main_v42 (F := Ideal) A Am X Xm W1 b1 W2 b2 t = outA A Am X Xm W1 b1 W2 b2 t :=
  funext fun idx => (congrArg (val_main_v42 (F := Ideal) A Am X Xm W1 b1 W2 b2 t) (eq_ix3 idx)).trans
    (refA_apply A Am X Xm W1 b1 W2 b2 t (idx 0) (idx 1) (idx 2))

/-- The second result as a whole array. -/
theorem refB_eq : val_main_v43 (F := Ideal) A Am X Xm W1 b1 W2 b2 t = outB A Am X Xm W1 b1 W2 b2 t :=
  funext fun idx => (congrArg (val_main_v43 (F := Ideal) A Am X Xm W1 b1 W2 b2 t) (eq_ix3 idx)).trans
    (refB_apply A Am X Xm W1 b1 W2 b2 t (idx 0) (idx 1) (idx 2))

/-- The result arrays read at coordinates are the specification's functions, by definition. -/
theorem outA_apply (n : Fin 16) (j : Fin 2048) (d : Fin 1024) :
    outA A Am X Xm W1 b1 W2 b2 t (ix3 n j d) = Cert.Spec.refA (refScore A Am X Xm W1 b1 W2 b2 t) (rows A) n j d := rfl
theorem outB_apply (n : Fin 16) (i : Fin 2048) (d : Fin 1024) :
    outB A Am X Xm W1 b1 W2 b2 t (ix3 n i d) = Cert.Spec.refB (refScore A Am X Xm W1 b1 W2 b2 t) (rows X) n i d := rfl

open Idealize.SL.Sem Idealize.ShloMosaic.TcCoe Idealize.ShloMosaic.StableHlo in
/-- The reference's run in the specification's terms: every weakly fair execution of the program ends with the two
    results at the specification's functions of the arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = outA (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_v43)
          = outB (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c).1.trans ((val_main_v42_eq m c).trans (refA_eq _ _ _ _ _ _ _ _ _)),
       (h c).2.1.trans ((val_main_v43_eq m c).trans (refB_eq _ _ _ _ _ _ _ _ _)),
       (h c).2.2⟩)
    (Cert.ReferenceIdeal.Value.run (F := Ideal) m ρ)

end Cert.RefValue

end
-- ==== Proof.Compose.lean ====
/-
  The pieces chained: the kernel's two results are the reference's.

  The statement names no program. It takes the nine input arrays with the precondition (every entry a real number,
  the temperature positive), every intermediate array of the kernel's computation, and one equation per step saying
  how an array is read off the arrays before it: the transposed, scaled and reshaped weights and biases, the
  flattened inputs, the two rectified projections with the copies of their inputs, the arrays split back into batch
  and row, the transposed masks, and the two attention results as the tiled online recurrence over the kernel's
  scores. Reading the steps back, the projections are the dense layers of the specification (the first with the
  temperature inside), so the two attention results are the softmax-weighted sums the reference computes.
-/
import Mathlib
import Idealize.ShloMosaic.PureOps.Ideal
import Idealize.ShloMosaic.Lib.ValueIdx
import proofs.«111653_j86517821215425_2_alg».proof.Proof.Spec
import proofs.«111653_j86517821215425_2_alg».proof.Proof.Bridge
import proofs.«111653_j86517821215425_2_alg».proof.Proof.PreFacts
import proofs.«111653_j86517821215425_2_alg».proof.Proof.RefValue

noncomputable section

open scoped BigOperators

namespace Cert.Compose

open Idealize.ShloMosaic Idealize.ShloMosaic.ValueIdx Cert.RefProj

/-- Row `2048 n + i` of the flattened arrays. -/
abbrev flat (n : Fin 16) (i : Fin 2048) : Fin 32768 :=
  ⟨2048 * n.val + i.val, by have := n.isLt; have := i.isLt; omega⟩

theorem compose [Cert.Pre_finite_inputs.Facts]
    (a0 : (⟨3, ![16, 2048, 1024]⟩ : Shape).Idx → EReal) (a1 : (⟨3, ![16, 2048, 1]⟩ : Shape).Idx → EReal)
    (a2 : (⟨3, ![16, 2048, 1024]⟩ : Shape).Idx → EReal) (a3 : (⟨3, ![16, 2048, 1]⟩ : Shape).Idx → EReal)
    (a4 : (⟨2, ![512, 1024]⟩ : Shape).Idx → EReal) (a5 : (⟨1, ![512]⟩ : Shape).Idx → EReal)
    (a6 : (⟨2, ![512, 1024]⟩ : Shape).Idx → EReal) (a7 : (⟨1, ![512]⟩ : Shape).Idx → EReal)
    (a8 : (⟨0, ![]⟩ : Shape).Idx → EReal)
    (hpre : Cert.Pre_finite_inputs.fn (F := Ideal) a0 a1 a2 a3 a4 a5 a6 a7 a8 = fun _ => 1#1)
    (v3 v5 : (⟨2, ![1024, 512]⟩ : Shape).Idx → EReal) (v8 v9 : (⟨2, ![1, 512]⟩ : Shape).Idx → EReal)
    (v10 v11 : (⟨2, ![32768, 1024]⟩ : Shape).Idx → EReal)
    (o12_0 o13_0 : (⟨2, ![32768, 512]⟩ : Shape).Idx → EReal) (o12_1 o13_1 : (⟨2, ![32768, 1024]⟩ : Shape).Idx → EReal)
    (v14 v15 : (⟨3, ![16, 2048, 512]⟩ : Shape).Idx → EReal) (v16 v17 : (⟨3, ![16, 2048, 1024]⟩ : Shape).Idx → EReal)
    (v18 v19 : (⟨3, ![16, 1, 2048]⟩ : Shape).Idx → EReal)
    (o20 o21 : (⟨3, ![16, 2048, 1024]⟩ : Shape).Idx → EReal)
    (h3 : ∀ (d : Fin 1024) (h : Fin 512), v3 (ix2 d h) = a4 (ix2 h d) * a8 ix0)
    (h5 : ∀ (d : Fin 1024) (h : Fin 512), v5 (ix2 d h) = a6 (ix2 h d))
    (h8 : ∀ (u : Fin 1) (h : Fin 512), v8 (ix2 u h) = a5 (ix1 h) * a8 ix0)
    (h9 : ∀ (u : Fin 1) (h : Fin 512), v9 (ix2 u h) = a7 (ix1 h))
    (h10 : ∀ (p : Fin 32768) (n : Fin 16) (i : Fin 2048) (d : Fin 1024), p.val = 2048 * n.val + i.val →
      v10 (ix2 p d) = a0 (ix3 n i d))
    (h11 : ∀ (p : Fin 32768) (n : Fin 16) (i : Fin 2048) (d : Fin 1024), p.val = 2048 * n.val + i.val →
      v11 (ix2 p d) = a2 (ix3 n i d))
    (h12_0 : ∀ (p : Fin 32768) (h : Fin 512),
      o12_0 (ix2 p h) = max ((∑ d : Fin 1024, v10 (ix2 p d) * v3 (ix2 d h)) + v8 (ix2 (0 : Fin 1) h)) 0)
    (h12_1 : ∀ (p : Fin 32768) (d : Fin 1024), o12_1 (ix2 p d) = v10 (ix2 p d))
    (h13_0 : ∀ (p : Fin 32768) (h : Fin 512),
      o13_0 (ix2 p h) = max ((∑ d : Fin 1024, v11 (ix2 p d) * v5 (ix2 d h)) + v9 (ix2 (0 : Fin 1) h)) 0)
    (h13_1 : ∀ (p : Fin 32768) (d : Fin 1024), o13_1 (ix2 p d) = v11 (ix2 p d))
    (h14 : ∀ (p : Fin 32768) (n : Fin 16) (i : Fin 2048) (k : Fin 512), p.val = 2048 * n.val + i.val →
      v14 (ix3 n i k) = o12_0 (ix2 p k))
    (h15 : ∀ (p : Fin 32768) (n : Fin 16) (i : Fin 2048) (k : Fin 512), p.val = 2048 * n.val + i.val →
      v15 (ix3 n i k) = o13_0 (ix2 p k))
    (h16 : ∀ (p : Fin 32768) (n : Fin 16) (i : Fin 2048) (k : Fin 1024), p.val = 2048 * n.val + i.val →
      v16 (ix3 n i k) = o12_1 (ix2 p k))
    (h17 : ∀ (p : Fin 32768) (n : Fin 16) (i : Fin 2048) (k : Fin 1024), p.val = 2048 * n.val + i.val →
      v17 (ix3 n i k) = o13_1 (ix2 p k))
    (h18 : ∀ (n : Fin 16) (u : Fin 1) (i : Fin 2048), v18 (ix3 n u i) = a1 (ix3 n i u))
    (h19 : ∀ (n : Fin 16) (u : Fin 1) (i : Fin 2048), v19 (ix3 n u i) = a3 (ix3 n i u))
    (h20 : ∀ (n : Fin 16) (i : Fin 2048) (d : Fin 1024), o20 (ix3 n i d)
      = Cert.Spec.attnK 512 4 (Cert.Spec.scoreK (fun n i h => v14 (ix3 n i h)) (fun n j h => v15 (ix3 n j h))
          (fun n i => a1 (ix3 n i 0)) (fun n j => v19 (ix3 n 0 j))) (fun n j d => v17 (ix3 n j d)) n i d)
    (h21 : ∀ (n : Fin 16) (j : Fin 2048) (d : Fin 1024), o21 (ix3 n j d)
      = Cert.Spec.attnK 512 4 (Cert.Spec.scoreK (fun n j h => v15 (ix3 n j h)) (fun n i h => v14 (ix3 n i h))
          (fun n j => a3 (ix3 n j 0)) (fun n i => v18 (ix3 n 0 i))) (fun n i d => v16 (ix3 n i d)) n j d) :
    o21 = Cert.RefValue.outA a0 a1 a2 a3 a4 a5 a6 a7 a8 ∧ o20 = Cert.RefValue.outB a0 a1 a2 a3 a4 a5 a6 a7 a8 := by
  -- the precondition read back
  obtain ⟨r0, r1, r2, r3, r4, r5, r6, r7, -, τ, hτ, ht⟩ := Cert.PreFacts.decode hpre
  -- the first projection, the temperature inside
  have e14 : (fun (n : Fin 16) (i : Fin 2048) (h : Fin 512) => v14 (ix3 n i h))
      = Cert.Spec.dense (rows a0) (fun h d => mat a4 h d * a8 ix0) (fun h => vec a5 h * a8 ix0) := by
    funext n i h
    rw [h14 (flat n i) n i h rfl, h12_0, h8]
    simp only [h10 (flat n i) n i _ rfl, h3]
    rfl
  -- the second projection
  have e15 : (fun (n : Fin 16) (j : Fin 2048) (h : Fin 512) => v15 (ix3 n j h))
      = Cert.Spec.dense (rows a2) (mat a6) (vec a7) := by
    funext n j h
    rw [h15 (flat n j) n j h rfl, h13_0, h9]
    simp only [h11 (flat n j) n j _ rfl, h5]
    rfl
  -- the value rows are the inputs
  have e16 : (fun (n : Fin 16) (i : Fin 2048) (d : Fin 1024) => v16 (ix3 n i d)) = rows a0 := by
    funext n i d
    rw [h16 (flat n i) n i d rfl, h12_1, h10 (flat n i) n i d rfl]
  have e17 : (fun (n : Fin 16) (j : Fin 2048) (d : Fin 1024) => v17 (ix3 n j d)) = rows a2 := by
    funext n j d
    rw [h17 (flat n j) n j d rfl, h13_1, h11 (flat n j) n j d rfl]
  -- the masks
  have e18 : (fun (n : Fin 16) (i : Fin 2048) => v18 (ix3 n 0 i)) = mask a1 := by
    funext n i; exact h18 n 0 i
  have e19 : (fun (n : Fin 16) (j : Fin 2048) => v19 (ix3 n 0 j)) = mask a3 := by
    funext n j; exact h19 n 0 j
  have hB := Cert.Bridge.attnB_eq (rows a0) (rows a2) (mat a4) (mat a6) (vec a5) (vec a7) (mask a1) (mask a3) (a8 ix0) τ
    (fun n i d => r0 _) (fun n i d => r2 _) (fun h d => r4 _) (fun h d => r6 _) (fun h => r5 _) (fun h => r7 _)
    (fun n i => r1 _) (fun n i => r3 _) ht hτ
  have hA := Cert.Bridge.attnA_eq (rows a0) (rows a2) (mat a4) (mat a6) (vec a5) (vec a7) (mask a1) (mask a3) (a8 ix0) τ
    (fun n i d => r0 _) (fun n i d => r2 _) (fun h d => r4 _) (fun h d => r6 _) (fun h => r5 _) (fun h => r7 _)
    (fun n i => r1 _) (fun n i => r3 _) ht hτ
  constructor
  · funext idx
    have h := h21 (idx 0) (idx 1) (idx 2)
    rw [e14, e15, e16, e18] at h
    exact (congrArg o21 (eq_ix3 idx)).trans (h.trans (congrFun (congrFun (congrFun hA (idx 0)) (idx 1)) (idx 2)))
  · funext idx
    have h := h20 (idx 0) (idx 1) (idx 2)
    rw [e14, e15, e17, e19] at h
    exact (congrArg o20 (eq_ix3 idx)).trans (h.trans (congrFun (congrFun (congrFun hB (idx 0)) (idx 1)) (idx 2)))

end Cert.Compose

end
-- ==== Proof.KI.KernelValue.lean ====
/-
  The idealized kernel's two results are the reference's.

  The run of the whole program ends with the second attention call's output array in the first result and the first
  attention call's in the second. Each is read back through the chain of items: an attention output is the online
  softmax recurrence over four key tiles, divided out, of the scores of its query rows against its key rows and of its
  value rows; queries and keys are the two projection calls' outputs reshaped, dense layers with a rectifier of the
  reshaped inputs — the first with the temperature inside the weights and the bias —; the value rows are the projection
  calls' copies of their inputs; the masks are the mask arguments, one of them transposed. Under the precondition
  (every input a real number, the temperature positive) that is the reference's softmax-weighted sums.
-/
import proofs.«111653_j86517821215425_2_alg».proof.Defs
import proofs.«111653_j86517821215425_2_alg».proof.Proof.KI.Ends
import proofs.«111653_j86517821215425_2_alg».proof.Proof.KI.ProjValue
import proofs.«111653_j86517821215425_2_alg».proof.Proof.KI.Glue
import proofs.«111653_j86517821215425_2_alg».proof.Proof.KI.AttnValue
import proofs.«111653_j86517821215425_2_alg».proof.Proof.KI.AttnValue3
import proofs.«111653_j86517821215425_2_alg».proof.Proof.Compose
import proofs.«111653_j86517821215425_2_alg».proof.Proof.RefValue

set_option maxRecDepth 16384

noncomputable section

namespace Cert.KernelIdeal.KernelValue

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ)

/-- On a core whose argument arrays satisfy the precondition, the two attention calls' output arrays after the run are
    the reference's two results as functions of the argument arrays. -/
theorem results [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    (dat3 (F := Ideal) (V5 m) c).arrAt 5 cfg3.N = Cert.RefValue.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ (dat2 (F := Ideal) (V4 m) c).arrAt 5 cfg2.N = Cert.RefValue.outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine Cert.Compose.compose (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hpre
    (V1 m c main_v3) (V1 m c main_v5) (V1 m c main_v8) (V1 m c main_v9) (V1 m c main_v10) (V1 m c main_v11)
    (W3 m c (Proc.devRef .tc main_v12_0)) (W3 m c (Proc.devRef .tc main_v13_0))
    (W3 m c (Proc.devRef .tc main_v12_1)) (W3 m c (Proc.devRef .tc main_v13_1))
    (V4 m c main_v14) (V4 m c main_v15) (V4 m c main_v16) (V4 m c main_v17) (V4 m c main_v18) (V4 m c main_v19)
    ((dat2 (F := Ideal) (V4 m) c).arrAt 5 cfg2.N) ((dat3 (F := Ideal) (V5 m) c).arrAt 5 cfg3.N)
    ?h3 ?h5 ?h8 ?h9 ?h10 ?h11 ?h12_0 ?h12_1 ?h13_0 ?h13_1 ?h14 ?h15 ?h16 ?h17 ?h18 ?h19 ?h20 ?h21
  case h3 => exact fun d h => Cert.KernelIdeal.Glue.v3_apply (W0 m c) d h
  case h5 => exact fun d h => Cert.KernelIdeal.Glue.v5_apply (W0 m c) d h
  case h8 => exact fun u h => Cert.KernelIdeal.Glue.v8_apply (W0 m c) u h
  case h9 => exact fun u h => Cert.KernelIdeal.Glue.v9_apply (W0 m c) u h
  case h10 => exact fun p n i d hp => Cert.KernelIdeal.Glue.v10_apply (W0 m c) p n i d hp
  case h11 => exact fun p n i d hp => Cert.KernelIdeal.Glue.v11_apply (W0 m c) p n i d hp
  case h12_0 =>
    intro p h
    rw [W3_main_v12_0 m c]
    exact Cert.KernelIdeal.ProjValue.proj0_at (V1 m) c p h
  case h12_1 =>
    intro p d
    rw [W3_main_v12_1 m c]
    exact Cert.KernelIdeal.ProjValue.copy0_at (V1 m) c (ix2 p d)
  case h13_0 =>
    intro p h
    rw [W3_main_v13_0 m c, ← V2_main_v11 m c, ← V2_main_v5 m c, ← V2_main_v9 m c]
    exact Cert.KernelIdeal.ProjValue.proj1_at (V2 m) c p h
  case h13_1 =>
    intro p d
    rw [W3_main_v13_1 m c, ← V2_main_v11 m c]
    exact Cert.KernelIdeal.ProjValue.copy1_at (V2 m) c (ix2 p d)
  case h14 => exact fun p n i k hp => Cert.KernelIdeal.Glue.v14_apply (W3 m c) p n i k hp
  case h15 => exact fun p n i k hp => Cert.KernelIdeal.Glue.v15_apply (W3 m c) p n i k hp
  case h16 => exact fun p n i k hp => Cert.KernelIdeal.Glue.v16_apply (W3 m c) p n i k hp
  case h17 => exact fun p n i k hp => Cert.KernelIdeal.Glue.v17_apply (W3 m c) p n i k hp
  case h18 =>
    intro n u i
    exact (Cert.KernelIdeal.Glue.v18_apply (W3 m c) n u i).trans (congrFun (W3_main_arg1 m c) _)
  case h19 =>
    intro n u i
    exact (Cert.KernelIdeal.Glue.v19_apply (W3 m c) n u i).trans (congrFun (W3_main_arg3 m c) _)
  case h20 =>
    intro n i d
    have e := Cert.KernelIdeal.AttnValue.attn2 (V4 m) c n i d
    rw [show V4 m c main_arg1 = m ((c.tc : Thread nD τ).loc main_arg1) from W4_main_arg1 m c] at e
    exact e
  case h21 =>
    intro n j d
    have e := Cert.KernelIdeal.AttnValue3.attn3 (V5 m) c n j d
    rw [V5_main_v15 m c, V5_main_v14 m c, V5_main_v16 m c, V5_main_arg3 m c, V5_main_v18 m c,
      show V4 m c main_arg3 = m ((c.tc : Thread nD τ).loc main_arg3) from W4_main_arg3 m c] at e
    exact e

/-- The idealized kernel's run, its two results stated as the reference's functions of the argument arrays. -/
theorem run [Cert.Pre_finite_inputs.Facts] (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v21) = Cert.RefValue.outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v20) = Cert.RefValue.outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono
    (fun r h c => ⟨(h c).1.trans (results m c (hpre c)).1, (h c).2.1.trans (results m c (hpre c)).2, (h c).2.2⟩)
    (run_results (F := Ideal) m ρ)

end Cert.KernelIdeal.KernelValue

end
-- ==== Proof.lean ====
/-
  Two projections and two cross attentions against their plain description.

  The kernel projects the two input sequences by dense layers with a rectifier (the first with the temperature
  multiplied into its weights and bias), then runs two attention calls: each scores the rows of one projection against
  the rows of the other, blends the scores with a large negative fill by the product of the two masks, and accumulates
  the softmax-weighted sum of the other sequence's raw rows by the online recurrence over four tiles of 512 key rows
  (running maximum, running normaliser, running weighted sum, divided out at the last tile). The reference computes
  the scores once, scales them by the temperature after the rectifier, and takes the two softmaxes whole.

  Over the extended reals, with every input a real number and the temperature positive, the two agree: a positive
  factor passes through the rectifier and through the inner products; the online recurrence divided out is the
  softmax-weighted sum; tiling regroups finite sums and maxima. The frames of the two kernel programs follow the six
  items of @main (host operations, two projection calls, host operations, two attention calls) with every unscoped
  buffer's contents known between the items; the reference's frame is its run with the results dropped. The
  idealization rewrote nothing, so it is preserved trivially.
-/
import proofs.«111653_j86517821215425_2_alg».proof.Defs
import proofs.«111653_j86517821215425_2_alg».proof.Proof.K.Ends
import proofs.«111653_j86517821215425_2_alg».proof.Proof.KI.KernelValue
import proofs.«111653_j86517821215425_2_alg».proof.Proof.RefValue
import proofs.«111653_j86517821215425_2_alg».proof.Proof.Gen.Kernel
import proofs.«111653_j86517821215425_2_alg».proof.Proof.Gen.KernelIdeal
import proofs.«111653_j86517821215425_2_alg».proof.Proof.Gen.ReferenceIdeal
import proofs.«111653_j86517821215425_2_alg».proof.Proof.Gen.Pre_finite_inputs
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.RefValue.run_spec m ρ)

/-- The ideal pass rewrote no operation. -/
theorem preserves : Cert.preserves_Kernel_KernelIdeal := trivial

/-- Both idealized programs end with the same two arrays: the kernel's results are the reference's functions of its own
    arguments, and the two memories agree on the arguments. -/
theorem algebraic : Cert.algebraic_KernelIdeal_ReferenceIdeal := by
  intro m ρ m' ρ' hpre hagree
  refine ⟨fun c => Cert.RefValue.outA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)),
    fun c => Cert.RefValue.outB (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)), ?_, Cert.RefValue.run_spec m' ρ'⟩
  refine (θ_run Cert.KernelIdeal.defs _ _).mono (fun r h c => ?_) (Cert.KernelIdeal.KernelValue.run m ρ hpre)
  obtain ⟨e0, e1, e2, e3, e4, e5, e6, e7, e8⟩ := hagree c
  beta_reduce
  rw [e0, e1, e2, e3, e4, e5, e6, e7, e8]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
